-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : IVec S8x512x512 32) : IVec S_ 1 :=
  let main_c : IVec S_ 32 := constantI S_ 32 0#32
  let main_v0 : IVec S8x512x512 32 := broadcastInDim S8x512x512 ![] bcast_S_S8x512x512 main_c
  let main_v1 : IVec S8x512x512 1 := cmpi .sge main_arg0 main_v0
  let main_c_0 : IVec S_ 32 := constantI S_ 32 1#32
  let main_v2 : IVec S8x512x512 32 := broadcastInDim S8x512x512 ![] bcast_S_S8x512x512 main_c_0
  let main_v3 : IVec S8x512x512 1 := cmpi .sle main_arg0 main_v2
  let main_v4 : IVec S8x512x512 1 := andi main_v1 main_v3
  let main_c_1 : IVec S_ 1 := constantI S_ 1 1#1
  let main_v5 : IVec S_ 1 := (fun x v => Host.reduce IntOp.andi x v reducesTo_S8x512x512_S_d0_1_2 h_S_) main_v4 main_c_1
  main_v5
-- ==== Kernel.lean ====
abbrev S8x512x512 : Shape := ⟨3, ![8, 512, 512]⟩
abbrev S32x16 : Shape := ⟨2, ![32, 16]⟩
abbrev S4x8x512 : Shape := ⟨3, ![4, 8, 512]⟩
abbrev S16 : Shape := ⟨1, ![16]⟩
abbrev S_ : Shape := ⟨0, ![]⟩
abbrev S1x8x512 : Shape := ⟨3, ![1, 8, 512]⟩
abbrev S8x512 : Shape := ⟨2, ![8, 512]⟩
abbrev S1x16 : Shape := ⟨2, ![1, 16]⟩
abbrev S1x1 : Shape := ⟨2, ![1, 1]⟩
abbrev S1x512x512 : Shape := ⟨3, ![1, 512, 512]⟩
abbrev S1x512 : Shape := ⟨2, ![1, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S2x2 : Shape := ⟨2, ![2, 2]⟩
abbrev S1x32x16 : Shape := ⟨3, ![1, 32, 16]⟩

abbrev nBuf : Table → Nat
  | .hbm => 4
  | .local .tc .vmem => 7
  | .local .scVector .vmem => 2
  | _ => 0

abbrev bufTy : (tb : Table) → Fin (nBuf tb) → BufTy
  | .hbm, ⟨0, _⟩ => ⟨S8x512x512, .i32⟩
  | .hbm, ⟨1, _⟩ => ⟨S32x16, .i32⟩
  | .hbm, ⟨2, _⟩ => ⟨S1x1, .i32⟩
  | .hbm, ⟨3, _⟩ => ⟨S2x2, .i32⟩
  | .local .tc .vmem, ⟨0, _⟩ => ⟨S1x512x512, .i32⟩
  | .local .tc .vmem, ⟨1, _⟩ => ⟨S1x512x512, .i32⟩
  | .local .tc .vmem, ⟨2, _⟩ => ⟨S1x1, .i32⟩
  | .local .tc .vmem, ⟨3, _⟩ => ⟨S1x512, .i32⟩
  | .local .tc .vmem, ⟨4, _⟩ => ⟨S32x16, .i32⟩
  | .local .tc .vmem, ⟨5, _⟩ => ⟨S1x1, .i32⟩
  | .local .tc .vmem, ⟨6, _⟩ => ⟨S2x2, .i32⟩
  | .local .scVector .vmem, ⟨0, _⟩ => ⟨S4x8x512, .i32⟩
  | .local .scVector .vmem, ⟨1, _⟩ => ⟨S16, .i32⟩
  | _, _ => ⟨S8x512x512, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc2_sem0_0 : DmaSem sig := 8
abbrev cc2_sem1_0 : DmaSem sig := 9
abbrev cc2_sem2_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_11 : BitVec 32) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let v19 : BitVec 32 := Scalar.addi c6_i32 v18
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v32 : BitVec 32 := Scalar.addi v30 c0_i32_11
  let c0_i32_15 : BitVec 32 := 0#32
  ![v19.toNat, v32.toNat, 0]
@[reducible] def k0_t1_loop : Scf.Loop 32 :=
  let c0_i32_48 : BitVec 32 := 0#32
  let c8_i32_49 : BitVec 32 := 8#32
  let v76 : BitVec 32 := Scalar.addi c0_i32_48 c8_i32_49
  let c1_i32_50 : BitVec 32 := 1#32
  ⟨c0_i32_48, v76, c1_i32_50⟩
def k0_off2 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v116 : Index := Scalar.indexCast arg10
  let c0_90 : Index := 0#32
  ![v116.toNat, 0]
def k0_off3 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v122 : Index := Scalar.indexCast arg10
  let c16 : Index := 16#32
  ![v122.toNat, 16]
def k0_off4 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v128 : Index := Scalar.indexCast arg10
  let c32 : Index := 32#32
  ![v128.toNat, 32]
def k0_off5 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v134 : Index := Scalar.indexCast arg10
  let c48 : Index := 48#32
  ![v134.toNat, 48]
def k0_off6 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v140 : Index := Scalar.indexCast arg10
  let c64 : Index := 64#32
  ![v140.toNat, 64]
def k0_off7 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v146 : Index := Scalar.indexCast arg10
  let c80 : Index := 80#32
  ![v146.toNat, 80]
def k0_off8 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v152 : Index := Scalar.indexCast arg10
  let c96 : Index := 96#32
  ![v152.toNat, 96]
def k0_off9 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v158 : Index := Scalar.indexCast arg10
  let c112 : Index := 112#32
  ![v158.toNat, 112]
def k0_off10 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v164 : Index := Scalar.indexCast arg10
  let c128 : Index := 128#32
  ![v164.toNat, 128]
def k0_off11 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v170 : Index := Scalar.indexCast arg10
  let c144 : Index := 144#32
  ![v170.toNat, 144]
def k0_off12 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v176 : Index := Scalar.indexCast arg10
  let c160 : Index := 160#32
  ![v176.toNat, 160]
def k0_off13 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v182 : Index := Scalar.indexCast arg10
  let c176 : Index := 176#32
  ![v182.toNat, 176]
def k0_off14 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v188 : Index := Scalar.indexCast arg10
  let c192 : Index := 192#32
  ![v188.toNat, 192]
def k0_off15 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v194 : Index := Scalar.indexCast arg10
  let c208 : Index := 208#32
  ![v194.toNat, 208]
def k0_off16 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v200 : Index := Scalar.indexCast arg10
  let c224 : Index := 224#32
  ![v200.toNat, 224]
def k0_off17 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v206 : Index := Scalar.indexCast arg10
  let c240 : Index := 240#32
  ![v206.toNat, 240]
def k0_off18 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v212 : Index := Scalar.indexCast arg10
  let c256 : Index := 256#32
  ![v212.toNat, 256]
def k0_off19 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v218 : Index := Scalar.indexCast arg10
  let c272 : Index := 272#32
  ![v218.toNat, 272]
def k0_off20 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v224 : Index := Scalar.indexCast arg10
  let c288 : Index := 288#32
  ![v224.toNat, 288]
def k0_off21 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v230 : Index := Scalar.indexCast arg10
  let c304 : Index := 304#32
  ![v230.toNat, 304]
def k0_off22 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v236 : Index := Scalar.indexCast arg10
  let c320 : Index := 320#32
  ![v236.toNat, 320]
def k0_off23 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v242 : Index := Scalar.indexCast arg10
  let c336 : Index := 336#32
  ![v242.toNat, 336]
def k0_off24 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v248 : Index := Scalar.indexCast arg10
  let c352 : Index := 352#32
  ![v248.toNat, 352]
def k0_off25 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v254 : Index := Scalar.indexCast arg10
  let c368 : Index := 368#32
  ![v254.toNat, 368]
def k0_off26 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v260 : Index := Scalar.indexCast arg10
  let c384 : Index := 384#32
  ![v260.toNat, 384]
def k0_off27 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v266 : Index := Scalar.indexCast arg10
  let c400 : Index := 400#32
  ![v266.toNat, 400]
def k0_off28 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v272 : Index := Scalar.indexCast arg10
  let c416 : Index := 416#32
  ![v272.toNat, 416]
def k0_off29 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v278 : Index := Scalar.indexCast arg10
  let c432 : Index := 432#32
  ![v278.toNat, 432]
def k0_off30 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v284 : Index := Scalar.indexCast arg10
  let c448 : Index := 448#32
  ![v284.toNat, 448]
def k0_off31 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v290 : Index := Scalar.indexCast arg10
  let c464 : Index := 464#32
  ![v290.toNat, 464]
def k0_off32 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v296 : Index := Scalar.indexCast arg10
  let c480 : Index := 480#32
  ![v296.toNat, 480]
def k0_off33 (k0_t1 : Fin k0_t1_loop.trips) : Fin 2 → Nat :=
  let c0_i32_48 : BitVec 32 := 0#32
  let c1_i32_50 : BitVec 32 := 1#32
  let arg10 : BitVec 32 := Scf.iv c0_i32_48 c1_i32_50 k0_t1
  let v302 : Index := Scalar.indexCast arg10
  let c496 : Index := 496#32
  ![v302.toNat, 496]
@[reducible] def k0_t2_loop : Scf.Loop 32 :=
  let c0_i32_60 : BitVec 32 := 0#32
  let c8_i32_61 : BitVec 32 := 8#32
  let v86 : BitVec 32 := Scalar.addi c0_i32_60 c8_i32_61
  let c1_i32_62 : BitVec 32 := 1#32
  ⟨c0_i32_60, v86, c1_i32_62⟩
def k0_off34 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v116 : Index := Scalar.indexCast arg10
  let c0_90 : Index := 0#32
  ![v116.toNat, 0]
def k0_off35 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v122 : Index := Scalar.indexCast arg10
  let c16 : Index := 16#32
  ![v122.toNat, 16]
def k0_off36 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v128 : Index := Scalar.indexCast arg10
  let c32 : Index := 32#32
  ![v128.toNat, 32]
def k0_off37 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v134 : Index := Scalar.indexCast arg10
  let c48 : Index := 48#32
  ![v134.toNat, 48]
def k0_off38 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v140 : Index := Scalar.indexCast arg10
  let c64 : Index := 64#32
  ![v140.toNat, 64]
def k0_off39 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v146 : Index := Scalar.indexCast arg10
  let c80 : Index := 80#32
  ![v146.toNat, 80]
def k0_off40 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v152 : Index := Scalar.indexCast arg10
  let c96 : Index := 96#32
  ![v152.toNat, 96]
def k0_off41 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v158 : Index := Scalar.indexCast arg10
  let c112 : Index := 112#32
  ![v158.toNat, 112]
def k0_off42 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v164 : Index := Scalar.indexCast arg10
  let c128 : Index := 128#32
  ![v164.toNat, 128]
def k0_off43 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v170 : Index := Scalar.indexCast arg10
  let c144 : Index := 144#32
  ![v170.toNat, 144]
def k0_off44 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v176 : Index := Scalar.indexCast arg10
  let c160 : Index := 160#32
  ![v176.toNat, 160]
def k0_off45 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v182 : Index := Scalar.indexCast arg10
  let c176 : Index := 176#32
  ![v182.toNat, 176]
def k0_off46 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v188 : Index := Scalar.indexCast arg10
  let c192 : Index := 192#32
  ![v188.toNat, 192]
def k0_off47 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v194 : Index := Scalar.indexCast arg10
  let c208 : Index := 208#32
  ![v194.toNat, 208]
def k0_off48 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v200 : Index := Scalar.indexCast arg10
  let c224 : Index := 224#32
  ![v200.toNat, 224]
def k0_off49 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v206 : Index := Scalar.indexCast arg10
  let c240 : Index := 240#32
  ![v206.toNat, 240]
def k0_off50 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v212 : Index := Scalar.indexCast arg10
  let c256 : Index := 256#32
  ![v212.toNat, 256]
def k0_off51 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v218 : Index := Scalar.indexCast arg10
  let c272 : Index := 272#32
  ![v218.toNat, 272]
def k0_off52 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v224 : Index := Scalar.indexCast arg10
  let c288 : Index := 288#32
  ![v224.toNat, 288]
def k0_off53 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v230 : Index := Scalar.indexCast arg10
  let c304 : Index := 304#32
  ![v230.toNat, 304]
def k0_off54 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v236 : Index := Scalar.indexCast arg10
  let c320 : Index := 320#32
  ![v236.toNat, 320]
def k0_off55 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v242 : Index := Scalar.indexCast arg10
  let c336 : Index := 336#32
  ![v242.toNat, 336]
def k0_off56 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v248 : Index := Scalar.indexCast arg10
  let c352 : Index := 352#32
  ![v248.toNat, 352]
def k0_off57 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v254 : Index := Scalar.indexCast arg10
  let c368 : Index := 368#32
  ![v254.toNat, 368]
def k0_off58 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v260 : Index := Scalar.indexCast arg10
  let c384 : Index := 384#32
  ![v260.toNat, 384]
def k0_off59 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v266 : Index := Scalar.indexCast arg10
  let c400 : Index := 400#32
  ![v266.toNat, 400]
def k0_off60 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v272 : Index := Scalar.indexCast arg10
  let c416 : Index := 416#32
  ![v272.toNat, 416]
def k0_off61 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v278 : Index := Scalar.indexCast arg10
  let c432 : Index := 432#32
  ![v278.toNat, 432]
def k0_off62 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v284 : Index := Scalar.indexCast arg10
  let c448 : Index := 448#32
  ![v284.toNat, 448]
def k0_off63 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v290 : Index := Scalar.indexCast arg10
  let c464 : Index := 464#32
  ![v290.toNat, 464]
def k0_off64 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v296 : Index := Scalar.indexCast arg10
  let c480 : Index := 480#32
  ![v296.toNat, 480]
def k0_off65 (k0_t2 : Fin k0_t2_loop.trips) : Fin 2 → Nat :=
  let c0_i32_60 : BitVec 32 := 0#32
  let c1_i32_62 : BitVec 32 := 1#32
  let arg10 : BitVec 32 := Scf.iv c0_i32_60 c1_i32_62 k0_t2
  let v302 : Index := Scalar.indexCast arg10
  let c496 : Index := 496#32
  ![v302.toNat, 496]
@[reducible] def k0_t3_loop : Scf.Loop 32 :=
  let c0_i32_72 : BitVec 32 := 0#32
  let c8_i32_73 : BitVec 32 := 8#32
  let v96 : BitVec 32 := Scalar.addi c0_i32_72 c8_i32_73
  let c1_i32_74 : BitVec 32 := 1#32
  ⟨c0_i32_72, v96, c1_i32_74⟩
def k0_off66 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v116 : Index := Scalar.indexCast arg10
  let c0_90 : Index := 0#32
  ![v116.toNat, 0]
def k0_off67 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v122 : Index := Scalar.indexCast arg10
  let c16 : Index := 16#32
  ![v122.toNat, 16]
def k0_off68 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v128 : Index := Scalar.indexCast arg10
  let c32 : Index := 32#32
  ![v128.toNat, 32]
def k0_off69 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v134 : Index := Scalar.indexCast arg10
  let c48 : Index := 48#32
  ![v134.toNat, 48]
def k0_off70 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v140 : Index := Scalar.indexCast arg10
  let c64 : Index := 64#32
  ![v140.toNat, 64]
def k0_off71 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v146 : Index := Scalar.indexCast arg10
  let c80 : Index := 80#32
  ![v146.toNat, 80]
def k0_off72 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v152 : Index := Scalar.indexCast arg10
  let c96 : Index := 96#32
  ![v152.toNat, 96]
def k0_off73 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v158 : Index := Scalar.indexCast arg10
  let c112 : Index := 112#32
  ![v158.toNat, 112]
def k0_off74 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v164 : Index := Scalar.indexCast arg10
  let c128 : Index := 128#32
  ![v164.toNat, 128]
def k0_off75 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v170 : Index := Scalar.indexCast arg10
  let c144 : Index := 144#32
  ![v170.toNat, 144]
def k0_off76 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v176 : Index := Scalar.indexCast arg10
  let c160 : Index := 160#32
  ![v176.toNat, 160]
def k0_off77 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v182 : Index := Scalar.indexCast arg10
  let c176 : Index := 176#32
  ![v182.toNat, 176]
def k0_off78 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v188 : Index := Scalar.indexCast arg10
  let c192 : Index := 192#32
  ![v188.toNat, 192]
def k0_off79 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v194 : Index := Scalar.indexCast arg10
  let c208 : Index := 208#32
  ![v194.toNat, 208]
def k0_off80 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v200 : Index := Scalar.indexCast arg10
  let c224 : Index := 224#32
  ![v200.toNat, 224]
def k0_off81 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v206 : Index := Scalar.indexCast arg10
  let c240 : Index := 240#32
  ![v206.toNat, 240]
def k0_off82 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v212 : Index := Scalar.indexCast arg10
  let c256 : Index := 256#32
  ![v212.toNat, 256]
def k0_off83 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v218 : Index := Scalar.indexCast arg10
  let c272 : Index := 272#32
  ![v218.toNat, 272]
def k0_off84 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v224 : Index := Scalar.indexCast arg10
  let c288 : Index := 288#32
  ![v224.toNat, 288]
def k0_off85 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v230 : Index := Scalar.indexCast arg10
  let c304 : Index := 304#32
  ![v230.toNat, 304]
def k0_off86 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v236 : Index := Scalar.indexCast arg10
  let c320 : Index := 320#32
  ![v236.toNat, 320]
def k0_off87 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v242 : Index := Scalar.indexCast arg10
  let c336 : Index := 336#32
  ![v242.toNat, 336]
def k0_off88 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v248 : Index := Scalar.indexCast arg10
  let c352 : Index := 352#32
  ![v248.toNat, 352]
def k0_off89 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v254 : Index := Scalar.indexCast arg10
  let c368 : Index := 368#32
  ![v254.toNat, 368]
def k0_off90 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v260 : Index := Scalar.indexCast arg10
  let c384 : Index := 384#32
  ![v260.toNat, 384]
def k0_off91 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v266 : Index := Scalar.indexCast arg10
  let c400 : Index := 400#32
  ![v266.toNat, 400]
def k0_off92 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v272 : Index := Scalar.indexCast arg10
  let c416 : Index := 416#32
  ![v272.toNat, 416]
def k0_off93 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v278 : Index := Scalar.indexCast arg10
  let c432 : Index := 432#32
  ![v278.toNat, 432]
def k0_off94 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v284 : Index := Scalar.indexCast arg10
  let c448 : Index := 448#32
  ![v284.toNat, 448]
def k0_off95 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v290 : Index := Scalar.indexCast arg10
  let c464 : Index := 464#32
  ![v290.toNat, 464]
def k0_off96 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v296 : Index := Scalar.indexCast arg10
  let c480 : Index := 480#32
  ![v296.toNat, 480]
def k0_off97 (k0_t3 : Fin k0_t3_loop.trips) : Fin 2 → Nat :=
  let c0_i32_72 : BitVec 32 := 0#32
  let c1_i32_74 : BitVec 32 := 1#32
  let arg10 : BitVec 32 := Scf.iv c0_i32_72 c1_i32_74 k0_t3
  let v302 : Index := Scalar.indexCast arg10
  let c496 : Index := 496#32
  ![v302.toNat, 496]
@[reducible] def k0_t4_loop : Scf.Loop 32 :=
  let c0_i32_84 : BitVec 32 := 0#32
  let c8_i32_85 : BitVec 32 := 8#32
  let v106 : BitVec 32 := Scalar.addi c0_i32_84 c8_i32_85
  let c1_i32_86 : BitVec 32 := 1#32
  ⟨c0_i32_84, v106, c1_i32_86⟩
def k0_off98 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v116 : Index := Scalar.indexCast arg10
  let c0_90 : Index := 0#32
  ![v116.toNat, 0]
def k0_off99 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v122 : Index := Scalar.indexCast arg10
  let c16 : Index := 16#32
  ![v122.toNat, 16]
def k0_off100 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v128 : Index := Scalar.indexCast arg10
  let c32 : Index := 32#32
  ![v128.toNat, 32]
def k0_off101 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v134 : Index := Scalar.indexCast arg10
  let c48 : Index := 48#32
  ![v134.toNat, 48]
def k0_off102 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v140 : Index := Scalar.indexCast arg10
  let c64 : Index := 64#32
  ![v140.toNat, 64]
def k0_off103 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v146 : Index := Scalar.indexCast arg10
  let c80 : Index := 80#32
  ![v146.toNat, 80]
def k0_off104 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v152 : Index := Scalar.indexCast arg10
  let c96 : Index := 96#32
  ![v152.toNat, 96]
def k0_off105 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v158 : Index := Scalar.indexCast arg10
  let c112 : Index := 112#32
  ![v158.toNat, 112]
def k0_off106 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v164 : Index := Scalar.indexCast arg10
  let c128 : Index := 128#32
  ![v164.toNat, 128]
def k0_off107 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v170 : Index := Scalar.indexCast arg10
  let c144 : Index := 144#32
  ![v170.toNat, 144]
def k0_off108 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v176 : Index := Scalar.indexCast arg10
  let c160 : Index := 160#32
  ![v176.toNat, 160]
def k0_off109 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v182 : Index := Scalar.indexCast arg10
  let c176 : Index := 176#32
  ![v182.toNat, 176]
def k0_off110 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v188 : Index := Scalar.indexCast arg10
  let c192 : Index := 192#32
  ![v188.toNat, 192]
def k0_off111 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v194 : Index := Scalar.indexCast arg10
  let c208 : Index := 208#32
  ![v194.toNat, 208]
def k0_off112 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v200 : Index := Scalar.indexCast arg10
  let c224 : Index := 224#32
  ![v200.toNat, 224]
def k0_off113 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v206 : Index := Scalar.indexCast arg10
  let c240 : Index := 240#32
  ![v206.toNat, 240]
def k0_off114 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v212 : Index := Scalar.indexCast arg10
  let c256 : Index := 256#32
  ![v212.toNat, 256]
def k0_off115 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v218 : Index := Scalar.indexCast arg10
  let c272 : Index := 272#32
  ![v218.toNat, 272]
def k0_off116 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v224 : Index := Scalar.indexCast arg10
  let c288 : Index := 288#32
  ![v224.toNat, 288]
def k0_off117 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v230 : Index := Scalar.indexCast arg10
  let c304 : Index := 304#32
  ![v230.toNat, 304]
def k0_off118 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v236 : Index := Scalar.indexCast arg10
  let c320 : Index := 320#32
  ![v236.toNat, 320]
def k0_off119 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v242 : Index := Scalar.indexCast arg10
  let c336 : Index := 336#32
  ![v242.toNat, 336]
def k0_off120 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v248 : Index := Scalar.indexCast arg10
  let c352 : Index := 352#32
  ![v248.toNat, 352]
def k0_off121 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v254 : Index := Scalar.indexCast arg10
  let c368 : Index := 368#32
  ![v254.toNat, 368]
def k0_off122 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v260 : Index := Scalar.indexCast arg10
  let c384 : Index := 384#32
  ![v260.toNat, 384]
def k0_off123 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v266 : Index := Scalar.indexCast arg10
  let c400 : Index := 400#32
  ![v266.toNat, 400]
def k0_off124 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v272 : Index := Scalar.indexCast arg10
  let c416 : Index := 416#32
  ![v272.toNat, 416]
def k0_off125 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v278 : Index := Scalar.indexCast arg10
  let c432 : Index := 432#32
  ![v278.toNat, 432]
def k0_off126 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v284 : Index := Scalar.indexCast arg10
  let c448 : Index := 448#32
  ![v284.toNat, 448]
def k0_off127 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v290 : Index := Scalar.indexCast arg10
  let c464 : Index := 464#32
  ![v290.toNat, 464]
def k0_off128 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v296 : Index := Scalar.indexCast arg10
  let c480 : Index := 480#32
  ![v296.toNat, 480]
def k0_off129 (k0_t4 : Fin k0_t4_loop.trips) : Fin 2 → Nat :=
  let c0_i32_84 : BitVec 32 := 0#32
  let c1_i32_86 : BitVec 32 := 1#32
  let arg10 : BitVec 32 := Scf.iv c0_i32_84 c1_i32_86 k0_t4
  let v302 : Index := Scalar.indexCast arg10
  let c496 : Index := 496#32
  ![v302.toNat, 496]
def k0_off130 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_88_r0 : BitVec 32 := 0#32
  ![v1.toNat, 0]
abbrev grid1 : Pipeline.Grid := ⟨1, ![6], ![false]⟩

def k1_cond2 (i : grid1.Coords) : BitVec 1 :=
  let arg0 : BitVec 32 := BitVec.ofNat 32 (i 0).val
  let c5_i32 : BitVec 32 := 5#32
  let v11 : BitVec 1 := Scalar.cmpi .eq arg0 c5_i32
  let v12 : BitVec 32 := Scalar.extui v11
  let c0_i32_7 : BitVec 32 := 0#32
  let v13 : BitVec 1 := Scalar.cmpi .ne v12 c0_i32_7
  v13

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := .none

abbrev stage2_0 : Fin 1 → Memref sig .tc .vmem S32x16 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x2 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S4x8x512_S1x8x512_0_0_0 : ∀ a, (![0, 0, 0] : Fin 3 → Nat) a + S1x8x512.size a ≤ S4x8x512.size a
  squeezes_S1x8x512_S8x512 : S1x8x512.Squeezes S8x512
  inb_S4x8x512_S1x8x512_1_0_0 : ∀ a, (![1, 0, 0] : Fin 3 → Nat) a + S1x8x512.size a ≤ S4x8x512.size a
  inb_S4x8x512_S1x8x512_2_0_0 : ∀ a, (![2, 0, 0] : Fin 3 → Nat) a + S1x8x512.size a ≤ S4x8x512.size a
  inb_S4x8x512_S1x8x512_3_0_0 : ∀ a, (![3, 0, 0] : Fin 3 → Nat) a + S1x8x512.size a ≤ S4x8x512.size a
  h_S1x16 : 0 < S1x16.numel
  shapeCasts_S1x16_S16 : S1x16.ShapeCasts S16
  inb_S16_S16_0 : ∀ a, (![0] : Fin 1 → Nat) a + S16.size a ≤ S16.size a
  h_S16 : 0 < S16.numel
  shapeCasts_S16_S16 : S16.ShapeCasts S16
  squeezes_S1x16_S16 : S1x16.Squeezes S16
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x512x512_S1x512x512_0_0_0 : ∀ a, (![0, 0, 0] : Fin 3 → Nat) a + S1x512x512.size a ≤ S1x512x512.size a
  h_S1x512x512 : 0 < S1x512x512.numel
  reduces_S1x512x512_S512 : S1x512x512.Reduces [0, 1] S512
  shapeCasts_S512_S1x512 : S512.ShapeCasts S1x512
  shapeCasts_S1x512_S1x1x512 : S1x512.ShapeCasts S1x1x512
  reduces_S1x1x512_S1 : S1x1x512.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S32x16_S1x32x16 : S32x16.ShapeCasts S1x32x16
  reduces_S1x32x16_S1 : S1x32x16.Reduces [1, 2] S1
  inpos_S1x1_p0_0 : ∀ a, (![0, 0] : Fin 2 → Nat) a < S1x1.size a
  iota_S2x2_d1_w32 : S2x2.Iotas .tc 32 [1]
  iota_S2x2_d0_w32 : S2x2.Iotas .tc 32 [0]
  inb_S2x2_S2x2_0_0 : ∀ a, (![0, 0] : Fin 2 → Nat) a + S2x2.size a ≤ S2x2.size a
  h_S2x2 : 0 < S2x2.numel
  hcc0_scratch2 : 0 + S_.numel ≤ 11
  hcc0_scratch3 : 1 + S_.numel ≤ 11
  hcc0_scratch4 : 2 + S_.numel ≤ 11
  hcc0_scratch5 : 3 + S_.numel ≤ 11
  hcc0_scoped0 : 4 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (8 * r.val))) a + S1x8x512.size a ≤ S8x512x512.size a
  k0_t1_ok : k0_t1_loop.OK
  k0_off2_inb : ∀ k0_t1 : Fin k0_t1_loop.trips, ∀ a, (k0_off2 k0_t1) a + S1x16.size a ≤ S8x512.size a
  k0_off3_inb : ∀ k0_t1 : Fin k0_t1_loop.trips, ∀ a, (k0_off3 k0_t1) a + S1x16.size a ≤ S8x512.size a
  k0_off4_inb : ∀ k0_t1 : Fin k0_t1_loop.trips, ∀ a, (k0_off4 k0_t1) a + S1x16.size a ≤ S8x512.size a
  k0_off5_inb : ∀ k0_t1 : Fin k0_t1_loop.trips, ∀ a, (k0_off5 k0_t1) a + S1x16.size a ≤ S8x512.size a
  k0_off6_inb : ∀ k0_t1 : Fin k0_t1_loop.trips, ∀ a, (k0_off6 k0_t1) a + S1x16.size a ≤ S8x512.size a
  k0_off7_inb : ∀ k0_t1 : Fin k0_t1_loop.trips, ∀ a, (k0_off7 k0_t1) a + S1x16.size a ≤ S8x512.size a
  k0_off8_inb : ∀ k0_t1 : Fin k0_t1_loop.trips, ∀ a, (k0_off8 k0_t1) a + S1x16.size a ≤ S8x512.size a
  k0_off9_inb : ∀ k0_t1 : Fin k0_t1_loop.trips, ∀ a, (k0_off9 k0_t1) a + S1x16.size a ≤ S8x512.size a
  k0_off10_inb : ∀ k0_t1 : Fin k0_t1_loop.trips, ∀ a, (k0_off10 k0_t1) a + S1x16.size a ≤ S8x512.size a
  k0_off11_inb : ∀ k0_t1 : Fin k0_t1_loop.trips, ∀ a, (k0_off11 k0_t1) a + S1x16.size a ≤ S8x512.size a
  k0_off12_inb : ∀ k0_t1 : Fin k0_t1_loop.trips, ∀ a, (k0_off12 k0_t1) a + S1x16.size a ≤ S8x512.size a
  k0_off13_inb : ∀ k0_t1 : Fin k0_t1_loop.trips, ∀ a, (k0_off13 k0_t1) a + S1x16.size a ≤ S8x512.size a
  k0_off14_inb : ∀ k0_t1 : Fin k0_t1_loop.trips, ∀ a, (k0_off14 k0_t1) a + S1x16.size a ≤ S8x512.size a
  k0_off15_inb : ∀ k0_t1 : Fin k0_t1_loop.trips, ∀ a, (k0_off15 k0_t1) a + S1x16.size a ≤ S8x512.size a
  k0_off16_inb : ∀ k0_t1 : Fin k0_t1_loop.trips, ∀ a, (k0_off16 k0_t1) a + S1x16.size a ≤ S8x512.size a
  k0_off17_inb : ∀ k0_t1 : Fin k0_t1_loop.trips, ∀ a, (k0_off17 k0_t1) a + S1x16.size a ≤ S8x512.size a
  k0_off18_inb : ∀ k0_t1 : Fin k0_t1_loop.trips, ∀ a, (k0_off18 k0_t1) a + S1x16.size a ≤ S8x512.size a
  k0_off19_inb : ∀ k0_t1 : Fin k0_t1_loop.trips, ∀ a, (k0_off19 k0_t1) a + S1x16.size a ≤ S8x512.size a
  k0_off20_inb : ∀ k0_t1 : Fin k0_t1_loop.trips, ∀ a, (k0_off20 k0_t1) a + S1x16.size a ≤ S8x512.size a
  k0_off21_inb : ∀ k0_t1 : Fin k0_t1_loop.trips, ∀ a, (k0_off21 k0_t1) a + S1x16.size a ≤ S8x512.size a
  k0_off22_inb : ∀ k0_t1 : Fin k0_t1_loop.trips, ∀ a, (k0_off22 k0_t1) a + S1x16.size a ≤ S8x512.size a
  k0_off23_inb : ∀ k0_t1 : Fin k0_t1_loop.trips, ∀ a, (k0_off23 k0_t1) a + S1x16.size a ≤ S8x512.size a
  k0_off24_inb : ∀ k0_t1 : Fin k0_t1_loop.trips, ∀ a, (k0_off24 k0_t1) a + S1x16.size a ≤ S8x512.size a
  k0_off25_inb : ∀ k0_t1 : Fin k0_t1_loop.trips, ∀ a, (k0_off25 k0_t1) a + S1x16.size a ≤ S8x512.size a
  k0_off26_inb : ∀ k0_t1 : Fin k0_t1_loop.trips, ∀ a, (k0_off26 k0_t1) a + S1x16.size a ≤ S8x512.size a
  k0_off27_inb : ∀ k0_t1 : Fin k0_t1_loop.trips, ∀ a, (k0_off27 k0_t1) a + S1x16.size a ≤ S8x512.size a
  k0_off28_inb : ∀ k0_t1 : Fin k0_t1_loop.trips, ∀ a, (k0_off28 k0_t1) a + S1x16.size a ≤ S8x512.size a
  k0_off29_inb : ∀ k0_t1 : Fin k0_t1_loop.trips, ∀ a, (k0_off29 k0_t1) a + S1x16.size a ≤ S8x512.size a
  k0_off30_inb : ∀ k0_t1 : Fin k0_t1_loop.trips, ∀ a, (k0_off30 k0_t1) a + S1x16.size a ≤ S8x512.size a
  k0_off31_inb : ∀ k0_t1 : Fin k0_t1_loop.trips, ∀ a, (k0_off31 k0_t1) a + S1x16.size a ≤ S8x512.size a
  k0_off32_inb : ∀ k0_t1 : Fin k0_t1_loop.trips, ∀ a, (k0_off32 k0_t1) a + S1x16.size a ≤ S8x512.size a
  k0_off33_inb : ∀ k0_t1 : Fin k0_t1_loop.trips, ∀ a, (k0_off33 k0_t1) a + S1x16.size a ≤ S8x512.size a
  k0_t2_ok : k0_t2_loop.OK
  k0_off34_inb : ∀ k0_t2 : Fin k0_t2_loop.trips, ∀ a, (k0_off34 k0_t2) a + S1x16.size a ≤ S8x512.size a
  k0_off35_inb : ∀ k0_t2 : Fin k0_t2_loop.trips, ∀ a, (k0_off35 k0_t2) a + S1x16.size a ≤ S8x512.size a
  k0_off36_inb : ∀ k0_t2 : Fin k0_t2_loop.trips, ∀ a, (k0_off36 k0_t2) a + S1x16.size a ≤ S8x512.size a
  k0_off37_inb : ∀ k0_t2 : Fin k0_t2_loop.trips, ∀ a, (k0_off37 k0_t2) a + S1x16.size a ≤ S8x512.size a
  k0_off38_inb : ∀ k0_t2 : Fin k0_t2_loop.trips, ∀ a, (k0_off38 k0_t2) a + S1x16.size a ≤ S8x512.size a
  k0_off39_inb : ∀ k0_t2 : Fin k0_t2_loop.trips, ∀ a, (k0_off39 k0_t2) a + S1x16.size a ≤ S8x512.size a
  k0_off40_inb : ∀ k0_t2 : Fin k0_t2_loop.trips, ∀ a, (k0_off40 k0_t2) a + S1x16.size a ≤ S8x512.size a
  k0_off41_inb : ∀ k0_t2 : Fin k0_t2_loop.trips, ∀ a, (k0_off41 k0_t2) a + S1x16.size a ≤ S8x512.size a
  k0_off42_inb : ∀ k0_t2 : Fin k0_t2_loop.trips, ∀ a, (k0_off42 k0_t2) a + S1x16.size a ≤ S8x512.size a
  k0_off43_inb : ∀ k0_t2 : Fin k0_t2_loop.trips, ∀ a, (k0_off43 k0_t2) a + S1x16.size a ≤ S8x512.size a
  k0_off44_inb : ∀ k0_t2 : Fin k0_t2_loop.trips, ∀ a, (k0_off44 k0_t2) a + S1x16.size a ≤ S8x512.size a
  k0_off45_inb : ∀ k0_t2 : Fin k0_t2_loop.trips, ∀ a, (k0_off45 k0_t2) a + S1x16.size a ≤ S8x512.size a
  k0_off46_inb : ∀ k0_t2 : Fin k0_t2_loop.trips, ∀ a, (k0_off46 k0_t2) a + S1x16.size a ≤ S8x512.size a
  k0_off47_inb : ∀ k0_t2 : Fin k0_t2_loop.trips, ∀ a, (k0_off47 k0_t2) a + S1x16.size a ≤ S8x512.size a
  k0_off48_inb : ∀ k0_t2 : Fin k0_t2_loop.trips, ∀ a, (k0_off48 k0_t2) a + S1x16.size a ≤ S8x512.size a
  k0_off49_inb : ∀ k0_t2 : Fin k0_t2_loop.trips, ∀ a, (k0_off49 k0_t2) a + S1x16.size a ≤ S8x512.size a
  k0_off50_inb : ∀ k0_t2 : Fin k0_t2_loop.trips, ∀ a, (k0_off50 k0_t2) a + S1x16.size a ≤ S8x512.size a
  k0_off51_inb : ∀ k0_t2 : Fin k0_t2_loop.trips, ∀ a, (k0_off51 k0_t2) a + S1x16.size a ≤ S8x512.size a
  k0_off52_inb : ∀ k0_t2 : Fin k0_t2_loop.trips, ∀ a, (k0_off52 k0_t2) a + S1x16.size a ≤ S8x512.size a
  k0_off53_inb : ∀ k0_t2 : Fin k0_t2_loop.trips, ∀ a, (k0_off53 k0_t2) a + S1x16.size a ≤ S8x512.size a
  k0_off54_inb : ∀ k0_t2 : Fin k0_t2_loop.trips, ∀ a, (k0_off54 k0_t2) a + S1x16.size a ≤ S8x512.size a
  k0_off55_inb : ∀ k0_t2 : Fin k0_t2_loop.trips, ∀ a, (k0_off55 k0_t2) a + S1x16.size a ≤ S8x512.size a
  k0_off56_inb : ∀ k0_t2 : Fin k0_t2_loop.trips, ∀ a, (k0_off56 k0_t2) a + S1x16.size a ≤ S8x512.size a
  k0_off57_inb : ∀ k0_t2 : Fin k0_t2_loop.trips, ∀ a, (k0_off57 k0_t2) a + S1x16.size a ≤ S8x512.size a
  k0_off58_inb : ∀ k0_t2 : Fin k0_t2_loop.trips, ∀ a, (k0_off58 k0_t2) a + S1x16.size a ≤ S8x512.size a
  k0_off59_inb : ∀ k0_t2 : Fin k0_t2_loop.trips, ∀ a, (k0_off59 k0_t2) a + S1x16.size a ≤ S8x512.size a
  k0_off60_inb : ∀ k0_t2 : Fin k0_t2_loop.trips, ∀ a, (k0_off60 k0_t2) a + S1x16.size a ≤ S8x512.size a
  k0_off61_inb : ∀ k0_t2 : Fin k0_t2_loop.trips, ∀ a, (k0_off61 k0_t2) a + S1x16.size a ≤ S8x512.size a
  k0_off62_inb : ∀ k0_t2 : Fin k0_t2_loop.trips, ∀ a, (k0_off62 k0_t2) a + S1x16.size a ≤ S8x512.size a
  k0_off63_inb : ∀ k0_t2 : Fin k0_t2_loop.trips, ∀ a, (k0_off63 k0_t2) a + S1x16.size a ≤ S8x512.size a
  k0_off64_inb : ∀ k0_t2 : Fin k0_t2_loop.trips, ∀ a, (k0_off64 k0_t2) a + S1x16.size a ≤ S8x512.size a
  k0_off65_inb : ∀ k0_t2 : Fin k0_t2_loop.trips, ∀ a, (k0_off65 k0_t2) a + S1x16.size a ≤ S8x512.size a
  k0_t3_ok : k0_t3_loop.OK
  k0_off66_inb : ∀ k0_t3 : Fin k0_t3_loop.trips, ∀ a, (k0_off66 k0_t3) a + S1x16.size a ≤ S8x512.size a
  k0_off67_inb : ∀ k0_t3 : Fin k0_t3_loop.trips, ∀ a, (k0_off67 k0_t3) a + S1x16.size a ≤ S8x512.size a
  k0_off68_inb : ∀ k0_t3 : Fin k0_t3_loop.trips, ∀ a, (k0_off68 k0_t3) a + S1x16.size a ≤ S8x512.size a
  k0_off69_inb : ∀ k0_t3 : Fin k0_t3_loop.trips, ∀ a, (k0_off69 k0_t3) a + S1x16.size a ≤ S8x512.size a
  k0_off70_inb : ∀ k0_t3 : Fin k0_t3_loop.trips, ∀ a, (k0_off70 k0_t3) a + S1x16.size a ≤ S8x512.size a
  k0_off71_inb : ∀ k0_t3 : Fin k0_t3_loop.trips, ∀ a, (k0_off71 k0_t3) a + S1x16.size a ≤ S8x512.size a
  k0_off72_inb : ∀ k0_t3 : Fin k0_t3_loop.trips, ∀ a, (k0_off72 k0_t3) a + S1x16.size a ≤ S8x512.size a
  k0_off73_inb : ∀ k0_t3 : Fin k0_t3_loop.trips, ∀ a, (k0_off73 k0_t3) a + S1x16.size a ≤ S8x512.size a
  k0_off74_inb : ∀ k0_t3 : Fin k0_t3_loop.trips, ∀ a, (k0_off74 k0_t3) a + S1x16.size a ≤ S8x512.size a
  k0_off75_inb : ∀ k0_t3 : Fin k0_t3_loop.trips, ∀ a, (k0_off75 k0_t3) a + S1x16.size a ≤ S8x512.size a
  k0_off76_inb : ∀ k0_t3 : Fin k0_t3_loop.trips, ∀ a, (k0_off76 k0_t3) a + S1x16.size a ≤ S8x512.size a
  k0_off77_inb : ∀ k0_t3 : Fin k0_t3_loop.trips, ∀ a, (k0_off77 k0_t3) a + S1x16.size a ≤ S8x512.size a
  k0_off78_inb : ∀ k0_t3 : Fin k0_t3_loop.trips, ∀ a, (k0_off78 k0_t3) a + S1x16.size a ≤ S8x512.size a
  k0_off79_inb : ∀ k0_t3 : Fin k0_t3_loop.trips, ∀ a, (k0_off79 k0_t3) a + S1x16.size a ≤ S8x512.size a
  k0_off80_inb : ∀ k0_t3 : Fin k0_t3_loop.trips, ∀ a, (k0_off80 k0_t3) a + S1x16.size a ≤ S8x512.size a
  k0_off81_inb : ∀ k0_t3 : Fin k0_t3_loop.trips, ∀ a, (k0_off81 k0_t3) a + S1x16.size a ≤ S8x512.size a
  k0_off82_inb : ∀ k0_t3 : Fin k0_t3_loop.trips, ∀ a, (k0_off82 k0_t3) a + S1x16.size a ≤ S8x512.size a
  k0_off83_inb : ∀ k0_t3 : Fin k0_t3_loop.trips, ∀ a, (k0_off83 k0_t3) a + S1x16.size a ≤ S8x512.size a
  k0_off84_inb : ∀ k0_t3 : Fin k0_t3_loop.trips, ∀ a, (k0_off84 k0_t3) a + S1x16.size a ≤ S8x512.size a
  k0_off85_inb : ∀ k0_t3 : Fin k0_t3_loop.trips, ∀ a, (k0_off85 k0_t3) a + S1x16.size a ≤ S8x512.size a
  k0_off86_inb : ∀ k0_t3 : Fin k0_t3_loop.trips, ∀ a, (k0_off86 k0_t3) a + S1x16.size a ≤ S8x512.size a
  k0_off87_inb : ∀ k0_t3 : Fin k0_t3_loop.trips, ∀ a, (k0_off87 k0_t3) a + S1x16.size a ≤ S8x512.size a
  k0_off88_inb : ∀ k0_t3 : Fin k0_t3_loop.trips, ∀ a, (k0_off88 k0_t3) a + S1x16.size a ≤ S8x512.size a
  k0_off89_inb : ∀ k0_t3 : Fin k0_t3_loop.trips, ∀ a, (k0_off89 k0_t3) a + S1x16.size a ≤ S8x512.size a
  k0_off90_inb : ∀ k0_t3 : Fin k0_t3_loop.trips, ∀ a, (k0_off90 k0_t3) a + S1x16.size a ≤ S8x512.size a
  k0_off91_inb : ∀ k0_t3 : Fin k0_t3_loop.trips, ∀ a, (k0_off91 k0_t3) a + S1x16.size a ≤ S8x512.size a
  k0_off92_inb : ∀ k0_t3 : Fin k0_t3_loop.trips, ∀ a, (k0_off92 k0_t3) a + S1x16.size a ≤ S8x512.size a
  k0_off93_inb : ∀ k0_t3 : Fin k0_t3_loop.trips, ∀ a, (k0_off93 k0_t3) a + S1x16.size a ≤ S8x512.size a
  k0_off94_inb : ∀ k0_t3 : Fin k0_t3_loop.trips, ∀ a, (k0_off94 k0_t3) a + S1x16.size a ≤ S8x512.size a
  k0_off95_inb : ∀ k0_t3 : Fin k0_t3_loop.trips, ∀ a, (k0_off95 k0_t3) a + S1x16.size a ≤ S8x512.size a
  k0_off96_inb : ∀ k0_t3 : Fin k0_t3_loop.trips, ∀ a, (k0_off96 k0_t3) a + S1x16.size a ≤ S8x512.size a
  k0_off97_inb : ∀ k0_t3 : Fin k0_t3_loop.trips, ∀ a, (k0_off97 k0_t3) a + S1x16.size a ≤ S8x512.size a
  k0_t4_ok : k0_t4_loop.OK
  k0_off98_inb : ∀ k0_t4 : Fin k0_t4_loop.trips, ∀ a, (k0_off98 k0_t4) a + S1x16.size a ≤ S8x512.size a
  k0_off99_inb : ∀ k0_t4 : Fin k0_t4_loop.trips, ∀ a, (k0_off99 k0_t4) a + S1x16.size a ≤ S8x512.size a
  k0_off100_inb : ∀ k0_t4 : Fin k0_t4_loop.trips, ∀ a, (k0_off100 k0_t4) a + S1x16.size a ≤ S8x512.size a
  k0_off101_inb : ∀ k0_t4 : Fin k0_t4_loop.trips, ∀ a, (k0_off101 k0_t4) a + S1x16.size a ≤ S8x512.size a
  k0_off102_inb : ∀ k0_t4 : Fin k0_t4_loop.trips, ∀ a, (k0_off102 k0_t4) a + S1x16.size a ≤ S8x512.size a
  k0_off103_inb : ∀ k0_t4 : Fin k0_t4_loop.trips, ∀ a, (k0_off103 k0_t4) a + S1x16.size a ≤ S8x512.size a
  k0_off104_inb : ∀ k0_t4 : Fin k0_t4_loop.trips, ∀ a, (k0_off104 k0_t4) a + S1x16.size a ≤ S8x512.size a
  k0_off105_inb : ∀ k0_t4 : Fin k0_t4_loop.trips, ∀ a, (k0_off105 k0_t4) a + S1x16.size a ≤ S8x512.size a
  k0_off106_inb : ∀ k0_t4 : Fin k0_t4_loop.trips, ∀ a, (k0_off106 k0_t4) a + S1x16.size a ≤ S8x512.size a
  k0_off107_inb : ∀ k0_t4 : Fin k0_t4_loop.trips, ∀ a, (k0_off107 k0_t4) a + S1x16.size a ≤ S8x512.size a
  k0_off108_inb : ∀ k0_t4 : Fin k0_t4_loop.trips, ∀ a, (k0_off108 k0_t4) a + S1x16.size a ≤ S8x512.size a
  k0_off109_inb : ∀ k0_t4 : Fin k0_t4_loop.trips, ∀ a, (k0_off109 k0_t4) a + S1x16.size a ≤ S8x512.size a
  k0_off110_inb : ∀ k0_t4 : Fin k0_t4_loop.trips, ∀ a, (k0_off110 k0_t4) a + S1x16.size a ≤ S8x512.size a
  k0_off111_inb : ∀ k0_t4 : Fin k0_t4_loop.trips, ∀ a, (k0_off111 k0_t4) a + S1x16.size a ≤ S8x512.size a
  k0_off112_inb : ∀ k0_t4 : Fin k0_t4_loop.trips, ∀ a, (k0_off112 k0_t4) a + S1x16.size a ≤ S8x512.size a
  k0_off113_inb : ∀ k0_t4 : Fin k0_t4_loop.trips, ∀ a, (k0_off113 k0_t4) a + S1x16.size a ≤ S8x512.size a
  k0_off114_inb : ∀ k0_t4 : Fin k0_t4_loop.trips, ∀ a, (k0_off114 k0_t4) a + S1x16.size a ≤ S8x512.size a
  k0_off115_inb : ∀ k0_t4 : Fin k0_t4_loop.trips, ∀ a, (k0_off115 k0_t4) a + S1x16.size a ≤ S8x512.size a
  k0_off116_inb : ∀ k0_t4 : Fin k0_t4_loop.trips, ∀ a, (k0_off116 k0_t4) a + S1x16.size a ≤ S8x512.size a
  k0_off117_inb : ∀ k0_t4 : Fin k0_t4_loop.trips, ∀ a, (k0_off117 k0_t4) a + S1x16.size a ≤ S8x512.size a
  k0_off118_inb : ∀ k0_t4 : Fin k0_t4_loop.trips, ∀ a, (k0_off118 k0_t4) a + S1x16.size a ≤ S8x512.size a
  k0_off119_inb : ∀ k0_t4 : Fin k0_t4_loop.trips, ∀ a, (k0_off119 k0_t4) a + S1x16.size a ≤ S8x512.size a
  k0_off120_inb : ∀ k0_t4 : Fin k0_t4_loop.trips, ∀ a, (k0_off120 k0_t4) a + S1x16.size a ≤ S8x512.size a
  k0_off121_inb : ∀ k0_t4 : Fin k0_t4_loop.trips, ∀ a, (k0_off121 k0_t4) a + S1x16.size a ≤ S8x512.size a
  k0_off122_inb : ∀ k0_t4 : Fin k0_t4_loop.trips, ∀ a, (k0_off122 k0_t4) a + S1x16.size a ≤ S8x512.size a
  k0_off123_inb : ∀ k0_t4 : Fin k0_t4_loop.trips, ∀ a, (k0_off123 k0_t4) a + S1x16.size a ≤ S8x512.size a
  k0_off124_inb : ∀ k0_t4 : Fin k0_t4_loop.trips, ∀ a, (k0_off124 k0_t4) a + S1x16.size a ≤ S8x512.size a
  k0_off125_inb : ∀ k0_t4 : Fin k0_t4_loop.trips, ∀ a, (k0_off125 k0_t4) a + S1x16.size a ≤ S8x512.size a
  k0_off126_inb : ∀ k0_t4 : Fin k0_t4_loop.trips, ∀ a, (k0_off126 k0_t4) a + S1x16.size a ≤ S8x512.size a
  k0_off127_inb : ∀ k0_t4 : Fin k0_t4_loop.trips, ∀ a, (k0_off127 k0_t4) a + S1x16.size a ≤ S8x512.size a
  k0_off128_inb : ∀ k0_t4 : Fin k0_t4_loop.trips, ∀ a, (k0_off128 k0_t4) a + S1x16.size a ≤ S8x512.size a
  k0_off129_inb : ∀ k0_t4 : Fin k0_t4_loop.trips, ∀ a, (k0_off129 k0_t4) a + S1x16.size a ≤ S8x512.size a
  k0_off130_inb : ∀ i : grid0.Coords, ∀ a, (k0_off130 i) a + S1x16.size a ≤ S32x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x512x512.size a
  hwx1_0 : ∀ i : grid1.Coords, EltTy.bits .i32 = 32 ∨ (Rect.block (s := S8x512x512) S1x512x512.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .i32 = 32 ∨ (Rect.block (s := S1x1) S1x1.size (cc1_transform_1 i) (hinb1_1 i)).WholeWords (EltTy.packing .i32)
  hstage2_0 : ∀ j, (stage2_0 j).IsWhole
  hstage2_1 : ∀ j, (stage2_1 j).IsWhole
  hstage2_2 : ∀ j, (stage2_2 j).IsWhole

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scoped0 : DmaSems sig S_ := SemArray.consecutive 4 S_ hcc0_scoped0

abbrev win1_0 : Pipeline.Window sig grid1 :=
  Pipeline.Window.ofSpec (Memref.whole main_arg0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.whole (Memref.whole main_v0) false false (stage2_0 0) (sem2_0 0) (Memref.isWhole_whole _) (hstage2_0 0)

abbrev win2_1 : Pipeline.Window sig grid2 :=
  Pipeline.Window.whole (Memref.whole main_v1) false false (stage2_1 0) (sem2_1 0) (Memref.isWhole_whole _) (hstage2_1 0)

abbrev win2_2 : Pipeline.Window sig grid2 :=
  Pipeline.Window.whole (Memref.whole main_v2) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x512x512 : Shape := ⟨3, ![8, 512, 512]⟩
abbrev S8x512x512x1 : Shape := ⟨4, ![8, 512, 512, 1]⟩
abbrev S1x1x1x2 : Shape := ⟨4, ![1, 1, 1, 2]⟩
abbrev S8x512x512x2 : Shape := ⟨4, ![8, 512, 512, 2]⟩
abbrev S8x2x512x512 : Shape := ⟨4, ![8, 2, 512, 512]⟩
abbrev S_ : Shape := ⟨0, ![]⟩
abbrev S2 : Shape := ⟨1, ![2]⟩
abbrev S1x2 : Shape := ⟨2, ![1, 2]⟩
abbrev S2x2 : Shape := ⟨2, ![2, 2]⟩

abbrev nBuf : Space → Nat
  | .hbm => 21
  | .vmem => 0
  | .smem => 0
  | _ => 0

abbrev bufTy : (tb : Table) → Fin (tcTables nBuf tb) → BufTy
  | .hbm, ⟨0, _⟩ => ⟨S8x512x512, .i32⟩
  | .hbm, ⟨1, _⟩ => ⟨S8x512x512x1, .i32⟩
  | .hbm, ⟨2, _⟩ => ⟨S1x1x1x2, .i32⟩
  | .hbm, ⟨3, _⟩ => ⟨S8x512x512x2, .i32⟩
  | .hbm, ⟨4, _⟩ => ⟨S8x512x512x2, .i32⟩
  | .hbm, ⟨5, _⟩ => ⟨S8x512x512x2, .i1⟩
  | .hbm, ⟨6, _⟩ => ⟨S8x512x512x2, .f32⟩
  | .hbm, ⟨7, _⟩ => ⟨S8x2x512x512, .f32⟩
  | .hbm, ⟨8, _⟩ => ⟨S_, .f32⟩
  | .hbm, ⟨9, _⟩ => ⟨S2, .f32⟩
  | .hbm, ⟨10, _⟩ => ⟨S_, .f32⟩
  | .hbm, ⟨11, _⟩ => ⟨S2, .f32⟩
  | .hbm, ⟨12, _⟩ => ⟨S2, .f32⟩
  | .hbm, ⟨13, _⟩ => ⟨S2, .i32⟩
  | .hbm, ⟨14, _⟩ => ⟨S_, .f32⟩
  | .hbm, ⟨15, _⟩ => ⟨S2, .f32⟩
  | .hbm, ⟨16, _⟩ => ⟨S2, .f32⟩
  | .hbm, ⟨17, _⟩ => ⟨S2, .i32⟩
  | .hbm, ⟨18, _⟩ => ⟨S1x2, .i32⟩
  | .hbm, ⟨19, _⟩ => ⟨S1x2, .i32⟩
  | .hbm, ⟨20, _⟩ => ⟨S2x2, .i32⟩
  | _, _ => ⟨S8x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S8x512x512_S8x512x512x1_0_1_2 : S8x512x512.BroadcastsInDim S8x512x512x1 (![0, 1, 2] : Fin 3 → Fin S8x512x512x1.rank)
  bcast_S8x512x512x1_S8x512x512x2_0_1_2_3 : S8x512x512x1.BroadcastsInDim S8x512x512x2 (![0, 1, 2, 3] : Fin 4 → Fin S8x512x512x2.rank)
  bcast_S1x1x1x2_S8x512x512x2_0_1_2_3 : S1x1x1x2.BroadcastsInDim S8x512x512x2 (![0, 1, 2, 3] : Fin 4 → Fin S8x512x512x2.rank)
  transposes_S8x512x512x2_S8x2x512x512_0_3_1_2 : S8x512x512x2.Transposes [0, 3, 1, 2] S8x2x512x512
  reducesTo_S8x2x512x512_S2_d0_3_2 : S8x2x512x512.ReducesTo [0, 3, 2] S2
  h_S_ : 0 < S_.numel
  bcast_S_S2 : S_.BroadcastsInDim S2 (![] : Fin 0 → Fin S2.rank)
  bcast_S2_S1x2_1 : S2.BroadcastsInDim S1x2 (![1] : Fin 1 → Fin S1x2.rank)
  concatenates_S1x2_S1x2_S2x2_d0 : Shape.Concatenates [S1x2, S1x2] S2x2 0

variable [Facts₀]

class Facts : Prop extends Facts₀ where

variable [Facts]
-- ==== Proof.Spec.lean ====
/-
  The values the kernel's three stages compute, as functions of the label array `x : i32[8, 512, 512]`.

  * `scOut x` — one row of sixteen lane sums per worker `w < 32`: worker `w` owns rows
    `(w % 16) * 32 … + 31` of batch `6 + w / 16`; lane `l` of its row is the sum, over those 32 rows and the
    32 column groups `u`, of `x[b, row, 16 u + l]`. The sums are in `BitVec 32` (addition modulo 2^32, a
    commutative monoid: the order of the kernel's additions does not matter).
  * `tcOut x` — the sum of every entry of batches `0 … 5`.
  * together the two cover every entry of `x` exactly once.
-/
import Idealize.ShloMosaic.PureOps
import Idealize.ShloMosaic.Lib.ValueIdx
import Mathlib.Data.BitVec

noncomputable section

namespace Cert.Proof.Spec

open Idealize.ShloMosaic Idealize.ShloMosaic.ValueIdx

abbrev SX : Shape := ⟨3, ![8, 512, 512]⟩
abbrev SP : Shape := ⟨2, ![32, 16]⟩
abbrev S11 : Shape := ⟨2, ![1, 1]⟩

/-- Worker `w`'s batch. -/
def wB (w : Fin 32) : Fin 8 := ⟨6 + w.val / 16, by omega⟩
/-- Worker `w`'s `r`-th row inside its batch. -/
def wRow (w : Fin 32) (r : Fin 32) : Fin 512 := ⟨(w.val % 16) * 32 + r.val, by omega⟩
/-- Lane `l` of column group `u`. -/
def col (u : Fin 32) (l : Fin 16) : Fin 512 := ⟨16 * u.val + l.val, by omega⟩

/-- Lane `l` of worker `w`: the sum over the worker's 32 rows and the 32 column groups. -/
def laneSum (x : IVec SX 32) (w : Fin 32) (l : Fin 16) : BitVec 32 :=
  ∑ r : Fin 32, ∑ u : Fin 32, x (ix3 (wB w) (wRow w r) (col u l))

/-- The SparseCore stage's result: row `w` holds worker `w`'s sixteen lane sums. -/
def scOut (x : IVec SX 32) : IVec SP 32 := fun j => laneSum x ⟨(j 0).val, (j 0).isLt⟩ ⟨(j 1).val, (j 1).isLt⟩

/-- The sum of every entry of batches `0 … 5`. -/
def headSum (x : IVec SX 32) : BitVec 32 :=
  ∑ b : Fin 6, ∑ r : Fin 512, ∑ c : Fin 512, x (ix3 (Fin.castLE (by omega) b) r c)

/-- The TensorCore stage's result. -/
def tcOut (x : IVec SX 32) : IVec S11 32 := fun _ => headSum x

end Cert.Proof.Spec

end
-- ==== Proof.Common.lean ====
/-
  What every module of this certificate shares about the idealized kernel's program: the program as the
  SparseCore launch theorem sees it, the resource algebra of the proof's ghost state — the launch handshakes'
  rounds, the two TensorCore pipelines' staging cells' rounds, and the counters of the vector subcores' own
  transfers —, and the arrays' locations.
-/
import proofs.«209222_g37675453120884_cont_8to1_b_1946_16_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«209222_g37675453120884_cont_8to1_b_1946_16_alg».proof.Proof.Gen.KernelIdeal
import proofs.«209222_g37675453120884_cont_8to1_b_1946_16_alg».proof.Proof.Gen.KernelIdeal.Launch
import proofs.«209222_g37675453120884_cont_8to1_b_1946_16_alg».proof.Proof.Gen.KernelIdeal.Points
import proofs.«209222_g37675453120884_cont_8to1_b_1946_16_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore pipelines' staging cells' rounds. -/
abbrev UP : Type := URounds (GSem nD τ sig) Unit
/-- Handshakes, pipelines, and the counters of the vector subcores' own transfers (found by instance). -/
abbrev UU : Type := UH × (UP × Counters)

abbrev 𝕄F (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## The arrays -/

/-- The label array `x` (the argument), the SparseCore stage's result, the TensorCore sum's result, the final
    result, as locations of device `d`. -/
abbrev xLoc (d : Dev nD) : Loc nD τ sig := (SparseCore.T d).loc main_arg0
abbrev pLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

end Cert.Proof.KI

end
-- ==== Proof.ScData.lean ====
/-
  What one vector subcore's task is handed and hands back. Worker `w = 2 s + c` (subcore `s` of SparseCore `c`)
  reads the label array through a read share of its own and owns row `w` of the 32 × 16 array of partial sums;
  it leaves that row at the worker's sixteen lane sums.
-/
import proofs.«209222_g37675453120884_cont_8to1_b_1946_16_alg».proof.Proof.Common

noncomputable section

namespace Cert.Proof.KI

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nCore_zero : (K (F := F)).nCore 0 = 2 := rfl
theorem nSub_zero : (K (F := F)).nSub 0 = 16 := rfl

theorem hdivP : 32 ∣ S32x16.size 0 := ⟨1, rfl⟩
/-- Row `w` of the partial sums. -/
abbrev prow (w : Fin 32) : Rect S32x16 := Rect.part (s := S32x16) (a₀ := 0) hdivP w
abbrev prowSet (w : Fin 32) : Finset S32x16.Idx := ((Memref.whole main_v0_scv : Memref sig .scVector .hbm S32x16 .i32).view.slice (prow w)).set
/-- Worker `w`'s read share of the label array: one of 32 tokens split off the full share. -/
abbrev qx (w : Fin 32) : PosShare TreeShare := Transfers.shareTok fullShare 32 w

/-- The worker of subcore `s` of SparseCore `c`. -/
def widCS (c : Fin 2) (s : Fin 16) : Fin 32 := ⟨2 * s.val + c.val, by omega⟩

variable (m : (ℓ : Loc nD τ sig) → Buf (Elt F) ℓ)

/-- The label array as the launch memory holds it on device `d`. -/
abbrev xOf (d : Dev nD) : IVec SX 32 := m (xLoc d)

/-- What worker `w` is handed: its read share of the labels, its row of the partial sums at the launch contents. -/
def tileIn (d : Dev nD) (w : Fin 32) : sProp 𝕄 :=
  iprop((xLoc d ↦{qx w} m (xLoc d)) ∗ (pLoc d ↦[prowSet w]{fullShare} m (pLoc d)))
/-- What it hands back: the share, and its row at the lane sums. -/
def tileOut (d : Dev nD) (w : Fin 32) : sProp 𝕄 :=
  iprop((xLoc d ↦{qx w} m (xLoc d)) ∗ (pLoc d ↦[prowSet w]{fullShare} (scOut (xOf m d) : Buf (Elt F) (pLoc d))))

instance tileIn_storable (d : Dev nD) (w : Fin 32) : BI.Storable (upEmb : UEmb _ 𝕄) (tileIn m d w) := by unfold tileIn; infer_instance
instance tileOut_storable (d : Dev nD) (w : Fin 32) : BI.Storable (upEmb : UEmb _ 𝕄) (tileOut m d w) := by unfold tileOut; infer_instance

end Cert.Proof.KI

end
-- ==== Proof.ValueCount.lean ====
/-
  Counting the labels. The label array `x : i32[8, 512, 512]` holds only the words 0 and 1 (`Binary x`).
  Then, in the commutative ring `BitVec 32` (addition modulo 2^32):

  * the sum of every entry of `x` is the number of entries equal to 1 (`sum_all`): each entry is its own
    indicator, and a sum of indicators is the cardinality of the set they indicate;
  * the entries equal to 0 and the entries equal to 1 together are all `8 * 512 * 512 = 2097152` entries
    (`zeros_add_ones`);
  * with no hypothesis on `x`, the sum of every entry splits as the sum over batches 0 … 5 plus the sum of all
    thirty-two workers' sixteen lane sums (`sum_split`): the workers' (worker, row-in-tile, column-group, lane)
    coordinates enumerate batches 6 and 7 exactly once, by `batch = 6 + w / 16`, `row = (w % 16) * 32 + r`,
    `column = 16 u + l`, that is, by the mixed-radix bijections `Fin 32 ≃ Fin 2 × Fin 16`,
    `Fin 512 ≃ Fin 16 × Fin 32` and `Fin 512 ≃ Fin 32 × Fin 16`.
-/
import proofs.«209222_g37675453120884_cont_8to1_b_1946_16_alg».proof.Proof.Spec
import Mathlib.Algebra.BigOperators.Fin
import Mathlib.Algebra.BigOperators.Ring.Finset
import Mathlib.Logic.Equiv.Fin.Basic

noncomputable section

open scoped BigOperators

namespace Cert.Proof.Value

open Idealize.ShloMosaic Idealize.ShloMosaic.ValueIdx Cert.Proof.Spec

/-- Every label is the word 0 or the word 1. -/
def Binary (x : IVec SX 32) : Prop := ∀ i, x i = 0#32 ∨ x i = 1#32

/-- How many labels are 1. -/
def ones (x : IVec SX 32) : ℕ := (Finset.univ.filter fun i : SX.Idx => x i = 1#32).card
/-- How many labels are 0. -/
def zeros (x : IVec SX 32) : ℕ := (Finset.univ.filter fun i : SX.Idx => x i = 0#32).card
/-- How many labels are of class `c` (class 0, or else class 1). -/
def cnt (x : IVec SX 32) (c : ℕ) : ℕ := if c = 0 then zeros x else ones x

/-! ## Sums over a rank-3 index set and over mixed-radix coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over `m * n` positions is the double sum over the two digits of the position in base `n`. -/
theorem sum_fin_mul {M : Type*} [AddCommMonoid M] (m n : ℕ) (f : Fin (m * n) → M) :
    ∑ k, f k = ∑ a : Fin m, ∑ b : Fin n, f (finProdFinEquiv (a, b)) := by
  rw [← Equiv.sum_comp finProdFinEquiv f, Fintype.sum_prod_type]

/-- The 512 columns are 32 groups of 16 lanes. -/
theorem sum_cols {M : Type*} [AddCommMonoid M] (f : Fin 512 → M) :
    ∑ c, f c = ∑ u : Fin 32, ∑ l : Fin 16, f (col u l) := by
  refine (sum_fin_mul 32 16 f).trans ?_
  refine Finset.sum_congr rfl fun u _ => Finset.sum_congr rfl fun l _ => congrArg f (Fin.ext ?_)
  show l.val + 16 * u.val = 16 * u.val + l.val
  omega

/-- The 512 rows are 16 tiles of 32 rows. -/
theorem sum_rows {M : Type*} [AddCommMonoid M] (f : Fin 512 → M) :
    ∑ c, f c = ∑ t : Fin 16, ∑ r : Fin 32, f ⟨t.val * 32 + r.val, by omega⟩ := by
  refine (sum_fin_mul 16 32 f).trans ?_
  refine Finset.sum_congr rfl fun t _ => Finset.sum_congr rfl fun r _ => congrArg f (Fin.ext ?_)
  show r.val + 32 * t.val = t.val * 32 + r.val
  omega

/-- The 32 workers are 2 batches of 16 tiles. -/
theorem sum_workers {M : Type*} [AddCommMonoid M] (f : Fin 32 → M) :
    ∑ w, f w = ∑ q : Fin 2, ∑ t : Fin 16, f ⟨16 * q.val + t.val, by omega⟩ := by
  refine (sum_fin_mul 2 16 f).trans ?_
  refine Finset.sum_congr rfl fun q _ => Finset.sum_congr rfl fun t _ => congrArg f (Fin.ext ?_)
  show t.val + 16 * q.val = 16 * q.val + t.val
  omega

/-! ## The kernel's two partial sums cover the array once -/

/-- The sum of one batch. -/
def batchSum (x : IVec SX 32) (b : Fin 8) : BitVec 32 := ∑ r : Fin 512, ∑ c : Fin 512, x (ix3 b r c)

/-- The thirty-two workers' lane sums add up to batches 6 and 7. -/
theorem sum_lanes (x : IVec SX 32) :
    ∑ w : Fin 32, ∑ l : Fin 16, laneSum x w l = ∑ q : Fin 2, batchSum x ⟨6 + q.val, by omega⟩ := by
  rw [sum_workers]
  refine Finset.sum_congr rfl fun q _ => ?_
  unfold batchSum
  rw [sum_rows]
  refine Finset.sum_congr rfl fun t _ => ?_
  unfold laneSum
  rw [Finset.sum_comm]
  refine Finset.sum_congr rfl fun r _ => ?_
  rw [Finset.sum_comm, sum_cols]
  refine Finset.sum_congr rfl fun u _ => Finset.sum_congr rfl fun l _ => ?_
  congr 1
  funext a
  match a with
  | ⟨0, _⟩ => exact Fin.ext (by show 6 + (16 * q.val + t.val) / 16 = 6 + q.val; omega)
  | ⟨1, _⟩ => exact Fin.ext (by show (16 * q.val + t.val) % 16 * 32 + r.val = t.val * 32 + r.val; omega)
  | ⟨2, _⟩ => rfl

/-- Every entry of `x` is in batches 0 … 5 or in exactly one worker's lane sum. -/
theorem sum_split (x : IVec SX 32) :
    ∑ i : SX.Idx, x i = headSum x + ∑ w : Fin 32, ∑ l : Fin 16, laneSum x w l := by
  rw [sum_idx3, sum_lanes]
  show ∑ b : Fin 8, batchSum x b = _
  rw [show (∑ b : Fin 8, batchSum x b) = ∑ b : Fin (6 + 2), batchSum x b from rfl, Fin.sum_univ_add]
  congr 1

/-! ## A sum of zeros and ones counts the ones -/

/-- The array has `8 * 512 * 512` entries. -/
theorem card_idx : Fintype.card SX.Idx = 2097152 := (Shape.card_idx SX).trans (by decide)

/-- Every label is 0 or 1, and not both. -/
theorem zeros_add_ones (x : IVec SX 32) (hx : Binary x) : zeros x + ones x = 2097152 := by
  unfold zeros ones
  rw [show (Finset.univ.filter fun i : SX.Idx => x i = 1#32) = Finset.univ.filter fun i : SX.Idx => ¬ x i = 0#32 from
    Finset.filter_congr fun i _ => by rcases hx i with h | h <;> simp [h]]
  rw [Finset.card_filter_add_card_filter_not, Finset.card_univ, card_idx]

theorem ones_le (x : IVec SX 32) (hx : Binary x) : ones x ≤ 2097152 := by have := zeros_add_ones x hx; omega
theorem zeros_le (x : IVec SX 32) (hx : Binary x) : zeros x ≤ 2097152 := by have := zeros_add_ones x hx; omega

/-- The sum of the labels, modulo 2^32, is the number of ones. -/
theorem sum_all (x : IVec SX 32) (hx : Binary x) : ∑ i : SX.Idx, x i = BitVec.ofNat 32 (ones x) := by
  have h : ∀ i, x i = if x i = 1#32 then (1 : BitVec 32) else 0 := fun i => by
    rcases hx i with h | h <;> simp [h]
  rw [Finset.sum_congr rfl fun i _ => h i, Finset.sum_boole]
  rfl

/-- So the kernel's two partial sums add up to the number of ones. -/
theorem parts_eq_ones (x : IVec SX 32) (hx : Binary x) :
    (∑ w : Fin 32, ∑ l : Fin 16, laneSum x w l) + headSum x = BitVec.ofNat 32 (ones x) := by
  rw [add_comm, ← sum_split, sum_all x hx]

end Cert.Proof.Value

end
-- ==== Proof.ValueAcc.lean ====
/-
  The vector subcore's accumulators. Worker `w` walks its 32 rows; in each row it reads the 32 column groups of 16
  lanes in order and adds group `u` into accumulator `u % 4`. After `n` rows accumulator `q` therefore holds, at
  lane `l`, the sum over the first `n` rows and the eight groups `u = 4 u' + q` of `x[b, row, 16 u + l]`
  (`accLane`). It starts at zero, one more row adds that row's eight groups, and after all 32 rows the four
  accumulators add up — in any bracketing, `BitVec 32` being a commutative ring — to the worker's lane sum: the
  residues `q < 4` and the quotients `u' < 8` enumerate the 32 groups once (`Fin 32 ≃ Fin 8 × Fin 4`).
-/
import proofs.«209222_g37675453120884_cont_8to1_b_1946_16_alg».proof.Proof.Gen.KernelIdeal.Skeleton
import proofs.«209222_g37675453120884_cont_8to1_b_1946_16_alg».proof.Proof.ValueCount
import Idealize.ShloMosaic.Lib.Pipeline.Value

noncomputable section

open scoped BigOperators

namespace Cert.Proof.Value

open Idealize.ShloMosaic Idealize.ShloMosaic.ValueIdx Cert.Proof.Spec
open Cert.KernelIdeal Cert.KernelIdeal.Gen

/-- Lane `l` of accumulator `q` of worker `w` after its first `n` rows. -/
def accLane (x : IVec SX 32) (w : Fin 32) (q : Fin 4) (n : ℕ) (l : Fin 16) : BitVec 32 :=
  ∑ r : Fin 32, if r.val < n then
    ∑ u' : Fin 8, x (ix3 (wB w) (wRow w r) (col ⟨4 * u'.val + q.val, by omega⟩ l)) else 0

/-- Accumulator `q` of worker `w` after its first `n` rows, as a vector of sixteen lanes. -/
def accVec (x : IVec SX 32) (w : Fin 32) (q : Fin 4) (n : ℕ) : IVec S16 32 :=
  fun j => accLane x w q n ⟨(j 0).val, (j 0).isLt⟩

/-- A sum over the rows below `n + 1` is the sum over the rows below `n` plus row `n`'s term. -/
theorem sum_lt_succ {M : Type*} [AddCommMonoid M] (g : Fin 32 → M) (n : ℕ) (hn : n < 32) :
    (∑ r : Fin 32, if r.val < n + 1 then g r else 0) = (∑ r : Fin 32, if r.val < n then g r else 0) + g ⟨n, hn⟩ := by
  have h : ∀ r : Fin 32, (if r.val < n + 1 then g r else 0)
      = (if r.val < n then g r else 0) + (if r = ⟨n, hn⟩ then g r else 0) := by
    intro r
    by_cases h1 : r.val < n
    · have h2 : r ≠ ⟨n, hn⟩ := fun e => by rw [e] at h1; exact lt_irrefl _ h1
      rw [if_pos h1, if_pos (Nat.lt_succ_of_lt h1), if_neg h2, add_zero]
    · by_cases h2 : r = ⟨n, hn⟩
      · subst h2
        rw [if_neg h1, if_pos (Nat.lt_succ_self _), if_pos rfl, zero_add]
      · have h3 : ¬ r.val < n + 1 := fun h => h2 (Fin.ext (by show r.val = n; omega))
        rw [if_neg h1, if_neg h3, if_neg h2, add_zero]
  rw [Finset.sum_congr rfl fun r _ => h r, Finset.sum_add_distrib, Finset.sum_ite_eq' Finset.univ ⟨n, hn⟩ g,
    if_pos (Finset.mem_univ _)]

/-- The 32 column groups are 8 quotients times 4 residues. -/
theorem sum_groups {M : Type*} [AddCommMonoid M] (f : Fin 32 → M) :
    ∑ u, f u = ∑ u' : Fin 8, ∑ q : Fin 4, f ⟨4 * u'.val + q.val, by omega⟩ := by
  refine (sum_fin_mul 8 4 f).trans ?_
  refine Finset.sum_congr rfl fun u' _ => Finset.sum_congr rfl fun q _ => congrArg f (Fin.ext ?_)
  show q.val + 4 * u'.val = 4 * u'.val + q.val
  omega

/-- Before the first row every accumulator is the zero vector. -/
theorem accVec_zero (x : IVec SX 32) (w : Fin 32) (q : Fin 4) : accVec x w q 0 = k0_pay69 := by
  funext j
  show accLane x w q 0 _ = 0#32
  unfold accLane
  exact Finset.sum_eq_zero fun r _ => if_neg (Nat.not_lt_zero _)

/-- One more row adds that row's eight groups of residue `q`. -/
theorem accVec_succ (x : IVec SX 32) (w : Fin 32) (q : Fin 4) (n : ℕ) (hn : n < 32) :
    accVec x w q (n + 1) = fun j => accVec x w q n j
      + ∑ u' : Fin 8, x (ix3 (wB w) (wRow w ⟨n, hn⟩) (col ⟨4 * u'.val + q.val, by omega⟩ ⟨(j 0).val, (j 0).isLt⟩)) := by
  funext j
  exact sum_lt_succ (fun r => ∑ u' : Fin 8,
    x (ix3 (wB w) (wRow w r) (col ⟨4 * u'.val + q.val, by omega⟩ ⟨(j 0).val, (j 0).isLt⟩))) n hn

/-- After all 32 rows the condition on the row is vacuous. -/
theorem accLane_full (x : IVec SX 32) (w : Fin 32) (q : Fin 4) (l : Fin 16) :
    accLane x w q 32 l = ∑ r : Fin 32, ∑ u' : Fin 8, x (ix3 (wB w) (wRow w r) (col ⟨4 * u'.val + q.val, by omega⟩ l)) :=
  Finset.sum_congr rfl fun r _ => if_pos r.isLt

/-- The four full accumulators add up to the worker's lane sums: what the subcore stores. -/
theorem acc_total (x : IVec SX 32) (w : Fin 32) :
    k0_pay86 (accVec x w 0 32) (accVec x w 1 32) (accVec x w 2 32) (accVec x w 3 32)
      = fun j => laneSum x w ⟨(j 0).val, (j 0).isLt⟩ := by
  funext j
  show shapeCast S16 (addi (addi (accVec x w 0 32) (accVec x w 1 32)) (addi (accVec x w 2 32) (accVec x w 3 32)))
    shapeCasts_S16_S16 j = _
  rw [shapeCast_self]
  show (accLane x w 0 32 _ + accLane x w 1 32 _) + (accLane x w 2 32 _ + accLane x w 3 32 _) = _
  rw [accLane_full, accLane_full, accLane_full, accLane_full]
  unfold laneSum
  rw [Finset.sum_congr rfl fun r _ => sum_groups _]
  simp only [Fin.sum_univ_four, Finset.sum_add_distrib]
  abel

end Cert.Proof.Value

end
-- ==== Proof.ValueTrip.lean ====
/-
  One trip of the vector subcore's row loop, as arithmetic. A trip reads the row's 32 column groups (load number
  `i` is the sixteen lanes of group `i`) and threads four accumulators through thirty-two additions: group `i` goes
  into accumulator `i % 4`. Written out as the stored values compose them, the trip's four results are the four
  accumulators each plus the eight groups of its residue (`tripYield1_eq`): addition in `BitVec 32` is associative
  and commutative, and the cast of a `1 × 16` row to sixteen lanes reads lane `l` at `(0, l)`. The four chunk loops
  have the same text, so their trips are the same function (`tripYield2_eq_one` …). When the loads are row `n` of the
  worker's tile and the accumulators hold the first `n` rows, the results hold the first `n + 1` rows (`trip_step1` …).
-/
import proofs.«209222_g37675453120884_cont_8to1_b_1946_16_alg».proof.Proof.ValueAcc
import Idealize.ShloMosaic.Lib.ValueLayout

noncomputable section

open scoped BigOperators

namespace Cert.Proof.Value

open Idealize.ShloMosaic Idealize.ShloMosaic.ValueIdx Cert.Proof.Spec
open Cert.KernelIdeal Cert.KernelIdeal.Gen

variable {F : FTy → Type} [FloatOps F]

/-- Accumulator `a` plus the eight loaded groups of residue `q`. -/
def tripSpec (ld : Fin 32 → Vec F S1x16 .i32) (a : IVec S16 32) (q : Fin 4) : IVec S16 32 :=
  fun j => a j + ∑ u' : Fin 8,
    (ld ⟨4 * u'.val + q.val, by omega⟩ (ix2 (0 : Fin 1) (⟨(j 0).val, (j 0).isLt⟩ : Fin 16)) : BitVec 32)

/-- A loaded `1 × 16` row, cast to sixteen lanes, reads lane `l` at `(0, l)`. -/
theorem lane_apply (v : IVec S1x16 32) (j : S16.Idx) :
    shapeCast S16 v shapeCasts_S1x16_S16 j = v (ix2 (0 : Fin 1) (⟨(j 0).val, (j 0).isLt⟩ : Fin 16)) := by
  obtain ⟨l, rfl⟩ : ∃ l : Fin 16, j = ix1 l := ⟨j 0, eq_ix1 j⟩
  exact shapeCast_1a_a_apply v shapeCasts_S1x16_S16 l

/-- The four results of one trip of the first chunk's loop, over its thirty-two loads and four accumulators, as the
    stored values compose them. -/
def tripYield1 (ld : Fin 32 → Vec F S1x16 .i32) (a0 a1 a2 a3 : IVec S16 32) :
    IVec S16 32 × IVec S16 32 × IVec S16 32 × IVec S16 32 :=
  (k0_pay70 (k0_pay16 (k0_pay10 (k0_pay8 (k0_pay3 a0 (ld 0) (ld 4)) (ld 8) (ld 12)) (ld 16)) (ld 20) (ld 24)) (ld 28),
   k0_pay71 (k0_pay17 (k0_pay11 (k0_pay5 (k0_pay4 a1 (ld 1) (ld 5)) (ld 9)) (ld 13) (ld 17)) (ld 21) (ld 25)) (ld 29),
   k0_pay72 (k0_pay14 (k0_pay12 (k0_pay6 (k0_pay1 a2 (ld 2)) (ld 6) (ld 10)) (ld 14) (ld 18)) (ld 22)) (ld 26) (ld 30),
   k0_pay73 (k0_pay15 (k0_pay9 (k0_pay7 (k0_pay2 a3 (ld 3)) (ld 7) (ld 11)) (ld 15)) (k0_pay13 (ld 19)) (ld 23)) (ld 27) (ld 31))

/-- The four results of one trip of the second chunk's loop, over its thirty-two loads and four accumulators, as the
    stored values compose them. -/
def tripYield2 (ld : Fin 32 → Vec F S1x16 .i32) (a0 a1 a2 a3 : IVec S16 32) :
    IVec S16 32 × IVec S16 32 × IVec S16 32 × IVec S16 32 :=
  (k0_pay74 (k0_pay33 (k0_pay27 (k0_pay25 (k0_pay20 a0 (ld 0) (ld 4)) (ld 8) (ld 12)) (ld 16)) (ld 20) (ld 24)) (ld 28),
   k0_pay75 (k0_pay34 (k0_pay28 (k0_pay22 (k0_pay21 a1 (ld 1) (ld 5)) (ld 9)) (ld 13) (ld 17)) (ld 21) (ld 25)) (ld 29),
   k0_pay76 (k0_pay31 (k0_pay29 (k0_pay23 (k0_pay18 a2 (ld 2)) (ld 6) (ld 10)) (ld 14) (ld 18)) (ld 22)) (ld 26) (ld 30),
   k0_pay77 (k0_pay32 (k0_pay26 (k0_pay24 (k0_pay19 a3 (ld 3)) (ld 7) (ld 11)) (ld 15)) (k0_pay30 (ld 19)) (ld 23)) (ld 27) (ld 31))

/-- The four results of one trip of the third chunk's loop, over its thirty-two loads and four accumulators, as the
    stored values compose them. -/
def tripYield3 (ld : Fin 32 → Vec F S1x16 .i32) (a0 a1 a2 a3 : IVec S16 32) :
    IVec S16 32 × IVec S16 32 × IVec S16 32 × IVec S16 32 :=
  (k0_pay78 (k0_pay50 (k0_pay44 (k0_pay42 (k0_pay37 a0 (ld 0) (ld 4)) (ld 8) (ld 12)) (ld 16)) (ld 20) (ld 24)) (ld 28),
   k0_pay79 (k0_pay51 (k0_pay45 (k0_pay39 (k0_pay38 a1 (ld 1) (ld 5)) (ld 9)) (ld 13) (ld 17)) (ld 21) (ld 25)) (ld 29),
   k0_pay80 (k0_pay48 (k0_pay46 (k0_pay40 (k0_pay35 a2 (ld 2)) (ld 6) (ld 10)) (ld 14) (ld 18)) (ld 22)) (ld 26) (ld 30),
   k0_pay81 (k0_pay49 (k0_pay43 (k0_pay41 (k0_pay36 a3 (ld 3)) (ld 7) (ld 11)) (ld 15)) (k0_pay47 (ld 19)) (ld 23)) (ld 27) (ld 31))

/-- The four results of one trip of the fourth chunk's loop, over its thirty-two loads and four accumulators, as the
    stored values compose them. -/
def tripYield4 (ld : Fin 32 → Vec F S1x16 .i32) (a0 a1 a2 a3 : IVec S16 32) :
    IVec S16 32 × IVec S16 32 × IVec S16 32 × IVec S16 32 :=
  (k0_pay82 (k0_pay67 (k0_pay61 (k0_pay59 (k0_pay54 a0 (ld 0) (ld 4)) (ld 8) (ld 12)) (ld 16)) (ld 20) (ld 24)) (ld 28),
   k0_pay83 (k0_pay68 (k0_pay62 (k0_pay56 (k0_pay55 a1 (ld 1) (ld 5)) (ld 9)) (ld 13) (ld 17)) (ld 21) (ld 25)) (ld 29),
   k0_pay84 (k0_pay65 (k0_pay63 (k0_pay57 (k0_pay52 a2 (ld 2)) (ld 6) (ld 10)) (ld 14) (ld 18)) (ld 22)) (ld 26) (ld 30),
   k0_pay85 (k0_pay66 (k0_pay60 (k0_pay58 (k0_pay53 a3 (ld 3)) (ld 7) (ld 11)) (ld 15)) (k0_pay64 (ld 19)) (ld 23)) (ld 27) (ld 31))

/-- The eight groups of each residue, written out. -/
theorem tripSpec_res0 (ld : Fin 32 → Vec F S1x16 .i32) (a : IVec S16 32) (j : S16.Idx) (L : Fin 32 → BitVec 32)
    (hL : L = fun i => ld i (ix2 (0 : Fin 1) (⟨(j 0).val, (j 0).isLt⟩ : Fin 16))) :
    tripSpec ld a 0 j = a j + (L 0 + L 4 + L 8 + L 12 + L 16 + L 20 + L 24 + L 28) := by
  subst hL
  unfold tripSpec
  rw [Fin.sum_univ_eight]
  rfl
theorem tripSpec_res1 (ld : Fin 32 → Vec F S1x16 .i32) (a : IVec S16 32) (j : S16.Idx) (L : Fin 32 → BitVec 32)
    (hL : L = fun i => ld i (ix2 (0 : Fin 1) (⟨(j 0).val, (j 0).isLt⟩ : Fin 16))) :
    tripSpec ld a 1 j = a j + (L 1 + L 5 + L 9 + L 13 + L 17 + L 21 + L 25 + L 29) := by
  subst hL
  unfold tripSpec
  rw [Fin.sum_univ_eight]
  rfl
theorem tripSpec_res2 (ld : Fin 32 → Vec F S1x16 .i32) (a : IVec S16 32) (j : S16.Idx) (L : Fin 32 → BitVec 32)
    (hL : L = fun i => ld i (ix2 (0 : Fin 1) (⟨(j 0).val, (j 0).isLt⟩ : Fin 16))) :
    tripSpec ld a 2 j = a j + (L 2 + L 6 + L 10 + L 14 + L 18 + L 22 + L 26 + L 30) := by
  subst hL
  unfold tripSpec
  rw [Fin.sum_univ_eight]
  rfl
theorem tripSpec_res3 (ld : Fin 32 → Vec F S1x16 .i32) (a : IVec S16 32) (j : S16.Idx) (L : Fin 32 → BitVec 32)
    (hL : L = fun i => ld i (ix2 (0 : Fin 1) (⟨(j 0).val, (j 0).isLt⟩ : Fin 16))) :
    tripSpec ld a 3 j = a j + (L 3 + L 7 + L 11 + L 15 + L 19 + L 23 + L 27 + L 31) := by
  subst hL
  unfold tripSpec
  rw [Fin.sum_univ_eight]
  rfl

/-- A trip adds to each accumulator the eight groups of its residue. -/
theorem tripYield1_eq (ld : Fin 32 → Vec F S1x16 .i32) (a0 a1 a2 a3 : IVec S16 32) :
    tripYield1 ld a0 a1 a2 a3 = (tripSpec ld a0 0, tripSpec ld a1 1, tripSpec ld a2 2, tripSpec ld a3 3) := by
  unfold tripYield1
  refine congrArg₂ Prod.mk ?_ (congrArg₂ Prod.mk ?_ (congrArg₂ Prod.mk ?_ ?_))
  · funext j
    rw [tripSpec_res0 ld a0 j _ rfl]
    simp only [k0_pay70, k0_pay16, k0_pay10, k0_pay8, k0_pay3, addi, IntOp.addi, lane_apply]
    abel
  · funext j
    rw [tripSpec_res1 ld a1 j _ rfl]
    simp only [k0_pay71, k0_pay17, k0_pay11, k0_pay5, k0_pay4, addi, IntOp.addi, lane_apply]
    abel
  · funext j
    rw [tripSpec_res2 ld a2 j _ rfl]
    simp only [k0_pay72, k0_pay14, k0_pay12, k0_pay6, k0_pay1, addi, IntOp.addi, lane_apply]
    abel
  · funext j
    rw [tripSpec_res3 ld a3 j _ rfl]
    simp only [k0_pay73, k0_pay15, k0_pay13, k0_pay9, k0_pay7, k0_pay2, addi, IntOp.addi, lane_apply]
    abel

/-- The four chunk loops have one text: their trips are one function. -/
theorem tripYield2_eq_one (ld : Fin 32 → Vec F S1x16 .i32) (a0 a1 a2 a3 : IVec S16 32) :
    tripYield2 ld a0 a1 a2 a3 = tripYield1 ld a0 a1 a2 a3 := rfl
theorem tripYield3_eq_one (ld : Fin 32 → Vec F S1x16 .i32) (a0 a1 a2 a3 : IVec S16 32) :
    tripYield3 ld a0 a1 a2 a3 = tripYield1 ld a0 a1 a2 a3 := rfl
theorem tripYield4_eq_one (ld : Fin 32 → Vec F S1x16 .i32) (a0 a1 a2 a3 : IVec S16 32) :
    tripYield4 ld a0 a1 a2 a3 = tripYield1 ld a0 a1 a2 a3 := rfl

theorem tripYield2_eq (ld : Fin 32 → Vec F S1x16 .i32) (a0 a1 a2 a3 : IVec S16 32) :
    tripYield2 ld a0 a1 a2 a3 = (tripSpec ld a0 0, tripSpec ld a1 1, tripSpec ld a2 2, tripSpec ld a3 3) :=
  (tripYield2_eq_one ld a0 a1 a2 a3).trans (tripYield1_eq ld a0 a1 a2 a3)
theorem tripYield3_eq (ld : Fin 32 → Vec F S1x16 .i32) (a0 a1 a2 a3 : IVec S16 32) :
    tripYield3 ld a0 a1 a2 a3 = (tripSpec ld a0 0, tripSpec ld a1 1, tripSpec ld a2 2, tripSpec ld a3 3) :=
  (tripYield3_eq_one ld a0 a1 a2 a3).trans (tripYield1_eq ld a0 a1 a2 a3)
theorem tripYield4_eq (ld : Fin 32 → Vec F S1x16 .i32) (a0 a1 a2 a3 : IVec S16 32) :
    tripYield4 ld a0 a1 a2 a3 = (tripSpec ld a0 0, tripSpec ld a1 1, tripSpec ld a2 2, tripSpec ld a3 3) :=
  (tripYield4_eq_one ld a0 a1 a2 a3).trans (tripYield1_eq ld a0 a1 a2 a3)

/-- If the loads are row `n` of worker `w`'s tile, the accumulator of the first `n` rows plus the eight groups of
    residue `q` is the accumulator of the first `n + 1` rows. -/
theorem tripSpec_acc (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l)))
    (q : Fin 4) : tripSpec ld (accVec x w q n) q = accVec x w q (n + 1) := by
  rw [accVec_succ x w q n hn]
  funext j
  unfold tripSpec
  exact congrArg (accVec x w q n j + ·) (Finset.sum_congr rfl fun u' _ => hld _ _)

/-- One trip of the first chunk's loop on row `n` takes the accumulators of `n` rows to those of `n + 1` rows. -/
theorem trip_step1 (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l))) :
    tripYield1 ld (accVec x w 0 n) (accVec x w 1 n) (accVec x w 2 n) (accVec x w 3 n)
      = (accVec x w 0 (n + 1), accVec x w 1 (n + 1), accVec x w 2 (n + 1), accVec x w 3 (n + 1)) := by
  rw [tripYield1_eq, tripSpec_acc x w n hn ld hld, tripSpec_acc x w n hn ld hld, tripSpec_acc x w n hn ld hld,
    tripSpec_acc x w n hn ld hld]

/-- One trip of the second chunk's loop on row `n` takes the accumulators of `n` rows to those of `n + 1` rows. -/
theorem trip_step2 (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l))) :
    tripYield2 ld (accVec x w 0 n) (accVec x w 1 n) (accVec x w 2 n) (accVec x w 3 n)
      = (accVec x w 0 (n + 1), accVec x w 1 (n + 1), accVec x w 2 (n + 1), accVec x w 3 (n + 1)) := by
  rw [tripYield2_eq, tripSpec_acc x w n hn ld hld, tripSpec_acc x w n hn ld hld, tripSpec_acc x w n hn ld hld,
    tripSpec_acc x w n hn ld hld]

/-- One trip of the third chunk's loop on row `n` takes the accumulators of `n` rows to those of `n + 1` rows. -/
theorem trip_step3 (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l))) :
    tripYield3 ld (accVec x w 0 n) (accVec x w 1 n) (accVec x w 2 n) (accVec x w 3 n)
      = (accVec x w 0 (n + 1), accVec x w 1 (n + 1), accVec x w 2 (n + 1), accVec x w 3 (n + 1)) := by
  rw [tripYield3_eq, tripSpec_acc x w n hn ld hld, tripSpec_acc x w n hn ld hld, tripSpec_acc x w n hn ld hld,
    tripSpec_acc x w n hn ld hld]

/-- One trip of the fourth chunk's loop on row `n` takes the accumulators of `n` rows to those of `n + 1` rows. -/
theorem trip_step4 (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l))) :
    tripYield4 ld (accVec x w 0 n) (accVec x w 1 n) (accVec x w 2 n) (accVec x w 3 n)
      = (accVec x w 0 (n + 1), accVec x w 1 (n + 1), accVec x w 2 (n + 1), accVec x w 3 (n + 1)) := by
  rw [tripYield4_eq, tripSpec_acc x w n hn ld hld, tripSpec_acc x w n hn ld hld, tripSpec_acc x w n hn ld hld,
    tripSpec_acc x w n hn ld hld]

end Cert.Proof.Value

end
-- ==== Proof.ValueView.lean ====
/-
  Where the vector subcore's views sit. Worker `w = 2 s + c` copies four chunks of eight rows of its tile — rows
  `(w % 16) * 32 + 8 j + k` of batch `6 + w / 16` — into the four `8 × 512` slots of its scratch, reads each slot's
  row `k` sixteen lanes at a time, and stores into row `w` of the `32 × 16` array of partial sums. A view's
  placement composes its slices' offsets and its squeezes' row-major re-indexings; here each composite is read at an
  index given by coordinates, and a load through a slot that holds a chunk reads the label array there.
-/
import proofs.«209222_g37675453120884_cont_8to1_b_1946_16_alg».proof.Proof.ScData
import proofs.«209222_g37675453120884_cont_8to1_b_1946_16_alg».proof.Proof.Gen.KernelIdeal
import proofs.«209222_g37675453120884_cont_8to1_b_1946_16_alg».proof.Proof.ValueTrip
import Idealize.ShloMosaic.Lib.ValueLayout
import Idealize.ShloMosaic.Lib.Exec.Geometry

noncomputable section

namespace Cert.Proof.Value

open Idealize.ShloMosaic Idealize.ShloMosaic.ValueIdx Cert.Proof.Spec
open Cert.KernelIdeal Cert.KernelIdeal.Gen
open Cert.Proof.KI (widCS)

local notation "xW" => (Memref.whole Cert.KernelIdeal.main_arg0_scv : Memref Cert.KernelIdeal.sig Kind.scVector Space.hbm Cert.KernelIdeal.S8x512x512 EltTy.i32)
local notation "pW" => (Memref.whole Cert.KernelIdeal.main_v0_scv : Memref Cert.KernelIdeal.sig Kind.scVector Space.hbm Cert.KernelIdeal.S32x16 EltTy.i32)
local notation "bW" => (Memref.whole Cert.KernelIdeal.cc0_scratch0 : Memref Cert.KernelIdeal.sig Kind.scVector Space.vmem Cert.KernelIdeal.S4x8x512 EltTy.i32)

/-- The four `8 × 512` slots of the scratch. -/
abbrev bChunk0 : Memref sig .scVector .vmem S8x512 .i32 := ((bW).slice (Rect.unit (s := S4x8x512) ![0, 0, 0] S1x8x512.size inb_S4x8x512_S1x8x512_0_0_0) (fun _ => rfl)).squeeze S8x512 squeezes_S1x8x512_S8x512
abbrev bChunk1 : Memref sig .scVector .vmem S8x512 .i32 := ((bW).slice (Rect.unit (s := S4x8x512) ![1, 0, 0] S1x8x512.size inb_S4x8x512_S1x8x512_1_0_0) (fun _ => rfl)).squeeze S8x512 squeezes_S1x8x512_S8x512
abbrev bChunk2 : Memref sig .scVector .vmem S8x512 .i32 := ((bW).slice (Rect.unit (s := S4x8x512) ![2, 0, 0] S1x8x512.size inb_S4x8x512_S1x8x512_2_0_0) (fun _ => rfl)).squeeze S8x512 squeezes_S1x8x512_S8x512
abbrev bChunk3 : Memref sig .scVector .vmem S8x512 .i32 := ((bW).slice (Rect.unit (s := S4x8x512) ![3, 0, 0] S1x8x512.size inb_S4x8x512_S1x8x512_3_0_0) (fun _ => rfl)).squeeze S8x512 squeezes_S1x8x512_S8x512

/-- Chunk `j` of the worker's tile of the label array: eight rows. -/
abbrev xChunk (L : grid0.Coords) (j : Fin 4) : Memref sig .scVector .hbm S8x512 .i32 := ((xW).slice (Rect.unit (s := S8x512x512) (k0_off1 L (BitVec.ofNat 32 (8 * j.val))) S1x8x512.size (k0_off1_inb L j)) (fun _ => rfl)).squeeze S8x512 squeezes_S1x8x512_S8x512

/-- The worker's row of the partial sums. -/
abbrev pRowK (L : grid0.Coords) : Memref sig .scVector .hbm S16 .i32 := ((pW).slice (Rect.unit (s := S32x16) (k0_off130 L) S1x16.size (k0_off130_inb L)) (fun _ => rfl)).squeeze S16 squeezes_S1x16_S16

/-- The worker at grid coordinates `L` (SparseCore `L 0`, subcore `L 1`). -/
def widL (L : grid0.Coords) : Fin 32 := widCS ⟨(L 0).val, (L 0).isLt⟩ ⟨(L 1).val, (L 1).isLt⟩

/-- The chunk's offsets in closed form: batch `6 + w / 16`, first row `(w % 16) * 32 + 8 j`, column 0. -/
theorem k0_off1_eq : ∀ (L : grid0.Coords) (j : Fin 4), k0_off1 L (BitVec.ofNat 32 (8 * j.val))
    = ![6 + (2 * (L 1).val + (L 0).val) / 16, (2 * (L 1).val + (L 0).val) % 16 * 32 + 8 * j.val, 0] := by decide +kernel

/-- Element `(k, c)` of chunk `j` is the label at row `8 j + k` of the worker's tile, column `c`. -/
theorem xChunk_emb (L : grid0.Coords) (j : Fin 4) (k : Fin 8) (c : Fin 512) :
    (xChunk L j).view.emb (ix2 k c) = ix3 (wB (widL L)) (wRow (widL L) ⟨8 * j.val + k.val, by omega⟩) c := by
  have hoff := k0_off1_eq L j
  show (Rect.unit (s := S8x512x512) (k0_off1 L (BitVec.ofNat 32 (8 * j.val))) S1x8x512.size (k0_off1_inb L j)).emb
      (Shape.reshapeEquiv squeezes_S1x8x512_S8x512.numel_eq (ix2 k c)) = _
  rw [reshapeEquiv_ix2_1ab]
  funext a
  refine Fin.ext ?_
  rw [Rect.emb_apply]
  match a with
  | ⟨0, h0⟩ =>
    have ha : k0_off1 L (BitVec.ofNat 32 (8 * j.val)) ⟨0, h0⟩ = 6 + (2 * (L 1).val + (L 0).val) / 16 := congrFun hoff ⟨0, h0⟩
    show k0_off1 L (BitVec.ofNat 32 (8 * j.val)) ⟨0, h0⟩ + 1 * 0 = 6 + (2 * (L 1).val + (L 0).val) / 16
    omega
  | ⟨1, h1⟩ =>
    have ha : k0_off1 L (BitVec.ofNat 32 (8 * j.val)) ⟨1, h1⟩ = (2 * (L 1).val + (L 0).val) % 16 * 32 + 8 * j.val :=
      congrFun hoff ⟨1, h1⟩
    show k0_off1 L (BitVec.ofNat 32 (8 * j.val)) ⟨1, h1⟩ + 1 * k.val
      = (2 * (L 1).val + (L 0).val) % 16 * 32 + (8 * j.val + k.val)
    omega
  | ⟨2, h2⟩ =>
    have ha : k0_off1 L (BitVec.ofNat 32 (8 * j.val)) ⟨2, h2⟩ = 0 := congrFun hoff ⟨2, h2⟩
    show k0_off1 L (BitVec.ofNat 32 (8 * j.val)) ⟨2, h2⟩ + 1 * c.val = c.val
    omega

/-- Lane `l` of the worker's row of the partial sums is entry `(w, l)`. -/
theorem pRowK_emb (L : grid0.Coords) (l : Fin 16) : (pRowK L).view.emb (ix1 l) = ix2 (widL L) l := by
  have hoff := k0_off130_eq L
  have hre : Shape.reshapeEquiv squeezes_S1x16_S16.numel_eq (ix1 l) = ix2 (⟨0, Nat.one_pos⟩ : Fin 1) l :=
    Shape.reshapeEquiv_eq_of_rowMajor _ (by
      rw [Shape.rowMajor_val_two, Shape.rowMajor_val_one]
      show 0 * 16 + l.val = l.val
      omega)
  show (Rect.unit (s := S32x16) (k0_off130 L) S1x16.size (k0_off130_inb L)).emb
      (Shape.reshapeEquiv squeezes_S1x16_S16.numel_eq (ix1 l)) = _
  rw [hre]
  funext a
  refine Fin.ext ?_
  rw [Rect.emb_apply]
  match a with
  | ⟨0, h0⟩ =>
    have ha : k0_off130 L ⟨0, h0⟩ = 2 * (L 1).val + (L 0).val := congrFun hoff ⟨0, h0⟩
    show k0_off130 L ⟨0, h0⟩ + 1 * 0 = 2 * (L 1).val + (L 0).val
    omega
  | ⟨1, h1⟩ =>
    have ha : k0_off130 L ⟨1, h1⟩ = 0 := congrFun hoff ⟨1, h1⟩
    show k0_off130 L ⟨1, h1⟩ + 1 * l.val = l.val
    omega

/-- A `1 × 16` load box at offsets `(kk, cc)` of an `8 × 512` array reads, at `(0, l)`, the element `(kk, cc + l)`. -/
theorem unit_idx (kk cc : ℕ) (off : Fin 2 → ℕ) (hoff : off = ![kk, cc]) (h : ∀ a, off a + S1x16.size a ≤ S8x512.size a)
    (y : S1x16.Idx) :
    (Rect.unit (s := S8x512) off S1x16.size h).toLoadRect.idx y
      = ix2 (⟨kk, by have := h 0; subst hoff; exact Nat.lt_of_lt_of_le (Nat.lt_succ_self _) this⟩ : Fin 8)
          (⟨cc + (y 1).val, by have := h 1; have := (y 1).isLt; subst hoff; exact Nat.lt_of_lt_of_le (Nat.add_lt_add_left (y 1).isLt _) (h 1)⟩ : Fin 512) := by
  subst hoff
  have h0 : (y 0).val = 0 := by have := (y 0).isLt; exact Nat.lt_one_iff.mp this
  funext a
  refine Fin.ext ?_
  rw [LoadRect.idx_apply]
  match a with
  | ⟨0, _⟩ => show kk + 1 * (y 0).val = kk; omega
  | ⟨1, _⟩ => show cc + 1 * (y 1).val = cc + (y 1).val; omega

/-! ## A load through a slot that holds a chunk -/

section Loads

variable {F : FTy → Type} {κ : Kind} {sp : Space}

/-- If a view of shape `8 × 512` reads chunk `J` of the worker's tile off its buffer, a `1 × 16` load through it at
    offsets `(kk, 16 i)` reads, at `(0, l)`, the label at row `8 J + kk` of the tile, lane `l` of column group `i`. -/
theorem load_read (v : View sig κ sp S8x512 .i32) (g : v.ty.Contents (Elt F)) (L : grid0.Coords) (J : Fin 4)
    (x : IVec SX 32) (hg : v.read (Elt F) g = (xChunk L J).view.read (Elt F) x)
    (kk i : ℕ) (off : Fin 2 → ℕ) (hoff : off = ![kk, 16 * i]) (h : ∀ a, off a + S1x16.size a ≤ S8x512.size a)
    (y : S1x16.Idx) (hk : kk < 8) (hi : i < 32) :
    v.readAt (Elt F) (Rect.unit (s := S8x512) off S1x16.size h).toLoadRect g y
      = x (ix3 (wB (widL L)) (wRow (widL L) ⟨8 * J.val + kk, by omega⟩)
          (col ⟨i, hi⟩ ⟨(y 1).val, (y 1).isLt⟩)) := by
  rw [View.readAt_apply, hg, View.read_apply, unit_idx kk (16 * i) off hoff h y]
  have he := xChunk_emb L J ⟨kk, hk⟩ ⟨16 * i + (y 1).val, by have hy : (y 1).val < 16 := (y 1).isLt; show 16 * i + (y 1).val < 512; omega⟩
  exact congrArg x he

/-- The contents after the chunk is written through the view over anything … -/
theorem load_write (v : View sig κ sp S8x512 .i32) (fb : v.ty.Contents (Elt F)) (L : grid0.Coords) (J : Fin 4)
    (x : IVec SX 32) (kk i : ℕ) (off : Fin 2 → ℕ) (hoff : off = ![kk, 16 * i])
    (h : ∀ a, off a + S1x16.size a ≤ S8x512.size a) (y : S1x16.Idx) (hk : kk < 8) (hi : i < 32) :
    v.readAt (Elt F) (Rect.unit (s := S8x512) off S1x16.size h).toLoadRect
        (v.write (Elt F) fb ((xChunk L J).view.read (Elt F) x) Finset.univ) y
      = x (ix3 (wB (widL L)) (wRow (widL L) ⟨8 * J.val + kk, by omega⟩)
          (col ⟨i, hi⟩ ⟨(y 1).val, (y 1).isLt⟩)) :=
  load_read v _ L J x (View.read_write_univ fb _) kk i off hoff h y hk hi

/-- … and the same contents spelt as the one whole-view piece over anything. -/
theorem load_writes (v : View sig κ sp S8x512 .i32) (fb : v.ty.Contents (Elt F)) (L : grid0.Coords) (J : Fin 4)
    (x : IVec SX 32) (kk i : ℕ) (off : Fin 2 → ℕ) (hoff : off = ![kk, 16 * i])
    (h : ∀ a, off a + S1x16.size a ≤ S8x512.size a) (y : S1x16.Idx) (hk : kk < 8) (hi : i < 32) :
    v.readAt (Elt F) (Rect.unit (s := S8x512) off S1x16.size h).toLoadRect
        (v.writes (Elt F) fb [⟨Rect.whole S8x512, (xChunk L J).view.read (Elt F) x⟩]) y
      = x (ix3 (wB (widL L)) (wRow (widL L) ⟨8 * J.val + kk, by omega⟩)
          (col ⟨i, hi⟩ ⟨(y 1).val, (y 1).isLt⟩)) :=
  load_read v _ L J x (View.read_writes_whole v fb _) kk i off hoff h y hk hi

/-! ### The four slots -/

theorem load_chunk0 (L : grid0.Coords) (x : IVec SX 32) (fb : (bChunk0).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk0).view.readAt (Elt F) (Rect.unit (s := S8x512) off S1x16.size h).toLoadRect
        ((bChunk0).view.write (Elt F) fb ((xChunk L 0).view.read (Elt F) x) Finset.univ) y
      = x (ix3 (wB (widL L)) (wRow (widL L) ⟨8 * 0 + kk, by omega⟩) (col ⟨i, hi⟩ ⟨(y 1).val, (y 1).isLt⟩)) :=
  load_write (bChunk0).view fb L 0 x kk i off hoff h y hk hi
theorem load_chunk0_writes (L : grid0.Coords) (x : IVec SX 32) (fb : (bChunk0).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk0).view.readAt (Elt F) (Rect.unit (s := S8x512) off S1x16.size h).toLoadRect
        ((bChunk0).view.writes (Elt F) fb [⟨Rect.whole S8x512, (xChunk L 0).view.read (Elt F) x⟩]) y
      = x (ix3 (wB (widL L)) (wRow (widL L) ⟨8 * 0 + kk, by omega⟩) (col ⟨i, hi⟩ ⟨(y 1).val, (y 1).isLt⟩)) :=
  load_writes (bChunk0).view fb L 0 x kk i off hoff h y hk hi

theorem load_chunk1 (L : grid0.Coords) (x : IVec SX 32) (fb : (bChunk1).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk1).view.readAt (Elt F) (Rect.unit (s := S8x512) off S1x16.size h).toLoadRect
        ((bChunk1).view.write (Elt F) fb ((xChunk L 1).view.read (Elt F) x) Finset.univ) y
      = x (ix3 (wB (widL L)) (wRow (widL L) ⟨8 * 1 + kk, by omega⟩) (col ⟨i, hi⟩ ⟨(y 1).val, (y 1).isLt⟩)) :=
  load_write (bChunk1).view fb L 1 x kk i off hoff h y hk hi
theorem load_chunk1_writes (L : grid0.Coords) (x : IVec SX 32) (fb : (bChunk1).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk1).view.readAt (Elt F) (Rect.unit (s := S8x512) off S1x16.size h).toLoadRect
        ((bChunk1).view.writes (Elt F) fb [⟨Rect.whole S8x512, (xChunk L 1).view.read (Elt F) x⟩]) y
      = x (ix3 (wB (widL L)) (wRow (widL L) ⟨8 * 1 + kk, by omega⟩) (col ⟨i, hi⟩ ⟨(y 1).val, (y 1).isLt⟩)) :=
  load_writes (bChunk1).view fb L 1 x kk i off hoff h y hk hi

theorem load_chunk2 (L : grid0.Coords) (x : IVec SX 32) (fb : (bChunk2).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk2).view.readAt (Elt F) (Rect.unit (s := S8x512) off S1x16.size h).toLoadRect
        ((bChunk2).view.write (Elt F) fb ((xChunk L 2).view.read (Elt F) x) Finset.univ) y
      = x (ix3 (wB (widL L)) (wRow (widL L) ⟨8 * 2 + kk, by omega⟩) (col ⟨i, hi⟩ ⟨(y 1).val, (y 1).isLt⟩)) :=
  load_write (bChunk2).view fb L 2 x kk i off hoff h y hk hi
theorem load_chunk2_writes (L : grid0.Coords) (x : IVec SX 32) (fb : (bChunk2).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk2).view.readAt (Elt F) (Rect.unit (s := S8x512) off S1x16.size h).toLoadRect
        ((bChunk2).view.writes (Elt F) fb [⟨Rect.whole S8x512, (xChunk L 2).view.read (Elt F) x⟩]) y
      = x (ix3 (wB (widL L)) (wRow (widL L) ⟨8 * 2 + kk, by omega⟩) (col ⟨i, hi⟩ ⟨(y 1).val, (y 1).isLt⟩)) :=
  load_writes (bChunk2).view fb L 2 x kk i off hoff h y hk hi

theorem load_chunk3 (L : grid0.Coords) (x : IVec SX 32) (fb : (bChunk3).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk3).view.readAt (Elt F) (Rect.unit (s := S8x512) off S1x16.size h).toLoadRect
        ((bChunk3).view.write (Elt F) fb ((xChunk L 3).view.read (Elt F) x) Finset.univ) y
      = x (ix3 (wB (widL L)) (wRow (widL L) ⟨8 * 3 + kk, by omega⟩) (col ⟨i, hi⟩ ⟨(y 1).val, (y 1).isLt⟩)) :=
  load_write (bChunk3).view fb L 3 x kk i off hoff h y hk hi
theorem load_chunk3_writes (L : grid0.Coords) (x : IVec SX 32) (fb : (bChunk3).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk3).view.readAt (Elt F) (Rect.unit (s := S8x512) off S1x16.size h).toLoadRect
        ((bChunk3).view.writes (Elt F) fb [⟨Rect.whole S8x512, (xChunk L 3).view.read (Elt F) x⟩]) y
      = x (ix3 (wB (widL L)) (wRow (widL L) ⟨8 * 3 + kk, by omega⟩) (col ⟨i, hi⟩ ⟨(y 1).val, (y 1).isLt⟩)) :=
  load_writes (bChunk3).view fb L 3 x kk i off hoff h y hk hi

/-! ## A trip over a slot that holds a chunk -/

variable [FloatOps F]

/-- Trip `k` of the first chunk loop's text, its thirty-two loads read through a view that holds chunk `J` at offsets
    `(k, 16 i)`, takes the accumulators of `8 J + k` rows to those of `8 J + k + 1` rows. -/
theorem trip_of_loads1 (v : View sig κ sp S8x512 .i32) (g : v.ty.Contents (Elt F)) (L : grid0.Coords) (J : Fin 4)
    (x : IVec SX 32) (hg : v.read (Elt F) g = (xChunk L J).view.read (Elt F) x) (k : ℕ) (hk : k < 8)
    (offs : Fin 32 → Fin 2 → ℕ) (hoffs : ∀ i : Fin 32, offs i = ![k, 16 * i.val])
    (h : ∀ (i : Fin 32) (a : Fin 2), offs i a + S1x16.size a ≤ S8x512.size a) :
    tripYield1 (fun i => v.readAt (Elt F) (Rect.unit (s := S8x512) (offs i) S1x16.size (h i)).toLoadRect g)
        (accVec x (widL L) 0 (8 * J.val + k)) (accVec x (widL L) 1 (8 * J.val + k))
        (accVec x (widL L) 2 (8 * J.val + k)) (accVec x (widL L) 3 (8 * J.val + k))
      = (accVec x (widL L) 0 (8 * J.val + k + 1), accVec x (widL L) 1 (8 * J.val + k + 1),
         accVec x (widL L) 2 (8 * J.val + k + 1), accVec x (widL L) 3 (8 * J.val + k + 1)) :=
  trip_step1 x (widL L) (8 * J.val + k) (by omega) _
    (fun u l => load_read v g L J x hg k u.val (offs u) (hoffs u) (h u) (ix2 (0 : Fin 1) l) hk u.isLt)

/-- Trip `k` of the second chunk loop's text, its thirty-two loads read through a view that holds chunk `J` at offsets
    `(k, 16 i)`, takes the accumulators of `8 J + k` rows to those of `8 J + k + 1` rows. -/
theorem trip_of_loads2 (v : View sig κ sp S8x512 .i32) (g : v.ty.Contents (Elt F)) (L : grid0.Coords) (J : Fin 4)
    (x : IVec SX 32) (hg : v.read (Elt F) g = (xChunk L J).view.read (Elt F) x) (k : ℕ) (hk : k < 8)
    (offs : Fin 32 → Fin 2 → ℕ) (hoffs : ∀ i : Fin 32, offs i = ![k, 16 * i.val])
    (h : ∀ (i : Fin 32) (a : Fin 2), offs i a + S1x16.size a ≤ S8x512.size a) :
    tripYield2 (fun i => v.readAt (Elt F) (Rect.unit (s := S8x512) (offs i) S1x16.size (h i)).toLoadRect g)
        (accVec x (widL L) 0 (8 * J.val + k)) (accVec x (widL L) 1 (8 * J.val + k))
        (accVec x (widL L) 2 (8 * J.val + k)) (accVec x (widL L) 3 (8 * J.val + k))
      = (accVec x (widL L) 0 (8 * J.val + k + 1), accVec x (widL L) 1 (8 * J.val + k + 1),
         accVec x (widL L) 2 (8 * J.val + k + 1), accVec x (widL L) 3 (8 * J.val + k + 1)) :=
  trip_step2 x (widL L) (8 * J.val + k) (by omega) _
    (fun u l => load_read v g L J x hg k u.val (offs u) (hoffs u) (h u) (ix2 (0 : Fin 1) l) hk u.isLt)

/-- Trip `k` of the third chunk loop's text, its thirty-two loads read through a view that holds chunk `J` at offsets
    `(k, 16 i)`, takes the accumulators of `8 J + k` rows to those of `8 J + k + 1` rows. -/
theorem trip_of_loads3 (v : View sig κ sp S8x512 .i32) (g : v.ty.Contents (Elt F)) (L : grid0.Coords) (J : Fin 4)
    (x : IVec SX 32) (hg : v.read (Elt F) g = (xChunk L J).view.read (Elt F) x) (k : ℕ) (hk : k < 8)
    (offs : Fin 32 → Fin 2 → ℕ) (hoffs : ∀ i : Fin 32, offs i = ![k, 16 * i.val])
    (h : ∀ (i : Fin 32) (a : Fin 2), offs i a + S1x16.size a ≤ S8x512.size a) :
    tripYield3 (fun i => v.readAt (Elt F) (Rect.unit (s := S8x512) (offs i) S1x16.size (h i)).toLoadRect g)
        (accVec x (widL L) 0 (8 * J.val + k)) (accVec x (widL L) 1 (8 * J.val + k))
        (accVec x (widL L) 2 (8 * J.val + k)) (accVec x (widL L) 3 (8 * J.val + k))
      = (accVec x (widL L) 0 (8 * J.val + k + 1), accVec x (widL L) 1 (8 * J.val + k + 1),
         accVec x (widL L) 2 (8 * J.val + k + 1), accVec x (widL L) 3 (8 * J.val + k + 1)) :=
  trip_step3 x (widL L) (8 * J.val + k) (by omega) _
    (fun u l => load_read v g L J x hg k u.val (offs u) (hoffs u) (h u) (ix2 (0 : Fin 1) l) hk u.isLt)

/-- Trip `k` of the fourth chunk loop's text, its thirty-two loads read through a view that holds chunk `J` at offsets
    `(k, 16 i)`, takes the accumulators of `8 J + k` rows to those of `8 J + k + 1` rows. -/
theorem trip_of_loads4 (v : View sig κ sp S8x512 .i32) (g : v.ty.Contents (Elt F)) (L : grid0.Coords) (J : Fin 4)
    (x : IVec SX 32) (hg : v.read (Elt F) g = (xChunk L J).view.read (Elt F) x) (k : ℕ) (hk : k < 8)
    (offs : Fin 32 → Fin 2 → ℕ) (hoffs : ∀ i : Fin 32, offs i = ![k, 16 * i.val])
    (h : ∀ (i : Fin 32) (a : Fin 2), offs i a + S1x16.size a ≤ S8x512.size a) :
    tripYield4 (fun i => v.readAt (Elt F) (Rect.unit (s := S8x512) (offs i) S1x16.size (h i)).toLoadRect g)
        (accVec x (widL L) 0 (8 * J.val + k)) (accVec x (widL L) 1 (8 * J.val + k))
        (accVec x (widL L) 2 (8 * J.val + k)) (accVec x (widL L) 3 (8 * J.val + k))
      = (accVec x (widL L) 0 (8 * J.val + k + 1), accVec x (widL L) 1 (8 * J.val + k + 1),
         accVec x (widL L) 2 (8 * J.val + k + 1), accVec x (widL L) 3 (8 * J.val + k + 1)) :=
  trip_step4 x (widL L) (8 * J.val + k) (by omega) _
    (fun u l => load_read v g L J x hg k u.val (offs u) (hoffs u) (h u) (ix2 (0 : Fin 1) l) hk u.isLt)

end Loads

end Cert.Proof.Value

end
-- ==== Proof.ValueRow.lean ====
/-
  The worker's write-out. The four full accumulators' total is stored whole into the sixteen-lane staging buffer and
  copied from there into the worker's row of the partial sums. Read back through the staging buffer the stored vector
  is itself; and once the row holds the worker's sixteen lane sums, every element of the row is the corresponding entry
  of the SparseCore stage's result: element `l` of the row sits at `(w, l)`, where the result holds lane sum `l` of
  worker `w`.
-/
import proofs.«209222_g37675453120884_cont_8to1_b_1946_16_alg».proof.Proof.ValueView

noncomputable section

namespace Cert.Proof.Value

open Idealize.ShloMosaic Idealize.ShloMosaic.ValueIdx Cert.Proof.Spec
open Cert.KernelIdeal Cert.KernelIdeal.Gen
open Cert.Proof.KI (widCS prowSet hdivP)

local notation "pW" => (Memref.whole Cert.KernelIdeal.main_v0_scv : Memref Cert.KernelIdeal.sig Kind.scVector Space.hbm Cert.KernelIdeal.S32x16 EltTy.i32)
local notation "gW" => (Memref.whole Cert.KernelIdeal.cc0_scratch1 : Memref Cert.KernelIdeal.sig Kind.scVector Space.vmem Cert.KernelIdeal.S16 EltTy.i32)

variable {F : FTy → Type}

/-- A piece written through the whole of a view, its zero offsets however spelt, reads back as its payload. -/
theorem read_writes_unit_zero {sig : RefSig} {κ : Kind} {sp : Space} {s : Shape} {e : EltTy} {Val : EltTy → Type}
    (v : View sig κ sp s e) (f : v.ty.Contents Val) (off : Fin s.rank → ℕ) (hoff : off = fun _ => 0)
    (inb : ∀ a, off a + s.size a ≤ s.size a) (w : s.Idx → Val e) :
    v.read Val (v.writes Val f [⟨Rect.unit off s.size inb, w⟩]) = w := by
  subst hoff
  exact View.read_writes_whole v f w

/-- The staging buffer after the store of `v` reads `v`. -/
theorem stage_read (fg : (gW).view.ty.Contents (Elt F)) (v : IVec S16 32) :
    (gW).view.read (Elt F) ((gW).view.writes (Elt F) fg [⟨Rect.unit (s := S16) ![0] S16.size inb_S16_S16_0, v⟩]) = v :=
  read_writes_unit_zero (gW).view fg ![0] (funext fun a => by match a with | ⟨0, _⟩ => rfl) inb_S16_S16_0 v

/-- The worker's row, holding its sixteen lane sums, agrees with the SparseCore stage's result on every element
    of the row. -/
theorem row_value (L : grid0.Coords) (x : IVec SX 32) (f0 : (pRowK L).view.ty.Contents (Elt F)) (v : IVec S16 32)
    (hv : v = fun j => laneSum x (widL L) ⟨(j 0).val, (j 0).isLt⟩) :
    ∀ i ∈ (pRowK L).view.set, (pRowK L).view.writes (Elt F) f0 [⟨Rect.whole S16, v⟩] i = scOut x i := by
  intro i hi
  obtain ⟨y, -, rfl⟩ := Finset.mem_map.mp hi
  obtain ⟨l, rfl⟩ : ∃ l : Fin 16, y = ix1 l := ⟨y 0, eq_ix1 y⟩
  have h := congrFun (View.read_writes_whole (pRowK L).view f0 v) (ix1 l)
  rw [View.read_apply] at h
  refine (show _ = v (ix1 l) from h).trans ?_
  rw [pRowK_emb, hv]
  rfl

/-- The elements of row `w` of the partial sums are the `(w, l)`. -/
theorem mem_prowSet (w : Fin 32) (i : S32x16.Idx) (hi : i ∈ prowSet w) : ∃ l : Fin 16, i = ix2 w l := by
  have hi' : i ∈ (Rect.part (s := S32x16) (a₀ := 0) hdivP w).set := by
    have e := View.set_slice_whole (sig := sig) (κ := .scVector) main_v0_scv (Rect.part (s := S32x16) (a₀ := 0) hdivP w)
    exact e ▸ hi
  have h0 := (Rect.mem_set_unit.mp hi') 0
  refine ⟨i 1, ?_⟩
  funext a
  match a with
  | ⟨0, _⟩ =>
    refine Fin.ext ?_
    have e1 : S32x16.partIx 0 w.val 0 = w.val := rfl
    have e2 : S32x16.partSize 0 32 0 = 1 := rfl
    have h1 : w.val * 1 ≤ (i 0).val := by simpa [e1, e2] using h0.1
    have h2 : (i 0).val < w.val * 1 + 1 := by simpa [e1, e2] using h0.2
    show (i 0).val = w.val
    omega
  | ⟨1, _⟩ => rfl

/-- The same on the row named as worker `w`'s part of the array. -/
theorem row_value_prow (L : grid0.Coords) (x : IVec SX 32) (f0 : (pRowK L).view.ty.Contents (Elt F)) (v : IVec S16 32)
    (hv : v = fun j => laneSum x (widL L) ⟨(j 0).val, (j 0).isLt⟩) :
    ∀ i ∈ prowSet (widL L), (pRowK L).view.writes (Elt F) f0 [⟨Rect.whole S16, v⟩] i = scOut x i := by
  intro i hi
  obtain ⟨l, rfl⟩ := mem_prowSet (widL L) i hi
  exact row_value L x f0 v hv _ ((pRowK_emb L l) ▸ View.emb_mem_set (pRowK L).view (ix1 l))

end Cert.Proof.Value

end
-- ==== Proof.ScTile.lean ====
/-
  One vector subcore's task. The task copies its four chunks of eight rows into its scratch (four transfers, each on
  a semaphore of its own), and after each chunk has landed adds the chunk's rows, sixteen lanes at a time, into four
  accumulators; their sum is stored to a sixteen-word staging buffer and copied out to the worker's row of the partial
  sums. The row it leaves is the worker's sixteen lane sums.
-/
import proofs.«209222_g37675453120884_cont_8to1_b_1946_16_alg».proof.Proof.ScData
import proofs.«209222_g37675453120884_cont_8to1_b_1946_16_alg».proof.Proof.Gen.KernelIdeal.Skeleton
import Idealize.ShloMosaic.Lib.SparseCore.Ops
import proofs.«209222_g37675453120884_cont_8to1_b_1946_16_alg».proof.Proof.ValueRow

noncomputable section

namespace Cert.Proof.KI

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The worker at grid coordinates `L` = (SparseCore, subcore). -/
def widL (L : grid0.Coords) : Fin 32 := widCS ⟨(L 0).val, (L 0).isLt⟩ ⟨(L 1).val, (L 1).isLt⟩

variable (m : (ℓ : Loc nD τ sig) → Buf (Elt F) ℓ) (d : Dev nD) (L : grid0.Coords)
variable [FloatOps F]

/-! ## The subcore's own storage: the five transfer semaphores, the two scratch buffers -/

abbrev cellA (d : Dev nD) (L : grid0.Coords) : GSem nD τ sig := (V d (cV L) (jV L), .dma cc0_scratch2.sem)
abbrev cellB (d : Dev nD) (L : grid0.Coords) : GSem nD τ sig := (V d (cV L) (jV L), .dma cc0_scratch3.sem)
abbrev cellC (d : Dev nD) (L : grid0.Coords) : GSem nD τ sig := (V d (cV L) (jV L), .dma cc0_scratch4.sem)
abbrev cellD (d : Dev nD) (L : grid0.Coords) : GSem nD τ sig := (V d (cV L) (jV L), .dma cc0_scratch5.sem)
abbrev cellS (d : Dev nD) (L : grid0.Coords) : GSem nD τ sig := (V d (cV L) (jV L), .dma cc0_scoped0.sem)

omit [FloatOps F] in
theorem ownSems0_V :
    (ownSems0 (V d (cV L) (jV L)) : sProp 𝕄)
      = iprop(semVal (cellA d L) 0 ∗ semVal (cellB d L) 0 ∗ semVal (cellC d L) 0 ∗ semVal (cellD d L) 0 ∗ semVal (cellS d L) 0
          ∗ bigSep ((((((ownCells (V d (cV L) (jV L))).erase (cellA d L)).erase (cellB d L)).erase (cellC d L)).erase (cellD d L)).erase (cellS d L))
              fun g => semVal g 0) := by
  unfold SparseCore.Cfg.ownSems0
  have hmem : ∀ (s : DmaSem sig), (SemLoc.dma s : SemLoc sig).isScoped .scVector = true →
      ((V d (cV L) (jV L), SemLoc.dma s) : GSem nD τ sig) ∈ ownCells (V d (cV L) (jV L)) :=
    fun s h => (mem_ownCells (g := (V d (cV L) (jV L), SemLoc.dma s))).mpr ⟨rfl, h⟩
  have hne : ∀ {s s' : DmaSem sig}, s ≠ s' → ((V d (cV L) (jV L), SemLoc.dma s) : GSem nD τ sig) ≠ (V d (cV L) (jV L), SemLoc.dma s') :=
    fun h e => h (SemLoc.dma.inj (Prod.mk.inj e).2)
  rw [SparseCore.bigSep_erase' (hmem cc0_scratch2.sem (by decide)),
    SparseCore.bigSep_erase' (Finset.mem_erase.mpr ⟨hne (by decide), hmem cc0_scratch3.sem (by decide)⟩),
    SparseCore.bigSep_erase' (Finset.mem_erase.mpr ⟨hne (by decide), Finset.mem_erase.mpr ⟨hne (by decide), hmem cc0_scratch4.sem (by decide)⟩⟩),
    SparseCore.bigSep_erase' (Finset.mem_erase.mpr ⟨hne (by decide), Finset.mem_erase.mpr ⟨hne (by decide), Finset.mem_erase.mpr ⟨hne (by decide),
      hmem cc0_scratch5.sem (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hmem cc0_scoped0.sem (by decide)⟩⟩⟩⟩)]

omit [FloatOps F] in
/-- The chunk scratch and the staging buffer are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the task's memrefs address them -/

-- the kernel's memrefs, spelt as the body table passes them
local notation "xW" => (Memref.whole Cert.KernelIdeal.main_arg0_scv : Memref Cert.KernelIdeal.sig Kind.scVector Space.hbm Cert.KernelIdeal.S8x512x512 EltTy.i32)
local notation "pW" => (Memref.whole Cert.KernelIdeal.main_v0_scv : Memref Cert.KernelIdeal.sig Kind.scVector Space.hbm Cert.KernelIdeal.S32x16 EltTy.i32)
local notation "bW" => (Memref.whole Cert.KernelIdeal.cc0_scratch0 : Memref Cert.KernelIdeal.sig Kind.scVector Space.vmem Cert.KernelIdeal.S4x8x512 EltTy.i32)
local notation "gW" => (Memref.whole Cert.KernelIdeal.cc0_scratch1 : Memref Cert.KernelIdeal.sig Kind.scVector Space.vmem Cert.KernelIdeal.S16 EltTy.i32)

/-- The worker's row of the partial sums, as the task slices it for its write-out. -/
abbrev pRowK (L : grid0.Coords) : Memref sig .scVector .hbm S16 .i32 :=
  ((pW).slice (Rect.unit (s := S32x16) (k0_off130 L) S1x16.size (k0_off130_inb L)) (fun _ => rfl)).squeeze S16 squeezes_S1x16_S16

omit [FloatOps F] in
theorem pts_x (q : PosShare TreeShare) (f : Buf (Elt F) (xLoc d)) :
    ((xW).view.loc (V d (cV L) (jV L)) ↦{q} f : sProp 𝕄) = xLoc d ↦{q} f := by
  simp only [Memref.view_whole, View.set_whole]
omit [FloatOps F] in
theorem pts_b (f : Buf (Elt F) ((V d (cV L) (jV L)).loc cc0_scratch0)) :
    ((bW).view.loc (V d (cV L) (jV L)) ↦{fullShare} f : sProp 𝕄) = (V d (cV L) (jV L)).loc cc0_scratch0 ↦{fullShare} f := by
  simp only [Memref.view_whole, View.set_whole]
omit [FloatOps F] in
theorem pts_g (f : Buf (Elt F) ((V d (cV L) (jV L)).loc cc0_scratch1)) :
    ((gW).view.loc (V d (cV L) (jV L)) ↦{fullShare} f : sProp 𝕄) = (V d (cV L) (jV L)).loc cc0_scratch1 ↦{fullShare} f := by
  simp only [Memref.view_whole, View.set_whole]

omit [FloatOps F] in
theorem prow_eq : Rect.unit (s := S32x16) (k0_off130 L) S1x16.size (k0_off130_inb L) = prow (widL L) := by
  unfold prow Rect.part Rect.block
  congr 1 <;> funext a
  · rw [k0_off130_eq]
    match a with
    | 0 => simp [Shape.partIx, Shape.partSize, widL, widCS]
    | 1 => simp [Shape.partIx, Shape.partSize]
  · match a with
    | 0 => simp [Shape.partSize]
    | 1 => simp [Shape.partSize]
omit [FloatOps F] in
theorem set_pRowK : (pRowK L).view.set = prowSet (widL L) := by
  show (((pW).view.slice (Rect.unit (s := S32x16) (k0_off130 L) S1x16.size (k0_off130_inb L))).reshape S16 squeezes_S1x16_S16.numel_eq).set
    = ((pW).view.slice (prow (widL L))).set
  rw [View.set_reshape]
  exact prow_eq L ▸ rfl
omit [FloatOps F] in
theorem pts_pRow (f : Buf (Elt F) (pLoc d)) :
    ((pRowK L).view.loc (V d (cV L) (jV L)) ↦[(pRowK L).view.set]{fullShare} f : sProp 𝕄) = pLoc d ↦[prowSet (widL L)]{fullShare} f := by
  rw [set_pRowK]

/-! ## The chunk scratch as its four chunks -/

theorem hdivB : 4 ∣ S4x8x512.size 0 := ⟨1, rfl⟩
abbrev bpart (j : Fin 4) : Rect S4x8x512 := Rect.part (s := S4x8x512) (a₀ := 0) hdivB j
abbrev bSet (j : Fin 4) : Finset S4x8x512.Idx := ((bW).view.slice (bpart j)).set

/-- Chunk `j` of the scratch, as the task slices it. -/
abbrev bChunk0 : Memref sig .scVector .vmem S8x512 .i32 :=
  ((bW).slice (Rect.unit (s := S4x8x512) ![0, 0, 0] S1x8x512.size inb_S4x8x512_S1x8x512_0_0_0) (fun _ => rfl)).squeeze S8x512 squeezes_S1x8x512_S8x512
abbrev bChunk1 : Memref sig .scVector .vmem S8x512 .i32 :=
  ((bW).slice (Rect.unit (s := S4x8x512) ![1, 0, 0] S1x8x512.size inb_S4x8x512_S1x8x512_1_0_0) (fun _ => rfl)).squeeze S8x512 squeezes_S1x8x512_S8x512
abbrev bChunk2 : Memref sig .scVector .vmem S8x512 .i32 :=
  ((bW).slice (Rect.unit (s := S4x8x512) ![2, 0, 0] S1x8x512.size inb_S4x8x512_S1x8x512_2_0_0) (fun _ => rfl)).squeeze S8x512 squeezes_S1x8x512_S8x512
abbrev bChunk3 : Memref sig .scVector .vmem S8x512 .i32 :=
  ((bW).slice (Rect.unit (s := S4x8x512) ![3, 0, 0] S1x8x512.size inb_S4x8x512_S1x8x512_3_0_0) (fun _ => rfl)).squeeze S8x512 squeezes_S1x8x512_S8x512

omit [FloatOps F] in
theorem bSet_eq (j : Fin 4) : bSet j = (bpart j).set := by
  show ((View.whole (cc0_scratch0 : Ref sig .scVector)).slice (bpart j)).set = _
  rw [View.set_slice]; exact Finset.map_refl
omit [FloatOps F] in
theorem bparts_disjoint : ∀ i ∈ (Finset.univ : Finset (Fin 4)), ∀ j ∈ (Finset.univ : Finset (Fin 4)), i ≠ j → Disjoint (bSet i) (bSet j) :=
  fun i _ j _ h => by rw [bSet_eq, bSet_eq]; exact Rect.part_disjoint hdivB h
omit [FloatOps F] in
theorem bparts_cover : (Finset.univ : Finset (Fin 4)).biUnion bSet = Finset.univ :=
  (Finset.biUnion_congr rfl fun i _ => bSet_eq i).trans (Rect.biUnion_part hdivB)
omit [FloatOps F] in
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
/-- The scratch whole is its four chunks. -/
theorem bPts_parts (f : Buf (Elt F) ((V d (cV L) (jV L)).loc cc0_scratch0)) :
    ((V d (cV L) (jV L)).loc cc0_scratch0 ↦{fullShare} f : sProp 𝕄)
      = iprop(((V d (cV L) (jV L)).loc cc0_scratch0 ↦[bSet 0]{fullShare} f) ∗ ((V d (cV L) (jV L)).loc cc0_scratch0 ↦[bSet 1]{fullShare} f)
          ∗ ((V d (cV L) (jV L)).loc cc0_scratch0 ↦[bSet 2]{fullShare} f) ∗ ((V d (cV L) (jV L)).loc cc0_scratch0 ↦[bSet 3]{fullShare} f)) := by
  rw [← bigSep_four (F := F) (fun j => ((V d (cV L) (jV L)).loc cc0_scratch0 ↦[bSet j]{fullShare} f)),
    ← pointsTo_biUnion Finset.univ (ℓ := (V d (cV L) (jV L)).loc cc0_scratch0) bSet bparts_disjoint, bparts_cover]; try rfl

omit [FloatOps F] in
theorem bunit0 : Rect.unit (s := S4x8x512) ![0, 0, 0] S1x8x512.size inb_S4x8x512_S1x8x512_0_0_0 = bpart 0 := by
  unfold bpart Rect.part Rect.block
  congr 1 <;> funext a <;> (match a with
    | 0 => simp [Shape.partIx, Shape.partSize]
    | 1 => simp [Shape.partIx, Shape.partSize]
    | 2 => simp [Shape.partIx, Shape.partSize])
omit [FloatOps F] in
theorem bunit1 : Rect.unit (s := S4x8x512) ![1, 0, 0] S1x8x512.size inb_S4x8x512_S1x8x512_1_0_0 = bpart 1 := by
  unfold bpart Rect.part Rect.block
  congr 1 <;> funext a <;> (match a with
    | 0 => simp [Shape.partIx, Shape.partSize]
    | 1 => simp [Shape.partIx, Shape.partSize]
    | 2 => simp [Shape.partIx, Shape.partSize])
omit [FloatOps F] in
theorem bunit2 : Rect.unit (s := S4x8x512) ![2, 0, 0] S1x8x512.size inb_S4x8x512_S1x8x512_2_0_0 = bpart 2 := by
  unfold bpart Rect.part Rect.block
  congr 1 <;> funext a <;> (match a with
    | 0 => simp [Shape.partIx, Shape.partSize]
    | 1 => simp [Shape.partIx, Shape.partSize]
    | 2 => simp [Shape.partIx, Shape.partSize])
omit [FloatOps F] in
theorem bunit3 : Rect.unit (s := S4x8x512) ![3, 0, 0] S1x8x512.size inb_S4x8x512_S1x8x512_3_0_0 = bpart 3 := by
  unfold bpart Rect.part Rect.block
  congr 1 <;> funext a <;> (match a with
    | 0 => simp [Shape.partIx, Shape.partSize]
    | 1 => simp [Shape.partIx, Shape.partSize]
    | 2 => simp [Shape.partIx, Shape.partSize])

omit [FloatOps F] in
theorem set_bChunk0 : (bChunk0).view.set = bSet 0 := by
  show (((bW).view.slice (Rect.unit (s := S4x8x512) ![0, 0, 0] S1x8x512.size inb_S4x8x512_S1x8x512_0_0_0)).reshape S8x512 squeezes_S1x8x512_S8x512.numel_eq).set = _
  rw [View.set_reshape]
  show ((bW).view.slice (Rect.unit (s := S4x8x512) ![0, 0, 0] S1x8x512.size inb_S4x8x512_S1x8x512_0_0_0)).set = ((bW).view.slice (bpart 0)).set
  rw [View.set_slice, View.set_slice, bunit0]
omit [FloatOps F] in
theorem set_bChunk1 : (bChunk1).view.set = bSet 1 := by
  show (((bW).view.slice (Rect.unit (s := S4x8x512) ![1, 0, 0] S1x8x512.size inb_S4x8x512_S1x8x512_1_0_0)).reshape S8x512 squeezes_S1x8x512_S8x512.numel_eq).set = _
  rw [View.set_reshape]
  show ((bW).view.slice (Rect.unit (s := S4x8x512) ![1, 0, 0] S1x8x512.size inb_S4x8x512_S1x8x512_1_0_0)).set = ((bW).view.slice (bpart 1)).set
  rw [View.set_slice, View.set_slice, bunit1]
omit [FloatOps F] in
theorem set_bChunk2 : (bChunk2).view.set = bSet 2 := by
  show (((bW).view.slice (Rect.unit (s := S4x8x512) ![2, 0, 0] S1x8x512.size inb_S4x8x512_S1x8x512_2_0_0)).reshape S8x512 squeezes_S1x8x512_S8x512.numel_eq).set = _
  rw [View.set_reshape]
  show ((bW).view.slice (Rect.unit (s := S4x8x512) ![2, 0, 0] S1x8x512.size inb_S4x8x512_S1x8x512_2_0_0)).set = ((bW).view.slice (bpart 2)).set
  rw [View.set_slice, View.set_slice, bunit2]
omit [FloatOps F] in
theorem set_bChunk3 : (bChunk3).view.set = bSet 3 := by
  show (((bW).view.slice (Rect.unit (s := S4x8x512) ![3, 0, 0] S1x8x512.size inb_S4x8x512_S1x8x512_3_0_0)).reshape S8x512 squeezes_S1x8x512_S8x512.numel_eq).set = _
  rw [View.set_reshape]
  show ((bW).view.slice (Rect.unit (s := S4x8x512) ![3, 0, 0] S1x8x512.size inb_S4x8x512_S1x8x512_3_0_0)).set = ((bW).view.slice (bpart 3)).set
  rw [View.set_slice, View.set_slice, bunit3]

omit [FloatOps F] in
theorem pts_b0 (f : Buf (Elt F) ((V d (cV L) (jV L)).loc cc0_scratch0)) :
    ((bChunk0).view.loc (V d (cV L) (jV L)) ↦[(bChunk0).view.set]{fullShare} f : sProp 𝕄) = (V d (cV L) (jV L)).loc cc0_scratch0 ↦[bSet 0]{fullShare} f := by
  rw [set_bChunk0]
omit [FloatOps F] in
theorem pts_b1 (f : Buf (Elt F) ((V d (cV L) (jV L)).loc cc0_scratch0)) :
    ((bChunk1).view.loc (V d (cV L) (jV L)) ↦[(bChunk1).view.set]{fullShare} f : sProp 𝕄) = (V d (cV L) (jV L)).loc cc0_scratch0 ↦[bSet 1]{fullShare} f := by
  rw [set_bChunk1]
omit [FloatOps F] in
theorem pts_b2 (f : Buf (Elt F) ((V d (cV L) (jV L)).loc cc0_scratch0)) :
    ((bChunk2).view.loc (V d (cV L) (jV L)) ↦[(bChunk2).view.set]{fullShare} f : sProp 𝕄) = (V d (cV L) (jV L)).loc cc0_scratch0 ↦[bSet 2]{fullShare} f := by
  rw [set_bChunk2]
omit [FloatOps F] in
theorem pts_b3 (f : Buf (Elt F) ((V d (cV L) (jV L)).loc cc0_scratch0)) :
    ((bChunk3).view.loc (V d (cV L) (jV L)) ↦[(bChunk3).view.set]{fullShare} f : sProp 𝕄) = (V d (cV L) (jV L)).loc cc0_scratch0 ↦[bSet 3]{fullShare} f := by
  rw [set_bChunk3]

/-! ## The accumulators -/

/-- The four accumulators after the worker's first `n` rows. -/
abbrev accs (x : IVec SX 32) (w : Fin 32) (n : ℕ) : IVec S16 32 × IVec S16 32 × IVec S16 32 × IVec S16 32 :=
  (Value.accVec x w 0 n, Value.accVec x w 1 n, Value.accVec x w 2 n, Value.accVec x w 3 n)

/-- A chunk's loop, before trip `k`: the accumulators hold the first `base + k` rows' sums; the chunk is held at the
    contents its copy left. -/
def linv (B : Memref sig .scVector .vmem S8x512 .i32) (g : B.view.ty.Contents (Elt F)) (x : IVec SX 32) (w : Fin 32) (base : ℕ)
    (k : ℕ) (acc : IVec S16 32 × IVec S16 32 × IVec S16 32 × IVec S16 32) : sProp 𝕄 :=
  iprop(⌜acc = accs x w (base + k)⌝ ∗ (B.view.loc (V d (cV L) (jV L)) ↦[B.view.set]{fullShare} g))

/-- Chunk `j` of the worker's rows of the labels, as the task slices it for its copy. -/
abbrev xChunk (L : grid0.Coords) (j : Fin 4) : Memref sig .scVector .hbm S8x512 .i32 :=
  ((xW).slice (Rect.unit (s := S8x512x512) (k0_off1 L (BitVec.ofNat 32 (8 * j.val))) S1x8x512.size (k0_off1_inb L j)) (fun _ => rfl)).squeeze S8x512 squeezes_S1x8x512_S8x512

omit [FloatOps F] in
/-- The scratch's four chunks, at whatever each holds, are the scratch whole at some contents: the contents that takes
    each chunk's own function on that chunk. -/
theorem bChunks_join (f0 f1 f2 f3 : Buf (Elt F) ((V d (cV L) (jV L)).loc cc0_scratch0)) :
    iprop(((V d (cV L) (jV L)).loc cc0_scratch0 ↦[bSet 0]{fullShare} f0) ∗ ((V d (cV L) (jV L)).loc cc0_scratch0 ↦[bSet 1]{fullShare} f1)
        ∗ ((V d (cV L) (jV L)).loc cc0_scratch0 ↦[bSet 2]{fullShare} f2) ∗ ((V d (cV L) (jV L)).loc cc0_scratch0 ↦[bSet 3]{fullShare} f3))
      ⊢ (iprop(∃ f, (V d (cV L) (jV L)).loc cc0_scratch0 ↦{fullShare} f) : sProp 𝕄) := by
  classical
  have d01 := bparts_disjoint 0 (Finset.mem_univ _) 1 (Finset.mem_univ _) (by decide)
  have d02 := bparts_disjoint 0 (Finset.mem_univ _) 2 (Finset.mem_univ _) (by decide)
  have d12 := bparts_disjoint 1 (Finset.mem_univ _) 2 (Finset.mem_univ _) (by decide)
  have d03 := bparts_disjoint 0 (Finset.mem_univ _) 3 (Finset.mem_univ _) (by decide)
  have d13 := bparts_disjoint 1 (Finset.mem_univ _) 3 (Finset.mem_univ _) (by decide)
  have d23 := bparts_disjoint 2 (Finset.mem_univ _) 3 (Finset.mem_univ _) (by decide)
  have h0 : ∀ i ∈ bSet 0, f0 i = (fun i => if i ∈ bSet 0 then f0 i else if i ∈ bSet 1 then f1 i else if i ∈ bSet 2 then f2 i else f3 i) i :=
    fun i hi => by simp only [if_pos hi]
  have h1 : ∀ i ∈ bSet 1, f1 i = (fun i => if i ∈ bSet 0 then f0 i else if i ∈ bSet 1 then f1 i else if i ∈ bSet 2 then f2 i else f3 i) i :=
    fun i hi => by
      have n0 : i ∉ bSet 0 := fun h => (Finset.disjoint_left.mp d01 h) hi
      simp only [if_neg n0, if_pos hi]
  have h2 : ∀ i ∈ bSet 2, f2 i = (fun i => if i ∈ bSet 0 then f0 i else if i ∈ bSet 1 then f1 i else if i ∈ bSet 2 then f2 i else f3 i) i :=
    fun i hi => by
      have n0 : i ∉ bSet 0 := fun h => (Finset.disjoint_left.mp d02 h) hi
      have n1 : i ∉ bSet 1 := fun h => (Finset.disjoint_left.mp d12 h) hi
      simp only [if_neg n0, if_neg n1, if_pos hi]
  have h3 : ∀ i ∈ bSet 3, f3 i = (fun i => if i ∈ bSet 0 then f0 i else if i ∈ bSet 1 then f1 i else if i ∈ bSet 2 then f2 i else f3 i) i :=
    fun i hi => by
      have n0 : i ∉ bSet 0 := fun h => (Finset.disjoint_left.mp d03 h) hi
      have n1 : i ∉ bSet 1 := fun h => (Finset.disjoint_left.mp d13 h) hi
      have n2 : i ∉ bSet 2 := fun h => (Finset.disjoint_left.mp d23 h) hi
      simp only [if_neg n0, if_neg n1, if_neg n2]
  rw [pointsTo_congr (I := bSet 0) (f := f0) h0, pointsTo_congr (I := bSet 1) (f := f1) h1, pointsTo_congr (I := bSet 2) (f := f2) h2,
    pointsTo_congr (I := bSet 3) (f := f3) h3, ← bPts_parts]
  iintro H
  iexists _; iexact H

/-! ## The loads' offsets, loop by loop -/

/-- The offsets of the 32 loads of one trip of loop 1, in program order. -/
def offs1 (k : Fin k0_t1_loop.trips) : Fin 32 → Fin 2 → ℕ
  | ⟨0, _⟩ => k0_off2 k
  | ⟨1, _⟩ => k0_off3 k
  | ⟨2, _⟩ => k0_off4 k
  | ⟨3, _⟩ => k0_off5 k
  | ⟨4, _⟩ => k0_off6 k
  | ⟨5, _⟩ => k0_off7 k
  | ⟨6, _⟩ => k0_off8 k
  | ⟨7, _⟩ => k0_off9 k
  | ⟨8, _⟩ => k0_off10 k
  | ⟨9, _⟩ => k0_off11 k
  | ⟨10, _⟩ => k0_off12 k
  | ⟨11, _⟩ => k0_off13 k
  | ⟨12, _⟩ => k0_off14 k
  | ⟨13, _⟩ => k0_off15 k
  | ⟨14, _⟩ => k0_off16 k
  | ⟨15, _⟩ => k0_off17 k
  | ⟨16, _⟩ => k0_off18 k
  | ⟨17, _⟩ => k0_off19 k
  | ⟨18, _⟩ => k0_off20 k
  | ⟨19, _⟩ => k0_off21 k
  | ⟨20, _⟩ => k0_off22 k
  | ⟨21, _⟩ => k0_off23 k
  | ⟨22, _⟩ => k0_off24 k
  | ⟨23, _⟩ => k0_off25 k
  | ⟨24, _⟩ => k0_off26 k
  | ⟨25, _⟩ => k0_off27 k
  | ⟨26, _⟩ => k0_off28 k
  | ⟨27, _⟩ => k0_off29 k
  | ⟨28, _⟩ => k0_off30 k
  | ⟨29, _⟩ => k0_off31 k
  | ⟨30, _⟩ => k0_off32 k
  | ⟨31, _⟩ => k0_off33 k
  | ⟨n + 32, h⟩ => absurd h (by omega)
omit [FloatOps F] in
theorem offs1_eq (k : Fin k0_t1_loop.trips) : ∀ i : Fin 32, offs1 k i = ![k.val, 16 * i.val]
  | ⟨0, _⟩ => k0_off2_eq k
  | ⟨1, _⟩ => k0_off3_eq k
  | ⟨2, _⟩ => k0_off4_eq k
  | ⟨3, _⟩ => k0_off5_eq k
  | ⟨4, _⟩ => k0_off6_eq k
  | ⟨5, _⟩ => k0_off7_eq k
  | ⟨6, _⟩ => k0_off8_eq k
  | ⟨7, _⟩ => k0_off9_eq k
  | ⟨8, _⟩ => k0_off10_eq k
  | ⟨9, _⟩ => k0_off11_eq k
  | ⟨10, _⟩ => k0_off12_eq k
  | ⟨11, _⟩ => k0_off13_eq k
  | ⟨12, _⟩ => k0_off14_eq k
  | ⟨13, _⟩ => k0_off15_eq k
  | ⟨14, _⟩ => k0_off16_eq k
  | ⟨15, _⟩ => k0_off17_eq k
  | ⟨16, _⟩ => k0_off18_eq k
  | ⟨17, _⟩ => k0_off19_eq k
  | ⟨18, _⟩ => k0_off20_eq k
  | ⟨19, _⟩ => k0_off21_eq k
  | ⟨20, _⟩ => k0_off22_eq k
  | ⟨21, _⟩ => k0_off23_eq k
  | ⟨22, _⟩ => k0_off24_eq k
  | ⟨23, _⟩ => k0_off25_eq k
  | ⟨24, _⟩ => k0_off26_eq k
  | ⟨25, _⟩ => k0_off27_eq k
  | ⟨26, _⟩ => k0_off28_eq k
  | ⟨27, _⟩ => k0_off29_eq k
  | ⟨28, _⟩ => k0_off30_eq k
  | ⟨29, _⟩ => k0_off31_eq k
  | ⟨30, _⟩ => k0_off32_eq k
  | ⟨31, _⟩ => k0_off33_eq k
  | ⟨n + 32, h⟩ => absurd h (by omega)
omit [FloatOps F] in
theorem offs1_inb (k : Fin k0_t1_loop.trips) : ∀ (i : Fin 32) (a : Fin 2), offs1 k i a + S1x16.size a ≤ S8x512.size a
  | ⟨0, _⟩ => k0_off2_inb k
  | ⟨1, _⟩ => k0_off3_inb k
  | ⟨2, _⟩ => k0_off4_inb k
  | ⟨3, _⟩ => k0_off5_inb k
  | ⟨4, _⟩ => k0_off6_inb k
  | ⟨5, _⟩ => k0_off7_inb k
  | ⟨6, _⟩ => k0_off8_inb k
  | ⟨7, _⟩ => k0_off9_inb k
  | ⟨8, _⟩ => k0_off10_inb k
  | ⟨9, _⟩ => k0_off11_inb k
  | ⟨10, _⟩ => k0_off12_inb k
  | ⟨11, _⟩ => k0_off13_inb k
  | ⟨12, _⟩ => k0_off14_inb k
  | ⟨13, _⟩ => k0_off15_inb k
  | ⟨14, _⟩ => k0_off16_inb k
  | ⟨15, _⟩ => k0_off17_inb k
  | ⟨16, _⟩ => k0_off18_inb k
  | ⟨17, _⟩ => k0_off19_inb k
  | ⟨18, _⟩ => k0_off20_inb k
  | ⟨19, _⟩ => k0_off21_inb k
  | ⟨20, _⟩ => k0_off22_inb k
  | ⟨21, _⟩ => k0_off23_inb k
  | ⟨22, _⟩ => k0_off24_inb k
  | ⟨23, _⟩ => k0_off25_inb k
  | ⟨24, _⟩ => k0_off26_inb k
  | ⟨25, _⟩ => k0_off27_inb k
  | ⟨26, _⟩ => k0_off28_inb k
  | ⟨27, _⟩ => k0_off29_inb k
  | ⟨28, _⟩ => k0_off30_inb k
  | ⟨29, _⟩ => k0_off31_inb k
  | ⟨30, _⟩ => k0_off32_inb k
  | ⟨31, _⟩ => k0_off33_inb k
  | ⟨n + 32, h⟩ => absurd h (by omega)

/-- The offsets of the 32 loads of one trip of loop 2, in program order. -/
def offs2 (k : Fin k0_t2_loop.trips) : Fin 32 → Fin 2 → ℕ
  | ⟨0, _⟩ => k0_off34 k
  | ⟨1, _⟩ => k0_off35 k
  | ⟨2, _⟩ => k0_off36 k
  | ⟨3, _⟩ => k0_off37 k
  | ⟨4, _⟩ => k0_off38 k
  | ⟨5, _⟩ => k0_off39 k
  | ⟨6, _⟩ => k0_off40 k
  | ⟨7, _⟩ => k0_off41 k
  | ⟨8, _⟩ => k0_off42 k
  | ⟨9, _⟩ => k0_off43 k
  | ⟨10, _⟩ => k0_off44 k
  | ⟨11, _⟩ => k0_off45 k
  | ⟨12, _⟩ => k0_off46 k
  | ⟨13, _⟩ => k0_off47 k
  | ⟨14, _⟩ => k0_off48 k
  | ⟨15, _⟩ => k0_off49 k
  | ⟨16, _⟩ => k0_off50 k
  | ⟨17, _⟩ => k0_off51 k
  | ⟨18, _⟩ => k0_off52 k
  | ⟨19, _⟩ => k0_off53 k
  | ⟨20, _⟩ => k0_off54 k
  | ⟨21, _⟩ => k0_off55 k
  | ⟨22, _⟩ => k0_off56 k
  | ⟨23, _⟩ => k0_off57 k
  | ⟨24, _⟩ => k0_off58 k
  | ⟨25, _⟩ => k0_off59 k
  | ⟨26, _⟩ => k0_off60 k
  | ⟨27, _⟩ => k0_off61 k
  | ⟨28, _⟩ => k0_off62 k
  | ⟨29, _⟩ => k0_off63 k
  | ⟨30, _⟩ => k0_off64 k
  | ⟨31, _⟩ => k0_off65 k
  | ⟨n + 32, h⟩ => absurd h (by omega)
omit [FloatOps F] in
theorem offs2_eq (k : Fin k0_t2_loop.trips) : ∀ i : Fin 32, offs2 k i = ![k.val, 16 * i.val]
  | ⟨0, _⟩ => k0_off34_eq k
  | ⟨1, _⟩ => k0_off35_eq k
  | ⟨2, _⟩ => k0_off36_eq k
  | ⟨3, _⟩ => k0_off37_eq k
  | ⟨4, _⟩ => k0_off38_eq k
  | ⟨5, _⟩ => k0_off39_eq k
  | ⟨6, _⟩ => k0_off40_eq k
  | ⟨7, _⟩ => k0_off41_eq k
  | ⟨8, _⟩ => k0_off42_eq k
  | ⟨9, _⟩ => k0_off43_eq k
  | ⟨10, _⟩ => k0_off44_eq k
  | ⟨11, _⟩ => k0_off45_eq k
  | ⟨12, _⟩ => k0_off46_eq k
  | ⟨13, _⟩ => k0_off47_eq k
  | ⟨14, _⟩ => k0_off48_eq k
  | ⟨15, _⟩ => k0_off49_eq k
  | ⟨16, _⟩ => k0_off50_eq k
  | ⟨17, _⟩ => k0_off51_eq k
  | ⟨18, _⟩ => k0_off52_eq k
  | ⟨19, _⟩ => k0_off53_eq k
  | ⟨20, _⟩ => k0_off54_eq k
  | ⟨21, _⟩ => k0_off55_eq k
  | ⟨22, _⟩ => k0_off56_eq k
  | ⟨23, _⟩ => k0_off57_eq k
  | ⟨24, _⟩ => k0_off58_eq k
  | ⟨25, _⟩ => k0_off59_eq k
  | ⟨26, _⟩ => k0_off60_eq k
  | ⟨27, _⟩ => k0_off61_eq k
  | ⟨28, _⟩ => k0_off62_eq k
  | ⟨29, _⟩ => k0_off63_eq k
  | ⟨30, _⟩ => k0_off64_eq k
  | ⟨31, _⟩ => k0_off65_eq k
  | ⟨n + 32, h⟩ => absurd h (by omega)
omit [FloatOps F] in
theorem offs2_inb (k : Fin k0_t2_loop.trips) : ∀ (i : Fin 32) (a : Fin 2), offs2 k i a + S1x16.size a ≤ S8x512.size a
  | ⟨0, _⟩ => k0_off34_inb k
  | ⟨1, _⟩ => k0_off35_inb k
  | ⟨2, _⟩ => k0_off36_inb k
  | ⟨3, _⟩ => k0_off37_inb k
  | ⟨4, _⟩ => k0_off38_inb k
  | ⟨5, _⟩ => k0_off39_inb k
  | ⟨6, _⟩ => k0_off40_inb k
  | ⟨7, _⟩ => k0_off41_inb k
  | ⟨8, _⟩ => k0_off42_inb k
  | ⟨9, _⟩ => k0_off43_inb k
  | ⟨10, _⟩ => k0_off44_inb k
  | ⟨11, _⟩ => k0_off45_inb k
  | ⟨12, _⟩ => k0_off46_inb k
  | ⟨13, _⟩ => k0_off47_inb k
  | ⟨14, _⟩ => k0_off48_inb k
  | ⟨15, _⟩ => k0_off49_inb k
  | ⟨16, _⟩ => k0_off50_inb k
  | ⟨17, _⟩ => k0_off51_inb k
  | ⟨18, _⟩ => k0_off52_inb k
  | ⟨19, _⟩ => k0_off53_inb k
  | ⟨20, _⟩ => k0_off54_inb k
  | ⟨21, _⟩ => k0_off55_inb k
  | ⟨22, _⟩ => k0_off56_inb k
  | ⟨23, _⟩ => k0_off57_inb k
  | ⟨24, _⟩ => k0_off58_inb k
  | ⟨25, _⟩ => k0_off59_inb k
  | ⟨26, _⟩ => k0_off60_inb k
  | ⟨27, _⟩ => k0_off61_inb k
  | ⟨28, _⟩ => k0_off62_inb k
  | ⟨29, _⟩ => k0_off63_inb k
  | ⟨30, _⟩ => k0_off64_inb k
  | ⟨31, _⟩ => k0_off65_inb k
  | ⟨n + 32, h⟩ => absurd h (by omega)

/-- The offsets of the 32 loads of one trip of loop 3, in program order. -/
def offs3 (k : Fin k0_t3_loop.trips) : Fin 32 → Fin 2 → ℕ
  | ⟨0, _⟩ => k0_off66 k
  | ⟨1, _⟩ => k0_off67 k
  | ⟨2, _⟩ => k0_off68 k
  | ⟨3, _⟩ => k0_off69 k
  | ⟨4, _⟩ => k0_off70 k
  | ⟨5, _⟩ => k0_off71 k
  | ⟨6, _⟩ => k0_off72 k
  | ⟨7, _⟩ => k0_off73 k
  | ⟨8, _⟩ => k0_off74 k
  | ⟨9, _⟩ => k0_off75 k
  | ⟨10, _⟩ => k0_off76 k
  | ⟨11, _⟩ => k0_off77 k
  | ⟨12, _⟩ => k0_off78 k
  | ⟨13, _⟩ => k0_off79 k
  | ⟨14, _⟩ => k0_off80 k
  | ⟨15, _⟩ => k0_off81 k
  | ⟨16, _⟩ => k0_off82 k
  | ⟨17, _⟩ => k0_off83 k
  | ⟨18, _⟩ => k0_off84 k
  | ⟨19, _⟩ => k0_off85 k
  | ⟨20, _⟩ => k0_off86 k
  | ⟨21, _⟩ => k0_off87 k
  | ⟨22, _⟩ => k0_off88 k
  | ⟨23, _⟩ => k0_off89 k
  | ⟨24, _⟩ => k0_off90 k
  | ⟨25, _⟩ => k0_off91 k
  | ⟨26, _⟩ => k0_off92 k
  | ⟨27, _⟩ => k0_off93 k
  | ⟨28, _⟩ => k0_off94 k
  | ⟨29, _⟩ => k0_off95 k
  | ⟨30, _⟩ => k0_off96 k
  | ⟨31, _⟩ => k0_off97 k
  | ⟨n + 32, h⟩ => absurd h (by omega)
omit [FloatOps F] in
theorem offs3_eq (k : Fin k0_t3_loop.trips) : ∀ i : Fin 32, offs3 k i = ![k.val, 16 * i.val]
  | ⟨0, _⟩ => k0_off66_eq k
  | ⟨1, _⟩ => k0_off67_eq k
  | ⟨2, _⟩ => k0_off68_eq k
  | ⟨3, _⟩ => k0_off69_eq k
  | ⟨4, _⟩ => k0_off70_eq k
  | ⟨5, _⟩ => k0_off71_eq k
  | ⟨6, _⟩ => k0_off72_eq k
  | ⟨7, _⟩ => k0_off73_eq k
  | ⟨8, _⟩ => k0_off74_eq k
  | ⟨9, _⟩ => k0_off75_eq k
  | ⟨10, _⟩ => k0_off76_eq k
  | ⟨11, _⟩ => k0_off77_eq k
  | ⟨12, _⟩ => k0_off78_eq k
  | ⟨13, _⟩ => k0_off79_eq k
  | ⟨14, _⟩ => k0_off80_eq k
  | ⟨15, _⟩ => k0_off81_eq k
  | ⟨16, _⟩ => k0_off82_eq k
  | ⟨17, _⟩ => k0_off83_eq k
  | ⟨18, _⟩ => k0_off84_eq k
  | ⟨19, _⟩ => k0_off85_eq k
  | ⟨20, _⟩ => k0_off86_eq k
  | ⟨21, _⟩ => k0_off87_eq k
  | ⟨22, _⟩ => k0_off88_eq k
  | ⟨23, _⟩ => k0_off89_eq k
  | ⟨24, _⟩ => k0_off90_eq k
  | ⟨25, _⟩ => k0_off91_eq k
  | ⟨26, _⟩ => k0_off92_eq k
  | ⟨27, _⟩ => k0_off93_eq k
  | ⟨28, _⟩ => k0_off94_eq k
  | ⟨29, _⟩ => k0_off95_eq k
  | ⟨30, _⟩ => k0_off96_eq k
  | ⟨31, _⟩ => k0_off97_eq k
  | ⟨n + 32, h⟩ => absurd h (by omega)
omit [FloatOps F] in
theorem offs3_inb (k : Fin k0_t3_loop.trips) : ∀ (i : Fin 32) (a : Fin 2), offs3 k i a + S1x16.size a ≤ S8x512.size a
  | ⟨0, _⟩ => k0_off66_inb k
  | ⟨1, _⟩ => k0_off67_inb k
  | ⟨2, _⟩ => k0_off68_inb k
  | ⟨3, _⟩ => k0_off69_inb k
  | ⟨4, _⟩ => k0_off70_inb k
  | ⟨5, _⟩ => k0_off71_inb k
  | ⟨6, _⟩ => k0_off72_inb k
  | ⟨7, _⟩ => k0_off73_inb k
  | ⟨8, _⟩ => k0_off74_inb k
  | ⟨9, _⟩ => k0_off75_inb k
  | ⟨10, _⟩ => k0_off76_inb k
  | ⟨11, _⟩ => k0_off77_inb k
  | ⟨12, _⟩ => k0_off78_inb k
  | ⟨13, _⟩ => k0_off79_inb k
  | ⟨14, _⟩ => k0_off80_inb k
  | ⟨15, _⟩ => k0_off81_inb k
  | ⟨16, _⟩ => k0_off82_inb k
  | ⟨17, _⟩ => k0_off83_inb k
  | ⟨18, _⟩ => k0_off84_inb k
  | ⟨19, _⟩ => k0_off85_inb k
  | ⟨20, _⟩ => k0_off86_inb k
  | ⟨21, _⟩ => k0_off87_inb k
  | ⟨22, _⟩ => k0_off88_inb k
  | ⟨23, _⟩ => k0_off89_inb k
  | ⟨24, _⟩ => k0_off90_inb k
  | ⟨25, _⟩ => k0_off91_inb k
  | ⟨26, _⟩ => k0_off92_inb k
  | ⟨27, _⟩ => k0_off93_inb k
  | ⟨28, _⟩ => k0_off94_inb k
  | ⟨29, _⟩ => k0_off95_inb k
  | ⟨30, _⟩ => k0_off96_inb k
  | ⟨31, _⟩ => k0_off97_inb k
  | ⟨n + 32, h⟩ => absurd h (by omega)

/-- The offsets of the 32 loads of one trip of loop 4, in program order. -/
def offs4 (k : Fin k0_t4_loop.trips) : Fin 32 → Fin 2 → ℕ
  | ⟨0, _⟩ => k0_off98 k
  | ⟨1, _⟩ => k0_off99 k
  | ⟨2, _⟩ => k0_off100 k
  | ⟨3, _⟩ => k0_off101 k
  | ⟨4, _⟩ => k0_off102 k
  | ⟨5, _⟩ => k0_off103 k
  | ⟨6, _⟩ => k0_off104 k
  | ⟨7, _⟩ => k0_off105 k
  | ⟨8, _⟩ => k0_off106 k
  | ⟨9, _⟩ => k0_off107 k
  | ⟨10, _⟩ => k0_off108 k
  | ⟨11, _⟩ => k0_off109 k
  | ⟨12, _⟩ => k0_off110 k
  | ⟨13, _⟩ => k0_off111 k
  | ⟨14, _⟩ => k0_off112 k
  | ⟨15, _⟩ => k0_off113 k
  | ⟨16, _⟩ => k0_off114 k
  | ⟨17, _⟩ => k0_off115 k
  | ⟨18, _⟩ => k0_off116 k
  | ⟨19, _⟩ => k0_off117 k
  | ⟨20, _⟩ => k0_off118 k
  | ⟨21, _⟩ => k0_off119 k
  | ⟨22, _⟩ => k0_off120 k
  | ⟨23, _⟩ => k0_off121 k
  | ⟨24, _⟩ => k0_off122 k
  | ⟨25, _⟩ => k0_off123 k
  | ⟨26, _⟩ => k0_off124 k
  | ⟨27, _⟩ => k0_off125 k
  | ⟨28, _⟩ => k0_off126 k
  | ⟨29, _⟩ => k0_off127 k
  | ⟨30, _⟩ => k0_off128 k
  | ⟨31, _⟩ => k0_off129 k
  | ⟨n + 32, h⟩ => absurd h (by omega)
omit [FloatOps F] in
theorem offs4_eq (k : Fin k0_t4_loop.trips) : ∀ i : Fin 32, offs4 k i = ![k.val, 16 * i.val]
  | ⟨0, _⟩ => k0_off98_eq k
  | ⟨1, _⟩ => k0_off99_eq k
  | ⟨2, _⟩ => k0_off100_eq k
  | ⟨3, _⟩ => k0_off101_eq k
  | ⟨4, _⟩ => k0_off102_eq k
  | ⟨5, _⟩ => k0_off103_eq k
  | ⟨6, _⟩ => k0_off104_eq k
  | ⟨7, _⟩ => k0_off105_eq k
  | ⟨8, _⟩ => k0_off106_eq k
  | ⟨9, _⟩ => k0_off107_eq k
  | ⟨10, _⟩ => k0_off108_eq k
  | ⟨11, _⟩ => k0_off109_eq k
  | ⟨12, _⟩ => k0_off110_eq k
  | ⟨13, _⟩ => k0_off111_eq k
  | ⟨14, _⟩ => k0_off112_eq k
  | ⟨15, _⟩ => k0_off113_eq k
  | ⟨16, _⟩ => k0_off114_eq k
  | ⟨17, _⟩ => k0_off115_eq k
  | ⟨18, _⟩ => k0_off116_eq k
  | ⟨19, _⟩ => k0_off117_eq k
  | ⟨20, _⟩ => k0_off118_eq k
  | ⟨21, _⟩ => k0_off119_eq k
  | ⟨22, _⟩ => k0_off120_eq k
  | ⟨23, _⟩ => k0_off121_eq k
  | ⟨24, _⟩ => k0_off122_eq k
  | ⟨25, _⟩ => k0_off123_eq k
  | ⟨26, _⟩ => k0_off124_eq k
  | ⟨27, _⟩ => k0_off125_eq k
  | ⟨28, _⟩ => k0_off126_eq k
  | ⟨29, _⟩ => k0_off127_eq k
  | ⟨30, _⟩ => k0_off128_eq k
  | ⟨31, _⟩ => k0_off129_eq k
  | ⟨n + 32, h⟩ => absurd h (by omega)
omit [FloatOps F] in
theorem offs4_inb (k : Fin k0_t4_loop.trips) : ∀ (i : Fin 32) (a : Fin 2), offs4 k i a + S1x16.size a ≤ S8x512.size a
  | ⟨0, _⟩ => k0_off98_inb k
  | ⟨1, _⟩ => k0_off99_inb k
  | ⟨2, _⟩ => k0_off100_inb k
  | ⟨3, _⟩ => k0_off101_inb k
  | ⟨4, _⟩ => k0_off102_inb k
  | ⟨5, _⟩ => k0_off103_inb k
  | ⟨6, _⟩ => k0_off104_inb k
  | ⟨7, _⟩ => k0_off105_inb k
  | ⟨8, _⟩ => k0_off106_inb k
  | ⟨9, _⟩ => k0_off107_inb k
  | ⟨10, _⟩ => k0_off108_inb k
  | ⟨11, _⟩ => k0_off109_inb k
  | ⟨12, _⟩ => k0_off110_inb k
  | ⟨13, _⟩ => k0_off111_inb k
  | ⟨14, _⟩ => k0_off112_inb k
  | ⟨15, _⟩ => k0_off113_inb k
  | ⟨16, _⟩ => k0_off114_inb k
  | ⟨17, _⟩ => k0_off115_inb k
  | ⟨18, _⟩ => k0_off116_inb k
  | ⟨19, _⟩ => k0_off117_inb k
  | ⟨20, _⟩ => k0_off118_inb k
  | ⟨21, _⟩ => k0_off119_inb k
  | ⟨22, _⟩ => k0_off120_inb k
  | ⟨23, _⟩ => k0_off121_inb k
  | ⟨24, _⟩ => k0_off122_inb k
  | ⟨25, _⟩ => k0_off123_inb k
  | ⟨26, _⟩ => k0_off124_inb k
  | ⟨27, _⟩ => k0_off125_inb k
  | ⟨28, _⟩ => k0_off126_inb k
  | ⟨29, _⟩ => k0_off127_inb k
  | ⟨30, _⟩ => k0_off128_inb k
  | ⟨31, _⟩ => k0_off129_inb k
  | ⟨n + 32, h⟩ => absurd h (by omega)

/-- The task on vector subcore `(L 0, L 1)` of device `d`: from its read share of the labels and its row of the
    partial sums to the row at the worker's lane sums. -/
theorem tile_body (hF : (K (F := F)).Facts) (O : CellTallies nD τ sig (HIx 1)) (W : Waits sig (HIx 1)) (hO : ∀ g, O g none = 0) :
    iprop(levAts (K (F := F)).L (K (F := F)).lev ∗ emp ∗ tileIn m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xW (Memref.isWhole_whole _) pW (Memref.isWhole_whole _)
            bW (Memref.isWhole_whole _) gW (Memref.isWhole_whole _)
            cc0_scratch2 cc0_scratch3 cc0_scratch4 cc0_scratch5 cc0_scoped0)
          fun _ => iprop(tileOut m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold tileIn
  iintro ⟨#Hlv, -, ⟨Hx, Hp⟩, ⟨⟨%fb, Hbuf⟩, ⟨%fg, Hstg⟩, Hbufs⟩, ⟨HsA, HsB, HsC, HsD, HsS, Hsems⟩, HO⟩
  ihave Hmw := ((K (F := F)).mayWaits_none (thr := V d (cV L) (jV L)) hO) $$ Hlv
  -- one read token of the labels per chunk transfer, the remainder kept aside
  ihave Hx4 := (Transfers.pointsTo_toks_split (qx (widL L)) 4) $$ Hx
  icases Hx4 with ⟨Hxr, Hxt⟩
  ihave Hxt' := (Entails.of_eq (bigSep_four (F := F) _)) $$ Hxt
  icases Hxt' with ⟨Hx0, Hx1, Hx2, Hx3⟩
  ihave Hx0' := (Entails.of_eq (pts_x (F := F) d L _ _).symm) $$ Hx0
  ihave Hx1' := (Entails.of_eq (pts_x (F := F) d L _ _).symm) $$ Hx1
  ihave Hx2' := (Entails.of_eq (pts_x (F := F) d L _ _).symm) $$ Hx2
  ihave Hx3' := (Entails.of_eq (pts_x (F := F) d L _ _).symm) $$ Hx3
  ihave Hp' := (Entails.of_eq (pts_pRow (F := F) d L _).symm) $$ Hp
  ihave Hb4 := (Entails.of_eq (bPts_parts (F := F) d L fb)) $$ Hbuf
  icases Hb4 with ⟨Hb0, Hb1, Hb2, Hb3⟩
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hg' := (Entails.of_eq (pts_g (F := F) d L _).symm) $$ Hstg
  sl_exec
  sl_for (linv (F := F) d L bChunk0 (bChunk0.view.writes (Elt F) bChunk0.view.junk [⟨Rect.whole S8x512, (xChunk L 0).view.read (Elt F) (m (xLoc d))⟩]) (xOf m d) (widL L) 0) $$ [Hb0']
  case region =>
    intro k acc
    unfold linv
    iintro ⟨%hacc, Hb⟩
    sl_exec
    sl_step
    isplitr
    · ipureintro
      subst hacc
      have hk8 : k.val < 8 := lt_of_lt_of_le k.isLt k0_t1_abs.2.1
      exact Value.trip_of_loads1 (F := F) (bChunk0).view (bChunk0.view.writes (Elt F) bChunk0.view.junk [⟨Rect.whole S8x512, (xChunk L 0).view.read (Elt F) (m (xLoc d))⟩]) L 0 (xOf m d)
        (View.read_writes_whole _ _ _) k.val hk8 (offs1 k) (offs1_eq k) (offs1_inb k)
    · iexact Hb
  · unfold linv
    isplitr
    · ipureintro
      show (_, _, _, _) = (Value.accVec _ _ 0 0, Value.accVec _ _ 1 0, Value.accVec _ _ 2 0, Value.accVec _ _ 3 0)
      rw [Value.accVec_zero, Value.accVec_zero, Value.accVec_zero, Value.accVec_zero]
      rfl
    · iexact Hb0'
  iintro %acc1 HI
  unfold linv
  icases HI with ⟨%hacc1, Hb0'⟩
  sl_exec
  sl_for (linv (F := F) d L bChunk1 (bChunk1.view.writes (Elt F) bChunk1.view.junk [⟨Rect.whole S8x512, (xChunk L 1).view.read (Elt F) (m (xLoc d))⟩]) (xOf m d) (widL L) 8) $$ [Hb1']
  case region =>
    intro k acc
    unfold linv
    iintro ⟨%hacc, Hb⟩
    sl_exec
    sl_step
    isplitr
    · ipureintro
      subst hacc
      have hk8 : k.val < 8 := lt_of_lt_of_le k.isLt k0_t2_abs.2.1
      exact Value.trip_of_loads2 (F := F) (bChunk1).view (bChunk1.view.writes (Elt F) bChunk1.view.junk [⟨Rect.whole S8x512, (xChunk L 1).view.read (Elt F) (m (xLoc d))⟩]) L 1 (xOf m d)
        (View.read_writes_whole _ _ _) k.val hk8 (offs2 k) (offs2_eq k) (offs2_inb k)
    · iexact Hb
  · unfold linv
    isplitr
    · ipureintro
      rw [hacc1, show Scf.trips k0_t1_loop.lb k0_t1_loop.ub k0_t1_loop.st = 8 from by decide +kernel]
      try rfl
    · iexact Hb1'
  iintro %acc2 HI
  unfold linv
  icases HI with ⟨%hacc2, Hb1'⟩
  sl_exec
  sl_for (linv (F := F) d L bChunk2 (bChunk2.view.writes (Elt F) bChunk2.view.junk [⟨Rect.whole S8x512, (xChunk L 2).view.read (Elt F) (m (xLoc d))⟩]) (xOf m d) (widL L) 16) $$ [Hb2']
  case region =>
    intro k acc
    unfold linv
    iintro ⟨%hacc, Hb⟩
    sl_exec
    sl_step
    isplitr
    · ipureintro
      subst hacc
      have hk8 : k.val < 8 := lt_of_lt_of_le k.isLt k0_t3_abs.2.1
      exact Value.trip_of_loads3 (F := F) (bChunk2).view (bChunk2.view.writes (Elt F) bChunk2.view.junk [⟨Rect.whole S8x512, (xChunk L 2).view.read (Elt F) (m (xLoc d))⟩]) L 2 (xOf m d)
        (View.read_writes_whole _ _ _) k.val hk8 (offs3 k) (offs3_eq k) (offs3_inb k)
    · iexact Hb
  · unfold linv
    isplitr
    · ipureintro
      rw [hacc2, show Scf.trips k0_t2_loop.lb k0_t2_loop.ub k0_t2_loop.st = 8 from by decide +kernel]
      try rfl
    · iexact Hb2'
  iintro %acc3 HI
  unfold linv
  icases HI with ⟨%hacc3, Hb2'⟩
  sl_exec
  sl_for (linv (F := F) d L bChunk3 (bChunk3.view.writes (Elt F) bChunk3.view.junk [⟨Rect.whole S8x512, (xChunk L 3).view.read (Elt F) (m (xLoc d))⟩]) (xOf m d) (widL L) 24) $$ [Hb3']
  case region =>
    intro k acc
    unfold linv
    iintro ⟨%hacc, Hb⟩
    sl_exec
    sl_step
    isplitr
    · ipureintro
      subst hacc
      have hk8 : k.val < 8 := lt_of_lt_of_le k.isLt k0_t4_abs.2.1
      exact Value.trip_of_loads4 (F := F) (bChunk3).view (bChunk3.view.writes (Elt F) bChunk3.view.junk [⟨Rect.whole S8x512, (xChunk L 3).view.read (Elt F) (m (xLoc d))⟩]) L 3 (xOf m d)
        (View.read_writes_whole _ _ _) k.val hk8 (offs4 k) (offs4_eq k) (offs4_inb k)
    · iexact Hb
  · unfold linv
    isplitr
    · ipureintro
      rw [hacc3, show Scf.trips k0_t3_loop.lb k0_t3_loop.ub k0_t3_loop.st = 8 from by decide +kernel]
      try rfl
    · iexact Hb3'
  iintro %acc4 HI
  unfold linv
  icases HI with ⟨%hacc4, Hb3'⟩
  sl_exec
  sl_step
  -- the labels' read share, its four tokens joined back
  ihave Hx0 := (Entails.of_eq (pts_x (F := F) d L _ _)) $$ Hx0'
  ihave Hx1 := (Entails.of_eq (pts_x (F := F) d L _ _)) $$ Hx1'
  ihave Hx2 := (Entails.of_eq (pts_x (F := F) d L _ _)) $$ Hx2'
  ihave Hx3 := (Entails.of_eq (pts_x (F := F) d L _ _)) $$ Hx3'
  ihave Hx := (Transfers.pointsTo_toks_join (qx (widL L)) 4) $$ [Hxr Hx0 Hx1 Hx2 Hx3]
  · isplitl [Hxr]; · iexact Hxr
    rw [bigSep_four]
    isplitl [Hx0]; · iexact Hx0
    isplitl [Hx1]; · iexact Hx1
    isplitl [Hx2]; · iexact Hx2
    iexact Hx3
  -- the worker's row of the partial sums, the scratch's chunks, the staging buffer
  ihave Hp := (Entails.of_eq (pts_pRow (F := F) d L _)) $$ Hp'
  ihave Hb0 := (Entails.of_eq (pts_b0 (F := F) d L _)) $$ Hb0'
  ihave Hb1 := (Entails.of_eq (pts_b1 (F := F) d L _)) $$ Hb1'
  ihave Hb2 := (Entails.of_eq (pts_b2 (F := F) d L _)) $$ Hb2'
  ihave Hb3 := (Entails.of_eq (pts_b3 (F := F) d L _)) $$ Hb3'
  ihave Hb := (bChunks_join (F := F) d L _ _ _ _) $$ [Hb0 Hb1 Hb2 Hb3]
  · isplitl [Hb0]; · iexact Hb0
    isplitl [Hb1]; · iexact Hb1
    isplitl [Hb2]; · iexact Hb2
    iexact Hb3
  ihave Hg := (Entails.of_eq (pts_g (F := F) d L _)) $$ Hg'
  unfold tileOut
  isplitl [Hx Hp]
  · isplitl [Hx]; · iexact Hx
    -- on the worker's row the written contents are the lane sums
    have hv : tile_body.sl.dma2 d L fg acc4 = fun j => laneSum (xOf m d) (widL L) ⟨(j 0).val, (j 0).isLt⟩ := by
      rw [hacc4, show Scf.trips k0_t4_loop.lb k0_t4_loop.ub k0_t4_loop.st = 8 from by decide +kernel]
      exact (Value.stage_read (F := F) fg _).trans (Value.acc_total (xOf m d) (widL L))
    have hrow : ∀ i ∈ prowSet (widL L), ((pRowK L).view.writes (Elt F) (m (pLoc d)) [⟨Rect.whole S16, tile_body.sl.dma2 d L fg acc4⟩]) i
        = (scOut (xOf m d) : Buf (Elt F) (pLoc d)) i :=
      fun i hi => Value.row_value_prow (F := F) L (xOf m d) (m (pLoc d)) (tile_body.sl.dma2 d L fg acc4) hv i hi
    iapply (Entails.of_eq (pointsTo_congr (ℓ := pLoc d) (I := prowSet (widL L)) (q := fullShare) hrow))
    iexact Hp
  isplitl [Hb Hg Hbufs]
  · isplitl [Hb]; · iexact Hb
    isplitl [Hg]; · iexists _; iexact Hg
    iexact Hbufs
  isplitl [HsA HsB HsC HsD HsS Hsems]
  · isplitl [HsA]; · iexact HsA
    isplitl [HsB]; · iexact HsB
    isplitl [HsC]; · iexact HsC
    isplitl [HsD]; · iexact HsD
    isplitl [HsS]; · iexact HsS
    iexact Hsems
  iexists (insert (SemLoc.dma cc0_scoped0.sem, (default : HIx 1)) (insert (SemLoc.dma cc0_scratch5.sem, (default : HIx 1))
    (insert (SemLoc.dma cc0_scratch4.sem, (default : HIx 1)) (insert (SemLoc.dma cc0_scratch3.sem, (default : HIx 1))
      (insert (SemLoc.dma cc0_scratch2.sem, (default : HIx 1)) W)))))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp
  · iexact HO

end Cert.Proof.KI

end
-- ==== Proof.TcData.lean ====
/-
  The two TensorCore pipelines' launch ghost state: per device, each pipeline's staging cells at their launch
  state with the duty tokens of the transfers its loop issues; the element of the rounds algebra that funds
  them all; and what the TensorCore still owes once the SparseCore call is over (nothing: there is no later
  call), with every recorded wait at or below level 8.
-/
import proofs.«209222_g37675453120884_cont_8to1_b_1946_16_alg».proof.Proof.Common

noncomputable section

namespace Cert.Proof.KI.Tc

open Cert.KernelIdeal Cert.KernelIdeal.Gen
open Cert.Proof.Spec Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- No pipeline has a prefetched table. -/
abbrev adm : (p : Fin 2) → (pcfgs (F := F) p).Adm := fun p => (cfgs p).toPCfg_adm

/-- The staging cells of the two pipelines are pairwise distinct. -/
theorem phinj : Function.Injective (Pipeline.cellOf (nD := nD) (τ := τ) (Pipeline.pin (pcfgs (F := F)) adm)) := cellOf_inj

/-- One pipeline's launch ghost state on device `d`: its cells' and its duty tokens. -/
abbrev ghostAt (p : Fin 2) (d : Dev nD) : sProp 𝕄 :=
  iprop(Pipeline.cellsGhost (Pipeline.pin (pcfgs (F := F)) adm) EP p d ∗ Pipeline.toksInit (Pipeline.pin (pcfgs (F := F)) adm) EP p d)

/-- The second pipeline's, which is what is left once the first region has run. -/
def tcGhost' (d : Dev nD) : sProp 𝕄 := ghostAt (F := F) 1 d

/-- Both pipelines'. -/
def tcGhost (d : Dev nD) : sProp 𝕄 := iprop(ghostAt (F := F) 0 d ∗ tcGhost' (F := F) d)

/-- The launch element: the rounds algebra's initial element at every staging cell and every transfer the two
    loops issue. -/
def uP : UP := initOf (Pipeline.cells (Pipeline.pin (pcfgs (F := F)) adm) phinj) (Pipeline.launchToks (Pipeline.pin (pcfgs (F := F)) adm) phinj)

/-- The launch element funds every device's ghost state of both pipelines. -/
theorem tcGhost_fund : (BI.own (EP (uP (F := F))) : sProp 𝕄) ⊢ |={Set.univ}=> bigSep Finset.univ fun d : Dev nD => tcGhost (F := F) d := by
  have hjoin : iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun d : Dev nD => tcGhost (F := F) d := by
    rw [← bigSep_sep']
    refine bigSep_mono fun c _ => ?_
    rw [bigSep_W1, bigSep_W1]
    unfold tcGhost tcGhost'
    show iprop((Pipeline.cellsGhost (Pipeline.pin (pcfgs (F := F)) adm) EP 0 c ∗ Pipeline.cellsGhost (Pipeline.pin (pcfgs (F := F)) adm) EP 1 c)
        ∗ (Pipeline.toksInit (Pipeline.pin (pcfgs (F := F)) adm) EP 0 c ∗ Pipeline.toksInit (Pipeline.pin (pcfgs (F := F)) adm) EP 1 c))
      ⊢ (iprop(ghostAt (F := F) 0 c ∗ ghostAt (F := F) 1 c) : sProp 𝕄)
    iintro ⟨⟨Hc0, Hc1⟩, Ht0, Ht1⟩
    isplitl [Hc0 Ht0]
    · isplitl [Hc0] <;> iassumption
    · isplitl [Hc1] <;> iassumption
  unfold uP
  iintro Hu
  imod (Pipeline.fund_ghost (Pipeline.pin (pcfgs (F := F)) adm) EP phinj) $$ Hu with ⟨Hg, Ht⟩
  imodintro
  iapply hjoin
  isplitl [Hg] <;> iassumption

/-- What the TensorCore owes after the SparseCore call, with its recorded waits at or below level 8. -/
abbrev tcOwes (d : Dev nD) : sProp 𝕄 :=
  iprop(∃ W, ⌜(K (F := F)).WBelow (SparseCore.T d) W 8⌝ ∗ owes (SparseCore.T d) ((K (F := F)).Otc d 1) W)

/-- There is no call after the first: nothing is owed. -/
theorem Otc_one (d : Dev nD) : (K (F := F)).Otc d 1 = 0 := by
  unfold SparseCore.Cfg.Otc
  refine Finset.sum_eq_zero fun q _ => ?_
  rw [if_neg]
  have := q.isLt; omega

/-- The zero offsets of a whole-buffer rectangle, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

open Idealize.ShloMosaic.TcCoe in
/-- The same at the TensorCore's thread of device `c`, as the regions' records state it. -/
abbrev owesTc (c : Dev nD) : sProp 𝕄 :=
  iprop(∃ W, ⌜(K (F := F)).WBelow (c : Thread nD τ) W 8⌝ ∗ owes (c : Thread nD τ) ((K (F := F)).Otc c 1) W)

open Idealize.ShloMosaic.TcCoe in
/-- The waits the TensorCore may have recorded: those at or below level 8. -/
def rec8 (c : Dev nD) : Set (SemLoc sig × HIx 1) := {pr | (K (F := F)).lev ((c : Thread nD τ), pr.1) pr.2 ≤ 8}

/-- Proof data of a pipeline a region does not run: consulted by nothing. -/
def datAny [FloatOps F] (cfg : Pipeline.Cfg sig Λ₀) (c : Dev nD) : Pipeline.Dat τ (Elt F) (HIx 1) ℕ UU ℕ cfg c where
  A _ := Classical.arbitrary _
  after _ _ := Classical.arbitrary _
  Φ _ := iprop(emp)
  q _ := fullShare
  owed _ := 0

end Cert.Proof.KI.Tc

end
-- ==== Proof.TcBody2.lean ====
/-
  The combining kernel's body: it loads the 32 × 16 partial sums and the one-element head sum, and stores the
  2 × 2 result computed from them over the whole output buffer; the inputs' buffers are left as they were.
-/
import proofs.«209222_g37675453120884_cont_8to1_b_1946_16_alg».proof.Proof.TcData
import proofs.«209222_g37675453120884_cont_8to1_b_1946_16_alg».proof.Proof.Gen.KernelIdeal.Skeleton
import Idealize.ShloMosaic.Lib.Pipeline.FrameBody
import Idealize.ShloMosaic.Lib.Tactic

noncomputable section

namespace Cert.Proof.KI.Tc

open Cert.KernelIdeal Cert.KernelIdeal.Gen
open Cert.Proof.Spec Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-- The whole 2 × 2 buffer as a rectangle. -/
abbrev r2 : Rect S2x2 := Rect.unit (s := S2x2) ![0, 0] S2x2.size inb_S2x2_S2x2_0_0
abbrev r2a : Rect S32x16 := Rect.unit (s := S32x16) ![0, 0] S32x16.size inb_S32x16_S32x16_0_0
abbrev r2b : Rect S1x1 := Rect.unit (s := S1x1) ![0, 0] S1x1.size inb_S1x1_S1x1_0_0

/-- What the body leaves in the output's buffer: its one store, of the payload of the two loaded inputs. -/
def out2 (x0 : Vec F S32x16 .i32) (x1 : Vec F S1x1 .i32) : Vec F S2x2 .i32 :=
  View.canon [⟨r2, k2_pay1 (View.ld x0 r2a) (View.ld x1 r2b)⟩]

/-- The store covers the buffer. -/
theorem cover2 (p0 : Vec F S2x2 .i32) (y : S2x2.Idx) :
    ∃ pc ∈ ([⟨r2, p0⟩] : List (View.Piece (Elt F) S2x2 .i32)), y ∈ pc.1.set :=
  View.cover_of_tiled [⟨r2, p0⟩] S2x2.size (by rfl) y

set_option maxHeartbeats 1000000 in
/-- The body on whole buffers: the inputs' at `x0`, `x1`, the output's at anything, to the inputs' unchanged and
    the output's at `out2 x0 x1`. -/
theorem sound_kernel2 (c : Dev nD) (E : Set ℕ) (arg0 : Memref sig .tc .vmem S32x16 .i32) (harg0 : arg0.IsWhole)
    (arg1 : Memref sig .tc .vmem S1x1 .i32) (harg1 : arg1.IsWhole) (arg2 : Memref sig .tc .vmem S2x2 .i32) (harg2 : arg2.IsWhole)
    (x0 : Vec F S32x16 .i32) (x1 : Vec F S1x1 .i32) (Kk : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ Kk ⟨⟩))
      ⊢ wp frame (wpE (defs₀ (F := F)) Variants.none c none) E (cc2__combine_kernel arg0 harg0 arg1 harg1 arg2 harg2) Kk := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Cert.Proof.KI.Tc

end
-- ==== Proof.TcDat2.lean ====
/-
  The proof data of the combining pipeline (one grid point; the two inputs fetched, the output written back):
  what each window's buffer holds before and after the body, the body obligation, and what the write-back
  leaves in the output array.
-/
import proofs.«209222_g37675453120884_cont_8to1_b_1946_16_alg».proof.Proof.TcBody2
import Idealize.ShloMosaic.Lib.Pipeline.Value

noncomputable section

namespace Cert.Proof.KI.Tc

open Cert.KernelIdeal Cert.KernelIdeal.Gen
open Cert.Proof.Spec Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

section Data

variable (pv : (c : Dev nD) → Buf (Elt F) ((c : Thread nD τ).loc main_v0))
  (tv : (c : Dev nD) → Buf (Elt F) ((c : Thread nD τ).loc main_v1))
  (ov : (c : Dev nD) → Buf (Elt F) ((c : Thread nD τ).loc main_v2))

/-- The inputs' blocks at the point, read off their arrays. -/
def blk2_0 (c : Dev nD) (t : Fin cfg2.N) : ((cfg2.win 0).xblock (cfg2.grid.coords t)).Idx → Elt F (cfg2.win 0).elt :=
  ((cfg2.win 0).blk t).view.read (Elt F) (pv c)
def blk2_1 (c : Dev nD) (t : Fin cfg2.N) : ((cfg2.win 1).xblock (cfg2.grid.coords t)).Idx → Elt F (cfg2.win 1).elt :=
  ((cfg2.win 1).blk t).view.read (Elt F) (tv c)

/-- The proof data: the arrays at entry; after the body each input's buffer at its block and the output's at the
    body's result; the invariant the scoped buffers no window stages; nothing owed. -/
def dat2 (c : Dev nD) : Dat τ (Elt F) (HIx 1) ℕ UU ℕ cfg2 c where
  A w := match w with
    | ⟨0, _⟩ => pv c
    | ⟨1, _⟩ => tv c
    | ⟨2, _⟩ => ov c
  after w t := match w with
    | ⟨0, _⟩ => blk2_0 pv c t
    | ⟨1, _⟩ => blk2_1 tv c t
    | ⟨2, _⟩ => out2 (blk2_0 pv c t) (blk2_1 tv c t)
  Φ _ := Pipeline.scopedRest (Ix := HIx 1) (Name := ℕ) (U := UU) (Lvl := ℕ) (Val := Elt F) spec2 c
  q _ := fullShare
  owed _ := 0
  recorded _ := rec8 (F := F) c

theorem A2_0 (c : Dev nD) : (dat2 pv tv ov c).A 0 = pv c := by dsimp only [dat2]
theorem A2_1 (c : Dev nD) : (dat2 pv tv ov c).A 1 = tv c := by dsimp only [dat2]
theorem A2_2 (c : Dev nD) : (dat2 pv tv ov c).A 2 = ov c := by dsimp only [dat2]
theorem after2_0 (c : Dev nD) (t : Fin cfg2.N) : (dat2 pv tv ov c).after 0 t = blk2_0 pv c t := by dsimp only [dat2]
theorem after2_1 (c : Dev nD) (t : Fin cfg2.N) : (dat2 pv tv ov c).after 1 t = blk2_1 tv c t := by dsimp only [dat2]
theorem after2_2 (c : Dev nD) (t : Fin cfg2.N) : (dat2 pv tv ov c).after 2 t = out2 (blk2_0 pv c t) (blk2_1 tv c t) := by dsimp only [dat2]

/-- Each input's buffer holds its block when the body runs. -/
theorem before2_0 (c : Dev nD) (t : Fin cfg2.N) (d) : (dat2 pv tv ov c).before 0 t d = blk2_0 pv c t :=
  ((dat2 pv tv ov c).before_in_eq_fetched 0 rfl (fun _ => rfl) (fun _ _ _ => rfl)
    (fun t => by rw [after2_0]; unfold Dat.blockOf blk2_0; rw [A2_0]; try rfl) t d).trans
    (by unfold Dat.fetched Dat.blockOf blk2_0; rw [A2_0]; try rfl)
theorem before2_1 (c : Dev nD) (t : Fin cfg2.N) (d) : (dat2 pv tv ov c).before 1 t d = blk2_1 tv c t :=
  ((dat2 pv tv ov c).before_in_eq_fetched 1 rfl (fun _ => rfl) (fun _ _ _ => rfl)
    (fun t => by rw [after2_1]; unfold Dat.blockOf blk2_1; rw [A2_1]; try rfl) t d).trans
    (by unfold Dat.fetched Dat.blockOf blk2_1; rw [A2_1]; try rfl)

/-- What the body is called with at the point, -/
def bodyPre2 (c : Dev nD) (t : Fin cfg2.N) : sProp 𝕄 :=
  iprop((dat2 pv tv ov c).Φ t.castSucc ∗ (dat2 pv tv ov c).owesAt none t.castSucc
    ∗ (∃ d, owns (c : Thread nD τ) (st2_0 t) fullShare ((dat2 pv tv ov c).before 0 t d))
    ∗ (∃ d, owns (c : Thread nD τ) (st2_1 t) fullShare ((dat2 pv tv ov c).before 1 t d))
    ∗ (∃ d, owns (c : Thread nD τ) (st2_2 t) fullShare ((dat2 pv tv ov c).before 2 t d)))

/-- and what it returns. -/
def bodyPost2 (c : Dev nD) (t : Fin cfg2.N) : sProp 𝕄 :=
  iprop((dat2 pv tv ov c).Φ t.succ ∗ (dat2 pv tv ov c).owesAt none t.succ
    ∗ owns (c : Thread nD τ) (st2_0 t) fullShare ((dat2 pv tv ov c).after 0 t)
    ∗ owns (c : Thread nD τ) (st2_1 t) fullShare ((dat2 pv tv ov c).after 1 t)
    ∗ owns (c : Thread nD τ) (st2_2 t) fullShare ((dat2 pv tv ov c).after 2 t))

theorem sound_body2 (c : Dev nD) (t : Fin cfg2.N) :
    bodyPre2 pv tv ov c t ⊢ wp frame (wpE (defs₀ (F := F)) Variants.none c none) Set.univ (bodyAt2 t) (fun _ => bodyPost2 pv tv ov c t) := by
  unfold bodyPre2 bodyPost2 bodyAt2
  simp only [before2_0, before2_1]
  rw [show (dat2 pv tv ov c).Φ t.succ = (dat2 pv tv ov c).Φ t.castSucc from rfl,
    show (dat2 pv tv ov c).owesAt none t.succ = (dat2 pv tv ov c).owesAt none t.castSucc from rfl,
    after2_0, after2_1, after2_2]
  iintro ⟨HΦ, Ho, ⟨%d0, H0⟩, ⟨%d1, H1⟩, ⟨%d2, H2⟩⟩
  iapply (sound_kernel2 c Set.univ _ _ _ _ _ _ (blk2_0 pv c t) (blk2_1 tv c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation. -/
theorem body_obligation2 (c : Dev nD) : BodyObligation (dat2 (F := F) pv tv ov c) (defs₀ (F := F)) Variants.none none Set.univ := fun t => by
  rw [bigSep_W2, bigSep_W2]
  exact sound_body2 pv tv ov c t

/-- The arrays the region leaves: the inputs as they were, the output at what the write-back leaves. -/
theorem arrAt2_0 (c : Dev nD) (n : Nat) : (dat2 pv tv ov c).arrAt 0 n = pv c :=
  ((dat2 pv tv ov c).arrAt_in 0 rfl n).trans (A2_0 pv tv ov c)
theorem arrAt2_1 (c : Dev nD) (n : Nat) : (dat2 pv tv ov c).arrAt 1 n = tv c :=
  ((dat2 pv tv ov c).arrAt_in 1 rfl n).trans (A2_1 pv tv ov c)

/-- A window whose block is its whole array reads the array as it is. -/
theorem blk2_0_eq (c : Dev nD) (t : Fin cfg2.N) : blk2_0 pv c t = pv c := by
  funext j
  show pv c (((cfg2.win 0).blk t).view.emb j) = pv c j
  refine congrArg (pv c) ?_
  funext a; apply Fin.ext
  match a with
  | ⟨0, _⟩ => show 0 * 32 + 1 * (j 0).val = (j 0).val; omega
  | ⟨1, _⟩ => show 0 * 16 + 1 * (j 1).val = (j 1).val; omega
theorem blk2_1_eq (c : Dev nD) (t : Fin cfg2.N) : blk2_1 tv c t = tv c := by
  funext j
  show tv c (((cfg2.win 1).blk t).view.emb j) = tv c j
  refine congrArg (tv c) ?_
  funext a; apply Fin.ext
  match a with
  | ⟨0, _⟩ => show 0 * 1 + 1 * (j 0).val = (j 0).val; omega
  | ⟨1, _⟩ => show 0 * 1 + 1 * (j 1).val = (j 1).val; omega

/-- The output array after the region: the body's result of the two input arrays. -/
theorem arrAt2_2 (c : Dev nD) (n : Nat) (hn : n = cfg2.N) :
    (dat2 pv tv ov c).arrAt 2 n = k2_pay1 (F := F) (pv c) (tv c) := by
  subst hn
  have hemb : ∀ (t : Fin cfg2.N) (j : ((cfg2.win 2).xblock (cfg2.grid.coords t)).Idx), ((cfg2.win 2).blk t).view.emb j = j := by
    intro t j
    funext a; apply Fin.ext
    match a with
    | ⟨0, _⟩ => show 0 * 2 + 1 * (j 0).val = (j 0).val; omega
    | ⟨1, _⟩ => show 0 * 2 + 1 * (j 1).val = (j 1).val; omega
  refine (dat2 pv tv ov c).arrAt_eq_of_cover 2 _ (fun t _ => ?_) (fun i => ⟨t2_0, flush2_2 t2_0, ?_⟩)
  · show (cfg2.win 2).cut (cfg2.grid.coords t) ((dat2 pv tv ov c).after 2 t) = _
    rw [after2_2, blk2_0_eq, blk2_1_eq]
    unfold out2
    rw [View.canon_unit_zero hz2]
    simp only [View.ld_unit_zero (S := S32x16) hz2, View.ld_unit_zero (S := S1x1) hz2]
    funext j
    show k2_pay1 (F := F) (pv c) (tv c) j = k2_pay1 (F := F) (pv c) (tv c) (((cfg2.win 2).blk t).view.emb j)
    rw [hemb]
  · have h := (((cfg2.win 2).blk t2_0).view).emb_mem_set i
    rw [hemb] at h
    exact h

end Data

end Cert.Proof.KI.Tc

end
-- ==== Proof.TcRegion2.lean ====
/-
  The second TensorCore region as one step of the TensorCore's program: the region's record over the thread
  state "the three arrays and what the TensorCore owes", and the step itself.
-/
import proofs.«209222_g37675453120884_cont_8to1_b_1946_16_alg».proof.Proof.TcDat2

noncomputable section

namespace Cert.Proof.KI.Tc

open Cert.KernelIdeal Cert.KernelIdeal.Gen
open Cert.Proof.Spec Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-! ## The proof data family -/

section Region

variable (pv : (c : Dev nD) → Buf (Elt F) ((c : Thread nD τ).loc main_v0))
  (tv : (c : Dev nD) → Buf (Elt F) ((c : Thread nD τ).loc main_v1))
  (ov : (c : Dev nD) → Buf (Elt F) ((c : Thread nD τ).loc main_v2))

/-- Every pipeline's proof data when the second region runs: a literal match. -/
def pdats2 : (p : Fin 2) → (c : Dev nD) → Dat τ (Elt F) (HIx 1) ℕ UU ℕ (Pipeline.pin (pcfgs (F := F)) adm p) c
  | ⟨0, _⟩ => fun c => datAny cfg1 c
  | ⟨1, _⟩ => fun c => dat2 pv tv ov c

set_option backward.isDefEq.respectTransparency.types false in
/-- The second region over the thread state "the three arrays and what the TensorCore owes". -/
def reg2 : Pipeline.RegionSeg (pcfgs (F := F)) adm (pdats2 pv tv ov) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 pv tv ov c).loose
  hwaits := Pipeline.hwaits_of_owed_zero _ _ _ _ (K (F := F)).L (K (F := F)).lev 1 fun _ _ => rfl
  pre c := iprop(owesTc (F := F) c ∗ (((c : Thread nD τ).loc main_v0) ↦{fullShare} pv c) ∗ (((c : Thread nD τ).loc main_v1) ↦{fullShare} tv c)
    ∗ (((c : Thread nD τ).loc main_v2) ↦{fullShare} ov c))
  post c := iprop(owesTc (F := F) c ∗ (((c : Thread nD τ).loc main_v0) ↦{fullShare} pv c) ∗ (((c : Thread nD τ).loc main_v1) ↦{fullShare} tv c)
    ∗ (((c : Thread nD τ).loc main_v2) ↦{fullShare} k2_pay1 (F := F) (pv c) (tv c)))
  X _ := iprop(⌜True⌝)
  Y _ := iprop(⌜True⌝)
  Z _ := iprop(⌜True⌝)
  hentry c := by
    rw [Pipeline.ownSems0_none]
    rw [Pipeline.arrays_eq (Pipeline.pin (pcfgs (F := F)) adm) (pdats2 pv tv ov) 1 c arr_whole2 ((pdats2 pv tv ov 1 c).share_full fun _ => rfl), bigSep_W2]
    iintro ⟨⟨Ho, Hp, Ht, Hf⟩, -, -⟩
    imodintro
    isplitl [Hp Ht Hf]
    · isplitl [Hp]; · iexact Hp
      isplitl [Ht]; · iexact Ht
      iexact Hf
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, %hW, HO⟩; iexists W; isplitr; · ipureintro; exact fun pr hpr => Or.inl (hW pr hpr)
      rw [Otc_one]; iexact HO
    isplitr <;> (ipureintro; trivial)
  hin c := by
    rw [show (pdats2 pv tv ov 1 c).Φ 0 = Pipeline.scopedRest (Ix := HIx 1) (Name := ℕ) (U := UU) (Lvl := ℕ) (Val := Elt F) spec2 c from rfl]
    iintro ⟨-, -, Hr⟩
    iexact Hr
  hout c := by
    rw [Pipeline.ownSems0_none, show (pdats2 pv tv ov 1 c).Φ (Fin.last _) = Pipeline.scopedRest (Ix := HIx 1) (Name := ℕ) (U := UU) (Lvl := ℕ) (Val := Elt F) spec2 c from rfl]
    iintro Hr
    isplitr; · ipureintro; trivial
    isplitr; · iempintro
    iexact Hr
  hexit c := by
    rw [Pipeline.arrays_eq (Pipeline.pin (pcfgs (F := F)) adm) (pdats2 pv tv ov) 1 c arr_whole2 ((pdats2 pv tv ov 1 c).share_full fun _ => rfl), bigSep_W2]
    rw [show (pdats2 pv tv ov 1 c).arrAt 0 (Pipeline.pin (pcfgs (F := F)) adm 1).N = pv c from arrAt2_0 pv tv ov c _,
      show (pdats2 pv tv ov 1 c).arrAt 1 (Pipeline.pin (pcfgs (F := F)) adm 1).N = tv c from arrAt2_1 pv tv ov c _,
      show (pdats2 pv tv ov 1 c).arrAt 2 (Pipeline.pin (pcfgs (F := F)) adm 1).N = k2_pay1 (F := F) (pv c) (tv c) from arrAt2_2 pv tv ov c _ rfl]
    iintro ⟨⟨Hp, Ht, Hf⟩, HO, -, -⟩
    imodintro
    isplitl [HO]
    · unfold Pipeline.Dat.owesAt Pipeline.owesWithin
      icases HO with ⟨%W, %hW, HO⟩; iexists W; isplitr
      · ipureintro
        intro pr hpr
        rcases hW hpr with h | ⟨w, s, rfl⟩
        · exact h
        · exact Nat.zero_le _
      rw [Otc_one]; iexact HO
    isplitl [Hp]; · iexact Hp
    isplitl [Ht]; · iexact Ht
    iexact Hf

set_option backward.isDefEq.respectTransparency.types false in
theorem reg2_pre (c : Dev nD) : (reg2 pv tv ov).pre c
    = iprop(owesTc (F := F) c ∗ (((c : Thread nD τ).loc main_v0) ↦{fullShare} pv c) ∗ (((c : Thread nD τ).loc main_v1) ↦{fullShare} tv c)
      ∗ (((c : Thread nD τ).loc main_v2) ↦{fullShare} ov c)) := rfl
set_option backward.isDefEq.respectTransparency.types false in
theorem reg2_post (c : Dev nD) : (reg2 pv tv ov).post c
    = iprop(owesTc (F := F) c ∗ (((c : Thread nD τ).loc main_v0) ↦{fullShare} pv c) ∗ (((c : Thread nD τ).loc main_v1) ↦{fullShare} tv c)
      ∗ (((c : Thread nD τ).loc main_v2) ↦{fullShare} k2_pay1 (F := F) (pv c) (tv c))) := rfl

end Region

/-! ## The region as a step of the TensorCore's program -/

set_option backward.isDefEq.respectTransparency.types false in
/-- The second region: the combined result lands in the 2 × 2 array. -/
theorem region2 (d : Dev nD) (p : IVec SP 32) (t : IVec S11 32) :
    iprop(levAts (K (F := F)).L (K (F := F)).lev ∗ tcOwes (F := F) d ∗ boundary (SparseCore.T d) ∗ (pLoc d ↦{fullShare} p) ∗ (tLoc d ↦{fullShare} t)
        ∗ (∃ f, oLoc d ↦{fullShare} f) ∗ tcGhost' (F := F) d)
      ⊢ wp frame (wpE ((K (F := F)).defs (D (F := F))) 𝒱 (SparseCore.T d) none) Set.univ
          (Prog.lift (.customCall (SparseCore.inner (Pipeline.entry (1 : Fin 2))) ()))
          fun _ => iprop(tcOwes (F := F) d ∗ boundary (SparseCore.T d) ∗ (pLoc d ↦{fullShare} p) ∗ (tLoc d ↦{fullShare} t)
            ∗ (oLoc d ↦{fullShare} k2_pay1 (F := F) p t)) := by
  iintro ⟨Hlev, Ho, Hb, Hp, Ht, ⟨%f, Hf⟩, Hg⟩
  iapply ((K (F := F)).wp_liftProg (D (F := F)) 𝒱 (SparseCore.T d) Set.univ none (Prog.lift (.customCall (Pipeline.entry (1 : Fin 2)) ())) _)
  iapply (Pipeline.RegionSeg.wp (pcfgs (F := F)) adm (pdats2 (fun _ => p) (fun _ => t) (fun _ => f)) none phinj EP defs₀ 𝒱₀
    (K (F := F)).L (K (F := F)).lev (reg2 (fun _ => p) (fun _ => t) (fun _ => f)) d none (fun _ h => nomatch h) (fun x => .ret x) _)
  rw [reg2_pre, reg2_post, wp_ret]
  isplitr [Hlev Ho Hb Hp Ht Hf Hg]
  · iintro ⟨Hb, Ho, Hp, Ht, Hf⟩
    imodintro
    isplitl [Ho]; · iexact Ho
    isplitl [Hb]; · iexact Hb
    isplitl [Hp]; · iexact Hp
    isplitl [Ht]; · iexact Ht
    iexact Hf
  isplitl [Hb]; · iexact Hb
  isplitl [Ho Hp Ht Hf]
  · isplitl [Ho]; · iexact Ho
    isplitl [Hp]; · iexact Hp
    isplitl [Ht]; · iexact Ht
    iexact Hf
  isplitl [Hlev]; · iexact Hlev
  unfold tcGhost'
  iexact Hg

end Cert.Proof.KI.Tc

end
-- ==== Proof.TcBody1.lean ====
/-
  The summing kernel's body at a grid point, in its three cases: at the first point it zeroes the carried
  row of 512 partial sums before adding the block's column sums to it; at the middle points it only adds; at
  the last point it adds and then stores the total of the row into the one-element output buffer.
-/
import proofs.«209222_g37675453120884_cont_8to1_b_1946_16_alg».proof.Proof.TcData
import proofs.«209222_g37675453120884_cont_8to1_b_1946_16_alg».proof.Proof.Gen.KernelIdeal.Skeleton
import Idealize.ShloMosaic.Lib.Pipeline.FrameBody
import Idealize.ShloMosaic.Lib.Pipeline.Value
import Idealize.ShloMosaic.Lib.Tactic

noncomputable section

namespace Cert.Proof.KI.Tc

open Cert.KernelIdeal Cert.KernelIdeal.Gen
open Cert.Proof.Spec Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-- The condition of the body's first conditional: the point is the first. -/
abbrev cond1 (i : grid1.Coords) : Prop :=
  (Scalar.cmpi .ne (Scalar.extui (Scalar.cmpi .eq (BitVec.ofNat 32 (i 0).val) 0#32)) 0#32) = 1#1
/-- The condition of its second: the point is the last. -/
abbrev cond2 (i : grid1.Coords) : Prop := k1_cond2 i = 1#1

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val = 5 :=
  (by decide +kernel : ∀ t : Fin grid1.N, cond2 (grid1.coords t) ↔ t.val = 5)

abbrev r1s : Rect S1x512 := Rect.unit (s := S1x512) ![0, 0] S1x512.size inb_S1x512_S1x512_0_0
abbrev r1x : Rect S1x512x512 := Rect.unit (s := S1x512x512) ![0, 0, 0] S1x512x512.size inb_S1x512x512_S1x512x512_0_0_0
abbrev r1o : Rect S1x1 := Rect.unit (s := S1x1) ![0, 0] S1x1.size inb_S1x1_S1x1_0_0

/-- One store through the whole row covers it. -/
theorem cover1s (p0 : Vec F S1x512 .i32) (y : S1x512.Idx) :
    ∃ pc ∈ ([⟨r1s, p0⟩] : List (View.Piece (Elt F) S1x512 .i32)), y ∈ pc.1.set :=
  View.cover_of_tiled [⟨r1s, p0⟩] S1x512.size (by rfl) y
theorem cover1o (p0 : Vec F S1x1 .i32) (y : S1x1.Idx) :
    ∃ pc ∈ ([⟨r1o, p0⟩] : List (View.Piece (Elt F) S1x1 .i32)), y ∈ pc.1.set :=
  View.cover_of_tiled [⟨r1o, p0⟩] S1x1.size (by rfl) y

set_option maxHeartbeats 1000000 in
/-- A middle point: the row becomes the row plus the block's column sums; the output buffer is untouched. -/
theorem sound_kernel1_B (c : Dev nD) (E : Set ℕ) (i : grid1.Coords) (arg1 : Memref sig .tc .vmem S1x512x512 .i32) (harg1 : arg1.IsWhole)
    (arg2 : Memref sig .tc .vmem S1x1 .i32) (harg2 : arg2.IsWhole) (arg3 : Memref sig .tc .vmem S1x512 .i32) (harg3 : arg3.IsWhole)
    (hc1 : ¬ cond1 i) (hc2 : ¬ cond2 i)
    (x0 : Vec F S1x512x512 .i32) (s : Vec F S1x512 .i32) (Kk : PUnit → sProp 𝕄) :
    iprop(owns (c : Thread nD τ) arg1 fullShare x0 ∗ (∃ d, owns (c : Thread nD τ) arg2 fullShare d) ∗ owns (c : Thread nD τ) arg3 fullShare s
        ∗ (iprop(owns (c : Thread nD τ) arg1 fullShare x0 ∗ (∃ d, owns (c : Thread nD τ) arg2 fullShare d)
            ∗ owns (c : Thread nD τ) arg3 fullShare (k1_pay2 s x0)) -∗ Kk ⟨⟩))
      ⊢ wp frame (wpE (defs₀ (F := F)) Variants.none c none) E (cc1__tc_sum_kernel i arg1 harg1 arg2 harg2 arg3 harg3) Kk := by
  simp only [cc1__tc_sum_kernel_eq_skeleton]; unfold cc1__tc_sum_kernel_skel
  unfold owns
  iintro ⟨⟨%f0, %hf0, H0⟩, ⟨%d2, %f2, %hf2, H2⟩, ⟨%f3, %hf3, H3⟩, Hk⟩
  subst hf0; subst hf3
  sl_exec (disch := first | exact hc1 | exact hc2)
  sl_step
  iapply Hk
  isplitl [H0]
  · iexists f0; isplitr; · ipureintro; rfl
    iexact H0
  isplitl [H2]
  · iexists d2, f2; isplitr; · ipureintro; exact hf2
    iexact H2
  iexists _; isplitr
  swap; · iexact H3
  ipureintro
  rw [View.read_writes_eq_canon _ _ _ (cover1s _), View.canon_unit_zero hz2]
  simp only [View.readAt_eq_ld, View.ld_unit_zero (S := S1x512) hz2, View.ld_unit_zero (S := S1x512x512) hz3]

set_option maxHeartbeats 1000000 in
/-- The first point: the row is zeroed, then becomes the block's column sums added to zero; the output buffer is untouched. -/
theorem sound_kernel1_A (c : Dev nD) (E : Set ℕ) (i : grid1.Coords) (arg1 : Memref sig .tc .vmem S1x512x512 .i32) (harg1 : arg1.IsWhole)
    (arg2 : Memref sig .tc .vmem S1x1 .i32) (harg2 : arg2.IsWhole) (arg3 : Memref sig .tc .vmem S1x512 .i32) (harg3 : arg3.IsWhole)
    (hc1 : cond1 i) (hc2 : ¬ cond2 i)
    (x0 : Vec F S1x512x512 .i32) (Kk : PUnit → sProp 𝕄) :
    iprop(owns (c : Thread nD τ) arg1 fullShare x0 ∗ (∃ d, owns (c : Thread nD τ) arg2 fullShare d) ∗ (∃ s, owns (c : Thread nD τ) arg3 fullShare s)
        ∗ (iprop(owns (c : Thread nD τ) arg1 fullShare x0 ∗ (∃ d, owns (c : Thread nD τ) arg2 fullShare d)
            ∗ owns (c : Thread nD τ) arg3 fullShare (k1_pay2 k1_pay1 x0)) -∗ Kk ⟨⟩))
      ⊢ wp frame (wpE (defs₀ (F := F)) Variants.none c none) E (cc1__tc_sum_kernel i arg1 harg1 arg2 harg2 arg3 harg3) Kk := by
  simp only [cc1__tc_sum_kernel_eq_skeleton]; unfold cc1__tc_sum_kernel_skel
  unfold owns
  iintro ⟨⟨%f0, %hf0, H0⟩, ⟨%d2, %f2, %hf2, H2⟩, ⟨%s, %f3, -, H3⟩, Hk⟩
  subst hf0
  sl_exec (disch := first | exact hc1 | exact hc2)
  sl_step
  iapply Hk
  isplitl [H0]
  · iexists f0; isplitr; · ipureintro; rfl
    iexact H0
  isplitl [H2]
  · iexists d2, f2; isplitr; · ipureintro; exact hf2
    iexact H2
  iexists _; isplitr
  swap; · iexact H3
  ipureintro
  sl_unfold_run_names
  rw [View.read_writes_eq_canon _ _ _ (fun y => ⟨_, List.mem_cons_self, View.mem_set_unit_zero hz2 inb_S1x512_S1x512_0_0 y⟩),
    View.canon_cons_unit_zero hz2, View.readCov_unit_zero _ hz2]
  simp only [View.readAt_eq_ld, View.ld_unit_zero (S := S1x512x512) hz3]

set_option maxHeartbeats 1000000 in
/-- The last point: the row becomes the row plus the block's column sums, and the output buffer the row's total. -/
theorem sound_kernel1_C (c : Dev nD) (E : Set ℕ) (i : grid1.Coords) (arg1 : Memref sig .tc .vmem S1x512x512 .i32) (harg1 : arg1.IsWhole)
    (arg2 : Memref sig .tc .vmem S1x1 .i32) (harg2 : arg2.IsWhole) (arg3 : Memref sig .tc .vmem S1x512 .i32) (harg3 : arg3.IsWhole)
    (hc1 : ¬ cond1 i) (hc2 : cond2 i)
    (x0 : Vec F S1x512x512 .i32) (s : Vec F S1x512 .i32) (Kk : PUnit → sProp 𝕄) :
    iprop(owns (c : Thread nD τ) arg1 fullShare x0 ∗ (∃ d, owns (c : Thread nD τ) arg2 fullShare d) ∗ owns (c : Thread nD τ) arg3 fullShare s
        ∗ (iprop(owns (c : Thread nD τ) arg1 fullShare x0 ∗ owns (c : Thread nD τ) arg2 fullShare (k1_pay3 (F := F) (k1_pay2 s x0))
            ∗ owns (c : Thread nD τ) arg3 fullShare (k1_pay2 s x0)) -∗ Kk ⟨⟩))
      ⊢ wp frame (wpE (defs₀ (F := F)) Variants.none c none) E (cc1__tc_sum_kernel i arg1 harg1 arg2 harg2 arg3 harg3) Kk := by
  simp only [cc1__tc_sum_kernel_eq_skeleton]; unfold cc1__tc_sum_kernel_skel
  unfold owns
  iintro ⟨⟨%f0, %hf0, H0⟩, ⟨%d2, %f2, %hf2, H2⟩, ⟨%f3, %hf3, H3⟩, Hk⟩
  subst hf0; subst hf3
  sl_exec (disch := first | exact hc1 | exact hc2)
  sl_step
  iapply Hk
  isplitl [H0]
  · iexists f0; isplitr; · ipureintro; rfl
    iexact H0
  isplitl [H2]
  · iexists _; isplitr
    swap; · iexact H2
    ipureintro
    sl_unfold_run_names
    rw [View.read_writes_eq_canon _ _ _ (cover1o _), View.canon_unit_zero hz2, View.readCov_unit_zero _ hz2]
    simp only [View.readAt_eq_ld, View.ld_unit_zero (S := S1x512) hz2, View.ld_unit_zero (S := S1x512x512) hz3]
  iexists _; isplitr
  swap; · iexact H3
  ipureintro
  sl_unfold_run_names
  rw [View.read_writes_eq_canon _ _ _ (cover1s _), View.canon_unit_zero hz2]
  simp only [View.readAt_eq_ld, View.ld_unit_zero (S := S1x512) hz2, View.ld_unit_zero (S := S1x512x512) hz3]

end Cert.Proof.KI.Tc

end
-- ==== Proof.TcVal1.lean ====
/-
  The values of the summing kernel, as functions of the label array `x`: block `n` of `x` as the body loads it,
  the carried row of 512 partial sums after `n` grid points (zero, then the row plus the block's column sums,
  point by point).
-/
import proofs.«209222_g37675453120884_cont_8to1_b_1946_16_alg».proof.Proof.Spec
import proofs.«209222_g37675453120884_cont_8to1_b_1946_16_alg».proof.Proof.Gen.KernelIdeal.Skeleton
import Idealize.ShloMosaic.Lib.ValueIdx

noncomputable section

namespace Cert.Proof.KI.Tc

open Cert.KernelIdeal Cert.KernelIdeal.Gen
open Cert.Proof.Spec

open Idealize.ShloMosaic

variable {F : FTy → Type}

open Idealize.ShloMosaic.ValueIdx

/-- Batch `n` of `x` (the index taken modulo 8, so that the function is total), as a 1 × 512 × 512 block. -/
def xblk (x : IVec SX 32) (n : ℕ) : IVec S1x512x512 32 :=
  fun j => x (ix3 ⟨n % 8, Nat.mod_lt _ (by decide)⟩ ⟨(j 1).val, (j 1).isLt⟩ ⟨(j 2).val, (j 2).isLt⟩)

variable [FloatOps F]

/-- The carried row after `n` points: zero, then the body's sum of the row and the block's column sums. -/
def accP (x : IVec SX 32) : ℕ → IVec S1x512 32
  | 0 => k1_pay1
  | n + 1 => k1_pay2 (F := F) (accP x n) (xblk x n)

theorem accP_zero (x : IVec SX 32) : accP (F := F) x 0 = k1_pay1 := rfl
theorem accP_succ (x : IVec SX 32) (n : ℕ) : accP (F := F) x (n + 1) = k1_pay2 (F := F) (accP (F := F) x n) (xblk x n) := rfl

end Cert.Proof.KI.Tc

end
-- ==== Proof.TcDat1.lean ====
/-
  The proof data of the summing pipeline (six grid points): the label array's block fetched at every point, the
  one-element output idle until the last point and written back there, the carried row of partial sums held in
  the invariant at its contents after each point; the body obligation point by point; and what the one
  write-back leaves in the output array.
-/
import proofs.«209222_g37675453120884_cont_8to1_b_1946_16_alg».proof.Proof.TcBody1
import proofs.«209222_g37675453120884_cont_8to1_b_1946_16_alg».proof.Proof.TcVal1
import Idealize.ShloMosaic.Lib.Pipeline.Value
import Idealize.ShloMosaic.Lib.Pipeline.TableIdle

noncomputable section

namespace Cert.Proof.KI.Tc

open Cert.KernelIdeal Cert.KernelIdeal.Gen
open Cert.Proof.Spec Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-! ## The schedule, decided over the six points -/

theorem liveAt1_0 : ∀ t : Fin cfg1.N, cfg1.idle 0 (grid1.coords t) = false := by decide +kernel
theorem idleAt1_1 : ∀ t : Fin cfg1.N, ¬cond2 (grid1.coords t) → cfg1.idle 1 (grid1.coords t) = true := by decide +kernel
theorem liveAt1_1 : ∀ t : Fin cfg1.N, cond2 (grid1.coords t) → cfg1.idle 1 (grid1.coords t) = false := by decide +kernel
theorem noFlush1_1 : ∀ t : Fin cfg1.N, ¬cond2 (grid1.coords t) → (cfg1.win 1).flush t = false := by decide +kernel
/-- The block index of the label array's window at point `t` is `(t, 0, 0)`. -/
theorem index1_0 : ∀ t : Fin cfg1.N, win1_0.index t = ![t.val, 0, 0] := by decide +kernel
theorem index1_1 : ∀ t : Fin cfg1.N, win1_1.index t = ![0, 0] := by decide +kernel

section Data

variable (xv : (c : Dev nD) → Buf (Elt F) ((c : Thread nD τ).loc main_arg0))
  (tv : (c : Dev nD) → Buf (Elt F) ((c : Thread nD τ).loc main_v1))

/-- The label array's block at point `t`, read off the array. -/
def blk1 (c : Dev nD) (t : Fin cfg1.N) : ((cfg1.win 0).xblock (cfg1.grid.coords t)).Idx → Elt F (cfg1.win 0).elt :=
  ((cfg1.win 0).blk t).view.read (Elt F) (xv c)

/-- It is batch `t` of the array. -/
theorem blk1_eq (c : Dev nD) (t : Fin cfg1.N) : blk1 xv c t = xblk (xv c) t.val := by
  have hN : t.val < 6 := lt_of_lt_of_eq t.isLt N_1
  funext j
  show xv c (((cfg1.win 0).blk t).view.emb j) = xv c _
  refine congrArg (xv c) ?_
  funext a; apply Fin.ext
  have hi := index1_0 t
  match a with
  | ⟨0, _⟩ =>
    show win1_0.index t (0 : Fin 3) * 1 + 1 * (j 0).val = t.val % 8
    have h0 : win1_0.index t (0 : Fin 3) = t.val := congrFun hi 0
    have hj : (j 0).val < 1 := (j 0).isLt
    omega
  | ⟨1, _⟩ =>
    show win1_0.index t (1 : Fin 3) * 512 + 1 * (j 1).val = (j 1).val
    have h1 : win1_0.index t (1 : Fin 3) = 0 := congrFun hi 1
    omega
  | ⟨2, _⟩ =>
    show win1_0.index t (2 : Fin 3) * 512 + 1 * (j 2).val = (j 2).val
    have h2 : win1_0.index t (2 : Fin 3) = 0 := congrFun hi 2
    omega

/-- The carried row after `n` points, on device `c`. -/
abbrev acc (c : Dev nD) (n : ℕ) : IVec S1x512 32 := accP (F := F) (xv c) n

/-- The carried row's buffer. -/
abbrev scM : Memref sig .tc .vmem S1x512 .i32 := Memref.whole cc1_scratch0

/-- The scoped buffers that are neither a staging buffer of this pipeline nor the carried row's. -/
def restOf (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f))

/-- The invariant before point `n`: the carried row at anything before the first point, afterwards at its
    contents after `n` points; the other scoped buffers at anything. -/
def Phi1 (c : Dev nD) : ℕ → sProp 𝕄
  | 0 => iprop((∃ d, owns (c : Thread nD τ) scM fullShare d) ∗ restOf (F := F) c)
  | n + 1 => iprop(owns (c : Thread nD τ) scM fullShare (acc xv c (n + 1)) ∗ restOf (F := F) c)

theorem Phi1_zero (c : Dev nD) (n : ℕ) (hn : n = 0) :
    Phi1 xv c n = iprop((∃ d, owns (c : Thread nD τ) scM fullShare d) ∗ restOf (F := F) c) := by subst hn; rfl
theorem Phi1_succ (c : Dev nD) (n : ℕ) :
    Phi1 xv c (n + 1) = iprop(owns (c : Thread nD τ) scM fullShare (acc xv c (n + 1)) ∗ restOf (F := F) c) := rfl
theorem Phi1_pos (c : Dev nD) (n : ℕ) (hn : n ≠ 0) :
    Phi1 xv c n = iprop(owns (c : Thread nD τ) scM fullShare (acc xv c n) ∗ restOf (F := F) c) := by
  cases n with
  | zero => exact absurd rfl hn
  | succ n => rfl

/-- The scoped buffers no window stages are the carried row's and the rest. -/
theorem scopedRest1_Phi (c : Dev nD) :
    (Pipeline.scopedRest (Ix := HIx 1) (Name := ℕ) (U := UU) (Lvl := ℕ) (Val := Elt F) spec1 c : sProp 𝕄)
      = iprop((∃ d, owns (c : Thread nD τ) scM fullShare d) ∗ restOf (F := F) c) := by
  rw [scopedRest1_eq]; unfold restOf; simp only [scM, owns_whole]; try rfl

/-- The proof data. -/
def dat1 (c : Dev nD) : Dat τ (Elt F) (HIx 1) ℕ UU ℕ cfg1 c where
  A w := match w with
    | ⟨0, _⟩ => xv c
    | ⟨1, _⟩ => tv c
  after w t := match w with
    | ⟨0, _⟩ => blk1 xv c t
    | ⟨1, _⟩ => k1_pay3 (F := F) (acc xv c (t.val + 1))
  Φ t := Phi1 xv c t.val
  q _ := fullShare
  owed _ := 0
  recorded _ := rec8 (F := F) c

theorem A1_0 (c : Dev nD) : (dat1 xv tv c).A 0 = xv c := by dsimp only [dat1]
theorem A1_1 (c : Dev nD) : (dat1 xv tv c).A 1 = tv c := by dsimp only [dat1]
theorem after1_0 (c : Dev nD) (t : Fin cfg1.N) : (dat1 xv tv c).after 0 t = blk1 xv c t := by dsimp only [dat1]
theorem after1_1 (c : Dev nD) (t : Fin cfg1.N) : (dat1 xv tv c).after 1 t = k1_pay3 (F := F) (acc xv c (t.val + 1)) := by dsimp only [dat1]

/-- The label array's buffer holds its block when the body runs. -/
theorem before1_0 (c : Dev nD) (t : Fin cfg1.N) (d) : (dat1 xv tv c).before 0 t d = blk1 xv c t :=
  ((dat1 xv tv c).before_in_eq_fetched 0 rfl (fun _ => rfl) (fun _ _ _ => rfl)
    (fun t => by rw [after1_0]; unfold Dat.blockOf blk1; rw [A1_0]; try rfl) t d).trans
    (by unfold Dat.fetched Dat.blockOf blk1; rw [A1_0]; try rfl)

/-- The output's buffer holds, at every point, what it held when the region began: every earlier point was idle
    for it and wrote nothing back. -/
theorem before1_1 (c : Dev nD) (t : Fin cfg1.N) (d) : (dat1 xv tv c).before 1 t d = d := by
  have hN : t.val < 6 := lt_of_lt_of_eq t.isLt N_1
  have hne : ∀ j : Fin cfg1.N, j.val < t.val → ¬ cond2 (grid1.coords j) := fun j hj h => by
    have := (hcond2 j).mp h; omega
  rw [(dat1 xv tv c).before_idle_run 1 (fun t => (cfg1.win 1).fetch_out rfl t) d t.val t le_rfl
    (fun j _ hj => ⟨idleAt1_1 j (hne j hj), noFlush1_1 j (hne j hj)⟩)]
  exact (dat1 xv tv c).before_out_reset 1 rfl _ (.inl (Nat.sub_self _)) d

/-- What the body is called with at point `t`, -/
def bodyPre1 (c : Dev nD) (t : Fin cfg1.N) : sProp 𝕄 :=
  iprop((dat1 xv tv c).Φ t.castSucc ∗ (dat1 xv tv c).owesAt none t.castSucc
    ∗ (∃ d, owns (c : Thread nD τ) (st1_0 t) fullShare ((dat1 xv tv c).before 0 t d))
    ∗ (∃ d, owns (c : Thread nD τ) (st1_1 t) fullShare ((dat1 xv tv c).before 1 t d)))

/-- and what it returns. -/
def bodyPost1 (c : Dev nD) (t : Fin cfg1.N) : sProp 𝕄 :=
  iprop((dat1 xv tv c).Φ t.succ ∗ (dat1 xv tv c).owesAt none t.succ
    ∗ (dat1 xv tv c).leavesExact 0 t
    ∗ (dat1 xv tv c).leavesExact 1 t)

set_option maxHeartbeats 1000000 in
theorem sound_body1 (c : Dev nD) (t : Fin cfg1.N) :
    bodyPre1 xv tv c t ⊢ wp frame (wpE (defs₀ (F := F)) Variants.none c none) Set.univ (bodyAt1 t) (fun _ => bodyPost1 xv tv c t) := by
  unfold bodyPre1 bodyPost1 bodyAt1
  have hN : t.val < 6 := lt_of_lt_of_eq t.isLt N_1
  rw [show (dat1 xv tv c).owesAt none t.succ = (dat1 xv tv c).owesAt none t.castSucc from rfl,
    show (dat1 xv tv c).Φ t.succ = Phi1 xv c (t.val + 1) from rfl,
    show (dat1 xv tv c).Φ t.castSucc = Phi1 xv c t.val from rfl,
    show (dat1 xv tv c).leavesExact 0 t = owns (c : Thread nD τ) (st1_0 t) fullShare ((dat1 xv tv c).after 0 t) from by
      unfold Dat.leavesExact; rw [liveAt1_0 t],
    after1_0, Phi1_succ]
  by_cases h5 : t.val = 5
  · have hc2 : cond2 (grid1.coords t) := (hcond2 t).mpr h5
    have hc1 : ¬ cond1 (grid1.coords t) := fun h => by have := (hcond1 t).mp h; omega
    rw [show (dat1 xv tv c).leavesExact 1 t = owns (c : Thread nD τ) (st1_1 t) fullShare ((dat1 xv tv c).after 1 t) from by
      unfold Dat.leavesExact; rw [liveAt1_1 t hc2], after1_1, Phi1_pos xv c t.val (by omega)]
    simp only [before1_0, before1_1, blk1_eq, accP_succ]
    iintro ⟨⟨HS, Hr⟩, Ho, ⟨%d0, H0⟩, ⟨%d1, H1⟩⟩
    iapply (sound_kernel1_C c Set.univ (grid1.coords t) _ _ _ _ _ _ hc1 hc2 (xblk (xv c) t.val) (acc xv c t.val) _)
    isplitl [H0]; · iexact H0
    isplitl [H1]; · iexists _; iexact H1
    isplitl [HS]; · iexact HS
    iintro ⟨H0, H1, HS⟩
    isplitl [HS Hr]
    · isplitl [HS]; · iexact HS
      iexact Hr
    isplitl [Ho]; · iexact Ho
    isplitl [H0]; · iexact H0
    iexact H1
  · have hc2 : ¬ cond2 (grid1.coords t) := fun h => h5 ((hcond2 t).mp h)
    rw [Dat.leavesExact_idle (dat1 xv tv c) 1 t (idleAt1_1 t hc2) (noFlush1_1 t hc2)]
    by_cases h0 : t.val = 0
    · have hc1 : cond1 (grid1.coords t) := (hcond1 t).mpr h0
      rw [Phi1_zero xv c t.val h0]
      simp only [before1_0, before1_1, blk1_eq, accP_succ]
      rw [show accP (F := F) (xv c) t.val = k1_pay1 from by rw [h0]; rfl]
      iintro ⟨⟨⟨%s, HS⟩, Hr⟩, Ho, ⟨%d0, H0⟩, ⟨%d1, H1⟩⟩
      iapply (sound_kernel1_A c Set.univ (grid1.coords t) _ _ _ _ _ _ hc1 hc2 (xblk (xv c) t.val) _)
      isplitl [H0]; · iexact H0
      isplitl [H1]; · iexists _; iexact H1
      isplitl [HS]; · iexists _; iexact HS
      iintro ⟨H0, H1, HS⟩
      isplitl [HS Hr]
      · isplitl [HS]; · iexact HS
        iexact Hr
      isplitl [Ho]; · iexact Ho
      isplitl [H0]; · iexact H0
      iexact H1
    · have hc1 : ¬ cond1 (grid1.coords t) := fun h => h0 ((hcond1 t).mp h)
      rw [Phi1_pos xv c t.val h0]
      simp only [before1_0, before1_1, blk1_eq, accP_succ]
      iintro ⟨⟨HS, Hr⟩, Ho, ⟨%d0, H0⟩, ⟨%d1, H1⟩⟩
      iapply (sound_kernel1_B c Set.univ (grid1.coords t) _ _ _ _ _ _ hc1 hc2 (xblk (xv c) t.val) (acc xv c t.val) _)
      isplitl [H0]; · iexact H0
      isplitl [H1]; · iexists _; iexact H1
      isplitl [HS]; · iexact HS
      iintro ⟨H0, H1, HS⟩
      isplitl [HS Hr]
      · isplitl [HS]; · iexact HS
        iexact Hr
      isplitl [Ho]; · iexact Ho
      isplitl [H0]; · iexact H0
      iexact H1

/-- The library's body obligation. -/
theorem body_obligation1 (c : Dev nD) : BodyObligation (dat1 (F := F) xv tv c) (defs₀ (F := F)) Variants.none none Set.univ := fun t => by
  rw [bigSep_W1, bigSep_W1]
  exact sound_body1 xv tv c t

/-! ## What the region leaves in the arrays -/

/-- The label array is only read. -/
theorem arrAt1_0 (c : Dev nD) (n : Nat) : (dat1 xv tv c).arrAt 0 n = xv c :=
  ((dat1 xv tv c).arrAt_in 0 rfl n).trans (A1_0 xv tv c)

/-- The output array after the one write-back, at the last point: the total of the carried row after six points. -/
theorem arrAt1_1 (c : Dev nD) (n : Nat) (hn : n = cfg1.N) :
    (dat1 xv tv c).arrAt 1 n = k1_pay3 (F := F) (acc xv c 6) := by
  subst hn
  have hemb : ∀ (t : Fin cfg1.N) (j : ((cfg1.win 1).xblock (cfg1.grid.coords t)).Idx), ((cfg1.win 1).blk t).view.emb j = j := by
    intro t j
    have hi := index1_1 t
    funext a; apply Fin.ext
    match a with
    | ⟨0, _⟩ =>
      show win1_1.index t (0 : Fin 2) * 1 + 1 * (j 0).val = (j 0).val
      have h0 : win1_1.index t (0 : Fin 2) = 0 := congrFun hi 0
      omega
    | ⟨1, _⟩ =>
      show win1_1.index t (1 : Fin 2) * 1 + 1 * (j 1).val = (j 1).val
      have h1 : win1_1.index t (1 : Fin 2) = 0 := congrFun hi 1
      omega
  refine (dat1 xv tv c).arrAt_eq_of_cover 1 _ (fun t hf => ?_) (fun i => ⟨t1_5, (flush1_1 t1_5).mpr rfl, ?_⟩)
  · have h5 : t.val = 5 := by
      have h := (flush1_1 t).mp hf; have hN : t.val < 6 := lt_of_lt_of_eq t.isLt N_1; omega
    show (cfg1.win 1).cut (cfg1.grid.coords t) ((dat1 xv tv c).after 1 t) = _
    rw [after1_1, show t.val + 1 = 6 from by omega]
    generalize k1_pay3 (F := F) (acc xv c 6) = G
    funext j
    show G j = G (((cfg1.win 1).blk t).view.emb j)
    rw [hemb]
  · have h := (((cfg1.win 1).blk t1_5).view).emb_mem_set i
    rw [hemb] at h
    exact h

end Data

end Cert.Proof.KI.Tc

end
-- ==== Proof.TcVal1Total.lean ====
/-
  The summing kernel's total. Each grid point adds to the carried row of 512 partial sums the column sums of one
  batch: an integer reduction of a `1 × 512 × 512` block over its first two axes is, at column `c`, the sum over the
  rows of the block's entries in that column. After `n` points the row therefore holds, at column `c`, the sum over
  batches `0 … n - 1` and all rows (`accP_apply`); the final reduction of the row, viewed `1 × 1 × 512`, over its last two
  axes is the sum of its 512 entries; and the sum over columns, batches `0 … 5` and rows is, the order of summation
  being immaterial in `BitVec 32`, the sum of every entry of batches `0 … 5`.
-/
import proofs.«209222_g37675453120884_cont_8to1_b_1946_16_alg».proof.Proof.TcVal1
import proofs.«209222_g37675453120884_cont_8to1_b_1946_16_alg».proof.Proof.ValueCount
import Idealize.ShloMosaic.Lib.ValueLayout
import Idealize.ShloMosaic.PureOps.Reduce

noncomputable section

open scoped BigOperators

namespace Cert.Proof.KI.Tc

open Cert.KernelIdeal Cert.KernelIdeal.Gen
open Cert.Proof.Spec
open Idealize.ShloMosaic Idealize.ShloMosaic.ValueIdx
open Cert.Proof.Value (sum_idx3)

variable {F : FTy → Type} [FloatOps F]

/-- An integer `add` reduction into a one-element vector is the sum of every source entry. -/
theorem multiReductionI_add_one {s : Shape} {axes : List (Fin s.rank)} (v : IVec s 32) (h : s.Reduces axes S1)
    (hacc : (0#32 : BitVec 32) = 0#32) (j : S1.Idx) :
    multiReductionI .add axes S1 v 0#32 h hacc j = ∑ i, v i := by
  show reduceFold h (· + ·) (0 : BitVec 32) v j = _
  rw [reduceFold_add_eq_sum, zero_add]
  refine Finset.sum_congr (Finset.filter_true_of_mem fun i _ => funext fun b => Fin.ext ?_) fun _ _ => rfl
  have h1 := (h.drop i b).isLt
  have h2 := (j b).isLt
  have ht : S1.size b = 1 := by match b with | ⟨0, _⟩ => rfl
  omega

/-- An integer `add` reduction of a `1 × 512 × 512` block over its first two axes is, at column `c`, the sum of the
    column. -/
theorem colsum_apply (v : IVec S1x512x512 32) (h : S1x512x512.Reduces [0, 1] S512) (hacc : (0#32 : BitVec 32) = 0#32)
    (c : Fin 512) :
    multiReductionI .add [0, 1] S512 v 0#32 h hacc (ix1 c) = ∑ r : Fin 512, v (ix3 (0 : Fin 1) r c) := by
  show reduceFold h (· + ·) (0 : BitVec 32) v (ix1 c) = _
  rw [reduceFold_add_eq_sum, zero_add, Finset.sum_filter, sum_idx3, Fin.sum_univ_one]
  have hv : ∀ (u : Fin 1) (r c' : Fin 512), (h.drop (ix3 u r c') 0).val = c'.val := fun u r c' =>
    Shape.Reduces.drop_apply_val_of_eq h (ix3 u r c') 0 2
  have hdrop : ∀ (u : Fin 1) (r c' : Fin 512), (h.drop (ix3 u r c') = ix1 c) ↔ c' = c := by
    intro u r c'
    constructor
    · intro e
      exact Fin.ext ((hv u r c').symm.trans (congrArg (fun k : S512.Idx => (k 0).val) e))
    · rintro rfl
      funext a
      match a with
      | ⟨0, _⟩ => exact Fin.ext (hv u r c')
  simp only [hdrop]
  refine Finset.sum_congr rfl fun r _ => ?_
  rw [Finset.sum_ite_eq' Finset.univ c (fun c' => v (ix3 (0 : Fin 1) r c')), if_pos (Finset.mem_univ _)]

/-- One point adds the block's column sums to the carried row. -/
theorem k1_pay2_apply (v3 : IVec S1x512 32) (v4 : IVec S1x512x512 32) (u : Fin 1) (c : Fin 512) :
    k1_pay2 (F := F) v3 v4 (ix2 u c) = v3 (ix2 u c) + ∑ r : Fin 512, v4 (ix3 (0 : Fin 1) r c) := by
  show shapeCast S1x512 (addi v3 (shapeCast S1x512
    (multiReductionI .add [0, 1] S512 v4 0#32 reduces_S1x512x512_S512 rfl) shapeCasts_S512_S1x512))
    shapeCasts_S1x512_S1x512 (ix2 u c) = _
  rw [shapeCast_self]
  show v3 (ix2 u c) + shapeCast S1x512 (multiReductionI .add [0, 1] S512 v4 0#32 reduces_S1x512x512_S512 rfl)
    shapeCasts_S512_S1x512 (ix2 u c) = _
  rw [shapeCast_a_1a_apply]
  exact congrArg (v3 (ix2 u c) + ·) (colsum_apply v4 _ rfl c)

/-- After `n` points the carried row holds, at column `c`, the sum over batches `0 … n - 1` and all rows. -/
theorem accP_apply (x : IVec SX 32) (n : ℕ) (u : Fin 1) (c : Fin 512) :
    accP (F := F) x n (ix2 u c)
      = ∑ b ∈ Finset.range n, ∑ r : Fin 512, x (ix3 (⟨b % 8, Nat.mod_lt _ (by decide)⟩ : Fin 8) r c) := by
  induction n with
  | zero =>
    show shapeCast S1x512 (broadcast S1x512 0#32) shapeCasts_S1x512_S1x512 (ix2 u c) = _
    rw [shapeCast_self, Finset.sum_range_zero]
    rfl
  | succ n ih =>
    rw [accP_succ, k1_pay2_apply, ih, Finset.sum_range_succ]
    rfl

/-- The one entry of a constant one-element vector, viewed `1 × 1 × 1`, is the constant. -/
theorem extract_const (s : BitVec 32) (j : S1x1.Idx) :
    broadcast S1x1 (extractAt ![0, 0, 0] (shapeCast S1x1x1 (fun _ : S1.Idx => s) shapeCasts_S1_S1x1x1) inpos_S1x1x1_p0_0_0) j
      = s := rfl

/-- The final reduction of a row of 512 is the sum of its entries. -/
theorem k1_pay3_apply (v : IVec S1x512 32) (j : S1x1.Idx) :
    k1_pay3 (F := F) v j = ∑ c : Fin 512, v (ix2 (0 : Fin 1) c) := by
  have e : multiReductionI .add [1, 2] S1 (shapeCast S1x1x512 v shapeCasts_S1x512_S1x1x512) 0#32 reduces_S1x1x512_S1 rfl
      = fun _ => ∑ c : Fin 512, v (ix2 (0 : Fin 1) c) := by
    funext k
    refine (multiReductionI_add_one _ _ rfl k).trans ?_
    rw [sum_idx3, Fin.sum_univ_one, Fin.sum_univ_one]
    exact Finset.sum_congr rfl fun c _ => shapeCast_ab_1ab_apply v _ 0 0 c
  unfold k1_pay3
  simp only [e]
  exact extract_const _ j

/-- The total of the row after the six points is the sum of every entry of batches 0 … 5. -/
theorem k1_total' (x : IVec SX 32) : k1_pay3 (F := F) (accP (F := F) x 6) = tcOut x := by
  funext j
  rw [k1_pay3_apply]
  show _ = headSum x
  unfold headSum
  simp only [accP_apply]
  rw [Finset.sum_comm, Finset.sum_range]
  refine Finset.sum_congr rfl fun b _ => ?_
  rw [Finset.sum_comm]
  refine Finset.sum_congr rfl fun r _ => Finset.sum_congr rfl fun c _ => ?_
  congr 1
  funext a
  match a with
  | ⟨0, _⟩ => exact Fin.ext (by show b.val % 8 = b.val; have := b.isLt; omega)
  | ⟨1, _⟩ => rfl
  | ⟨2, _⟩ => rfl

end Cert.Proof.KI.Tc

end
-- ==== Proof.TcRegion1.lean ====
/-
  The first TensorCore region as one step of the TensorCore's program: the region's record over the thread
  state "the label array, the one-element output array and what the TensorCore owes", and the step itself; the
  two arrays the region does not touch ride along unchanged.
-/
import proofs.«209222_g37675453120884_cont_8to1_b_1946_16_alg».proof.Proof.TcDat1
import proofs.«209222_g37675453120884_cont_8to1_b_1946_16_alg».proof.Proof.TcVal1Total

noncomputable section

namespace Cert.Proof.KI.Tc

open Cert.KernelIdeal Cert.KernelIdeal.Gen
open Cert.Proof.Spec Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

section Region

variable (xv : (c : Dev nD) → Buf (Elt F) ((c : Thread nD τ).loc main_arg0))
  (tv : (c : Dev nD) → Buf (Elt F) ((c : Thread nD τ).loc main_v1))

/-- Every pipeline's proof data when the first region runs: a literal match. -/
def pdats1 : (p : Fin 2) → (c : Dev nD) → Dat τ (Elt F) (HIx 1) ℕ UU ℕ (Pipeline.pin (pcfgs (F := F)) adm p) c
  | ⟨0, _⟩ => fun c => dat1 xv tv c
  | ⟨1, _⟩ => fun c => datAny cfg2 c

set_option backward.isDefEq.respectTransparency.types false in
/-- The first region over the thread state "the two arrays and what the TensorCore owes". -/
def reg1 : Pipeline.RegionSeg (pcfgs (F := F)) adm (pdats1 xv tv) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 xv tv c).loose
  hwaits := Pipeline.hwaits_of_owed_zero _ _ _ _ (K (F := F)).L (K (F := F)).lev 0 fun _ _ => rfl
  pre c := iprop(owesTc (F := F) c ∗ (((c : Thread nD τ).loc main_arg0) ↦{fullShare} xv c) ∗ (((c : Thread nD τ).loc main_v1) ↦{fullShare} tv c))
  post c := iprop(owesTc (F := F) c ∗ (((c : Thread nD τ).loc main_arg0) ↦{fullShare} xv c)
    ∗ (((c : Thread nD τ).loc main_v1) ↦{fullShare} k1_pay3 (F := F) (acc xv c 6)))
  X _ := iprop(⌜True⌝)
  Y _ := iprop(⌜True⌝)
  Z _ := iprop(⌜True⌝)
  hentry c := by
    rw [Pipeline.ownSems0_none]
    rw [Pipeline.arrays_eq (Pipeline.pin (pcfgs (F := F)) adm) (pdats1 xv tv) 0 c arr_whole1 ((pdats1 xv tv 0 c).share_full fun _ => rfl), bigSep_W1]
    iintro ⟨⟨Ho, Hx, Ht⟩, -, -⟩
    imodintro
    isplitl [Hx Ht]
    · isplitl [Hx]; · iexact Hx
      iexact Ht
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, %hW, HO⟩; iexists W; isplitr; · ipureintro; exact fun pr hpr => Or.inl (hW pr hpr)
      rw [Otc_one]; iexact HO
    isplitr <;> (ipureintro; trivial)
  hin c := by
    rw [show (pdats1 xv tv 0 c).Φ 0 = Phi1 xv c 0 from rfl, Phi1_zero xv c 0 rfl,
      show (Pipeline.scopedRest (Ix := HIx 1) (Name := ℕ) (U := UU) (Lvl := ℕ) (Val := Elt F) (Pipeline.pin (pcfgs (F := F)) adm 0).spec c : sProp 𝕄)
        = iprop((∃ d, owns (c : Thread nD τ) scM fullShare d) ∗ restOf (F := F) c) from scopedRest1_Phi c]
    iintro ⟨-, -, Hr⟩
    iexact Hr
  hout c := by
    rw [Pipeline.ownSems0_none, show (pdats1 xv tv 0 c).Φ (Fin.last _) = Phi1 xv c (5 + 1) from rfl, Phi1_succ,
      show (Pipeline.scopedRest (Ix := HIx 1) (Name := ℕ) (U := UU) (Lvl := ℕ) (Val := Elt F) (Pipeline.pin (pcfgs (F := F)) adm 0).spec c : sProp 𝕄)
        = iprop((∃ d, owns (c : Thread nD τ) scM fullShare d) ∗ restOf (F := F) c) from scopedRest1_Phi c]
    iintro ⟨HS, Hr⟩
    isplitr; · ipureintro; trivial
    isplitr; · iempintro
    isplitl [HS]; · iexists _; iexact HS
    iexact Hr
  hexit c := by
    rw [Pipeline.arrays_eq (Pipeline.pin (pcfgs (F := F)) adm) (pdats1 xv tv) 0 c arr_whole1 ((pdats1 xv tv 0 c).share_full fun _ => rfl), bigSep_W1]
    rw [show (pdats1 xv tv 0 c).arrAt 0 (Pipeline.pin (pcfgs (F := F)) adm 0).N = xv c from arrAt1_0 xv tv c _,
      show (pdats1 xv tv 0 c).arrAt 1 (Pipeline.pin (pcfgs (F := F)) adm 0).N = k1_pay3 (F := F) (acc xv c 6) from arrAt1_1 xv tv c _ rfl]
    iintro ⟨⟨Hx, Ht⟩, HO, -, -⟩
    imodintro
    isplitl [HO]
    · unfold Pipeline.Dat.owesAt Pipeline.owesWithin
      icases HO with ⟨%W, %hW, HO⟩; iexists W; isplitr
      · ipureintro
        intro pr hpr
        rcases hW hpr with h | ⟨w, s, rfl⟩
        · exact h
        · exact Nat.zero_le _
      rw [Otc_one]; iexact HO
    isplitl [Hx]; · iexact Hx
    iexact Ht

set_option backward.isDefEq.respectTransparency.types false in
theorem reg1_pre (c : Dev nD) : (reg1 xv tv).pre c
    = iprop(owesTc (F := F) c ∗ (((c : Thread nD τ).loc main_arg0) ↦{fullShare} xv c) ∗ (((c : Thread nD τ).loc main_v1) ↦{fullShare} tv c)) := rfl
set_option backward.isDefEq.respectTransparency.types false in
theorem reg1_post (c : Dev nD) : (reg1 xv tv).post c
    = iprop(owesTc (F := F) c ∗ (((c : Thread nD τ).loc main_arg0) ↦{fullShare} xv c)
      ∗ (((c : Thread nD τ).loc main_v1) ↦{fullShare} k1_pay3 (F := F) (acc xv c 6))) := rfl

end Region

/-! ## The region as a step of the TensorCore's program -/

set_option backward.isDefEq.respectTransparency.types false in
/-- The first region: the sum of batches 0 … 5 lands in the one-element array. -/
theorem region1 (d : Dev nD) (x : IVec SX 32) (p : IVec SP 32) :
    iprop(levAts (K (F := F)).L (K (F := F)).lev ∗ tcOwes (F := F) d ∗ boundary (SparseCore.T d) ∗ (xLoc d ↦{fullShare} x) ∗ (pLoc d ↦{fullShare} p)
        ∗ (∃ f, tLoc d ↦{fullShare} f) ∗ (∃ f, oLoc d ↦{fullShare} f) ∗ tcGhost (F := F) d)
      ⊢ wp frame (wpE ((K (F := F)).defs (D (F := F))) 𝒱 (SparseCore.T d) none) Set.univ
          (Prog.lift (.customCall (SparseCore.inner (Pipeline.entry (0 : Fin 2))) ()))
          fun _ => iprop(tcOwes (F := F) d ∗ boundary (SparseCore.T d) ∗ (xLoc d ↦{fullShare} x) ∗ (pLoc d ↦{fullShare} p)
            ∗ (tLoc d ↦{fullShare} tcOut x) ∗ (∃ f, oLoc d ↦{fullShare} f) ∗ tcGhost' (F := F) d) := by
  unfold tcGhost
  rw [← k1_total' (F := F) x]
  iintro ⟨Hlev, Ho, Hb, Hx, Hp, ⟨%f, Ht⟩, Hov, Hg0, Hg1⟩
  iapply ((K (F := F)).wp_liftProg (D (F := F)) 𝒱 (SparseCore.T d) Set.univ none (Prog.lift (.customCall (Pipeline.entry (0 : Fin 2)) ())) _)
  iapply (Pipeline.RegionSeg.wp (pcfgs (F := F)) adm (pdats1 (fun _ => x) (fun _ => f)) none phinj EP defs₀ 𝒱₀
    (K (F := F)).L (K (F := F)).lev (reg1 (fun _ => x) (fun _ => f)) d none (fun _ h => nomatch h) (fun u => .ret u) _)
  rw [reg1_pre, reg1_post, wp_ret]
  isplitr [Hlev Ho Hb Hx Ht Hg0]
  · iintro ⟨Hb, Ho, Hx, Ht⟩
    imodintro
    isplitl [Ho]; · iexact Ho
    isplitl [Hb]; · iexact Hb
    isplitl [Hx]; · iexact Hx
    isplitl [Hp]; · iexact Hp
    isplitl [Ht]; · iexact Ht
    isplitl [Hov]; · iexact Hov
    iexact Hg1
  isplitl [Hb]; · iexact Hb
  isplitl [Ho Hx Ht]
  · isplitl [Ho]; · iexact Ho
    isplitl [Hx]; · iexact Hx
    iexact Ht
  isplitl [Hlev]; · iexact Hlev
  iexact Hg0

end Cert.Proof.KI.Tc

end
-- ==== Proof.Launch.lean ====
/-
  The launch of the idealized kernel's program: what the SparseCore call hands each worker and takes back, the
  launch element of the ghost state, @main on the TensorCore — the SparseCore call, then the two TensorCore regions —,
  and the program's run with the final array named.
-/
import proofs.«209222_g37675453120884_cont_8to1_b_1946_16_alg».proof.Proof.ScTile
import proofs.«209222_g37675453120884_cont_8to1_b_1946_16_alg».proof.Proof.TcRegion2
import proofs.«209222_g37675453120884_cont_8to1_b_1946_16_alg».proof.Proof.TcRegion1

noncomputable section

namespace Cert.Proof.KI

open Cert.KernelIdeal Cert.KernelIdeal.Gen
open Cert.Proof.Spec Cert.Proof.KI.Tc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the handshakes carry -/

/-- The call hands SparseCore `c` the holdings of its sixteen workers `2 i + c`, and takes them back with every row
    at its lane sums. -/
def P : (K (F := F)).Pay (nD := nD) (Val := Elt F) (Name := ℕ) (U := UU) where
  st := fun q d c => match q with
    | 0 => bigSep Finset.univ fun i : Fin ((K (F := F)).nSub 0) => tileIn m d (widCS (Fin.cast nCore_zero c) (Fin.cast nSub_zero i))
  dn := fun q d c => match q with
    | 0 => bigSep Finset.univ fun i : Fin ((K (F := F)).nSub 0) => tileOut m d (widCS (Fin.cast nCore_zero c) (Fin.cast nSub_zero i))
  go := fun q d c i => match q with
    | 0 => tileIn m d (widCS (Fin.cast nCore_zero c) (Fin.cast nSub_zero i))
  td := fun q d c i => match q with
    | 0 => tileOut m d (widCS (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => tileIn m d (widCS (Fin.cast nCore_zero c) (Fin.cast nSub_zero i))))
  dn q d c := match q with
    | 0 => (inferInstance : BI.Storable (upEmb : UEmb _ 𝕄)
        (bigSep Finset.univ fun i : Fin ((K (F := F)).nSub 0) => tileOut m d (widCS (Fin.cast nCore_zero c) (Fin.cast nSub_zero i))))
  go q d c i := match q with
    | 0 => (inferInstance : BI.Storable (upEmb : UEmb _ 𝕄) (tileIn m d (widCS (Fin.cast nCore_zero c) (Fin.cast nSub_zero i))))
  td q d c i := match q with
    | 0 => (inferInstance : BI.Storable (upEmb : UEmb _ 𝕄) (tileOut m d (widCS (Fin.cast nCore_zero c) (Fin.cast nSub_zero i))))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_arg0_scv) (Memref.isWhole_whole _) (Memref.whole main_v0_scv) (Memref.isWhole_whole _)
          (Memref.whole cc0_scratch0) (Memref.isWhole_whole _) (Memref.whole cc0_scratch1) (Memref.isWhole_whole _)
          cc0_scratch2 cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's operands ARE its workers' holdings, and its results theirs. -/
theorem vecSplit : (K (F := F)).VecSplit' (P m) 0 := by
  intro d c
  show (bigSep Finset.univ fun i : Fin ((K (F := F)).nSub 0) => tileIn m d (widCS (Fin.cast nCore_zero c) (Fin.cast nSub_zero i)))
    ⊢ |={Set.univ}=> iprop((bigSep Finset.univ fun i : Fin ((K (F := F)).nSub 0) => tileIn m d (widCS (Fin.cast nCore_zero c) (Fin.cast nSub_zero i)))
      ∗ ((bigSep Finset.univ fun i : Fin ((K (F := F)).nSub 0) => tileOut m d (widCS (Fin.cast nCore_zero c) (Fin.cast nSub_zero i)))
          -∗ bigSep Finset.univ fun i : Fin ((K (F := F)).nSub 0) => tileOut m d (widCS (Fin.cast nCore_zero c) (Fin.cast nSub_zero i))))
  iintro H; imodintro
  isplitl [H]; · iexact H
  iintro H; iexact H

/-! ## The workers' holdings, split from the whole arrays and joined back -/

omit [FloatOps F] in
theorem widCS_inj : Function.Injective (fun cs : Fin 2 × Fin 16 => widCS cs.1 cs.2) := by
  rintro ⟨c, s⟩ ⟨c', s'⟩ e
  have h : 2 * s.val + c.val = 2 * s'.val + c'.val := congrArg Fin.val e
  clear e
  have hc := c.isLt; have hc' := c'.isLt
  have h1 : c.val = c'.val := by omega
  have h2 : s.val = s'.val := by omega
  exact Prod.ext (Fin.ext h1) (Fin.ext h2)

omit [FloatOps F] in
/-- The 32 workers are the 16 subcores of the 2 SparseCores. -/
theorem workers_eq (Φ : Fin 32 → sProp 𝕄) :
    bigSep Finset.univ Φ = bigSep Finset.univ fun c : Fin ((K (F := F)).nCore 0) => bigSep Finset.univ fun i : Fin ((K (F := F)).nSub 0) =>
      Φ (widCS (Fin.cast nCore_zero c) (Fin.cast nSub_zero i)) := by
  have himg : (Finset.univ : Finset (Fin 32)) = (Finset.univ : Finset (Fin 2 × Fin 16)).image (fun cs => widCS cs.1 cs.2) := by
    symm; apply Finset.eq_univ_of_card; rw [Finset.card_image_of_injective _ widCS_inj]; simp
  rw [himg, SparseCore.bigSep_image_of_injOn (widCS_inj.injOn) Φ, bigSep_univ_prod]
  rfl

omit [FloatOps F] in
theorem prowSet_eq (w : Fin 32) : prowSet w = (prow w).set := by
  show ((View.whole (main_v0_scv : Ref sig .scVector)).slice (prow w)).set = _
  rw [View.set_slice]; exact Finset.map_refl
omit [FloatOps F] in
theorem prows_disjoint : ∀ i ∈ (Finset.univ : Finset (Fin 32)), ∀ j ∈ (Finset.univ : Finset (Fin 32)), i ≠ j → Disjoint (prowSet i) (prowSet j) :=
  fun i _ j _ h => by rw [prowSet_eq, prowSet_eq]; exact Rect.part_disjoint hdivP h
omit [FloatOps F] in
theorem prows_cover : (Finset.univ : Finset (Fin 32)).biUnion prowSet = Finset.univ :=
  (Finset.biUnion_congr rfl fun i _ => prowSet_eq i).trans (Rect.biUnion_part hdivP)
omit [FloatOps F] in
/-- The partial sums whole are their 32 rows. -/
theorem pPts_rows (d : Dev nD) (f : Buf (Elt F) (pLoc d)) :
    (pLoc d ↦{fullShare} f : sProp 𝕄) = bigSep Finset.univ fun w : Fin 32 => pLoc d ↦[prowSet w]{fullShare} f := by
  rw [← pointsTo_biUnion Finset.univ (ℓ := pLoc d) prowSet prows_disjoint, prows_cover]; try rfl

omit [FloatOps F] in
/-- The labels and the partial sums whole give every worker its holdings; a remainder of the labels' share is kept. -/
theorem split_in (d : Dev nD) :
    iprop((xLoc d ↦{fullShare} m (xLoc d)) ∗ (pLoc d ↦{fullShare} m (pLoc d)))
      ⊢ iprop((xLoc d ↦{Transfers.shareDrop fullShare 32} m (xLoc d)) ∗ bigSep Finset.univ fun w : Fin 32 => tileIn m d w) := by
  unfold tileIn
  rw [bigSep_sep', pPts_rows]
  iintro ⟨Hx, Hp⟩
  ihave Hx' := (Transfers.pointsTo_toks_split fullShare 32) $$ Hx
  icases Hx' with ⟨Hr, Ht⟩
  isplitl [Hr]; · iexact Hr
  isplitl [Ht]; · iexact Ht
  iexact Hp

omit [FloatOps F] in
/-- and what the workers hand back joins to the labels whole and the partial sums whole at the lane sums. -/
theorem join_out (d : Dev nD) :
    iprop((xLoc d ↦{Transfers.shareDrop fullShare 32} m (xLoc d)) ∗ bigSep Finset.univ fun w : Fin 32 => tileOut m d w)
      ⊢ iprop((xLoc d ↦{fullShare} m (xLoc d)) ∗ (pLoc d ↦{fullShare} (scOut (xOf m d) : Buf (Elt F) (pLoc d)))) := by
  unfold tileOut
  rw [bigSep_sep', pPts_rows]
  iintro ⟨Hr, Ht, Hp⟩
  isplitl [Hr Ht]
  · iapply (Transfers.pointsTo_toks_join fullShare 32)
    isplitl [Hr] <;> iassumption
  iexact Hp

theorem st0_eq (d : Dev nD) :
    (bigSep Finset.univ fun c : Fin ((K (F := F)).nCore 0) => (P m).st 0 d c) = bigSep Finset.univ fun w : Fin 32 => tileIn m d w :=
  (workers_eq (F := F) (fun w => tileIn m d w)).symm
theorem dn0_eq (d : Dev nD) :
    (bigSep Finset.univ fun c : Fin ((K (F := F)).nCore 0) => (P m).dn 0 d c) = bigSep Finset.univ fun w : Fin 32 => tileOut m d w :=
  (workers_eq (F := F) (fun w => tileOut m d w)).symm

/-! ## The launch element -/

def u₀ : UU := (initOf (K (F := F)).hsCells (K (F := F)).hsToks, (uP (F := F), 1))

omit [FloatOps F] in
theorem bigSep_emp' {I : Type} (s : Finset I) : (bigSep s fun _ => iprop(emp)) = (iprop(emp) : sProp 𝕄) := bigSep_emp_const s

/-- The handshakes' rounds, the pipelines' ghost state for every device, nothing for the kernel's own protocol (its
    transfers are local and need no schedule). -/
theorem hu₀ : (ownU (u₀ (F := F)) : sProp 𝕄)
    ⊢ |={Set.univ}=> iprop(BI.own (EH (initOf (K (F := F)).hsCells (K (F := F)).hsToks)) ∗ (bigSep Finset.univ fun d : Dev nD => tcGhost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) (uP (F := F)) (1 : Counters)) $$ HR
  icases HR' with ⟨HP, -⟩
  have hEP : (BI.own (((Emb.inl : Emb UP (UP × Counters)).trans (embR : Emb (UP × Counters) 𝕄)) (uP (F := F))) : sProp 𝕄) = BI.own (EP (F := F) (uP (F := F))) := rfl
  ihave HP' := (Entails.of_eq hEP) $$ HP
  imod (tcGhost_fund (F := F)) $$ HP' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (pLoc d ↦{fullShare} W main_v0) ∗ (tLoc d ↦{fullShare} W main_v1) ∗ oLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- What @main leaves the claim: the labels at their launch contents, the result at the combined value of the two
    partial results. -/
abbrev FIN (d : Dev nD) : sProp 𝕄 :=
  iprop((xLoc d ↦{fullShare} m (xLoc d)) ∗ (oLoc d ↦{fullShare} (k2_pay1 (F := F) (scOut (xOf m d)) (tcOut (xOf m d)) : Buf (Elt F) (oLoc d))))

/-- @main on device `d`'s TensorCore: the SparseCore call (every worker its holdings, back with the lane sums), the
    first region (the sum of batches 0 … 5), the second (the combined result). -/
theorem hmain (κ : GSem nD τ sig → ℕ) (d : Dev nD) :
    iprop((K (F := F)).ctx EH (P m) κ ∗ (K (F := F)).tcSt EH d 0 ∗ (K (F := F)).tcRes m ρ d ∗ tcGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Ht, Ho⟩, -, -⟩, HG⟩
  ihave Hin := (split_in m d) $$ [Hx Hp]
  · isplitl [Hx] <;> iassumption
  icases Hin with ⟨Hxr, Hw⟩
  iapply ((K (F := F)).wp_run (D (F := F)) 𝒱 (EH := EH) (P := P m) κ d 0) $$ [Hst Hw Hb Hxr Ht Ho HG]
  isplitr; · iexact Hctx
  isplitl [Hst]; · iexact Hst
  isplitl [Hw]
  · rw [st0_eq]; iexact Hw
  iintro ⟨Hst, Hdn⟩
  ihave Hdn' := (Entails.of_eq (dn0_eq m d)) $$ Hdn
  ihave Hout := (join_out m d) $$ [Hxr Hdn']
  · isplitl [Hxr] <;> iassumption
  icases Hout with ⟨Hx, Hp⟩
  -- the TensorCore's state after the call: what it owes, and the rest
  unfold SparseCore.Cfg.tcSt
  icases Hst with ⟨HO, Hrest⟩
  ihave Hlev := (SparseCore.Cfg.ctx_levAts (K := K (F := F)) (EH := EH) (P := P m) κ) $$ Hctx
  ihave Hlev2 := (SparseCore.Cfg.ctx_levAts (K := K (F := F)) (EH := EH) (P := P m) κ) $$ Hctx
  -- the first region: the sum of batches 0 … 5
  iapply (wp_wand_r frame _ Set.univ)
  isplitl [Hlev HO Hb Hx Hp Ht Ho HG]
  · iapply (region1 (F := F) d (xOf m d) (scOut (xOf m d)))
    isplitl [Hlev]; · iexact Hlev
    isplitl [HO]; · iexact HO
    isplitl [Hb]; · iexact Hb
    isplitl [Hx]; · iexact Hx
    isplitl [Hp]; · iexact Hp
    isplitl [Ht]; · iexists _; iexact Ht
    isplitl [Ho]; · iexists _; iexact Ho
    iexact HG
  iintro %_ ⟨HO, Hb, Hx, Hp, Ht, Ho, HG⟩
  -- the second region: the combined result
  iapply (wp_wand_r frame _ Set.univ)
  isplitl [Hlev2 HO Hb Hp Ht Ho HG]
  · iapply (region2 (F := F) d (scOut (xOf m d)) (tcOut (xOf m d)))
    isplitl [Hlev2]; · iexact Hlev2
    isplitl [HO]; · iexact HO
    isplitl [Hb]; · iexact Hb
    isplitl [Hp]; · iexact Hp
    isplitl [Ht]; · iexact Ht
    isplitl [Ho]; · iexact Ho
    iexact HG
  iintro %_ ⟨HO, Hb, Hp, Ht, Ho⟩
  imodintro
  isplitl [HO Hrest]
  · isplitl [HO]; · iexact HO
    iexact Hrest
  isplitl [Hx]; · iexact Hx
  iexact Ho

def fq (d : Dev nD) (s' : Phys nD τ sig (Elt F)) : Prop :=
  s'.mem.mem (xLoc d) = m (xLoc d) ∧ s'.mem.mem (oLoc d) = (k2_pay1 (F := F) (scOut (xOf m d)) (tcOut (xOf m d)) : Buf (Elt F) (oLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare)
      (f := (k2_pay1 (F := F) (scOut (xOf m d)) (tcOut (xOf m d)) : Buf (Elt F) (oLoc d)))) $$ [HSI Ho]
  · isplitl [HSI] <;> iassumption
  icases H with %h2
  ipureintro; exact ⟨funext fun i => h1 i (Finset.mem_univ i), funext fun i => h2 i (Finset.mem_univ i)⟩

/-! ## The program's run -/

/-- On every device the result array ends at the combined value of the two partial results of the launch labels, and
    the labels end unchanged. -/
def QC : PUnit × MemSt nD τ sig (Elt F) → Prop := fun r => ∀ c : Dev nD,
  r.2.mem (oLoc c) = (k2_pay1 (F := F) (scOut (xOf m c)) (tcOut (xOf m c)) : Buf (Elt F) (oLoc c)) ∧ r.2.mem (xLoc c) = m (xLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => tcGhost (F := F) d) (FIN m) (u₀ (F := F)) (sep_elim_left.trans (hu₀ m)) (hmain m ρ) (fq m) (hfin m) (QC m)
    (fun _ h c => ⟨(h c).2, (h c).1⟩)

end Cert.Proof.KI

end
-- ==== Proof.CommonB.lean ====
/-
  What every module of this certificate shares about the idealized kernel's program: the program as the
  SparseCore launch theorem sees it, the resource algebra of the proof's ghost state — the launch handshakes'
  rounds, the two TensorCore pipelines' staging cells' rounds, and the counters of the vector subcores' own
  transfers —, and the arrays' locations.
-/
import proofs.«209222_g37675453120884_cont_8to1_b_1946_16_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«209222_g37675453120884_cont_8to1_b_1946_16_alg».proof.Proof.Gen.Kernel
import proofs.«209222_g37675453120884_cont_8to1_b_1946_16_alg».proof.Proof.Gen.Kernel.Launch
import proofs.«209222_g37675453120884_cont_8to1_b_1946_16_alg».proof.Proof.Gen.Kernel.Points
import proofs.«209222_g37675453120884_cont_8to1_b_1946_16_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore pipelines' staging cells' rounds. -/
abbrev UP : Type := URounds (GSem nD τ sig) Unit
/-- Handshakes, pipelines, and the counters of the vector subcores' own transfers (found by instance). -/
abbrev UU : Type := UH × (UP × Counters)

abbrev 𝕄F (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## The arrays -/

/-- The label array `x` (the argument), the SparseCore stage's result, the TensorCore sum's result, the final
    result, as locations of device `d`. -/
abbrev xLoc (d : Dev nD) : Loc nD τ sig := (SparseCore.T d).loc main_arg0
abbrev pLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

end Cert.Proof.KB

end
-- ==== Proof.ScDataB.lean ====
/-
  What one vector subcore's task is handed and hands back. Worker `w = 2 s + c` (subcore `s` of SparseCore `c`)
  reads the label array through a read share of its own and owns row `w` of the 32 × 16 array of partial sums;
  it leaves that row at the worker's sixteen lane sums.
-/
import proofs.«209222_g37675453120884_cont_8to1_b_1946_16_alg».proof.Proof.CommonB

noncomputable section

namespace Cert.Proof.KB

open Cert.Kernel Cert.Kernel.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nCore_zero : (K (F := F)).nCore 0 = 2 := rfl
theorem nSub_zero : (K (F := F)).nSub 0 = 16 := rfl

theorem hdivP : 32 ∣ S32x16.size 0 := ⟨1, rfl⟩
/-- Row `w` of the partial sums. -/
abbrev prow (w : Fin 32) : Rect S32x16 := Rect.part (s := S32x16) (a₀ := 0) hdivP w
abbrev prowSet (w : Fin 32) : Finset S32x16.Idx := ((Memref.whole main_v0_scv : Memref sig .scVector .hbm S32x16 .i32).view.slice (prow w)).set
/-- Worker `w`'s read share of the label array: one of 32 tokens split off the full share. -/
abbrev qx (w : Fin 32) : PosShare TreeShare := Transfers.shareTok fullShare 32 w

/-- The worker of subcore `s` of SparseCore `c`. -/
def widCS (c : Fin 2) (s : Fin 16) : Fin 32 := ⟨2 * s.val + c.val, by omega⟩

variable (m : (ℓ : Loc nD τ sig) → Buf (Elt F) ℓ)

/-- The label array as the launch memory holds it on device `d`. -/
abbrev xOf (d : Dev nD) : IVec SX 32 := m (xLoc d)

/-- What worker `w` is handed: its read share of the labels, its row of the partial sums at the launch contents. -/
def tileIn (d : Dev nD) (w : Fin 32) : sProp 𝕄 :=
  iprop((xLoc d ↦{qx w} m (xLoc d)) ∗ (pLoc d ↦[prowSet w]{fullShare} m (pLoc d)))
/-- What it hands back: the share, and its row at the lane sums. -/
def tileOut (d : Dev nD) (w : Fin 32) : sProp 𝕄 :=
  iprop((xLoc d ↦{qx w} m (xLoc d)) ∗ (pLoc d ↦[prowSet w]{fullShare} (scOut (xOf m d) : Buf (Elt F) (pLoc d))))

instance tileIn_storable (d : Dev nD) (w : Fin 32) : BI.Storable (upEmb : UEmb _ 𝕄) (tileIn m d w) := by unfold tileIn; infer_instance
instance tileOut_storable (d : Dev nD) (w : Fin 32) : BI.Storable (upEmb : UEmb _ 𝕄) (tileOut m d w) := by unfold tileOut; infer_instance

end Cert.Proof.KB

end
-- ==== Proof.ValueAccB.lean ====
/-
  The vector subcore's accumulators. Worker `w` walks its 32 rows; in each row it reads the 32 column groups of 16
  lanes in order and adds group `u` into accumulator `u % 4`. After `n` rows accumulator `q` therefore holds, at
  lane `l`, the sum over the first `n` rows and the eight groups `u = 4 u' + q` of `x[b, row, 16 u + l]`
  (`accLane`). It starts at zero, one more row adds that row's eight groups, and after all 32 rows the four
  accumulators add up — in any bracketing, `BitVec 32` being a commutative ring — to the worker's lane sum: the
  residues `q < 4` and the quotients `u' < 8` enumerate the 32 groups once (`Fin 32 ≃ Fin 8 × Fin 4`).
-/
import proofs.«209222_g37675453120884_cont_8to1_b_1946_16_alg».proof.Proof.Gen.Kernel.Skeleton
import proofs.«209222_g37675453120884_cont_8to1_b_1946_16_alg».proof.Proof.ValueCount
import Idealize.ShloMosaic.Lib.Pipeline.Value

noncomputable section

open scoped BigOperators

namespace Cert.Proof.ValueB

open Cert.Proof.Value

open Idealize.ShloMosaic Idealize.ShloMosaic.ValueIdx Cert.Proof.Spec
open Cert.Kernel Cert.Kernel.Gen

/-- Lane `l` of accumulator `q` of worker `w` after its first `n` rows. -/
def accLane (x : IVec SX 32) (w : Fin 32) (q : Fin 4) (n : ℕ) (l : Fin 16) : BitVec 32 :=
  ∑ r : Fin 32, if r.val < n then
    ∑ u' : Fin 8, x (ix3 (wB w) (wRow w r) (col ⟨4 * u'.val + q.val, by omega⟩ l)) else 0

/-- Accumulator `q` of worker `w` after its first `n` rows, as a vector of sixteen lanes. -/
def accVec (x : IVec SX 32) (w : Fin 32) (q : Fin 4) (n : ℕ) : IVec S16 32 :=
  fun j => accLane x w q n ⟨(j 0).val, (j 0).isLt⟩

/-- A sum over the rows below `n + 1` is the sum over the rows below `n` plus row `n`'s term. -/
theorem sum_lt_succ {M : Type*} [AddCommMonoid M] (g : Fin 32 → M) (n : ℕ) (hn : n < 32) :
    (∑ r : Fin 32, if r.val < n + 1 then g r else 0) = (∑ r : Fin 32, if r.val < n then g r else 0) + g ⟨n, hn⟩ := by
  have h : ∀ r : Fin 32, (if r.val < n + 1 then g r else 0)
      = (if r.val < n then g r else 0) + (if r = ⟨n, hn⟩ then g r else 0) := by
    intro r
    by_cases h1 : r.val < n
    · have h2 : r ≠ ⟨n, hn⟩ := fun e => by rw [e] at h1; exact lt_irrefl _ h1
      rw [if_pos h1, if_pos (Nat.lt_succ_of_lt h1), if_neg h2, add_zero]
    · by_cases h2 : r = ⟨n, hn⟩
      · subst h2
        rw [if_neg h1, if_pos (Nat.lt_succ_self _), if_pos rfl, zero_add]
      · have h3 : ¬ r.val < n + 1 := fun h => h2 (Fin.ext (by show r.val = n; omega))
        rw [if_neg h1, if_neg h3, if_neg h2, add_zero]
  rw [Finset.sum_congr rfl fun r _ => h r, Finset.sum_add_distrib, Finset.sum_ite_eq' Finset.univ ⟨n, hn⟩ g,
    if_pos (Finset.mem_univ _)]

/-- The 32 column groups are 8 quotients times 4 residues. -/
theorem sum_groups {M : Type*} [AddCommMonoid M] (f : Fin 32 → M) :
    ∑ u, f u = ∑ u' : Fin 8, ∑ q : Fin 4, f ⟨4 * u'.val + q.val, by omega⟩ := by
  refine (sum_fin_mul 8 4 f).trans ?_
  refine Finset.sum_congr rfl fun u' _ => Finset.sum_congr rfl fun q _ => congrArg f (Fin.ext ?_)
  show q.val + 4 * u'.val = 4 * u'.val + q.val
  omega

/-- Before the first row every accumulator is the zero vector. -/
theorem accVec_zero (x : IVec SX 32) (w : Fin 32) (q : Fin 4) : accVec x w q 0 = k0_pay69 := by
  funext j
  show accLane x w q 0 _ = 0#32
  unfold accLane
  exact Finset.sum_eq_zero fun r _ => if_neg (Nat.not_lt_zero _)

/-- One more row adds that row's eight groups of residue `q`. -/
theorem accVec_succ (x : IVec SX 32) (w : Fin 32) (q : Fin 4) (n : ℕ) (hn : n < 32) :
    accVec x w q (n + 1) = fun j => accVec x w q n j
      + ∑ u' : Fin 8, x (ix3 (wB w) (wRow w ⟨n, hn⟩) (col ⟨4 * u'.val + q.val, by omega⟩ ⟨(j 0).val, (j 0).isLt⟩)) := by
  funext j
  exact sum_lt_succ (fun r => ∑ u' : Fin 8,
    x (ix3 (wB w) (wRow w r) (col ⟨4 * u'.val + q.val, by omega⟩ ⟨(j 0).val, (j 0).isLt⟩))) n hn

/-- After all 32 rows the condition on the row is vacuous. -/
theorem accLane_full (x : IVec SX 32) (w : Fin 32) (q : Fin 4) (l : Fin 16) :
    accLane x w q 32 l = ∑ r : Fin 32, ∑ u' : Fin 8, x (ix3 (wB w) (wRow w r) (col ⟨4 * u'.val + q.val, by omega⟩ l)) :=
  Finset.sum_congr rfl fun r _ => if_pos r.isLt

/-- The four full accumulators add up to the worker's lane sums: what the subcore stores. -/
theorem acc_total (x : IVec SX 32) (w : Fin 32) :
    k0_pay86 (accVec x w 0 32) (accVec x w 1 32) (accVec x w 2 32) (accVec x w 3 32)
      = fun j => laneSum x w ⟨(j 0).val, (j 0).isLt⟩ := by
  funext j
  show shapeCast S16 (addi (addi (accVec x w 0 32) (accVec x w 1 32)) (addi (accVec x w 2 32) (accVec x w 3 32)))
    shapeCasts_S16_S16 j = _
  rw [shapeCast_self]
  show (accLane x w 0 32 _ + accLane x w 1 32 _) + (accLane x w 2 32 _ + accLane x w 3 32 _) = _
  rw [accLane_full, accLane_full, accLane_full, accLane_full]
  unfold laneSum
  rw [Finset.sum_congr rfl fun r _ => sum_groups _]
  simp only [Fin.sum_univ_four, Finset.sum_add_distrib]
  abel

end Cert.Proof.ValueB

end
-- ==== Proof.ValueTripB.lean ====
/-
  One trip of the vector subcore's row loop, as arithmetic. A trip reads the row's 32 column groups (load number
  `i` is the sixteen lanes of group `i`) and threads four accumulators through thirty-two additions: group `i` goes
  into accumulator `i % 4`. Written out as the stored values compose them, the trip's four results are the four
  accumulators each plus the eight groups of its residue (`tripYield1_eq`): addition in `BitVec 32` is associative
  and commutative, and the cast of a `1 × 16` row to sixteen lanes reads lane `l` at `(0, l)`. The four chunk loops
  have the same text, so their trips are the same function (`tripYield2_eq_one` …). When the loads are row `n` of the
  worker's tile and the accumulators hold the first `n` rows, the results hold the first `n + 1` rows (`trip_step1` …).
-/
import proofs.«209222_g37675453120884_cont_8to1_b_1946_16_alg».proof.Proof.ValueAccB
import Idealize.ShloMosaic.Lib.ValueLayout

noncomputable section

open scoped BigOperators

namespace Cert.Proof.ValueB

open Cert.Proof.Value

open Idealize.ShloMosaic Idealize.ShloMosaic.ValueIdx Cert.Proof.Spec
open Cert.Kernel Cert.Kernel.Gen

variable {F : FTy → Type} [FloatOps F]

/-- Accumulator `a` plus the eight loaded groups of residue `q`. -/
def tripSpec (ld : Fin 32 → Vec F S1x16 .i32) (a : IVec S16 32) (q : Fin 4) : IVec S16 32 :=
  fun j => a j + ∑ u' : Fin 8,
    (ld ⟨4 * u'.val + q.val, by omega⟩ (ix2 (0 : Fin 1) (⟨(j 0).val, (j 0).isLt⟩ : Fin 16)) : BitVec 32)

/-- A loaded `1 × 16` row, cast to sixteen lanes, reads lane `l` at `(0, l)`. -/
theorem lane_apply (v : IVec S1x16 32) (j : S16.Idx) :
    shapeCast S16 v shapeCasts_S1x16_S16 j = v (ix2 (0 : Fin 1) (⟨(j 0).val, (j 0).isLt⟩ : Fin 16)) := by
  obtain ⟨l, rfl⟩ : ∃ l : Fin 16, j = ix1 l := ⟨j 0, eq_ix1 j⟩
  exact shapeCast_1a_a_apply v shapeCasts_S1x16_S16 l

/-- The four results of one trip of the first chunk's loop, over its thirty-two loads and four accumulators, as the
    stored values compose them. -/
def tripYield1 (ld : Fin 32 → Vec F S1x16 .i32) (a0 a1 a2 a3 : IVec S16 32) :
    IVec S16 32 × IVec S16 32 × IVec S16 32 × IVec S16 32 :=
  (k0_pay70 (k0_pay16 (k0_pay10 (k0_pay8 (k0_pay3 a0 (ld 0) (ld 4)) (ld 8) (ld 12)) (ld 16)) (ld 20) (ld 24)) (ld 28),
   k0_pay71 (k0_pay17 (k0_pay11 (k0_pay5 (k0_pay4 a1 (ld 1) (ld 5)) (ld 9)) (ld 13) (ld 17)) (ld 21) (ld 25)) (ld 29),
   k0_pay72 (k0_pay14 (k0_pay12 (k0_pay6 (k0_pay1 a2 (ld 2)) (ld 6) (ld 10)) (ld 14) (ld 18)) (ld 22)) (ld 26) (ld 30),
   k0_pay73 (k0_pay15 (k0_pay9 (k0_pay7 (k0_pay2 a3 (ld 3)) (ld 7) (ld 11)) (ld 15)) (k0_pay13 (ld 19)) (ld 23)) (ld 27) (ld 31))

/-- The four results of one trip of the second chunk's loop, over its thirty-two loads and four accumulators, as the
    stored values compose them. -/
def tripYield2 (ld : Fin 32 → Vec F S1x16 .i32) (a0 a1 a2 a3 : IVec S16 32) :
    IVec S16 32 × IVec S16 32 × IVec S16 32 × IVec S16 32 :=
  (k0_pay74 (k0_pay33 (k0_pay27 (k0_pay25 (k0_pay20 a0 (ld 0) (ld 4)) (ld 8) (ld 12)) (ld 16)) (ld 20) (ld 24)) (ld 28),
   k0_pay75 (k0_pay34 (k0_pay28 (k0_pay22 (k0_pay21 a1 (ld 1) (ld 5)) (ld 9)) (ld 13) (ld 17)) (ld 21) (ld 25)) (ld 29),
   k0_pay76 (k0_pay31 (k0_pay29 (k0_pay23 (k0_pay18 a2 (ld 2)) (ld 6) (ld 10)) (ld 14) (ld 18)) (ld 22)) (ld 26) (ld 30),
   k0_pay77 (k0_pay32 (k0_pay26 (k0_pay24 (k0_pay19 a3 (ld 3)) (ld 7) (ld 11)) (ld 15)) (k0_pay30 (ld 19)) (ld 23)) (ld 27) (ld 31))

/-- The four results of one trip of the third chunk's loop, over its thirty-two loads and four accumulators, as the
    stored values compose them. -/
def tripYield3 (ld : Fin 32 → Vec F S1x16 .i32) (a0 a1 a2 a3 : IVec S16 32) :
    IVec S16 32 × IVec S16 32 × IVec S16 32 × IVec S16 32 :=
  (k0_pay78 (k0_pay50 (k0_pay44 (k0_pay42 (k0_pay37 a0 (ld 0) (ld 4)) (ld 8) (ld 12)) (ld 16)) (ld 20) (ld 24)) (ld 28),
   k0_pay79 (k0_pay51 (k0_pay45 (k0_pay39 (k0_pay38 a1 (ld 1) (ld 5)) (ld 9)) (ld 13) (ld 17)) (ld 21) (ld 25)) (ld 29),
   k0_pay80 (k0_pay48 (k0_pay46 (k0_pay40 (k0_pay35 a2 (ld 2)) (ld 6) (ld 10)) (ld 14) (ld 18)) (ld 22)) (ld 26) (ld 30),
   k0_pay81 (k0_pay49 (k0_pay43 (k0_pay41 (k0_pay36 a3 (ld 3)) (ld 7) (ld 11)) (ld 15)) (k0_pay47 (ld 19)) (ld 23)) (ld 27) (ld 31))

/-- The four results of one trip of the fourth chunk's loop, over its thirty-two loads and four accumulators, as the
    stored values compose them. -/
def tripYield4 (ld : Fin 32 → Vec F S1x16 .i32) (a0 a1 a2 a3 : IVec S16 32) :
    IVec S16 32 × IVec S16 32 × IVec S16 32 × IVec S16 32 :=
  (k0_pay82 (k0_pay67 (k0_pay61 (k0_pay59 (k0_pay54 a0 (ld 0) (ld 4)) (ld 8) (ld 12)) (ld 16)) (ld 20) (ld 24)) (ld 28),
   k0_pay83 (k0_pay68 (k0_pay62 (k0_pay56 (k0_pay55 a1 (ld 1) (ld 5)) (ld 9)) (ld 13) (ld 17)) (ld 21) (ld 25)) (ld 29),
   k0_pay84 (k0_pay65 (k0_pay63 (k0_pay57 (k0_pay52 a2 (ld 2)) (ld 6) (ld 10)) (ld 14) (ld 18)) (ld 22)) (ld 26) (ld 30),
   k0_pay85 (k0_pay66 (k0_pay60 (k0_pay58 (k0_pay53 a3 (ld 3)) (ld 7) (ld 11)) (ld 15)) (k0_pay64 (ld 19)) (ld 23)) (ld 27) (ld 31))

/-- The eight groups of each residue, written out. -/
theorem tripSpec_res0 (ld : Fin 32 → Vec F S1x16 .i32) (a : IVec S16 32) (j : S16.Idx) (L : Fin 32 → BitVec 32)
    (hL : L = fun i => ld i (ix2 (0 : Fin 1) (⟨(j 0).val, (j 0).isLt⟩ : Fin 16))) :
    tripSpec ld a 0 j = a j + (L 0 + L 4 + L 8 + L 12 + L 16 + L 20 + L 24 + L 28) := by
  subst hL
  unfold tripSpec
  rw [Fin.sum_univ_eight]
  rfl
theorem tripSpec_res1 (ld : Fin 32 → Vec F S1x16 .i32) (a : IVec S16 32) (j : S16.Idx) (L : Fin 32 → BitVec 32)
    (hL : L = fun i => ld i (ix2 (0 : Fin 1) (⟨(j 0).val, (j 0).isLt⟩ : Fin 16))) :
    tripSpec ld a 1 j = a j + (L 1 + L 5 + L 9 + L 13 + L 17 + L 21 + L 25 + L 29) := by
  subst hL
  unfold tripSpec
  rw [Fin.sum_univ_eight]
  rfl
theorem tripSpec_res2 (ld : Fin 32 → Vec F S1x16 .i32) (a : IVec S16 32) (j : S16.Idx) (L : Fin 32 → BitVec 32)
    (hL : L = fun i => ld i (ix2 (0 : Fin 1) (⟨(j 0).val, (j 0).isLt⟩ : Fin 16))) :
    tripSpec ld a 2 j = a j + (L 2 + L 6 + L 10 + L 14 + L 18 + L 22 + L 26 + L 30) := by
  subst hL
  unfold tripSpec
  rw [Fin.sum_univ_eight]
  rfl
theorem tripSpec_res3 (ld : Fin 32 → Vec F S1x16 .i32) (a : IVec S16 32) (j : S16.Idx) (L : Fin 32 → BitVec 32)
    (hL : L = fun i => ld i (ix2 (0 : Fin 1) (⟨(j 0).val, (j 0).isLt⟩ : Fin 16))) :
    tripSpec ld a 3 j = a j + (L 3 + L 7 + L 11 + L 15 + L 19 + L 23 + L 27 + L 31) := by
  subst hL
  unfold tripSpec
  rw [Fin.sum_univ_eight]
  rfl

/-- A trip adds to each accumulator the eight groups of its residue. -/
theorem tripYield1_eq (ld : Fin 32 → Vec F S1x16 .i32) (a0 a1 a2 a3 : IVec S16 32) :
    tripYield1 ld a0 a1 a2 a3 = (tripSpec ld a0 0, tripSpec ld a1 1, tripSpec ld a2 2, tripSpec ld a3 3) := by
  unfold tripYield1
  refine congrArg₂ Prod.mk ?_ (congrArg₂ Prod.mk ?_ (congrArg₂ Prod.mk ?_ ?_))
  · funext j
    rw [tripSpec_res0 ld a0 j _ rfl]
    simp only [k0_pay70, k0_pay16, k0_pay10, k0_pay8, k0_pay3, addi, IntOp.addi, lane_apply]
    abel
  · funext j
    rw [tripSpec_res1 ld a1 j _ rfl]
    simp only [k0_pay71, k0_pay17, k0_pay11, k0_pay5, k0_pay4, addi, IntOp.addi, lane_apply]
    abel
  · funext j
    rw [tripSpec_res2 ld a2 j _ rfl]
    simp only [k0_pay72, k0_pay14, k0_pay12, k0_pay6, k0_pay1, addi, IntOp.addi, lane_apply]
    abel
  · funext j
    rw [tripSpec_res3 ld a3 j _ rfl]
    simp only [k0_pay73, k0_pay15, k0_pay13, k0_pay9, k0_pay7, k0_pay2, addi, IntOp.addi, lane_apply]
    abel

/-- The four chunk loops have one text: their trips are one function. -/
theorem tripYield2_eq_one (ld : Fin 32 → Vec F S1x16 .i32) (a0 a1 a2 a3 : IVec S16 32) :
    tripYield2 ld a0 a1 a2 a3 = tripYield1 ld a0 a1 a2 a3 := rfl
theorem tripYield3_eq_one (ld : Fin 32 → Vec F S1x16 .i32) (a0 a1 a2 a3 : IVec S16 32) :
    tripYield3 ld a0 a1 a2 a3 = tripYield1 ld a0 a1 a2 a3 := rfl
theorem tripYield4_eq_one (ld : Fin 32 → Vec F S1x16 .i32) (a0 a1 a2 a3 : IVec S16 32) :
    tripYield4 ld a0 a1 a2 a3 = tripYield1 ld a0 a1 a2 a3 := rfl

theorem tripYield2_eq (ld : Fin 32 → Vec F S1x16 .i32) (a0 a1 a2 a3 : IVec S16 32) :
    tripYield2 ld a0 a1 a2 a3 = (tripSpec ld a0 0, tripSpec ld a1 1, tripSpec ld a2 2, tripSpec ld a3 3) :=
  (tripYield2_eq_one ld a0 a1 a2 a3).trans (tripYield1_eq ld a0 a1 a2 a3)
theorem tripYield3_eq (ld : Fin 32 → Vec F S1x16 .i32) (a0 a1 a2 a3 : IVec S16 32) :
    tripYield3 ld a0 a1 a2 a3 = (tripSpec ld a0 0, tripSpec ld a1 1, tripSpec ld a2 2, tripSpec ld a3 3) :=
  (tripYield3_eq_one ld a0 a1 a2 a3).trans (tripYield1_eq ld a0 a1 a2 a3)
theorem tripYield4_eq (ld : Fin 32 → Vec F S1x16 .i32) (a0 a1 a2 a3 : IVec S16 32) :
    tripYield4 ld a0 a1 a2 a3 = (tripSpec ld a0 0, tripSpec ld a1 1, tripSpec ld a2 2, tripSpec ld a3 3) :=
  (tripYield4_eq_one ld a0 a1 a2 a3).trans (tripYield1_eq ld a0 a1 a2 a3)

/-- If the loads are row `n` of worker `w`'s tile, the accumulator of the first `n` rows plus the eight groups of
    residue `q` is the accumulator of the first `n + 1` rows. -/
theorem tripSpec_acc (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l)))
    (q : Fin 4) : tripSpec ld (accVec x w q n) q = accVec x w q (n + 1) := by
  rw [accVec_succ x w q n hn]
  funext j
  unfold tripSpec
  exact congrArg (accVec x w q n j + ·) (Finset.sum_congr rfl fun u' _ => hld _ _)

/-- One trip of the first chunk's loop on row `n` takes the accumulators of `n` rows to those of `n + 1` rows. -/
theorem trip_step1 (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l))) :
    tripYield1 ld (accVec x w 0 n) (accVec x w 1 n) (accVec x w 2 n) (accVec x w 3 n)
      = (accVec x w 0 (n + 1), accVec x w 1 (n + 1), accVec x w 2 (n + 1), accVec x w 3 (n + 1)) := by
  rw [tripYield1_eq, tripSpec_acc x w n hn ld hld, tripSpec_acc x w n hn ld hld, tripSpec_acc x w n hn ld hld,
    tripSpec_acc x w n hn ld hld]

/-- One trip of the second chunk's loop on row `n` takes the accumulators of `n` rows to those of `n + 1` rows. -/
theorem trip_step2 (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l))) :
    tripYield2 ld (accVec x w 0 n) (accVec x w 1 n) (accVec x w 2 n) (accVec x w 3 n)
      = (accVec x w 0 (n + 1), accVec x w 1 (n + 1), accVec x w 2 (n + 1), accVec x w 3 (n + 1)) := by
  rw [tripYield2_eq, tripSpec_acc x w n hn ld hld, tripSpec_acc x w n hn ld hld, tripSpec_acc x w n hn ld hld,
    tripSpec_acc x w n hn ld hld]

/-- One trip of the third chunk's loop on row `n` takes the accumulators of `n` rows to those of `n + 1` rows. -/
theorem trip_step3 (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l))) :
    tripYield3 ld (accVec x w 0 n) (accVec x w 1 n) (accVec x w 2 n) (accVec x w 3 n)
      = (accVec x w 0 (n + 1), accVec x w 1 (n + 1), accVec x w 2 (n + 1), accVec x w 3 (n + 1)) := by
  rw [tripYield3_eq, tripSpec_acc x w n hn ld hld, tripSpec_acc x w n hn ld hld, tripSpec_acc x w n hn ld hld,
    tripSpec_acc x w n hn ld hld]

/-- One trip of the fourth chunk's loop on row `n` takes the accumulators of `n` rows to those of `n + 1` rows. -/
theorem trip_step4 (x : IVec SX 32) (w : Fin 32) (n : ℕ) (hn : n < 32) (ld : Fin 32 → Vec F S1x16 .i32)
    (hld : ∀ (u : Fin 32) (l : Fin 16), ld u (ix2 (0 : Fin 1) l) = x (ix3 (wB w) (wRow w ⟨n, hn⟩) (col u l))) :
    tripYield4 ld (accVec x w 0 n) (accVec x w 1 n) (accVec x w 2 n) (accVec x w 3 n)
      = (accVec x w 0 (n + 1), accVec x w 1 (n + 1), accVec x w 2 (n + 1), accVec x w 3 (n + 1)) := by
  rw [tripYield4_eq, tripSpec_acc x w n hn ld hld, tripSpec_acc x w n hn ld hld, tripSpec_acc x w n hn ld hld,
    tripSpec_acc x w n hn ld hld]

end Cert.Proof.ValueB

end
-- ==== Proof.ValueViewB.lean ====
/-
  Where the vector subcore's views sit. Worker `w = 2 s + c` copies four chunks of eight rows of its tile — rows
  `(w % 16) * 32 + 8 j + k` of batch `6 + w / 16` — into the four `8 × 512` slots of its scratch, reads each slot's
  row `k` sixteen lanes at a time, and stores into row `w` of the `32 × 16` array of partial sums. A view's
  placement composes its slices' offsets and its squeezes' row-major re-indexings; here each composite is read at an
  index given by coordinates, and a load through a slot that holds a chunk reads the label array there.
-/
import proofs.«209222_g37675453120884_cont_8to1_b_1946_16_alg».proof.Proof.ScDataB
import proofs.«209222_g37675453120884_cont_8to1_b_1946_16_alg».proof.Proof.Gen.Kernel
import proofs.«209222_g37675453120884_cont_8to1_b_1946_16_alg».proof.Proof.ValueTripB
import Idealize.ShloMosaic.Lib.ValueLayout
import Idealize.ShloMosaic.Lib.Exec.Geometry

noncomputable section

namespace Cert.Proof.ValueB

open Cert.Proof.Value

open Idealize.ShloMosaic Idealize.ShloMosaic.ValueIdx Cert.Proof.Spec
open Cert.Kernel Cert.Kernel.Gen
open Cert.Proof.KB (widCS)

local notation "xW" => (Memref.whole Cert.Kernel.main_arg0_scv : Memref Cert.Kernel.sig Kind.scVector Space.hbm Cert.Kernel.S8x512x512 EltTy.i32)
local notation "pW" => (Memref.whole Cert.Kernel.main_v0_scv : Memref Cert.Kernel.sig Kind.scVector Space.hbm Cert.Kernel.S32x16 EltTy.i32)
local notation "bW" => (Memref.whole Cert.Kernel.cc0_scratch0 : Memref Cert.Kernel.sig Kind.scVector Space.vmem Cert.Kernel.S4x8x512 EltTy.i32)

/-- The four `8 × 512` slots of the scratch. -/
abbrev bChunk0 : Memref sig .scVector .vmem S8x512 .i32 := ((bW).slice (Rect.unit (s := S4x8x512) ![0, 0, 0] S1x8x512.size inb_S4x8x512_S1x8x512_0_0_0) (fun _ => rfl)).squeeze S8x512 squeezes_S1x8x512_S8x512
abbrev bChunk1 : Memref sig .scVector .vmem S8x512 .i32 := ((bW).slice (Rect.unit (s := S4x8x512) ![1, 0, 0] S1x8x512.size inb_S4x8x512_S1x8x512_1_0_0) (fun _ => rfl)).squeeze S8x512 squeezes_S1x8x512_S8x512
abbrev bChunk2 : Memref sig .scVector .vmem S8x512 .i32 := ((bW).slice (Rect.unit (s := S4x8x512) ![2, 0, 0] S1x8x512.size inb_S4x8x512_S1x8x512_2_0_0) (fun _ => rfl)).squeeze S8x512 squeezes_S1x8x512_S8x512
abbrev bChunk3 : Memref sig .scVector .vmem S8x512 .i32 := ((bW).slice (Rect.unit (s := S4x8x512) ![3, 0, 0] S1x8x512.size inb_S4x8x512_S1x8x512_3_0_0) (fun _ => rfl)).squeeze S8x512 squeezes_S1x8x512_S8x512

/-- Chunk `j` of the worker's tile of the label array: eight rows. -/
abbrev xChunk (L : grid0.Coords) (j : Fin 4) : Memref sig .scVector .hbm S8x512 .i32 := ((xW).slice (Rect.unit (s := S8x512x512) (k0_off1 L (BitVec.ofNat 32 (8 * j.val))) S1x8x512.size (k0_off1_inb L j)) (fun _ => rfl)).squeeze S8x512 squeezes_S1x8x512_S8x512

/-- The worker's row of the partial sums. -/
abbrev pRowK (L : grid0.Coords) : Memref sig .scVector .hbm S16 .i32 := ((pW).slice (Rect.unit (s := S32x16) (k0_off130 L) S1x16.size (k0_off130_inb L)) (fun _ => rfl)).squeeze S16 squeezes_S1x16_S16

/-- The worker at grid coordinates `L` (SparseCore `L 0`, subcore `L 1`). -/
def widL (L : grid0.Coords) : Fin 32 := widCS ⟨(L 0).val, (L 0).isLt⟩ ⟨(L 1).val, (L 1).isLt⟩

/-- The chunk's offsets in closed form: batch `6 + w / 16`, first row `(w % 16) * 32 + 8 j`, column 0. -/
theorem k0_off1_eq : ∀ (L : grid0.Coords) (j : Fin 4), k0_off1 L (BitVec.ofNat 32 (8 * j.val))
    = ![6 + (2 * (L 1).val + (L 0).val) / 16, (2 * (L 1).val + (L 0).val) % 16 * 32 + 8 * j.val, 0] := by decide +kernel

/-- Element `(k, c)` of chunk `j` is the label at row `8 j + k` of the worker's tile, column `c`. -/
theorem xChunk_emb (L : grid0.Coords) (j : Fin 4) (k : Fin 8) (c : Fin 512) :
    (xChunk L j).view.emb (ix2 k c) = ix3 (wB (widL L)) (wRow (widL L) ⟨8 * j.val + k.val, by omega⟩) c := by
  have hoff := k0_off1_eq L j
  show (Rect.unit (s := S8x512x512) (k0_off1 L (BitVec.ofNat 32 (8 * j.val))) S1x8x512.size (k0_off1_inb L j)).emb
      (Shape.reshapeEquiv squeezes_S1x8x512_S8x512.numel_eq (ix2 k c)) = _
  rw [reshapeEquiv_ix2_1ab]
  funext a
  refine Fin.ext ?_
  rw [Rect.emb_apply]
  match a with
  | ⟨0, h0⟩ =>
    have ha : k0_off1 L (BitVec.ofNat 32 (8 * j.val)) ⟨0, h0⟩ = 6 + (2 * (L 1).val + (L 0).val) / 16 := congrFun hoff ⟨0, h0⟩
    show k0_off1 L (BitVec.ofNat 32 (8 * j.val)) ⟨0, h0⟩ + 1 * 0 = 6 + (2 * (L 1).val + (L 0).val) / 16
    omega
  | ⟨1, h1⟩ =>
    have ha : k0_off1 L (BitVec.ofNat 32 (8 * j.val)) ⟨1, h1⟩ = (2 * (L 1).val + (L 0).val) % 16 * 32 + 8 * j.val :=
      congrFun hoff ⟨1, h1⟩
    show k0_off1 L (BitVec.ofNat 32 (8 * j.val)) ⟨1, h1⟩ + 1 * k.val
      = (2 * (L 1).val + (L 0).val) % 16 * 32 + (8 * j.val + k.val)
    omega
  | ⟨2, h2⟩ =>
    have ha : k0_off1 L (BitVec.ofNat 32 (8 * j.val)) ⟨2, h2⟩ = 0 := congrFun hoff ⟨2, h2⟩
    show k0_off1 L (BitVec.ofNat 32 (8 * j.val)) ⟨2, h2⟩ + 1 * c.val = c.val
    omega

/-- Lane `l` of the worker's row of the partial sums is entry `(w, l)`. -/
theorem pRowK_emb (L : grid0.Coords) (l : Fin 16) : (pRowK L).view.emb (ix1 l) = ix2 (widL L) l := by
  have hoff := k0_off130_eq L
  have hre : Shape.reshapeEquiv squeezes_S1x16_S16.numel_eq (ix1 l) = ix2 (⟨0, Nat.one_pos⟩ : Fin 1) l :=
    Shape.reshapeEquiv_eq_of_rowMajor _ (by
      rw [Shape.rowMajor_val_two, Shape.rowMajor_val_one]
      show 0 * 16 + l.val = l.val
      omega)
  show (Rect.unit (s := S32x16) (k0_off130 L) S1x16.size (k0_off130_inb L)).emb
      (Shape.reshapeEquiv squeezes_S1x16_S16.numel_eq (ix1 l)) = _
  rw [hre]
  funext a
  refine Fin.ext ?_
  rw [Rect.emb_apply]
  match a with
  | ⟨0, h0⟩ =>
    have ha : k0_off130 L ⟨0, h0⟩ = 2 * (L 1).val + (L 0).val := congrFun hoff ⟨0, h0⟩
    show k0_off130 L ⟨0, h0⟩ + 1 * 0 = 2 * (L 1).val + (L 0).val
    omega
  | ⟨1, h1⟩ =>
    have ha : k0_off130 L ⟨1, h1⟩ = 0 := congrFun hoff ⟨1, h1⟩
    show k0_off130 L ⟨1, h1⟩ + 1 * l.val = l.val
    omega

/-- A `1 × 16` load box at offsets `(kk, cc)` of an `8 × 512` array reads, at `(0, l)`, the element `(kk, cc + l)`. -/
theorem unit_idx (kk cc : ℕ) (off : Fin 2 → ℕ) (hoff : off = ![kk, cc]) (h : ∀ a, off a + S1x16.size a ≤ S8x512.size a)
    (y : S1x16.Idx) :
    (Rect.unit (s := S8x512) off S1x16.size h).toLoadRect.idx y
      = ix2 (⟨kk, by have := h 0; subst hoff; exact Nat.lt_of_lt_of_le (Nat.lt_succ_self _) this⟩ : Fin 8)
          (⟨cc + (y 1).val, by have := h 1; have := (y 1).isLt; subst hoff; exact Nat.lt_of_lt_of_le (Nat.add_lt_add_left (y 1).isLt _) (h 1)⟩ : Fin 512) := by
  subst hoff
  have h0 : (y 0).val = 0 := by have := (y 0).isLt; exact Nat.lt_one_iff.mp this
  funext a
  refine Fin.ext ?_
  rw [LoadRect.idx_apply]
  match a with
  | ⟨0, _⟩ => show kk + 1 * (y 0).val = kk; omega
  | ⟨1, _⟩ => show cc + 1 * (y 1).val = cc + (y 1).val; omega

/-! ## A load through a slot that holds a chunk -/

section Loads

variable {F : FTy → Type} {κ : Kind} {sp : Space}

/-- If a view of shape `8 × 512` reads chunk `J` of the worker's tile off its buffer, a `1 × 16` load through it at
    offsets `(kk, 16 i)` reads, at `(0, l)`, the label at row `8 J + kk` of the tile, lane `l` of column group `i`. -/
theorem load_read (v : View sig κ sp S8x512 .i32) (g : v.ty.Contents (Elt F)) (L : grid0.Coords) (J : Fin 4)
    (x : IVec SX 32) (hg : v.read (Elt F) g = (xChunk L J).view.read (Elt F) x)
    (kk i : ℕ) (off : Fin 2 → ℕ) (hoff : off = ![kk, 16 * i]) (h : ∀ a, off a + S1x16.size a ≤ S8x512.size a)
    (y : S1x16.Idx) (hk : kk < 8) (hi : i < 32) :
    v.readAt (Elt F) (Rect.unit (s := S8x512) off S1x16.size h).toLoadRect g y
      = x (ix3 (wB (widL L)) (wRow (widL L) ⟨8 * J.val + kk, by omega⟩)
          (col ⟨i, hi⟩ ⟨(y 1).val, (y 1).isLt⟩)) := by
  rw [View.readAt_apply, hg, View.read_apply, unit_idx kk (16 * i) off hoff h y]
  have he := xChunk_emb L J ⟨kk, hk⟩ ⟨16 * i + (y 1).val, by have hy : (y 1).val < 16 := (y 1).isLt; show 16 * i + (y 1).val < 512; omega⟩
  exact congrArg x he

/-- The contents after the chunk is written through the view over anything … -/
theorem load_write (v : View sig κ sp S8x512 .i32) (fb : v.ty.Contents (Elt F)) (L : grid0.Coords) (J : Fin 4)
    (x : IVec SX 32) (kk i : ℕ) (off : Fin 2 → ℕ) (hoff : off = ![kk, 16 * i])
    (h : ∀ a, off a + S1x16.size a ≤ S8x512.size a) (y : S1x16.Idx) (hk : kk < 8) (hi : i < 32) :
    v.readAt (Elt F) (Rect.unit (s := S8x512) off S1x16.size h).toLoadRect
        (v.write (Elt F) fb ((xChunk L J).view.read (Elt F) x) Finset.univ) y
      = x (ix3 (wB (widL L)) (wRow (widL L) ⟨8 * J.val + kk, by omega⟩)
          (col ⟨i, hi⟩ ⟨(y 1).val, (y 1).isLt⟩)) :=
  load_read v _ L J x (View.read_write_univ fb _) kk i off hoff h y hk hi

/-- … and the same contents spelt as the one whole-view piece over anything. -/
theorem load_writes (v : View sig κ sp S8x512 .i32) (fb : v.ty.Contents (Elt F)) (L : grid0.Coords) (J : Fin 4)
    (x : IVec SX 32) (kk i : ℕ) (off : Fin 2 → ℕ) (hoff : off = ![kk, 16 * i])
    (h : ∀ a, off a + S1x16.size a ≤ S8x512.size a) (y : S1x16.Idx) (hk : kk < 8) (hi : i < 32) :
    v.readAt (Elt F) (Rect.unit (s := S8x512) off S1x16.size h).toLoadRect
        (v.writes (Elt F) fb [⟨Rect.whole S8x512, (xChunk L J).view.read (Elt F) x⟩]) y
      = x (ix3 (wB (widL L)) (wRow (widL L) ⟨8 * J.val + kk, by omega⟩)
          (col ⟨i, hi⟩ ⟨(y 1).val, (y 1).isLt⟩)) :=
  load_read v _ L J x (View.read_writes_whole v fb _) kk i off hoff h y hk hi

/-! ### The four slots -/

theorem load_chunk0 (L : grid0.Coords) (x : IVec SX 32) (fb : (bChunk0).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk0).view.readAt (Elt F) (Rect.unit (s := S8x512) off S1x16.size h).toLoadRect
        ((bChunk0).view.write (Elt F) fb ((xChunk L 0).view.read (Elt F) x) Finset.univ) y
      = x (ix3 (wB (widL L)) (wRow (widL L) ⟨8 * 0 + kk, by omega⟩) (col ⟨i, hi⟩ ⟨(y 1).val, (y 1).isLt⟩)) :=
  load_write (bChunk0).view fb L 0 x kk i off hoff h y hk hi
theorem load_chunk0_writes (L : grid0.Coords) (x : IVec SX 32) (fb : (bChunk0).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk0).view.readAt (Elt F) (Rect.unit (s := S8x512) off S1x16.size h).toLoadRect
        ((bChunk0).view.writes (Elt F) fb [⟨Rect.whole S8x512, (xChunk L 0).view.read (Elt F) x⟩]) y
      = x (ix3 (wB (widL L)) (wRow (widL L) ⟨8 * 0 + kk, by omega⟩) (col ⟨i, hi⟩ ⟨(y 1).val, (y 1).isLt⟩)) :=
  load_writes (bChunk0).view fb L 0 x kk i off hoff h y hk hi

theorem load_chunk1 (L : grid0.Coords) (x : IVec SX 32) (fb : (bChunk1).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk1).view.readAt (Elt F) (Rect.unit (s := S8x512) off S1x16.size h).toLoadRect
        ((bChunk1).view.write (Elt F) fb ((xChunk L 1).view.read (Elt F) x) Finset.univ) y
      = x (ix3 (wB (widL L)) (wRow (widL L) ⟨8 * 1 + kk, by omega⟩) (col ⟨i, hi⟩ ⟨(y 1).val, (y 1).isLt⟩)) :=
  load_write (bChunk1).view fb L 1 x kk i off hoff h y hk hi
theorem load_chunk1_writes (L : grid0.Coords) (x : IVec SX 32) (fb : (bChunk1).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk1).view.readAt (Elt F) (Rect.unit (s := S8x512) off S1x16.size h).toLoadRect
        ((bChunk1).view.writes (Elt F) fb [⟨Rect.whole S8x512, (xChunk L 1).view.read (Elt F) x⟩]) y
      = x (ix3 (wB (widL L)) (wRow (widL L) ⟨8 * 1 + kk, by omega⟩) (col ⟨i, hi⟩ ⟨(y 1).val, (y 1).isLt⟩)) :=
  load_writes (bChunk1).view fb L 1 x kk i off hoff h y hk hi

theorem load_chunk2 (L : grid0.Coords) (x : IVec SX 32) (fb : (bChunk2).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk2).view.readAt (Elt F) (Rect.unit (s := S8x512) off S1x16.size h).toLoadRect
        ((bChunk2).view.write (Elt F) fb ((xChunk L 2).view.read (Elt F) x) Finset.univ) y
      = x (ix3 (wB (widL L)) (wRow (widL L) ⟨8 * 2 + kk, by omega⟩) (col ⟨i, hi⟩ ⟨(y 1).val, (y 1).isLt⟩)) :=
  load_write (bChunk2).view fb L 2 x kk i off hoff h y hk hi
theorem load_chunk2_writes (L : grid0.Coords) (x : IVec SX 32) (fb : (bChunk2).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk2).view.readAt (Elt F) (Rect.unit (s := S8x512) off S1x16.size h).toLoadRect
        ((bChunk2).view.writes (Elt F) fb [⟨Rect.whole S8x512, (xChunk L 2).view.read (Elt F) x⟩]) y
      = x (ix3 (wB (widL L)) (wRow (widL L) ⟨8 * 2 + kk, by omega⟩) (col ⟨i, hi⟩ ⟨(y 1).val, (y 1).isLt⟩)) :=
  load_writes (bChunk2).view fb L 2 x kk i off hoff h y hk hi

theorem load_chunk3 (L : grid0.Coords) (x : IVec SX 32) (fb : (bChunk3).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk3).view.readAt (Elt F) (Rect.unit (s := S8x512) off S1x16.size h).toLoadRect
        ((bChunk3).view.write (Elt F) fb ((xChunk L 3).view.read (Elt F) x) Finset.univ) y
      = x (ix3 (wB (widL L)) (wRow (widL L) ⟨8 * 3 + kk, by omega⟩) (col ⟨i, hi⟩ ⟨(y 1).val, (y 1).isLt⟩)) :=
  load_write (bChunk3).view fb L 3 x kk i off hoff h y hk hi
theorem load_chunk3_writes (L : grid0.Coords) (x : IVec SX 32) (fb : (bChunk3).view.ty.Contents (Elt F)) (kk i : ℕ) (off : Fin 2 → ℕ)
    (hoff : off = ![kk, 16 * i]) (h : ∀ a, off a + S1x16.size a ≤ S8x512.size a) (y : S1x16.Idx) (hk : kk < 8) (hi : i < 32) :
    (bChunk3).view.readAt (Elt F) (Rect.unit (s := S8x512) off S1x16.size h).toLoadRect
        ((bChunk3).view.writes (Elt F) fb [⟨Rect.whole S8x512, (xChunk L 3).view.read (Elt F) x⟩]) y
      = x (ix3 (wB (widL L)) (wRow (widL L) ⟨8 * 3 + kk, by omega⟩) (col ⟨i, hi⟩ ⟨(y 1).val, (y 1).isLt⟩)) :=
  load_writes (bChunk3).view fb L 3 x kk i off hoff h y hk hi

/-! ## A trip over a slot that holds a chunk -/

variable [FloatOps F]

/-- Trip `k` of the first chunk loop's text, its thirty-two loads read through a view that holds chunk `J` at offsets
    `(k, 16 i)`, takes the accumulators of `8 J + k` rows to those of `8 J + k + 1` rows. -/
theorem trip_of_loads1 (v : View sig κ sp S8x512 .i32) (g : v.ty.Contents (Elt F)) (L : grid0.Coords) (J : Fin 4)
    (x : IVec SX 32) (hg : v.read (Elt F) g = (xChunk L J).view.read (Elt F) x) (k : ℕ) (hk : k < 8)
    (offs : Fin 32 → Fin 2 → ℕ) (hoffs : ∀ i : Fin 32, offs i = ![k, 16 * i.val])
    (h : ∀ (i : Fin 32) (a : Fin 2), offs i a + S1x16.size a ≤ S8x512.size a) :
    tripYield1 (fun i => v.readAt (Elt F) (Rect.unit (s := S8x512) (offs i) S1x16.size (h i)).toLoadRect g)
        (accVec x (widL L) 0 (8 * J.val + k)) (accVec x (widL L) 1 (8 * J.val + k))
        (accVec x (widL L) 2 (8 * J.val + k)) (accVec x (widL L) 3 (8 * J.val + k))
      = (accVec x (widL L) 0 (8 * J.val + k + 1), accVec x (widL L) 1 (8 * J.val + k + 1),
         accVec x (widL L) 2 (8 * J.val + k + 1), accVec x (widL L) 3 (8 * J.val + k + 1)) :=
  trip_step1 x (widL L) (8 * J.val + k) (by omega) _
    (fun u l => load_read v g L J x hg k u.val (offs u) (hoffs u) (h u) (ix2 (0 : Fin 1) l) hk u.isLt)

/-- Trip `k` of the second chunk loop's text, its thirty-two loads read through a view that holds chunk `J` at offsets
    `(k, 16 i)`, takes the accumulators of `8 J + k` rows to those of `8 J + k + 1` rows. -/
theorem trip_of_loads2 (v : View sig κ sp S8x512 .i32) (g : v.ty.Contents (Elt F)) (L : grid0.Coords) (J : Fin 4)
    (x : IVec SX 32) (hg : v.read (Elt F) g = (xChunk L J).view.read (Elt F) x) (k : ℕ) (hk : k < 8)
    (offs : Fin 32 → Fin 2 → ℕ) (hoffs : ∀ i : Fin 32, offs i = ![k, 16 * i.val])
    (h : ∀ (i : Fin 32) (a : Fin 2), offs i a + S1x16.size a ≤ S8x512.size a) :
    tripYield2 (fun i => v.readAt (Elt F) (Rect.unit (s := S8x512) (offs i) S1x16.size (h i)).toLoadRect g)
        (accVec x (widL L) 0 (8 * J.val + k)) (accVec x (widL L) 1 (8 * J.val + k))
        (accVec x (widL L) 2 (8 * J.val + k)) (accVec x (widL L) 3 (8 * J.val + k))
      = (accVec x (widL L) 0 (8 * J.val + k + 1), accVec x (widL L) 1 (8 * J.val + k + 1),
         accVec x (widL L) 2 (8 * J.val + k + 1), accVec x (widL L) 3 (8 * J.val + k + 1)) :=
  trip_step2 x (widL L) (8 * J.val + k) (by omega) _
    (fun u l => load_read v g L J x hg k u.val (offs u) (hoffs u) (h u) (ix2 (0 : Fin 1) l) hk u.isLt)

/-- Trip `k` of the third chunk loop's text, its thirty-two loads read through a view that holds chunk `J` at offsets
    `(k, 16 i)`, takes the accumulators of `8 J + k` rows to those of `8 J + k + 1` rows. -/
theorem trip_of_loads3 (v : View sig κ sp S8x512 .i32) (g : v.ty.Contents (Elt F)) (L : grid0.Coords) (J : Fin 4)
    (x : IVec SX 32) (hg : v.read (Elt F) g = (xChunk L J).view.read (Elt F) x) (k : ℕ) (hk : k < 8)
    (offs : Fin 32 → Fin 2 → ℕ) (hoffs : ∀ i : Fin 32, offs i = ![k, 16 * i.val])
    (h : ∀ (i : Fin 32) (a : Fin 2), offs i a + S1x16.size a ≤ S8x512.size a) :
    tripYield3 (fun i => v.readAt (Elt F) (Rect.unit (s := S8x512) (offs i) S1x16.size (h i)).toLoadRect g)
        (accVec x (widL L) 0 (8 * J.val + k)) (accVec x (widL L) 1 (8 * J.val + k))
        (accVec x (widL L) 2 (8 * J.val + k)) (accVec x (widL L) 3 (8 * J.val + k))
      = (accVec x (widL L) 0 (8 * J.val + k + 1), accVec x (widL L) 1 (8 * J.val + k + 1),
         accVec x (widL L) 2 (8 * J.val + k + 1), accVec x (widL L) 3 (8 * J.val + k + 1)) :=
  trip_step3 x (widL L) (8 * J.val + k) (by omega) _
    (fun u l => load_read v g L J x hg k u.val (offs u) (hoffs u) (h u) (ix2 (0 : Fin 1) l) hk u.isLt)

/-- Trip `k` of the fourth chunk loop's text, its thirty-two loads read through a view that holds chunk `J` at offsets
    `(k, 16 i)`, takes the accumulators of `8 J + k` rows to those of `8 J + k + 1` rows. -/
theorem trip_of_loads4 (v : View sig κ sp S8x512 .i32) (g : v.ty.Contents (Elt F)) (L : grid0.Coords) (J : Fin 4)
    (x : IVec SX 32) (hg : v.read (Elt F) g = (xChunk L J).view.read (Elt F) x) (k : ℕ) (hk : k < 8)
    (offs : Fin 32 → Fin 2 → ℕ) (hoffs : ∀ i : Fin 32, offs i = ![k, 16 * i.val])
    (h : ∀ (i : Fin 32) (a : Fin 2), offs i a + S1x16.size a ≤ S8x512.size a) :
    tripYield4 (fun i => v.readAt (Elt F) (Rect.unit (s := S8x512) (offs i) S1x16.size (h i)).toLoadRect g)
        (accVec x (widL L) 0 (8 * J.val + k)) (accVec x (widL L) 1 (8 * J.val + k))
        (accVec x (widL L) 2 (8 * J.val + k)) (accVec x (widL L) 3 (8 * J.val + k))
      = (accVec x (widL L) 0 (8 * J.val + k + 1), accVec x (widL L) 1 (8 * J.val + k + 1),
         accVec x (widL L) 2 (8 * J.val + k + 1), accVec x (widL L) 3 (8 * J.val + k + 1)) :=
  trip_step4 x (widL L) (8 * J.val + k) (by omega) _
    (fun u l => load_read v g L J x hg k u.val (offs u) (hoffs u) (h u) (ix2 (0 : Fin 1) l) hk u.isLt)

end Loads

end Cert.Proof.ValueB

end
-- ==== Proof.ValueRowB.lean ====
/-
  The worker's write-out. The four full accumulators' total is stored whole into the sixteen-lane staging buffer and
  copied from there into the worker's row of the partial sums. Read back through the staging buffer the stored vector
  is itself; and once the row holds the worker's sixteen lane sums, every element of the row is the corresponding entry
  of the SparseCore stage's result: element `l` of the row sits at `(w, l)`, where the result holds lane sum `l` of
  worker `w`.
-/
import proofs.«209222_g37675453120884_cont_8to1_b_1946_16_alg».proof.Proof.ValueViewB

noncomputable section

namespace Cert.Proof.ValueB

open Cert.Proof.Value

open Idealize.ShloMosaic Idealize.ShloMosaic.ValueIdx Cert.Proof.Spec
open Cert.Kernel Cert.Kernel.Gen
open Cert.Proof.KB (widCS prowSet hdivP)

local notation "pW" => (Memref.whole Cert.Kernel.main_v0_scv : Memref Cert.Kernel.sig Kind.scVector Space.hbm Cert.Kernel.S32x16 EltTy.i32)
local notation "gW" => (Memref.whole Cert.Kernel.cc0_scratch1 : Memref Cert.Kernel.sig Kind.scVector Space.vmem Cert.Kernel.S16 EltTy.i32)

variable {F : FTy → Type}

/-- A piece written through the whole of a view, its zero offsets however spelt, reads back as its payload. -/
theorem read_writes_unit_zero {sig : RefSig} {κ : Kind} {sp : Space} {s : Shape} {e : EltTy} {Val : EltTy → Type}
    (v : View sig κ sp s e) (f : v.ty.Contents Val) (off : Fin s.rank → ℕ) (hoff : off = fun _ => 0)
    (inb : ∀ a, off a + s.size a ≤ s.size a) (w : s.Idx → Val e) :
    v.read Val (v.writes Val f [⟨Rect.unit off s.size inb, w⟩]) = w := by
  subst hoff
  exact View.read_writes_whole v f w

/-- The staging buffer after the store of `v` reads `v`. -/
theorem stage_read (fg : (gW).view.ty.Contents (Elt F)) (v : IVec S16 32) :
    (gW).view.read (Elt F) ((gW).view.writes (Elt F) fg [⟨Rect.unit (s := S16) ![0] S16.size inb_S16_S16_0, v⟩]) = v :=
  read_writes_unit_zero (gW).view fg ![0] (funext fun a => by match a with | ⟨0, _⟩ => rfl) inb_S16_S16_0 v

/-- The worker's row, holding its sixteen lane sums, agrees with the SparseCore stage's result on every element
    of the row. -/
theorem row_value (L : grid0.Coords) (x : IVec SX 32) (f0 : (pRowK L).view.ty.Contents (Elt F)) (v : IVec S16 32)
    (hv : v = fun j => laneSum x (widL L) ⟨(j 0).val, (j 0).isLt⟩) :
    ∀ i ∈ (pRowK L).view.set, (pRowK L).view.writes (Elt F) f0 [⟨Rect.whole S16, v⟩] i = scOut x i := by
  intro i hi
  obtain ⟨y, -, rfl⟩ := Finset.mem_map.mp hi
  obtain ⟨l, rfl⟩ : ∃ l : Fin 16, y = ix1 l := ⟨y 0, eq_ix1 y⟩
  have h := congrFun (View.read_writes_whole (pRowK L).view f0 v) (ix1 l)
  rw [View.read_apply] at h
  refine (show _ = v (ix1 l) from h).trans ?_
  rw [pRowK_emb, hv]
  rfl

/-- The elements of row `w` of the partial sums are the `(w, l)`. -/
theorem mem_prowSet (w : Fin 32) (i : S32x16.Idx) (hi : i ∈ prowSet w) : ∃ l : Fin 16, i = ix2 w l := by
  have hi' : i ∈ (Rect.part (s := S32x16) (a₀ := 0) hdivP w).set := by
    have e := View.set_slice_whole (sig := sig) (κ := .scVector) main_v0_scv (Rect.part (s := S32x16) (a₀ := 0) hdivP w)
    exact e ▸ hi
  have h0 := (Rect.mem_set_unit.mp hi') 0
  refine ⟨i 1, ?_⟩
  funext a
  match a with
  | ⟨0, _⟩ =>
    refine Fin.ext ?_
    have e1 : S32x16.partIx 0 w.val 0 = w.val := rfl
    have e2 : S32x16.partSize 0 32 0 = 1 := rfl
    have h1 : w.val * 1 ≤ (i 0).val := by simpa [e1, e2] using h0.1
    have h2 : (i 0).val < w.val * 1 + 1 := by simpa [e1, e2] using h0.2
    show (i 0).val = w.val
    omega
  | ⟨1, _⟩ => rfl

/-- The same on the row named as worker `w`'s part of the array. -/
theorem row_value_prow (L : grid0.Coords) (x : IVec SX 32) (f0 : (pRowK L).view.ty.Contents (Elt F)) (v : IVec S16 32)
    (hv : v = fun j => laneSum x (widL L) ⟨(j 0).val, (j 0).isLt⟩) :
    ∀ i ∈ prowSet (widL L), (pRowK L).view.writes (Elt F) f0 [⟨Rect.whole S16, v⟩] i = scOut x i := by
  intro i hi
  obtain ⟨l, rfl⟩ := mem_prowSet (widL L) i hi
  exact row_value L x f0 v hv _ ((pRowK_emb L l) ▸ View.emb_mem_set (pRowK L).view (ix1 l))

end Cert.Proof.ValueB

end
-- ==== Proof.ScTileB.lean ====
/-
  One vector subcore's task. The task copies its four chunks of eight rows into its scratch (four transfers, each on
  a semaphore of its own), and after each chunk has landed adds the chunk's rows, sixteen lanes at a time, into four
  accumulators; their sum is stored to a sixteen-word staging buffer and copied out to the worker's row of the partial
  sums. The row it leaves is the worker's sixteen lane sums.
-/
import proofs.«209222_g37675453120884_cont_8to1_b_1946_16_alg».proof.Proof.ScDataB
import proofs.«209222_g37675453120884_cont_8to1_b_1946_16_alg».proof.Proof.Gen.Kernel.Skeleton
import Idealize.ShloMosaic.Lib.SparseCore.Ops
import proofs.«209222_g37675453120884_cont_8to1_b_1946_16_alg».proof.Proof.ValueRowB

noncomputable section

namespace Cert.Proof.KB

open Cert.Kernel Cert.Kernel.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The worker at grid coordinates `L` = (SparseCore, subcore). -/
def widL (L : grid0.Coords) : Fin 32 := widCS ⟨(L 0).val, (L 0).isLt⟩ ⟨(L 1).val, (L 1).isLt⟩

variable (m : (ℓ : Loc nD τ sig) → Buf (Elt F) ℓ) (d : Dev nD) (L : grid0.Coords)
variable [FloatOps F]

/-! ## The subcore's own storage: the five transfer semaphores, the two scratch buffers -/

abbrev cellA (d : Dev nD) (L : grid0.Coords) : GSem nD τ sig := (V d (cV L) (jV L), .dma cc0_scratch2.sem)
abbrev cellB (d : Dev nD) (L : grid0.Coords) : GSem nD τ sig := (V d (cV L) (jV L), .dma cc0_scratch3.sem)
abbrev cellC (d : Dev nD) (L : grid0.Coords) : GSem nD τ sig := (V d (cV L) (jV L), .dma cc0_scratch4.sem)
abbrev cellD (d : Dev nD) (L : grid0.Coords) : GSem nD τ sig := (V d (cV L) (jV L), .dma cc0_scratch5.sem)
abbrev cellS (d : Dev nD) (L : grid0.Coords) : GSem nD τ sig := (V d (cV L) (jV L), .dma cc0_scoped0.sem)

omit [FloatOps F] in
theorem ownSems0_V :
    (ownSems0 (V d (cV L) (jV L)) : sProp 𝕄)
      = iprop(semVal (cellA d L) 0 ∗ semVal (cellB d L) 0 ∗ semVal (cellC d L) 0 ∗ semVal (cellD d L) 0 ∗ semVal (cellS d L) 0
          ∗ bigSep ((((((ownCells (V d (cV L) (jV L))).erase (cellA d L)).erase (cellB d L)).erase (cellC d L)).erase (cellD d L)).erase (cellS d L))
              fun g => semVal g 0) := by
  unfold SparseCore.Cfg.ownSems0
  have hmem : ∀ (s : DmaSem sig), (SemLoc.dma s : SemLoc sig).isScoped .scVector = true →
      ((V d (cV L) (jV L), SemLoc.dma s) : GSem nD τ sig) ∈ ownCells (V d (cV L) (jV L)) :=
    fun s h => (mem_ownCells (g := (V d (cV L) (jV L), SemLoc.dma s))).mpr ⟨rfl, h⟩
  have hne : ∀ {s s' : DmaSem sig}, s ≠ s' → ((V d (cV L) (jV L), SemLoc.dma s) : GSem nD τ sig) ≠ (V d (cV L) (jV L), SemLoc.dma s') :=
    fun h e => h (SemLoc.dma.inj (Prod.mk.inj e).2)
  rw [SparseCore.bigSep_erase' (hmem cc0_scratch2.sem (by decide)),
    SparseCore.bigSep_erase' (Finset.mem_erase.mpr ⟨hne (by decide), hmem cc0_scratch3.sem (by decide)⟩),
    SparseCore.bigSep_erase' (Finset.mem_erase.mpr ⟨hne (by decide), Finset.mem_erase.mpr ⟨hne (by decide), hmem cc0_scratch4.sem (by decide)⟩⟩),
    SparseCore.bigSep_erase' (Finset.mem_erase.mpr ⟨hne (by decide), Finset.mem_erase.mpr ⟨hne (by decide), Finset.mem_erase.mpr ⟨hne (by decide),
      hmem cc0_scratch5.sem (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hmem cc0_scoped0.sem (by decide)⟩⟩⟩⟩)]

omit [FloatOps F] in
/-- The chunk scratch and the staging buffer are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The arrays as the task's memrefs address them -/

-- the kernel's memrefs, spelt as the body table passes them
local notation "xW" => (Memref.whole Cert.Kernel.main_arg0_scv : Memref Cert.Kernel.sig Kind.scVector Space.hbm Cert.Kernel.S8x512x512 EltTy.i32)
local notation "pW" => (Memref.whole Cert.Kernel.main_v0_scv : Memref Cert.Kernel.sig Kind.scVector Space.hbm Cert.Kernel.S32x16 EltTy.i32)
local notation "bW" => (Memref.whole Cert.Kernel.cc0_scratch0 : Memref Cert.Kernel.sig Kind.scVector Space.vmem Cert.Kernel.S4x8x512 EltTy.i32)
local notation "gW" => (Memref.whole Cert.Kernel.cc0_scratch1 : Memref Cert.Kernel.sig Kind.scVector Space.vmem Cert.Kernel.S16 EltTy.i32)

/-- The worker's row of the partial sums, as the task slices it for its write-out. -/
abbrev pRowK (L : grid0.Coords) : Memref sig .scVector .hbm S16 .i32 :=
  ((pW).slice (Rect.unit (s := S32x16) (k0_off130 L) S1x16.size (k0_off130_inb L)) (fun _ => rfl)).squeeze S16 squeezes_S1x16_S16

omit [FloatOps F] in
theorem pts_x (q : PosShare TreeShare) (f : Buf (Elt F) (xLoc d)) :
    ((xW).view.loc (V d (cV L) (jV L)) ↦{q} f : sProp 𝕄) = xLoc d ↦{q} f := by
  simp only [Memref.view_whole, View.set_whole]
omit [FloatOps F] in
theorem pts_b (f : Buf (Elt F) ((V d (cV L) (jV L)).loc cc0_scratch0)) :
    ((bW).view.loc (V d (cV L) (jV L)) ↦{fullShare} f : sProp 𝕄) = (V d (cV L) (jV L)).loc cc0_scratch0 ↦{fullShare} f := by
  simp only [Memref.view_whole, View.set_whole]
omit [FloatOps F] in
theorem pts_g (f : Buf (Elt F) ((V d (cV L) (jV L)).loc cc0_scratch1)) :
    ((gW).view.loc (V d (cV L) (jV L)) ↦{fullShare} f : sProp 𝕄) = (V d (cV L) (jV L)).loc cc0_scratch1 ↦{fullShare} f := by
  simp only [Memref.view_whole, View.set_whole]

omit [FloatOps F] in
theorem prow_eq : Rect.unit (s := S32x16) (k0_off130 L) S1x16.size (k0_off130_inb L) = prow (widL L) := by
  unfold prow Rect.part Rect.block
  congr 1 <;> funext a
  · rw [k0_off130_eq]
    match a with
    | 0 => simp [Shape.partIx, Shape.partSize, widL, widCS]
    | 1 => simp [Shape.partIx, Shape.partSize]
  · match a with
    | 0 => simp [Shape.partSize]
    | 1 => simp [Shape.partSize]
omit [FloatOps F] in
theorem set_pRowK : (pRowK L).view.set = prowSet (widL L) := by
  show (((pW).view.slice (Rect.unit (s := S32x16) (k0_off130 L) S1x16.size (k0_off130_inb L))).reshape S16 squeezes_S1x16_S16.numel_eq).set
    = ((pW).view.slice (prow (widL L))).set
  rw [View.set_reshape]
  exact prow_eq L ▸ rfl
omit [FloatOps F] in
theorem pts_pRow (f : Buf (Elt F) (pLoc d)) :
    ((pRowK L).view.loc (V d (cV L) (jV L)) ↦[(pRowK L).view.set]{fullShare} f : sProp 𝕄) = pLoc d ↦[prowSet (widL L)]{fullShare} f := by
  rw [set_pRowK]

/-! ## The chunk scratch as its four chunks -/

theorem hdivB : 4 ∣ S4x8x512.size 0 := ⟨1, rfl⟩
abbrev bpart (j : Fin 4) : Rect S4x8x512 := Rect.part (s := S4x8x512) (a₀ := 0) hdivB j
abbrev bSet (j : Fin 4) : Finset S4x8x512.Idx := ((bW).view.slice (bpart j)).set

/-- Chunk `j` of the scratch, as the task slices it. -/
abbrev bChunk0 : Memref sig .scVector .vmem S8x512 .i32 :=
  ((bW).slice (Rect.unit (s := S4x8x512) ![0, 0, 0] S1x8x512.size inb_S4x8x512_S1x8x512_0_0_0) (fun _ => rfl)).squeeze S8x512 squeezes_S1x8x512_S8x512
abbrev bChunk1 : Memref sig .scVector .vmem S8x512 .i32 :=
  ((bW).slice (Rect.unit (s := S4x8x512) ![1, 0, 0] S1x8x512.size inb_S4x8x512_S1x8x512_1_0_0) (fun _ => rfl)).squeeze S8x512 squeezes_S1x8x512_S8x512
abbrev bChunk2 : Memref sig .scVector .vmem S8x512 .i32 :=
  ((bW).slice (Rect.unit (s := S4x8x512) ![2, 0, 0] S1x8x512.size inb_S4x8x512_S1x8x512_2_0_0) (fun _ => rfl)).squeeze S8x512 squeezes_S1x8x512_S8x512
abbrev bChunk3 : Memref sig .scVector .vmem S8x512 .i32 :=
  ((bW).slice (Rect.unit (s := S4x8x512) ![3, 0, 0] S1x8x512.size inb_S4x8x512_S1x8x512_3_0_0) (fun _ => rfl)).squeeze S8x512 squeezes_S1x8x512_S8x512

omit [FloatOps F] in
theorem bSet_eq (j : Fin 4) : bSet j = (bpart j).set := by
  show ((View.whole (cc0_scratch0 : Ref sig .scVector)).slice (bpart j)).set = _
  rw [View.set_slice]; exact Finset.map_refl
omit [FloatOps F] in
theorem bparts_disjoint : ∀ i ∈ (Finset.univ : Finset (Fin 4)), ∀ j ∈ (Finset.univ : Finset (Fin 4)), i ≠ j → Disjoint (bSet i) (bSet j) :=
  fun i _ j _ h => by rw [bSet_eq, bSet_eq]; exact Rect.part_disjoint hdivB h
omit [FloatOps F] in
theorem bparts_cover : (Finset.univ : Finset (Fin 4)).biUnion bSet = Finset.univ :=
  (Finset.biUnion_congr rfl fun i _ => bSet_eq i).trans (Rect.biUnion_part hdivB)
omit [FloatOps F] in
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
/-- The scratch whole is its four chunks. -/
theorem bPts_parts (f : Buf (Elt F) ((V d (cV L) (jV L)).loc cc0_scratch0)) :
    ((V d (cV L) (jV L)).loc cc0_scratch0 ↦{fullShare} f : sProp 𝕄)
      = iprop(((V d (cV L) (jV L)).loc cc0_scratch0 ↦[bSet 0]{fullShare} f) ∗ ((V d (cV L) (jV L)).loc cc0_scratch0 ↦[bSet 1]{fullShare} f)
          ∗ ((V d (cV L) (jV L)).loc cc0_scratch0 ↦[bSet 2]{fullShare} f) ∗ ((V d (cV L) (jV L)).loc cc0_scratch0 ↦[bSet 3]{fullShare} f)) := by
  rw [← bigSep_four (F := F) (fun j => ((V d (cV L) (jV L)).loc cc0_scratch0 ↦[bSet j]{fullShare} f)),
    ← pointsTo_biUnion Finset.univ (ℓ := (V d (cV L) (jV L)).loc cc0_scratch0) bSet bparts_disjoint, bparts_cover]; try rfl

omit [FloatOps F] in
theorem bunit0 : Rect.unit (s := S4x8x512) ![0, 0, 0] S1x8x512.size inb_S4x8x512_S1x8x512_0_0_0 = bpart 0 := by
  unfold bpart Rect.part Rect.block
  congr 1 <;> funext a <;> (match a with
    | 0 => simp [Shape.partIx, Shape.partSize]
    | 1 => simp [Shape.partIx, Shape.partSize]
    | 2 => simp [Shape.partIx, Shape.partSize])
omit [FloatOps F] in
theorem bunit1 : Rect.unit (s := S4x8x512) ![1, 0, 0] S1x8x512.size inb_S4x8x512_S1x8x512_1_0_0 = bpart 1 := by
  unfold bpart Rect.part Rect.block
  congr 1 <;> funext a <;> (match a with
    | 0 => simp [Shape.partIx, Shape.partSize]
    | 1 => simp [Shape.partIx, Shape.partSize]
    | 2 => simp [Shape.partIx, Shape.partSize])
omit [FloatOps F] in
theorem bunit2 : Rect.unit (s := S4x8x512) ![2, 0, 0] S1x8x512.size inb_S4x8x512_S1x8x512_2_0_0 = bpart 2 := by
  unfold bpart Rect.part Rect.block
  congr 1 <;> funext a <;> (match a with
    | 0 => simp [Shape.partIx, Shape.partSize]
    | 1 => simp [Shape.partIx, Shape.partSize]
    | 2 => simp [Shape.partIx, Shape.partSize])
omit [FloatOps F] in
theorem bunit3 : Rect.unit (s := S4x8x512) ![3, 0, 0] S1x8x512.size inb_S4x8x512_S1x8x512_3_0_0 = bpart 3 := by
  unfold bpart Rect.part Rect.block
  congr 1 <;> funext a <;> (match a with
    | 0 => simp [Shape.partIx, Shape.partSize]
    | 1 => simp [Shape.partIx, Shape.partSize]
    | 2 => simp [Shape.partIx, Shape.partSize])

omit [FloatOps F] in
theorem set_bChunk0 : (bChunk0).view.set = bSet 0 := by
  show (((bW).view.slice (Rect.unit (s := S4x8x512) ![0, 0, 0] S1x8x512.size inb_S4x8x512_S1x8x512_0_0_0)).reshape S8x512 squeezes_S1x8x512_S8x512.numel_eq).set = _
  rw [View.set_reshape]
  show ((bW).view.slice (Rect.unit (s := S4x8x512) ![0, 0, 0] S1x8x512.size inb_S4x8x512_S1x8x512_0_0_0)).set = ((bW).view.slice (bpart 0)).set
  rw [View.set_slice, View.set_slice, bunit0]
omit [FloatOps F] in
theorem set_bChunk1 : (bChunk1).view.set = bSet 1 := by
  show (((bW).view.slice (Rect.unit (s := S4x8x512) ![1, 0, 0] S1x8x512.size inb_S4x8x512_S1x8x512_1_0_0)).reshape S8x512 squeezes_S1x8x512_S8x512.numel_eq).set = _
  rw [View.set_reshape]
  show ((bW).view.slice (Rect.unit (s := S4x8x512) ![1, 0, 0] S1x8x512.size inb_S4x8x512_S1x8x512_1_0_0)).set = ((bW).view.slice (bpart 1)).set
  rw [View.set_slice, View.set_slice, bunit1]
omit [FloatOps F] in
theorem set_bChunk2 : (bChunk2).view.set = bSet 2 := by
  show (((bW).view.slice (Rect.unit (s := S4x8x512) ![2, 0, 0] S1x8x512.size inb_S4x8x512_S1x8x512_2_0_0)).reshape S8x512 squeezes_S1x8x512_S8x512.numel_eq).set = _
  rw [View.set_reshape]
  show ((bW).view.slice (Rect.unit (s := S4x8x512) ![2, 0, 0] S1x8x512.size inb_S4x8x512_S1x8x512_2_0_0)).set = ((bW).view.slice (bpart 2)).set
  rw [View.set_slice, View.set_slice, bunit2]
omit [FloatOps F] in
theorem set_bChunk3 : (bChunk3).view.set = bSet 3 := by
  show (((bW).view.slice (Rect.unit (s := S4x8x512) ![3, 0, 0] S1x8x512.size inb_S4x8x512_S1x8x512_3_0_0)).reshape S8x512 squeezes_S1x8x512_S8x512.numel_eq).set = _
  rw [View.set_reshape]
  show ((bW).view.slice (Rect.unit (s := S4x8x512) ![3, 0, 0] S1x8x512.size inb_S4x8x512_S1x8x512_3_0_0)).set = ((bW).view.slice (bpart 3)).set
  rw [View.set_slice, View.set_slice, bunit3]

omit [FloatOps F] in
theorem pts_b0 (f : Buf (Elt F) ((V d (cV L) (jV L)).loc cc0_scratch0)) :
    ((bChunk0).view.loc (V d (cV L) (jV L)) ↦[(bChunk0).view.set]{fullShare} f : sProp 𝕄) = (V d (cV L) (jV L)).loc cc0_scratch0 ↦[bSet 0]{fullShare} f := by
  rw [set_bChunk0]
omit [FloatOps F] in
theorem pts_b1 (f : Buf (Elt F) ((V d (cV L) (jV L)).loc cc0_scratch0)) :
    ((bChunk1).view.loc (V d (cV L) (jV L)) ↦[(bChunk1).view.set]{fullShare} f : sProp 𝕄) = (V d (cV L) (jV L)).loc cc0_scratch0 ↦[bSet 1]{fullShare} f := by
  rw [set_bChunk1]
omit [FloatOps F] in
theorem pts_b2 (f : Buf (Elt F) ((V d (cV L) (jV L)).loc cc0_scratch0)) :
    ((bChunk2).view.loc (V d (cV L) (jV L)) ↦[(bChunk2).view.set]{fullShare} f : sProp 𝕄) = (V d (cV L) (jV L)).loc cc0_scratch0 ↦[bSet 2]{fullShare} f := by
  rw [set_bChunk2]
omit [FloatOps F] in
theorem pts_b3 (f : Buf (Elt F) ((V d (cV L) (jV L)).loc cc0_scratch0)) :
    ((bChunk3).view.loc (V d (cV L) (jV L)) ↦[(bChunk3).view.set]{fullShare} f : sProp 𝕄) = (V d (cV L) (jV L)).loc cc0_scratch0 ↦[bSet 3]{fullShare} f := by
  rw [set_bChunk3]

/-! ## The accumulators -/

/-- The four accumulators after the worker's first `n` rows. -/
abbrev accs (x : IVec SX 32) (w : Fin 32) (n : ℕ) : IVec S16 32 × IVec S16 32 × IVec S16 32 × IVec S16 32 :=
  (ValueB.accVec x w 0 n, ValueB.accVec x w 1 n, ValueB.accVec x w 2 n, ValueB.accVec x w 3 n)

/-- A chunk's loop, before trip `k`: the accumulators hold the first `base + k` rows' sums; the chunk is held at the
    contents its copy left. -/
def linv (B : Memref sig .scVector .vmem S8x512 .i32) (g : B.view.ty.Contents (Elt F)) (x : IVec SX 32) (w : Fin 32) (base : ℕ)
    (k : ℕ) (acc : IVec S16 32 × IVec S16 32 × IVec S16 32 × IVec S16 32) : sProp 𝕄 :=
  iprop(⌜acc = accs x w (base + k)⌝ ∗ (B.view.loc (V d (cV L) (jV L)) ↦[B.view.set]{fullShare} g))

/-- Chunk `j` of the worker's rows of the labels, as the task slices it for its copy. -/
abbrev xChunk (L : grid0.Coords) (j : Fin 4) : Memref sig .scVector .hbm S8x512 .i32 :=
  ((xW).slice (Rect.unit (s := S8x512x512) (k0_off1 L (BitVec.ofNat 32 (8 * j.val))) S1x8x512.size (k0_off1_inb L j)) (fun _ => rfl)).squeeze S8x512 squeezes_S1x8x512_S8x512

omit [FloatOps F] in
/-- The scratch's four chunks, at whatever each holds, are the scratch whole at some contents: the contents that takes
    each chunk's own function on that chunk. -/
theorem bChunks_join (f0 f1 f2 f3 : Buf (Elt F) ((V d (cV L) (jV L)).loc cc0_scratch0)) :
    iprop(((V d (cV L) (jV L)).loc cc0_scratch0 ↦[bSet 0]{fullShare} f0) ∗ ((V d (cV L) (jV L)).loc cc0_scratch0 ↦[bSet 1]{fullShare} f1)
        ∗ ((V d (cV L) (jV L)).loc cc0_scratch0 ↦[bSet 2]{fullShare} f2) ∗ ((V d (cV L) (jV L)).loc cc0_scratch0 ↦[bSet 3]{fullShare} f3))
      ⊢ (iprop(∃ f, (V d (cV L) (jV L)).loc cc0_scratch0 ↦{fullShare} f) : sProp 𝕄) := by
  classical
  have d01 := bparts_disjoint 0 (Finset.mem_univ _) 1 (Finset.mem_univ _) (by decide)
  have d02 := bparts_disjoint 0 (Finset.mem_univ _) 2 (Finset.mem_univ _) (by decide)
  have d12 := bparts_disjoint 1 (Finset.mem_univ _) 2 (Finset.mem_univ _) (by decide)
  have d03 := bparts_disjoint 0 (Finset.mem_univ _) 3 (Finset.mem_univ _) (by decide)
  have d13 := bparts_disjoint 1 (Finset.mem_univ _) 3 (Finset.mem_univ _) (by decide)
  have d23 := bparts_disjoint 2 (Finset.mem_univ _) 3 (Finset.mem_univ _) (by decide)
  have h0 : ∀ i ∈ bSet 0, f0 i = (fun i => if i ∈ bSet 0 then f0 i else if i ∈ bSet 1 then f1 i else if i ∈ bSet 2 then f2 i else f3 i) i :=
    fun i hi => by simp only [if_pos hi]
  have h1 : ∀ i ∈ bSet 1, f1 i = (fun i => if i ∈ bSet 0 then f0 i else if i ∈ bSet 1 then f1 i else if i ∈ bSet 2 then f2 i else f3 i) i :=
    fun i hi => by
      have n0 : i ∉ bSet 0 := fun h => (Finset.disjoint_left.mp d01 h) hi
      simp only [if_neg n0, if_pos hi]
  have h2 : ∀ i ∈ bSet 2, f2 i = (fun i => if i ∈ bSet 0 then f0 i else if i ∈ bSet 1 then f1 i else if i ∈ bSet 2 then f2 i else f3 i) i :=
    fun i hi => by
      have n0 : i ∉ bSet 0 := fun h => (Finset.disjoint_left.mp d02 h) hi
      have n1 : i ∉ bSet 1 := fun h => (Finset.disjoint_left.mp d12 h) hi
      simp only [if_neg n0, if_neg n1, if_pos hi]
  have h3 : ∀ i ∈ bSet 3, f3 i = (fun i => if i ∈ bSet 0 then f0 i else if i ∈ bSet 1 then f1 i else if i ∈ bSet 2 then f2 i else f3 i) i :=
    fun i hi => by
      have n0 : i ∉ bSet 0 := fun h => (Finset.disjoint_left.mp d03 h) hi
      have n1 : i ∉ bSet 1 := fun h => (Finset.disjoint_left.mp d13 h) hi
      have n2 : i ∉ bSet 2 := fun h => (Finset.disjoint_left.mp d23 h) hi
      simp only [if_neg n0, if_neg n1, if_neg n2]
  rw [pointsTo_congr (I := bSet 0) (f := f0) h0, pointsTo_congr (I := bSet 1) (f := f1) h1, pointsTo_congr (I := bSet 2) (f := f2) h2,
    pointsTo_congr (I := bSet 3) (f := f3) h3, ← bPts_parts]
  iintro H
  iexists _; iexact H

/-! ## The loads' offsets, loop by loop -/

/-- The offsets of the 32 loads of one trip of loop 1, in program order. -/
def offs1 (k : Fin k0_t1_loop.trips) : Fin 32 → Fin 2 → ℕ
  | ⟨0, _⟩ => k0_off2 k
  | ⟨1, _⟩ => k0_off3 k
  | ⟨2, _⟩ => k0_off4 k
  | ⟨3, _⟩ => k0_off5 k
  | ⟨4, _⟩ => k0_off6 k
  | ⟨5, _⟩ => k0_off7 k
  | ⟨6, _⟩ => k0_off8 k
  | ⟨7, _⟩ => k0_off9 k
  | ⟨8, _⟩ => k0_off10 k
  | ⟨9, _⟩ => k0_off11 k
  | ⟨10, _⟩ => k0_off12 k
  | ⟨11, _⟩ => k0_off13 k
  | ⟨12, _⟩ => k0_off14 k
  | ⟨13, _⟩ => k0_off15 k
  | ⟨14, _⟩ => k0_off16 k
  | ⟨15, _⟩ => k0_off17 k
  | ⟨16, _⟩ => k0_off18 k
  | ⟨17, _⟩ => k0_off19 k
  | ⟨18, _⟩ => k0_off20 k
  | ⟨19, _⟩ => k0_off21 k
  | ⟨20, _⟩ => k0_off22 k
  | ⟨21, _⟩ => k0_off23 k
  | ⟨22, _⟩ => k0_off24 k
  | ⟨23, _⟩ => k0_off25 k
  | ⟨24, _⟩ => k0_off26 k
  | ⟨25, _⟩ => k0_off27 k
  | ⟨26, _⟩ => k0_off28 k
  | ⟨27, _⟩ => k0_off29 k
  | ⟨28, _⟩ => k0_off30 k
  | ⟨29, _⟩ => k0_off31 k
  | ⟨30, _⟩ => k0_off32 k
  | ⟨31, _⟩ => k0_off33 k
  | ⟨n + 32, h⟩ => absurd h (by omega)
omit [FloatOps F] in
theorem offs1_eq (k : Fin k0_t1_loop.trips) : ∀ i : Fin 32, offs1 k i = ![k.val, 16 * i.val]
  | ⟨0, _⟩ => k0_off2_eq k
  | ⟨1, _⟩ => k0_off3_eq k
  | ⟨2, _⟩ => k0_off4_eq k
  | ⟨3, _⟩ => k0_off5_eq k
  | ⟨4, _⟩ => k0_off6_eq k
  | ⟨5, _⟩ => k0_off7_eq k
  | ⟨6, _⟩ => k0_off8_eq k
  | ⟨7, _⟩ => k0_off9_eq k
  | ⟨8, _⟩ => k0_off10_eq k
  | ⟨9, _⟩ => k0_off11_eq k
  | ⟨10, _⟩ => k0_off12_eq k
  | ⟨11, _⟩ => k0_off13_eq k
  | ⟨12, _⟩ => k0_off14_eq k
  | ⟨13, _⟩ => k0_off15_eq k
  | ⟨14, _⟩ => k0_off16_eq k
  | ⟨15, _⟩ => k0_off17_eq k
  | ⟨16, _⟩ => k0_off18_eq k
  | ⟨17, _⟩ => k0_off19_eq k
  | ⟨18, _⟩ => k0_off20_eq k
  | ⟨19, _⟩ => k0_off21_eq k
  | ⟨20, _⟩ => k0_off22_eq k
  | ⟨21, _⟩ => k0_off23_eq k
  | ⟨22, _⟩ => k0_off24_eq k
  | ⟨23, _⟩ => k0_off25_eq k
  | ⟨24, _⟩ => k0_off26_eq k
  | ⟨25, _⟩ => k0_off27_eq k
  | ⟨26, _⟩ => k0_off28_eq k
  | ⟨27, _⟩ => k0_off29_eq k
  | ⟨28, _⟩ => k0_off30_eq k
  | ⟨29, _⟩ => k0_off31_eq k
  | ⟨30, _⟩ => k0_off32_eq k
  | ⟨31, _⟩ => k0_off33_eq k
  | ⟨n + 32, h⟩ => absurd h (by omega)
omit [FloatOps F] in
theorem offs1_inb (k : Fin k0_t1_loop.trips) : ∀ (i : Fin 32) (a : Fin 2), offs1 k i a + S1x16.size a ≤ S8x512.size a
  | ⟨0, _⟩ => k0_off2_inb k
  | ⟨1, _⟩ => k0_off3_inb k
  | ⟨2, _⟩ => k0_off4_inb k
  | ⟨3, _⟩ => k0_off5_inb k
  | ⟨4, _⟩ => k0_off6_inb k
  | ⟨5, _⟩ => k0_off7_inb k
  | ⟨6, _⟩ => k0_off8_inb k
  | ⟨7, _⟩ => k0_off9_inb k
  | ⟨8, _⟩ => k0_off10_inb k
  | ⟨9, _⟩ => k0_off11_inb k
  | ⟨10, _⟩ => k0_off12_inb k
  | ⟨11, _⟩ => k0_off13_inb k
  | ⟨12, _⟩ => k0_off14_inb k
  | ⟨13, _⟩ => k0_off15_inb k
  | ⟨14, _⟩ => k0_off16_inb k
  | ⟨15, _⟩ => k0_off17_inb k
  | ⟨16, _⟩ => k0_off18_inb k
  | ⟨17, _⟩ => k0_off19_inb k
  | ⟨18, _⟩ => k0_off20_inb k
  | ⟨19, _⟩ => k0_off21_inb k
  | ⟨20, _⟩ => k0_off22_inb k
  | ⟨21, _⟩ => k0_off23_inb k
  | ⟨22, _⟩ => k0_off24_inb k
  | ⟨23, _⟩ => k0_off25_inb k
  | ⟨24, _⟩ => k0_off26_inb k
  | ⟨25, _⟩ => k0_off27_inb k
  | ⟨26, _⟩ => k0_off28_inb k
  | ⟨27, _⟩ => k0_off29_inb k
  | ⟨28, _⟩ => k0_off30_inb k
  | ⟨29, _⟩ => k0_off31_inb k
  | ⟨30, _⟩ => k0_off32_inb k
  | ⟨31, _⟩ => k0_off33_inb k
  | ⟨n + 32, h⟩ => absurd h (by omega)

/-- The offsets of the 32 loads of one trip of loop 2, in program order. -/
def offs2 (k : Fin k0_t2_loop.trips) : Fin 32 → Fin 2 → ℕ
  | ⟨0, _⟩ => k0_off34 k
  | ⟨1, _⟩ => k0_off35 k
  | ⟨2, _⟩ => k0_off36 k
  | ⟨3, _⟩ => k0_off37 k
  | ⟨4, _⟩ => k0_off38 k
  | ⟨5, _⟩ => k0_off39 k
  | ⟨6, _⟩ => k0_off40 k
  | ⟨7, _⟩ => k0_off41 k
  | ⟨8, _⟩ => k0_off42 k
  | ⟨9, _⟩ => k0_off43 k
  | ⟨10, _⟩ => k0_off44 k
  | ⟨11, _⟩ => k0_off45 k
  | ⟨12, _⟩ => k0_off46 k
  | ⟨13, _⟩ => k0_off47 k
  | ⟨14, _⟩ => k0_off48 k
  | ⟨15, _⟩ => k0_off49 k
  | ⟨16, _⟩ => k0_off50 k
  | ⟨17, _⟩ => k0_off51 k
  | ⟨18, _⟩ => k0_off52 k
  | ⟨19, _⟩ => k0_off53 k
  | ⟨20, _⟩ => k0_off54 k
  | ⟨21, _⟩ => k0_off55 k
  | ⟨22, _⟩ => k0_off56 k
  | ⟨23, _⟩ => k0_off57 k
  | ⟨24, _⟩ => k0_off58 k
  | ⟨25, _⟩ => k0_off59 k
  | ⟨26, _⟩ => k0_off60 k
  | ⟨27, _⟩ => k0_off61 k
  | ⟨28, _⟩ => k0_off62 k
  | ⟨29, _⟩ => k0_off63 k
  | ⟨30, _⟩ => k0_off64 k
  | ⟨31, _⟩ => k0_off65 k
  | ⟨n + 32, h⟩ => absurd h (by omega)
omit [FloatOps F] in
theorem offs2_eq (k : Fin k0_t2_loop.trips) : ∀ i : Fin 32, offs2 k i = ![k.val, 16 * i.val]
  | ⟨0, _⟩ => k0_off34_eq k
  | ⟨1, _⟩ => k0_off35_eq k
  | ⟨2, _⟩ => k0_off36_eq k
  | ⟨3, _⟩ => k0_off37_eq k
  | ⟨4, _⟩ => k0_off38_eq k
  | ⟨5, _⟩ => k0_off39_eq k
  | ⟨6, _⟩ => k0_off40_eq k
  | ⟨7, _⟩ => k0_off41_eq k
  | ⟨8, _⟩ => k0_off42_eq k
  | ⟨9, _⟩ => k0_off43_eq k
  | ⟨10, _⟩ => k0_off44_eq k
  | ⟨11, _⟩ => k0_off45_eq k
  | ⟨12, _⟩ => k0_off46_eq k
  | ⟨13, _⟩ => k0_off47_eq k
  | ⟨14, _⟩ => k0_off48_eq k
  | ⟨15, _⟩ => k0_off49_eq k
  | ⟨16, _⟩ => k0_off50_eq k
  | ⟨17, _⟩ => k0_off51_eq k
  | ⟨18, _⟩ => k0_off52_eq k
  | ⟨19, _⟩ => k0_off53_eq k
  | ⟨20, _⟩ => k0_off54_eq k
  | ⟨21, _⟩ => k0_off55_eq k
  | ⟨22, _⟩ => k0_off56_eq k
  | ⟨23, _⟩ => k0_off57_eq k
  | ⟨24, _⟩ => k0_off58_eq k
  | ⟨25, _⟩ => k0_off59_eq k
  | ⟨26, _⟩ => k0_off60_eq k
  | ⟨27, _⟩ => k0_off61_eq k
  | ⟨28, _⟩ => k0_off62_eq k
  | ⟨29, _⟩ => k0_off63_eq k
  | ⟨30, _⟩ => k0_off64_eq k
  | ⟨31, _⟩ => k0_off65_eq k
  | ⟨n + 32, h⟩ => absurd h (by omega)
omit [FloatOps F] in
theorem offs2_inb (k : Fin k0_t2_loop.trips) : ∀ (i : Fin 32) (a : Fin 2), offs2 k i a + S1x16.size a ≤ S8x512.size a
  | ⟨0, _⟩ => k0_off34_inb k
  | ⟨1, _⟩ => k0_off35_inb k
  | ⟨2, _⟩ => k0_off36_inb k
  | ⟨3, _⟩ => k0_off37_inb k
  | ⟨4, _⟩ => k0_off38_inb k
  | ⟨5, _⟩ => k0_off39_inb k
  | ⟨6, _⟩ => k0_off40_inb k
  | ⟨7, _⟩ => k0_off41_inb k
  | ⟨8, _⟩ => k0_off42_inb k
  | ⟨9, _⟩ => k0_off43_inb k
  | ⟨10, _⟩ => k0_off44_inb k
  | ⟨11, _⟩ => k0_off45_inb k
  | ⟨12, _⟩ => k0_off46_inb k
  | ⟨13, _⟩ => k0_off47_inb k
  | ⟨14, _⟩ => k0_off48_inb k
  | ⟨15, _⟩ => k0_off49_inb k
  | ⟨16, _⟩ => k0_off50_inb k
  | ⟨17, _⟩ => k0_off51_inb k
  | ⟨18, _⟩ => k0_off52_inb k
  | ⟨19, _⟩ => k0_off53_inb k
  | ⟨20, _⟩ => k0_off54_inb k
  | ⟨21, _⟩ => k0_off55_inb k
  | ⟨22, _⟩ => k0_off56_inb k
  | ⟨23, _⟩ => k0_off57_inb k
  | ⟨24, _⟩ => k0_off58_inb k
  | ⟨25, _⟩ => k0_off59_inb k
  | ⟨26, _⟩ => k0_off60_inb k
  | ⟨27, _⟩ => k0_off61_inb k
  | ⟨28, _⟩ => k0_off62_inb k
  | ⟨29, _⟩ => k0_off63_inb k
  | ⟨30, _⟩ => k0_off64_inb k
  | ⟨31, _⟩ => k0_off65_inb k
  | ⟨n + 32, h⟩ => absurd h (by omega)

/-- The offsets of the 32 loads of one trip of loop 3, in program order. -/
def offs3 (k : Fin k0_t3_loop.trips) : Fin 32 → Fin 2 → ℕ
  | ⟨0, _⟩ => k0_off66 k
  | ⟨1, _⟩ => k0_off67 k
  | ⟨2, _⟩ => k0_off68 k
  | ⟨3, _⟩ => k0_off69 k
  | ⟨4, _⟩ => k0_off70 k
  | ⟨5, _⟩ => k0_off71 k
  | ⟨6, _⟩ => k0_off72 k
  | ⟨7, _⟩ => k0_off73 k
  | ⟨8, _⟩ => k0_off74 k
  | ⟨9, _⟩ => k0_off75 k
  | ⟨10, _⟩ => k0_off76 k
  | ⟨11, _⟩ => k0_off77 k
  | ⟨12, _⟩ => k0_off78 k
  | ⟨13, _⟩ => k0_off79 k
  | ⟨14, _⟩ => k0_off80 k
  | ⟨15, _⟩ => k0_off81 k
  | ⟨16, _⟩ => k0_off82 k
  | ⟨17, _⟩ => k0_off83 k
  | ⟨18, _⟩ => k0_off84 k
  | ⟨19, _⟩ => k0_off85 k
  | ⟨20, _⟩ => k0_off86 k
  | ⟨21, _⟩ => k0_off87 k
  | ⟨22, _⟩ => k0_off88 k
  | ⟨23, _⟩ => k0_off89 k
  | ⟨24, _⟩ => k0_off90 k
  | ⟨25, _⟩ => k0_off91 k
  | ⟨26, _⟩ => k0_off92 k
  | ⟨27, _⟩ => k0_off93 k
  | ⟨28, _⟩ => k0_off94 k
  | ⟨29, _⟩ => k0_off95 k
  | ⟨30, _⟩ => k0_off96 k
  | ⟨31, _⟩ => k0_off97 k
  | ⟨n + 32, h⟩ => absurd h (by omega)
omit [FloatOps F] in
theorem offs3_eq (k : Fin k0_t3_loop.trips) : ∀ i : Fin 32, offs3 k i = ![k.val, 16 * i.val]
  | ⟨0, _⟩ => k0_off66_eq k
  | ⟨1, _⟩ => k0_off67_eq k
  | ⟨2, _⟩ => k0_off68_eq k
  | ⟨3, _⟩ => k0_off69_eq k
  | ⟨4, _⟩ => k0_off70_eq k
  | ⟨5, _⟩ => k0_off71_eq k
  | ⟨6, _⟩ => k0_off72_eq k
  | ⟨7, _⟩ => k0_off73_eq k
  | ⟨8, _⟩ => k0_off74_eq k
  | ⟨9, _⟩ => k0_off75_eq k
  | ⟨10, _⟩ => k0_off76_eq k
  | ⟨11, _⟩ => k0_off77_eq k
  | ⟨12, _⟩ => k0_off78_eq k
  | ⟨13, _⟩ => k0_off79_eq k
  | ⟨14, _⟩ => k0_off80_eq k
  | ⟨15, _⟩ => k0_off81_eq k
  | ⟨16, _⟩ => k0_off82_eq k
  | ⟨17, _⟩ => k0_off83_eq k
  | ⟨18, _⟩ => k0_off84_eq k
  | ⟨19, _⟩ => k0_off85_eq k
  | ⟨20, _⟩ => k0_off86_eq k
  | ⟨21, _⟩ => k0_off87_eq k
  | ⟨22, _⟩ => k0_off88_eq k
  | ⟨23, _⟩ => k0_off89_eq k
  | ⟨24, _⟩ => k0_off90_eq k
  | ⟨25, _⟩ => k0_off91_eq k
  | ⟨26, _⟩ => k0_off92_eq k
  | ⟨27, _⟩ => k0_off93_eq k
  | ⟨28, _⟩ => k0_off94_eq k
  | ⟨29, _⟩ => k0_off95_eq k
  | ⟨30, _⟩ => k0_off96_eq k
  | ⟨31, _⟩ => k0_off97_eq k
  | ⟨n + 32, h⟩ => absurd h (by omega)
omit [FloatOps F] in
theorem offs3_inb (k : Fin k0_t3_loop.trips) : ∀ (i : Fin 32) (a : Fin 2), offs3 k i a + S1x16.size a ≤ S8x512.size a
  | ⟨0, _⟩ => k0_off66_inb k
  | ⟨1, _⟩ => k0_off67_inb k
  | ⟨2, _⟩ => k0_off68_inb k
  | ⟨3, _⟩ => k0_off69_inb k
  | ⟨4, _⟩ => k0_off70_inb k
  | ⟨5, _⟩ => k0_off71_inb k
  | ⟨6, _⟩ => k0_off72_inb k
  | ⟨7, _⟩ => k0_off73_inb k
  | ⟨8, _⟩ => k0_off74_inb k
  | ⟨9, _⟩ => k0_off75_inb k
  | ⟨10, _⟩ => k0_off76_inb k
  | ⟨11, _⟩ => k0_off77_inb k
  | ⟨12, _⟩ => k0_off78_inb k
  | ⟨13, _⟩ => k0_off79_inb k
  | ⟨14, _⟩ => k0_off80_inb k
  | ⟨15, _⟩ => k0_off81_inb k
  | ⟨16, _⟩ => k0_off82_inb k
  | ⟨17, _⟩ => k0_off83_inb k
  | ⟨18, _⟩ => k0_off84_inb k
  | ⟨19, _⟩ => k0_off85_inb k
  | ⟨20, _⟩ => k0_off86_inb k
  | ⟨21, _⟩ => k0_off87_inb k
  | ⟨22, _⟩ => k0_off88_inb k
  | ⟨23, _⟩ => k0_off89_inb k
  | ⟨24, _⟩ => k0_off90_inb k
  | ⟨25, _⟩ => k0_off91_inb k
  | ⟨26, _⟩ => k0_off92_inb k
  | ⟨27, _⟩ => k0_off93_inb k
  | ⟨28, _⟩ => k0_off94_inb k
  | ⟨29, _⟩ => k0_off95_inb k
  | ⟨30, _⟩ => k0_off96_inb k
  | ⟨31, _⟩ => k0_off97_inb k
  | ⟨n + 32, h⟩ => absurd h (by omega)

/-- The offsets of the 32 loads of one trip of loop 4, in program order. -/
def offs4 (k : Fin k0_t4_loop.trips) : Fin 32 → Fin 2 → ℕ
  | ⟨0, _⟩ => k0_off98 k
  | ⟨1, _⟩ => k0_off99 k
  | ⟨2, _⟩ => k0_off100 k
  | ⟨3, _⟩ => k0_off101 k
  | ⟨4, _⟩ => k0_off102 k
  | ⟨5, _⟩ => k0_off103 k
  | ⟨6, _⟩ => k0_off104 k
  | ⟨7, _⟩ => k0_off105 k
  | ⟨8, _⟩ => k0_off106 k
  | ⟨9, _⟩ => k0_off107 k
  | ⟨10, _⟩ => k0_off108 k
  | ⟨11, _⟩ => k0_off109 k
  | ⟨12, _⟩ => k0_off110 k
  | ⟨13, _⟩ => k0_off111 k
  | ⟨14, _⟩ => k0_off112 k
  | ⟨15, _⟩ => k0_off113 k
  | ⟨16, _⟩ => k0_off114 k
  | ⟨17, _⟩ => k0_off115 k
  | ⟨18, _⟩ => k0_off116 k
  | ⟨19, _⟩ => k0_off117 k
  | ⟨20, _⟩ => k0_off118 k
  | ⟨21, _⟩ => k0_off119 k
  | ⟨22, _⟩ => k0_off120 k
  | ⟨23, _⟩ => k0_off121 k
  | ⟨24, _⟩ => k0_off122 k
  | ⟨25, _⟩ => k0_off123 k
  | ⟨26, _⟩ => k0_off124 k
  | ⟨27, _⟩ => k0_off125 k
  | ⟨28, _⟩ => k0_off126 k
  | ⟨29, _⟩ => k0_off127 k
  | ⟨30, _⟩ => k0_off128 k
  | ⟨31, _⟩ => k0_off129 k
  | ⟨n + 32, h⟩ => absurd h (by omega)
omit [FloatOps F] in
theorem offs4_eq (k : Fin k0_t4_loop.trips) : ∀ i : Fin 32, offs4 k i = ![k.val, 16 * i.val]
  | ⟨0, _⟩ => k0_off98_eq k
  | ⟨1, _⟩ => k0_off99_eq k
  | ⟨2, _⟩ => k0_off100_eq k
  | ⟨3, _⟩ => k0_off101_eq k
  | ⟨4, _⟩ => k0_off102_eq k
  | ⟨5, _⟩ => k0_off103_eq k
  | ⟨6, _⟩ => k0_off104_eq k
  | ⟨7, _⟩ => k0_off105_eq k
  | ⟨8, _⟩ => k0_off106_eq k
  | ⟨9, _⟩ => k0_off107_eq k
  | ⟨10, _⟩ => k0_off108_eq k
  | ⟨11, _⟩ => k0_off109_eq k
  | ⟨12, _⟩ => k0_off110_eq k
  | ⟨13, _⟩ => k0_off111_eq k
  | ⟨14, _⟩ => k0_off112_eq k
  | ⟨15, _⟩ => k0_off113_eq k
  | ⟨16, _⟩ => k0_off114_eq k
  | ⟨17, _⟩ => k0_off115_eq k
  | ⟨18, _⟩ => k0_off116_eq k
  | ⟨19, _⟩ => k0_off117_eq k
  | ⟨20, _⟩ => k0_off118_eq k
  | ⟨21, _⟩ => k0_off119_eq k
  | ⟨22, _⟩ => k0_off120_eq k
  | ⟨23, _⟩ => k0_off121_eq k
  | ⟨24, _⟩ => k0_off122_eq k
  | ⟨25, _⟩ => k0_off123_eq k
  | ⟨26, _⟩ => k0_off124_eq k
  | ⟨27, _⟩ => k0_off125_eq k
  | ⟨28, _⟩ => k0_off126_eq k
  | ⟨29, _⟩ => k0_off127_eq k
  | ⟨30, _⟩ => k0_off128_eq k
  | ⟨31, _⟩ => k0_off129_eq k
  | ⟨n + 32, h⟩ => absurd h (by omega)
omit [FloatOps F] in
theorem offs4_inb (k : Fin k0_t4_loop.trips) : ∀ (i : Fin 32) (a : Fin 2), offs4 k i a + S1x16.size a ≤ S8x512.size a
  | ⟨0, _⟩ => k0_off98_inb k
  | ⟨1, _⟩ => k0_off99_inb k
  | ⟨2, _⟩ => k0_off100_inb k
  | ⟨3, _⟩ => k0_off101_inb k
  | ⟨4, _⟩ => k0_off102_inb k
  | ⟨5, _⟩ => k0_off103_inb k
  | ⟨6, _⟩ => k0_off104_inb k
  | ⟨7, _⟩ => k0_off105_inb k
  | ⟨8, _⟩ => k0_off106_inb k
  | ⟨9, _⟩ => k0_off107_inb k
  | ⟨10, _⟩ => k0_off108_inb k
  | ⟨11, _⟩ => k0_off109_inb k
  | ⟨12, _⟩ => k0_off110_inb k
  | ⟨13, _⟩ => k0_off111_inb k
  | ⟨14, _⟩ => k0_off112_inb k
  | ⟨15, _⟩ => k0_off113_inb k
  | ⟨16, _⟩ => k0_off114_inb k
  | ⟨17, _⟩ => k0_off115_inb k
  | ⟨18, _⟩ => k0_off116_inb k
  | ⟨19, _⟩ => k0_off117_inb k
  | ⟨20, _⟩ => k0_off118_inb k
  | ⟨21, _⟩ => k0_off119_inb k
  | ⟨22, _⟩ => k0_off120_inb k
  | ⟨23, _⟩ => k0_off121_inb k
  | ⟨24, _⟩ => k0_off122_inb k
  | ⟨25, _⟩ => k0_off123_inb k
  | ⟨26, _⟩ => k0_off124_inb k
  | ⟨27, _⟩ => k0_off125_inb k
  | ⟨28, _⟩ => k0_off126_inb k
  | ⟨29, _⟩ => k0_off127_inb k
  | ⟨30, _⟩ => k0_off128_inb k
  | ⟨31, _⟩ => k0_off129_inb k
  | ⟨n + 32, h⟩ => absurd h (by omega)

/-- The task on vector subcore `(L 0, L 1)` of device `d`: from its read share of the labels and its row of the
    partial sums to the row at the worker's lane sums. -/
theorem tile_body (hF : (K (F := F)).Facts) (O : CellTallies nD τ sig (HIx 1)) (W : Waits sig (HIx 1)) (hO : ∀ g, O g none = 0) :
    iprop(levAts (K (F := F)).L (K (F := F)).lev ∗ emp ∗ tileIn m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xW (Memref.isWhole_whole _) pW (Memref.isWhole_whole _)
            bW (Memref.isWhole_whole _) gW (Memref.isWhole_whole _)
            cc0_scratch2 cc0_scratch3 cc0_scratch4 cc0_scratch5 cc0_scoped0)
          fun _ => iprop(tileOut m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold tileIn
  iintro ⟨#Hlv, -, ⟨Hx, Hp⟩, ⟨⟨%fb, Hbuf⟩, ⟨%fg, Hstg⟩, Hbufs⟩, ⟨HsA, HsB, HsC, HsD, HsS, Hsems⟩, HO⟩
  ihave Hmw := ((K (F := F)).mayWaits_none (thr := V d (cV L) (jV L)) hO) $$ Hlv
  -- one read token of the labels per chunk transfer, the remainder kept aside
  ihave Hx4 := (Transfers.pointsTo_toks_split (qx (widL L)) 4) $$ Hx
  icases Hx4 with ⟨Hxr, Hxt⟩
  ihave Hxt' := (Entails.of_eq (bigSep_four (F := F) _)) $$ Hxt
  icases Hxt' with ⟨Hx0, Hx1, Hx2, Hx3⟩
  ihave Hx0' := (Entails.of_eq (pts_x (F := F) d L _ _).symm) $$ Hx0
  ihave Hx1' := (Entails.of_eq (pts_x (F := F) d L _ _).symm) $$ Hx1
  ihave Hx2' := (Entails.of_eq (pts_x (F := F) d L _ _).symm) $$ Hx2
  ihave Hx3' := (Entails.of_eq (pts_x (F := F) d L _ _).symm) $$ Hx3
  ihave Hp' := (Entails.of_eq (pts_pRow (F := F) d L _).symm) $$ Hp
  ihave Hb4 := (Entails.of_eq (bPts_parts (F := F) d L fb)) $$ Hbuf
  icases Hb4 with ⟨Hb0, Hb1, Hb2, Hb3⟩
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hg' := (Entails.of_eq (pts_g (F := F) d L _).symm) $$ Hstg
  sl_exec
  sl_for (linv (F := F) d L bChunk0 (bChunk0.view.writes (Elt F) bChunk0.view.junk [⟨Rect.whole S8x512, (xChunk L 0).view.read (Elt F) (m (xLoc d))⟩]) (xOf m d) (widL L) 0) $$ [Hb0']
  case region =>
    intro k acc
    unfold linv
    iintro ⟨%hacc, Hb⟩
    sl_exec
    sl_step
    isplitr
    · ipureintro
      subst hacc
      have hk8 : k.val < 8 := lt_of_lt_of_le k.isLt k0_t1_abs.2.1
      exact ValueB.trip_of_loads1 (F := F) (bChunk0).view (bChunk0.view.writes (Elt F) bChunk0.view.junk [⟨Rect.whole S8x512, (xChunk L 0).view.read (Elt F) (m (xLoc d))⟩]) L 0 (xOf m d)
        (View.read_writes_whole _ _ _) k.val hk8 (offs1 k) (offs1_eq k) (offs1_inb k)
    · iexact Hb
  · unfold linv
    isplitr
    · ipureintro
      show (_, _, _, _) = (ValueB.accVec _ _ 0 0, ValueB.accVec _ _ 1 0, ValueB.accVec _ _ 2 0, ValueB.accVec _ _ 3 0)
      rw [ValueB.accVec_zero, ValueB.accVec_zero, ValueB.accVec_zero, ValueB.accVec_zero]
      rfl
    · iexact Hb0'
  iintro %acc1 HI
  unfold linv
  icases HI with ⟨%hacc1, Hb0'⟩
  sl_exec
  sl_for (linv (F := F) d L bChunk1 (bChunk1.view.writes (Elt F) bChunk1.view.junk [⟨Rect.whole S8x512, (xChunk L 1).view.read (Elt F) (m (xLoc d))⟩]) (xOf m d) (widL L) 8) $$ [Hb1']
  case region =>
    intro k acc
    unfold linv
    iintro ⟨%hacc, Hb⟩
    sl_exec
    sl_step
    isplitr
    · ipureintro
      subst hacc
      have hk8 : k.val < 8 := lt_of_lt_of_le k.isLt k0_t2_abs.2.1
      exact ValueB.trip_of_loads2 (F := F) (bChunk1).view (bChunk1.view.writes (Elt F) bChunk1.view.junk [⟨Rect.whole S8x512, (xChunk L 1).view.read (Elt F) (m (xLoc d))⟩]) L 1 (xOf m d)
        (View.read_writes_whole _ _ _) k.val hk8 (offs2 k) (offs2_eq k) (offs2_inb k)
    · iexact Hb
  · unfold linv
    isplitr
    · ipureintro
      rw [hacc1, show Scf.trips k0_t1_loop.lb k0_t1_loop.ub k0_t1_loop.st = 8 from by decide +kernel]
      try rfl
    · iexact Hb1'
  iintro %acc2 HI
  unfold linv
  icases HI with ⟨%hacc2, Hb1'⟩
  sl_exec
  sl_for (linv (F := F) d L bChunk2 (bChunk2.view.writes (Elt F) bChunk2.view.junk [⟨Rect.whole S8x512, (xChunk L 2).view.read (Elt F) (m (xLoc d))⟩]) (xOf m d) (widL L) 16) $$ [Hb2']
  case region =>
    intro k acc
    unfold linv
    iintro ⟨%hacc, Hb⟩
    sl_exec
    sl_step
    isplitr
    · ipureintro
      subst hacc
      have hk8 : k.val < 8 := lt_of_lt_of_le k.isLt k0_t3_abs.2.1
      exact ValueB.trip_of_loads3 (F := F) (bChunk2).view (bChunk2.view.writes (Elt F) bChunk2.view.junk [⟨Rect.whole S8x512, (xChunk L 2).view.read (Elt F) (m (xLoc d))⟩]) L 2 (xOf m d)
        (View.read_writes_whole _ _ _) k.val hk8 (offs3 k) (offs3_eq k) (offs3_inb k)
    · iexact Hb
  · unfold linv
    isplitr
    · ipureintro
      rw [hacc2, show Scf.trips k0_t2_loop.lb k0_t2_loop.ub k0_t2_loop.st = 8 from by decide +kernel]
      try rfl
    · iexact Hb2'
  iintro %acc3 HI
  unfold linv
  icases HI with ⟨%hacc3, Hb2'⟩
  sl_exec
  sl_for (linv (F := F) d L bChunk3 (bChunk3.view.writes (Elt F) bChunk3.view.junk [⟨Rect.whole S8x512, (xChunk L 3).view.read (Elt F) (m (xLoc d))⟩]) (xOf m d) (widL L) 24) $$ [Hb3']
  case region =>
    intro k acc
    unfold linv
    iintro ⟨%hacc, Hb⟩
    sl_exec
    sl_step
    isplitr
    · ipureintro
      subst hacc
      have hk8 : k.val < 8 := lt_of_lt_of_le k.isLt k0_t4_abs.2.1
      exact ValueB.trip_of_loads4 (F := F) (bChunk3).view (bChunk3.view.writes (Elt F) bChunk3.view.junk [⟨Rect.whole S8x512, (xChunk L 3).view.read (Elt F) (m (xLoc d))⟩]) L 3 (xOf m d)
        (View.read_writes_whole _ _ _) k.val hk8 (offs4 k) (offs4_eq k) (offs4_inb k)
    · iexact Hb
  · unfold linv
    isplitr
    · ipureintro
      rw [hacc3, show Scf.trips k0_t3_loop.lb k0_t3_loop.ub k0_t3_loop.st = 8 from by decide +kernel]
      try rfl
    · iexact Hb3'
  iintro %acc4 HI
  unfold linv
  icases HI with ⟨%hacc4, Hb3'⟩
  sl_exec
  sl_step
  -- the labels' read share, its four tokens joined back
  ihave Hx0 := (Entails.of_eq (pts_x (F := F) d L _ _)) $$ Hx0'
  ihave Hx1 := (Entails.of_eq (pts_x (F := F) d L _ _)) $$ Hx1'
  ihave Hx2 := (Entails.of_eq (pts_x (F := F) d L _ _)) $$ Hx2'
  ihave Hx3 := (Entails.of_eq (pts_x (F := F) d L _ _)) $$ Hx3'
  ihave Hx := (Transfers.pointsTo_toks_join (qx (widL L)) 4) $$ [Hxr Hx0 Hx1 Hx2 Hx3]
  · isplitl [Hxr]; · iexact Hxr
    rw [bigSep_four]
    isplitl [Hx0]; · iexact Hx0
    isplitl [Hx1]; · iexact Hx1
    isplitl [Hx2]; · iexact Hx2
    iexact Hx3
  -- the worker's row of the partial sums, the scratch's chunks, the staging buffer
  ihave Hp := (Entails.of_eq (pts_pRow (F := F) d L _)) $$ Hp'
  ihave Hb0 := (Entails.of_eq (pts_b0 (F := F) d L _)) $$ Hb0'
  ihave Hb1 := (Entails.of_eq (pts_b1 (F := F) d L _)) $$ Hb1'
  ihave Hb2 := (Entails.of_eq (pts_b2 (F := F) d L _)) $$ Hb2'
  ihave Hb3 := (Entails.of_eq (pts_b3 (F := F) d L _)) $$ Hb3'
  ihave Hb := (bChunks_join (F := F) d L _ _ _ _) $$ [Hb0 Hb1 Hb2 Hb3]
  · isplitl [Hb0]; · iexact Hb0
    isplitl [Hb1]; · iexact Hb1
    isplitl [Hb2]; · iexact Hb2
    iexact Hb3
  ihave Hg := (Entails.of_eq (pts_g (F := F) d L _)) $$ Hg'
  unfold tileOut
  isplitl [Hx Hp]
  · isplitl [Hx]; · iexact Hx
    -- on the worker's row the written contents are the lane sums
    have hv : tile_body.sl.dma2 d L fg acc4 = fun j => laneSum (xOf m d) (widL L) ⟨(j 0).val, (j 0).isLt⟩ := by
      rw [hacc4, show Scf.trips k0_t4_loop.lb k0_t4_loop.ub k0_t4_loop.st = 8 from by decide +kernel]
      exact (ValueB.stage_read (F := F) fg _).trans (ValueB.acc_total (xOf m d) (widL L))
    have hrow : ∀ i ∈ prowSet (widL L), ((pRowK L).view.writes (Elt F) (m (pLoc d)) [⟨Rect.whole S16, tile_body.sl.dma2 d L fg acc4⟩]) i
        = (scOut (xOf m d) : Buf (Elt F) (pLoc d)) i :=
      fun i hi => ValueB.row_value_prow (F := F) L (xOf m d) (m (pLoc d)) (tile_body.sl.dma2 d L fg acc4) hv i hi
    iapply (Entails.of_eq (pointsTo_congr (ℓ := pLoc d) (I := prowSet (widL L)) (q := fullShare) hrow))
    iexact Hp
  isplitl [Hb Hg Hbufs]
  · isplitl [Hb]; · iexact Hb
    isplitl [Hg]; · iexists _; iexact Hg
    iexact Hbufs
  isplitl [HsA HsB HsC HsD HsS Hsems]
  · isplitl [HsA]; · iexact HsA
    isplitl [HsB]; · iexact HsB
    isplitl [HsC]; · iexact HsC
    isplitl [HsD]; · iexact HsD
    isplitl [HsS]; · iexact HsS
    iexact Hsems
  iexists (insert (SemLoc.dma cc0_scoped0.sem, (default : HIx 1)) (insert (SemLoc.dma cc0_scratch5.sem, (default : HIx 1))
    (insert (SemLoc.dma cc0_scratch4.sem, (default : HIx 1)) (insert (SemLoc.dma cc0_scratch3.sem, (default : HIx 1))
      (insert (SemLoc.dma cc0_scratch2.sem, (default : HIx 1)) W)))))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp
  · iexact HO

end Cert.Proof.KB

end
-- ==== Proof.TcDataB.lean ====
/-
  The two TensorCore pipelines' launch ghost state: per device, each pipeline's staging cells at their launch
  state with the duty tokens of the transfers its loop issues; the element of the rounds algebra that funds
  them all; and what the TensorCore still owes once the SparseCore call is over (nothing: there is no later
  call), with every recorded wait at or below level 8.
-/
import proofs.«209222_g37675453120884_cont_8to1_b_1946_16_alg».proof.Proof.CommonB

noncomputable section

namespace Cert.Proof.KB.Tc

open Cert.Kernel Cert.Kernel.Gen
open Cert.Proof.Spec Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- No pipeline has a prefetched table. -/
abbrev adm : (p : Fin 2) → (pcfgs (F := F) p).Adm := fun p => (cfgs p).toPCfg_adm

/-- The staging cells of the two pipelines are pairwise distinct. -/
theorem phinj : Function.Injective (Pipeline.cellOf (nD := nD) (τ := τ) (Pipeline.pin (pcfgs (F := F)) adm)) := cellOf_inj

/-- One pipeline's launch ghost state on device `d`: its cells' and its duty tokens. -/
abbrev ghostAt (p : Fin 2) (d : Dev nD) : sProp 𝕄 :=
  iprop(Pipeline.cellsGhost (Pipeline.pin (pcfgs (F := F)) adm) EP p d ∗ Pipeline.toksInit (Pipeline.pin (pcfgs (F := F)) adm) EP p d)

/-- The second pipeline's, which is what is left once the first region has run. -/
def tcGhost' (d : Dev nD) : sProp 𝕄 := ghostAt (F := F) 1 d

/-- Both pipelines'. -/
def tcGhost (d : Dev nD) : sProp 𝕄 := iprop(ghostAt (F := F) 0 d ∗ tcGhost' (F := F) d)

/-- The launch element: the rounds algebra's initial element at every staging cell and every transfer the two
    loops issue. -/
def uP : UP := initOf (Pipeline.cells (Pipeline.pin (pcfgs (F := F)) adm) phinj) (Pipeline.launchToks (Pipeline.pin (pcfgs (F := F)) adm) phinj)

/-- The launch element funds every device's ghost state of both pipelines. -/
theorem tcGhost_fund : (BI.own (EP (uP (F := F))) : sProp 𝕄) ⊢ |={Set.univ}=> bigSep Finset.univ fun d : Dev nD => tcGhost (F := F) d := by
  have hjoin : iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun d : Dev nD => tcGhost (F := F) d := by
    rw [← bigSep_sep']
    refine bigSep_mono fun c _ => ?_
    rw [bigSep_W1, bigSep_W1]
    unfold tcGhost tcGhost'
    show iprop((Pipeline.cellsGhost (Pipeline.pin (pcfgs (F := F)) adm) EP 0 c ∗ Pipeline.cellsGhost (Pipeline.pin (pcfgs (F := F)) adm) EP 1 c)
        ∗ (Pipeline.toksInit (Pipeline.pin (pcfgs (F := F)) adm) EP 0 c ∗ Pipeline.toksInit (Pipeline.pin (pcfgs (F := F)) adm) EP 1 c))
      ⊢ (iprop(ghostAt (F := F) 0 c ∗ ghostAt (F := F) 1 c) : sProp 𝕄)
    iintro ⟨⟨Hc0, Hc1⟩, Ht0, Ht1⟩
    isplitl [Hc0 Ht0]
    · isplitl [Hc0] <;> iassumption
    · isplitl [Hc1] <;> iassumption
  unfold uP
  iintro Hu
  imod (Pipeline.fund_ghost (Pipeline.pin (pcfgs (F := F)) adm) EP phinj) $$ Hu with ⟨Hg, Ht⟩
  imodintro
  iapply hjoin
  isplitl [Hg] <;> iassumption

/-- What the TensorCore owes after the SparseCore call, with its recorded waits at or below level 8. -/
abbrev tcOwes (d : Dev nD) : sProp 𝕄 :=
  iprop(∃ W, ⌜(K (F := F)).WBelow (SparseCore.T d) W 8⌝ ∗ owes (SparseCore.T d) ((K (F := F)).Otc d 1) W)

/-- There is no call after the first: nothing is owed. -/
theorem Otc_one (d : Dev nD) : (K (F := F)).Otc d 1 = 0 := by
  unfold SparseCore.Cfg.Otc
  refine Finset.sum_eq_zero fun q _ => ?_
  rw [if_neg]
  have := q.isLt; omega

/-- The zero offsets of a whole-buffer rectangle, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

open Idealize.ShloMosaic.TcCoe in
/-- The same at the TensorCore's thread of device `c`, as the regions' records state it. -/
abbrev owesTc (c : Dev nD) : sProp 𝕄 :=
  iprop(∃ W, ⌜(K (F := F)).WBelow (c : Thread nD τ) W 8⌝ ∗ owes (c : Thread nD τ) ((K (F := F)).Otc c 1) W)

open Idealize.ShloMosaic.TcCoe in
/-- The waits the TensorCore may have recorded: those at or below level 8. -/
def rec8 (c : Dev nD) : Set (SemLoc sig × HIx 1) := {pr | (K (F := F)).lev ((c : Thread nD τ), pr.1) pr.2 ≤ 8}

/-- Proof data of a pipeline a region does not run: consulted by nothing. -/
def datAny [FloatOps F] (cfg : Pipeline.Cfg sig Λ₀) (c : Dev nD) : Pipeline.Dat τ (Elt F) (HIx 1) ℕ UU ℕ cfg c where
  A _ := Classical.arbitrary _
  after _ _ := Classical.arbitrary _
  Φ _ := iprop(emp)
  q _ := fullShare
  owed _ := 0

end Cert.Proof.KB.Tc

end
-- ==== Proof.TcBody2B.lean ====
/-
  The combining kernel's body: it loads the 32 × 16 partial sums and the one-element head sum, and stores the
  2 × 2 result computed from them over the whole output buffer; the inputs' buffers are left as they were.
-/
import proofs.«209222_g37675453120884_cont_8to1_b_1946_16_alg».proof.Proof.TcDataB
import proofs.«209222_g37675453120884_cont_8to1_b_1946_16_alg».proof.Proof.Gen.Kernel.Skeleton
import Idealize.ShloMosaic.Lib.Pipeline.FrameBody
import Idealize.ShloMosaic.Lib.Tactic

noncomputable section

namespace Cert.Proof.KB.Tc

open Cert.Kernel Cert.Kernel.Gen
open Cert.Proof.Spec Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-- The whole 2 × 2 buffer as a rectangle. -/
abbrev r2 : Rect S2x2 := Rect.unit (s := S2x2) ![0, 0] S2x2.size inb_S2x2_S2x2_0_0
abbrev r2a : Rect S32x16 := Rect.unit (s := S32x16) ![0, 0] S32x16.size inb_S32x16_S32x16_0_0
abbrev r2b : Rect S1x1 := Rect.unit (s := S1x1) ![0, 0] S1x1.size inb_S1x1_S1x1_0_0

/-- What the body leaves in the output's buffer: its one store, of the payload of the two loaded inputs. -/
def out2 (x0 : Vec F S32x16 .i32) (x1 : Vec F S1x1 .i32) : Vec F S2x2 .i32 :=
  View.canon [⟨r2, k2_pay1 (View.ld x0 r2a) (View.ld x1 r2b)⟩]

/-- The store covers the buffer. -/
theorem cover2 (p0 : Vec F S2x2 .i32) (y : S2x2.Idx) :
    ∃ pc ∈ ([⟨r2, p0⟩] : List (View.Piece (Elt F) S2x2 .i32)), y ∈ pc.1.set :=
  View.cover_of_tiled [⟨r2, p0⟩] S2x2.size (by rfl) y

set_option maxHeartbeats 1000000 in
/-- The body on whole buffers: the inputs' at `x0`, `x1`, the output's at anything, to the inputs' unchanged and
    the output's at `out2 x0 x1`. -/
theorem sound_kernel2 (c : Dev nD) (E : Set ℕ) (arg0 : Memref sig .tc .vmem S32x16 .i32) (harg0 : arg0.IsWhole)
    (arg1 : Memref sig .tc .vmem S1x1 .i32) (harg1 : arg1.IsWhole) (arg2 : Memref sig .tc .vmem S2x2 .i32) (harg2 : arg2.IsWhole)
    (x0 : Vec F S32x16 .i32) (x1 : Vec F S1x1 .i32) (Kk : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ Kk ⟨⟩))
      ⊢ wp frame (wpE (defs₀ (F := F)) Variants.none c none) E (cc2__combine_kernel arg0 harg0 arg1 harg1 arg2 harg2) Kk := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

end Cert.Proof.KB.Tc

end
-- ==== Proof.TcDat2B.lean ====
/-
  The proof data of the combining pipeline (one grid point; the two inputs fetched, the output written back):
  what each window's buffer holds before and after the body, the body obligation, and what the write-back
  leaves in the output array.
-/
import proofs.«209222_g37675453120884_cont_8to1_b_1946_16_alg».proof.Proof.TcBody2B
import Idealize.ShloMosaic.Lib.Pipeline.Value

noncomputable section

namespace Cert.Proof.KB.Tc

open Cert.Kernel Cert.Kernel.Gen
open Cert.Proof.Spec Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

section Data

variable (pv : (c : Dev nD) → Buf (Elt F) ((c : Thread nD τ).loc main_v0))
  (tv : (c : Dev nD) → Buf (Elt F) ((c : Thread nD τ).loc main_v1))
  (ov : (c : Dev nD) → Buf (Elt F) ((c : Thread nD τ).loc main_v2))

/-- The inputs' blocks at the point, read off their arrays. -/
def blk2_0 (c : Dev nD) (t : Fin cfg2.N) : ((cfg2.win 0).xblock (cfg2.grid.coords t)).Idx → Elt F (cfg2.win 0).elt :=
  ((cfg2.win 0).blk t).view.read (Elt F) (pv c)
def blk2_1 (c : Dev nD) (t : Fin cfg2.N) : ((cfg2.win 1).xblock (cfg2.grid.coords t)).Idx → Elt F (cfg2.win 1).elt :=
  ((cfg2.win 1).blk t).view.read (Elt F) (tv c)

/-- The proof data: the arrays at entry; after the body each input's buffer at its block and the output's at the
    body's result; the invariant the scoped buffers no window stages; nothing owed. -/
def dat2 (c : Dev nD) : Dat τ (Elt F) (HIx 1) ℕ UU ℕ cfg2 c where
  A w := match w with
    | ⟨0, _⟩ => pv c
    | ⟨1, _⟩ => tv c
    | ⟨2, _⟩ => ov c
  after w t := match w with
    | ⟨0, _⟩ => blk2_0 pv c t
    | ⟨1, _⟩ => blk2_1 tv c t
    | ⟨2, _⟩ => out2 (blk2_0 pv c t) (blk2_1 tv c t)
  Φ _ := Pipeline.scopedRest (Ix := HIx 1) (Name := ℕ) (U := UU) (Lvl := ℕ) (Val := Elt F) spec2 c
  q _ := fullShare
  owed _ := 0
  recorded _ := rec8 (F := F) c

theorem A2_0 (c : Dev nD) : (dat2 pv tv ov c).A 0 = pv c := by dsimp only [dat2]
theorem A2_1 (c : Dev nD) : (dat2 pv tv ov c).A 1 = tv c := by dsimp only [dat2]
theorem A2_2 (c : Dev nD) : (dat2 pv tv ov c).A 2 = ov c := by dsimp only [dat2]
theorem after2_0 (c : Dev nD) (t : Fin cfg2.N) : (dat2 pv tv ov c).after 0 t = blk2_0 pv c t := by dsimp only [dat2]
theorem after2_1 (c : Dev nD) (t : Fin cfg2.N) : (dat2 pv tv ov c).after 1 t = blk2_1 tv c t := by dsimp only [dat2]
theorem after2_2 (c : Dev nD) (t : Fin cfg2.N) : (dat2 pv tv ov c).after 2 t = out2 (blk2_0 pv c t) (blk2_1 tv c t) := by dsimp only [dat2]

/-- Each input's buffer holds its block when the body runs. -/
theorem before2_0 (c : Dev nD) (t : Fin cfg2.N) (d) : (dat2 pv tv ov c).before 0 t d = blk2_0 pv c t :=
  ((dat2 pv tv ov c).before_in_eq_fetched 0 rfl (fun _ => rfl) (fun _ _ _ => rfl)
    (fun t => by rw [after2_0]; unfold Dat.blockOf blk2_0; rw [A2_0]; try rfl) t d).trans
    (by unfold Dat.fetched Dat.blockOf blk2_0; rw [A2_0]; try rfl)
theorem before2_1 (c : Dev nD) (t : Fin cfg2.N) (d) : (dat2 pv tv ov c).before 1 t d = blk2_1 tv c t :=
  ((dat2 pv tv ov c).before_in_eq_fetched 1 rfl (fun _ => rfl) (fun _ _ _ => rfl)
    (fun t => by rw [after2_1]; unfold Dat.blockOf blk2_1; rw [A2_1]; try rfl) t d).trans
    (by unfold Dat.fetched Dat.blockOf blk2_1; rw [A2_1]; try rfl)

/-- What the body is called with at the point, -/
def bodyPre2 (c : Dev nD) (t : Fin cfg2.N) : sProp 𝕄 :=
  iprop((dat2 pv tv ov c).Φ t.castSucc ∗ (dat2 pv tv ov c).owesAt none t.castSucc
    ∗ (∃ d, owns (c : Thread nD τ) (st2_0 t) fullShare ((dat2 pv tv ov c).before 0 t d))
    ∗ (∃ d, owns (c : Thread nD τ) (st2_1 t) fullShare ((dat2 pv tv ov c).before 1 t d))
    ∗ (∃ d, owns (c : Thread nD τ) (st2_2 t) fullShare ((dat2 pv tv ov c).before 2 t d)))

/-- and what it returns. -/
def bodyPost2 (c : Dev nD) (t : Fin cfg2.N) : sProp 𝕄 :=
  iprop((dat2 pv tv ov c).Φ t.succ ∗ (dat2 pv tv ov c).owesAt none t.succ
    ∗ owns (c : Thread nD τ) (st2_0 t) fullShare ((dat2 pv tv ov c).after 0 t)
    ∗ owns (c : Thread nD τ) (st2_1 t) fullShare ((dat2 pv tv ov c).after 1 t)
    ∗ owns (c : Thread nD τ) (st2_2 t) fullShare ((dat2 pv tv ov c).after 2 t))

theorem sound_body2 (c : Dev nD) (t : Fin cfg2.N) :
    bodyPre2 pv tv ov c t ⊢ wp frame (wpE (defs₀ (F := F)) Variants.none c none) Set.univ (bodyAt2 t) (fun _ => bodyPost2 pv tv ov c t) := by
  unfold bodyPre2 bodyPost2 bodyAt2
  simp only [before2_0, before2_1]
  rw [show (dat2 pv tv ov c).Φ t.succ = (dat2 pv tv ov c).Φ t.castSucc from rfl,
    show (dat2 pv tv ov c).owesAt none t.succ = (dat2 pv tv ov c).owesAt none t.castSucc from rfl,
    after2_0, after2_1, after2_2]
  iintro ⟨HΦ, Ho, ⟨%d0, H0⟩, ⟨%d1, H1⟩, ⟨%d2, H2⟩⟩
  iapply (sound_kernel2 c Set.univ _ _ _ _ _ _ (blk2_0 pv c t) (blk2_1 tv c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation. -/
theorem body_obligation2 (c : Dev nD) : BodyObligation (dat2 (F := F) pv tv ov c) (defs₀ (F := F)) Variants.none none Set.univ := fun t => by
  rw [bigSep_W2, bigSep_W2]
  exact sound_body2 pv tv ov c t

/-- The arrays the region leaves: the inputs as they were, the output at what the write-back leaves. -/
theorem arrAt2_0 (c : Dev nD) (n : Nat) : (dat2 pv tv ov c).arrAt 0 n = pv c :=
  ((dat2 pv tv ov c).arrAt_in 0 rfl n).trans (A2_0 pv tv ov c)
theorem arrAt2_1 (c : Dev nD) (n : Nat) : (dat2 pv tv ov c).arrAt 1 n = tv c :=
  ((dat2 pv tv ov c).arrAt_in 1 rfl n).trans (A2_1 pv tv ov c)

/-- A window whose block is its whole array reads the array as it is. -/
theorem blk2_0_eq (c : Dev nD) (t : Fin cfg2.N) : blk2_0 pv c t = pv c := by
  funext j
  show pv c (((cfg2.win 0).blk t).view.emb j) = pv c j
  refine congrArg (pv c) ?_
  funext a; apply Fin.ext
  match a with
  | ⟨0, _⟩ => show 0 * 32 + 1 * (j 0).val = (j 0).val; omega
  | ⟨1, _⟩ => show 0 * 16 + 1 * (j 1).val = (j 1).val; omega
theorem blk2_1_eq (c : Dev nD) (t : Fin cfg2.N) : blk2_1 tv c t = tv c := by
  funext j
  show tv c (((cfg2.win 1).blk t).view.emb j) = tv c j
  refine congrArg (tv c) ?_
  funext a; apply Fin.ext
  match a with
  | ⟨0, _⟩ => show 0 * 1 + 1 * (j 0).val = (j 0).val; omega
  | ⟨1, _⟩ => show 0 * 1 + 1 * (j 1).val = (j 1).val; omega

/-- The output array after the region: the body's result of the two input arrays. -/
theorem arrAt2_2 (c : Dev nD) (n : Nat) (hn : n = cfg2.N) :
    (dat2 pv tv ov c).arrAt 2 n = k2_pay1 (F := F) (pv c) (tv c) := by
  subst hn
  have hemb : ∀ (t : Fin cfg2.N) (j : ((cfg2.win 2).xblock (cfg2.grid.coords t)).Idx), ((cfg2.win 2).blk t).view.emb j = j := by
    intro t j
    funext a; apply Fin.ext
    match a with
    | ⟨0, _⟩ => show 0 * 2 + 1 * (j 0).val = (j 0).val; omega
    | ⟨1, _⟩ => show 0 * 2 + 1 * (j 1).val = (j 1).val; omega
  refine (dat2 pv tv ov c).arrAt_eq_of_cover 2 _ (fun t _ => ?_) (fun i => ⟨t2_0, flush2_2 t2_0, ?_⟩)
  · show (cfg2.win 2).cut (cfg2.grid.coords t) ((dat2 pv tv ov c).after 2 t) = _
    rw [after2_2, blk2_0_eq, blk2_1_eq]
    unfold out2
    rw [View.canon_unit_zero hz2]
    simp only [View.ld_unit_zero (S := S32x16) hz2, View.ld_unit_zero (S := S1x1) hz2]
    funext j
    show k2_pay1 (F := F) (pv c) (tv c) j = k2_pay1 (F := F) (pv c) (tv c) (((cfg2.win 2).blk t).view.emb j)
    rw [hemb]
  · have h := (((cfg2.win 2).blk t2_0).view).emb_mem_set i
    rw [hemb] at h
    exact h

end Data

end Cert.Proof.KB.Tc

end
-- ==== Proof.TcRegion2B.lean ====
/-
  The second TensorCore region as one step of the TensorCore's program: the region's record over the thread
  state "the three arrays and what the TensorCore owes", and the step itself.
-/
import proofs.«209222_g37675453120884_cont_8to1_b_1946_16_alg».proof.Proof.TcDat2B

noncomputable section

namespace Cert.Proof.KB.Tc

open Cert.Kernel Cert.Kernel.Gen
open Cert.Proof.Spec Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-! ## The proof data family -/

section Region

variable (pv : (c : Dev nD) → Buf (Elt F) ((c : Thread nD τ).loc main_v0))
  (tv : (c : Dev nD) → Buf (Elt F) ((c : Thread nD τ).loc main_v1))
  (ov : (c : Dev nD) → Buf (Elt F) ((c : Thread nD τ).loc main_v2))

/-- Every pipeline's proof data when the second region runs: a literal match. -/
def pdats2 : (p : Fin 2) → (c : Dev nD) → Dat τ (Elt F) (HIx 1) ℕ UU ℕ (Pipeline.pin (pcfgs (F := F)) adm p) c
  | ⟨0, _⟩ => fun c => datAny cfg1 c
  | ⟨1, _⟩ => fun c => dat2 pv tv ov c

set_option backward.isDefEq.respectTransparency.types false in
/-- The second region over the thread state "the three arrays and what the TensorCore owes". -/
def reg2 : Pipeline.RegionSeg (pcfgs (F := F)) adm (pdats2 pv tv ov) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 pv tv ov c).loose
  hwaits := Pipeline.hwaits_of_owed_zero _ _ _ _ (K (F := F)).L (K (F := F)).lev 1 fun _ _ => rfl
  pre c := iprop(owesTc (F := F) c ∗ (((c : Thread nD τ).loc main_v0) ↦{fullShare} pv c) ∗ (((c : Thread nD τ).loc main_v1) ↦{fullShare} tv c)
    ∗ (((c : Thread nD τ).loc main_v2) ↦{fullShare} ov c))
  post c := iprop(owesTc (F := F) c ∗ (((c : Thread nD τ).loc main_v0) ↦{fullShare} pv c) ∗ (((c : Thread nD τ).loc main_v1) ↦{fullShare} tv c)
    ∗ (((c : Thread nD τ).loc main_v2) ↦{fullShare} k2_pay1 (F := F) (pv c) (tv c)))
  X _ := iprop(⌜True⌝)
  Y _ := iprop(⌜True⌝)
  Z _ := iprop(⌜True⌝)
  hentry c := by
    rw [Pipeline.ownSems0_none]
    rw [Pipeline.arrays_eq (Pipeline.pin (pcfgs (F := F)) adm) (pdats2 pv tv ov) 1 c arr_whole2 ((pdats2 pv tv ov 1 c).share_full fun _ => rfl), bigSep_W2]
    iintro ⟨⟨Ho, Hp, Ht, Hf⟩, -, -⟩
    imodintro
    isplitl [Hp Ht Hf]
    · isplitl [Hp]; · iexact Hp
      isplitl [Ht]; · iexact Ht
      iexact Hf
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, %hW, HO⟩; iexists W; isplitr; · ipureintro; exact fun pr hpr => Or.inl (hW pr hpr)
      rw [Otc_one]; iexact HO
    isplitr <;> (ipureintro; trivial)
  hin c := by
    rw [show (pdats2 pv tv ov 1 c).Φ 0 = Pipeline.scopedRest (Ix := HIx 1) (Name := ℕ) (U := UU) (Lvl := ℕ) (Val := Elt F) spec2 c from rfl]
    iintro ⟨-, -, Hr⟩
    iexact Hr
  hout c := by
    rw [Pipeline.ownSems0_none, show (pdats2 pv tv ov 1 c).Φ (Fin.last _) = Pipeline.scopedRest (Ix := HIx 1) (Name := ℕ) (U := UU) (Lvl := ℕ) (Val := Elt F) spec2 c from rfl]
    iintro Hr
    isplitr; · ipureintro; trivial
    isplitr; · iempintro
    iexact Hr
  hexit c := by
    rw [Pipeline.arrays_eq (Pipeline.pin (pcfgs (F := F)) adm) (pdats2 pv tv ov) 1 c arr_whole2 ((pdats2 pv tv ov 1 c).share_full fun _ => rfl), bigSep_W2]
    rw [show (pdats2 pv tv ov 1 c).arrAt 0 (Pipeline.pin (pcfgs (F := F)) adm 1).N = pv c from arrAt2_0 pv tv ov c _,
      show (pdats2 pv tv ov 1 c).arrAt 1 (Pipeline.pin (pcfgs (F := F)) adm 1).N = tv c from arrAt2_1 pv tv ov c _,
      show (pdats2 pv tv ov 1 c).arrAt 2 (Pipeline.pin (pcfgs (F := F)) adm 1).N = k2_pay1 (F := F) (pv c) (tv c) from arrAt2_2 pv tv ov c _ rfl]
    iintro ⟨⟨Hp, Ht, Hf⟩, HO, -, -⟩
    imodintro
    isplitl [HO]
    · unfold Pipeline.Dat.owesAt Pipeline.owesWithin
      icases HO with ⟨%W, %hW, HO⟩; iexists W; isplitr
      · ipureintro
        intro pr hpr
        rcases hW hpr with h | ⟨w, s, rfl⟩
        · exact h
        · exact Nat.zero_le _
      rw [Otc_one]; iexact HO
    isplitl [Hp]; · iexact Hp
    isplitl [Ht]; · iexact Ht
    iexact Hf

set_option backward.isDefEq.respectTransparency.types false in
theorem reg2_pre (c : Dev nD) : (reg2 pv tv ov).pre c
    = iprop(owesTc (F := F) c ∗ (((c : Thread nD τ).loc main_v0) ↦{fullShare} pv c) ∗ (((c : Thread nD τ).loc main_v1) ↦{fullShare} tv c)
      ∗ (((c : Thread nD τ).loc main_v2) ↦{fullShare} ov c)) := rfl
set_option backward.isDefEq.respectTransparency.types false in
theorem reg2_post (c : Dev nD) : (reg2 pv tv ov).post c
    = iprop(owesTc (F := F) c ∗ (((c : Thread nD τ).loc main_v0) ↦{fullShare} pv c) ∗ (((c : Thread nD τ).loc main_v1) ↦{fullShare} tv c)
      ∗ (((c : Thread nD τ).loc main_v2) ↦{fullShare} k2_pay1 (F := F) (pv c) (tv c))) := rfl

end Region

/-! ## The region as a step of the TensorCore's program -/

set_option backward.isDefEq.respectTransparency.types false in
/-- The second region: the combined result lands in the 2 × 2 array. -/
theorem region2 (d : Dev nD) (p : IVec SP 32) (t : IVec S11 32) :
    iprop(levAts (K (F := F)).L (K (F := F)).lev ∗ tcOwes (F := F) d ∗ boundary (SparseCore.T d) ∗ (pLoc d ↦{fullShare} p) ∗ (tLoc d ↦{fullShare} t)
        ∗ (∃ f, oLoc d ↦{fullShare} f) ∗ tcGhost' (F := F) d)
      ⊢ wp frame (wpE ((K (F := F)).defs (D (F := F))) 𝒱 (SparseCore.T d) none) Set.univ
          (Prog.lift (.customCall (SparseCore.inner (Pipeline.entry (1 : Fin 2))) ()))
          fun _ => iprop(tcOwes (F := F) d ∗ boundary (SparseCore.T d) ∗ (pLoc d ↦{fullShare} p) ∗ (tLoc d ↦{fullShare} t)
            ∗ (oLoc d ↦{fullShare} k2_pay1 (F := F) p t)) := by
  iintro ⟨Hlev, Ho, Hb, Hp, Ht, ⟨%f, Hf⟩, Hg⟩
  iapply ((K (F := F)).wp_liftProg (D (F := F)) 𝒱 (SparseCore.T d) Set.univ none (Prog.lift (.customCall (Pipeline.entry (1 : Fin 2)) ())) _)
  iapply (Pipeline.RegionSeg.wp (pcfgs (F := F)) adm (pdats2 (fun _ => p) (fun _ => t) (fun _ => f)) none phinj EP defs₀ 𝒱₀
    (K (F := F)).L (K (F := F)).lev (reg2 (fun _ => p) (fun _ => t) (fun _ => f)) d none (fun _ h => nomatch h) (fun x => .ret x) _)
  rw [reg2_pre, reg2_post, wp_ret]
  isplitr [Hlev Ho Hb Hp Ht Hf Hg]
  · iintro ⟨Hb, Ho, Hp, Ht, Hf⟩
    imodintro
    isplitl [Ho]; · iexact Ho
    isplitl [Hb]; · iexact Hb
    isplitl [Hp]; · iexact Hp
    isplitl [Ht]; · iexact Ht
    iexact Hf
  isplitl [Hb]; · iexact Hb
  isplitl [Ho Hp Ht Hf]
  · isplitl [Ho]; · iexact Ho
    isplitl [Hp]; · iexact Hp
    isplitl [Ht]; · iexact Ht
    iexact Hf
  isplitl [Hlev]; · iexact Hlev
  unfold tcGhost'
  iexact Hg

end Cert.Proof.KB.Tc

end
-- ==== Proof.TcBody1B.lean ====
/-
  The summing kernel's body at a grid point, in its three cases: at the first point it zeroes the carried
  row of 512 partial sums before adding the block's column sums to it; at the middle points it only adds; at
  the last point it adds and then stores the total of the row into the one-element output buffer.
-/
import proofs.«209222_g37675453120884_cont_8to1_b_1946_16_alg».proof.Proof.TcDataB
import proofs.«209222_g37675453120884_cont_8to1_b_1946_16_alg».proof.Proof.Gen.Kernel.Skeleton
import Idealize.ShloMosaic.Lib.Pipeline.FrameBody
import Idealize.ShloMosaic.Lib.Pipeline.Value
import Idealize.ShloMosaic.Lib.Tactic

noncomputable section

namespace Cert.Proof.KB.Tc

open Cert.Kernel Cert.Kernel.Gen
open Cert.Proof.Spec Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-- The condition of the body's first conditional: the point is the first. -/
abbrev cond1 (i : grid1.Coords) : Prop :=
  (Scalar.cmpi .ne (Scalar.extui (Scalar.cmpi .eq (BitVec.ofNat 32 (i 0).val) 0#32)) 0#32) = 1#1
/-- The condition of its second: the point is the last. -/
abbrev cond2 (i : grid1.Coords) : Prop := k1_cond2 i = 1#1

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, cond2 (grid1.coords t) ↔ t.val = 5 :=
  (by decide +kernel : ∀ t : Fin grid1.N, cond2 (grid1.coords t) ↔ t.val = 5)

abbrev r1s : Rect S1x512 := Rect.unit (s := S1x512) ![0, 0] S1x512.size inb_S1x512_S1x512_0_0
abbrev r1x : Rect S1x512x512 := Rect.unit (s := S1x512x512) ![0, 0, 0] S1x512x512.size inb_S1x512x512_S1x512x512_0_0_0
abbrev r1o : Rect S1x1 := Rect.unit (s := S1x1) ![0, 0] S1x1.size inb_S1x1_S1x1_0_0

/-- One store through the whole row covers it. -/
theorem cover1s (p0 : Vec F S1x512 .i32) (y : S1x512.Idx) :
    ∃ pc ∈ ([⟨r1s, p0⟩] : List (View.Piece (Elt F) S1x512 .i32)), y ∈ pc.1.set :=
  View.cover_of_tiled [⟨r1s, p0⟩] S1x512.size (by rfl) y
theorem cover1o (p0 : Vec F S1x1 .i32) (y : S1x1.Idx) :
    ∃ pc ∈ ([⟨r1o, p0⟩] : List (View.Piece (Elt F) S1x1 .i32)), y ∈ pc.1.set :=
  View.cover_of_tiled [⟨r1o, p0⟩] S1x1.size (by rfl) y

set_option maxHeartbeats 1000000 in
/-- A middle point: the row becomes the row plus the block's column sums; the output buffer is untouched. -/
theorem sound_kernel1_B (c : Dev nD) (E : Set ℕ) (i : grid1.Coords) (arg1 : Memref sig .tc .vmem S1x512x512 .i32) (harg1 : arg1.IsWhole)
    (arg2 : Memref sig .tc .vmem S1x1 .i32) (harg2 : arg2.IsWhole) (arg3 : Memref sig .tc .vmem S1x512 .i32) (harg3 : arg3.IsWhole)
    (hc1 : ¬ cond1 i) (hc2 : ¬ cond2 i)
    (x0 : Vec F S1x512x512 .i32) (s : Vec F S1x512 .i32) (Kk : PUnit → sProp 𝕄) :
    iprop(owns (c : Thread nD τ) arg1 fullShare x0 ∗ (∃ d, owns (c : Thread nD τ) arg2 fullShare d) ∗ owns (c : Thread nD τ) arg3 fullShare s
        ∗ (iprop(owns (c : Thread nD τ) arg1 fullShare x0 ∗ (∃ d, owns (c : Thread nD τ) arg2 fullShare d)
            ∗ owns (c : Thread nD τ) arg3 fullShare (k1_pay2 s x0)) -∗ Kk ⟨⟩))
      ⊢ wp frame (wpE (defs₀ (F := F)) Variants.none c none) E (cc1__tc_sum_kernel i arg1 harg1 arg2 harg2 arg3 harg3) Kk := by
  simp only [cc1__tc_sum_kernel_eq_skeleton]; unfold cc1__tc_sum_kernel_skel
  unfold owns
  iintro ⟨⟨%f0, %hf0, H0⟩, ⟨%d2, %f2, %hf2, H2⟩, ⟨%f3, %hf3, H3⟩, Hk⟩
  subst hf0; subst hf3
  sl_exec (disch := first | exact hc1 | exact hc2)
  sl_step
  iapply Hk
  isplitl [H0]
  · iexists f0; isplitr; · ipureintro; rfl
    iexact H0
  isplitl [H2]
  · iexists d2, f2; isplitr; · ipureintro; exact hf2
    iexact H2
  iexists _; isplitr
  swap; · iexact H3
  ipureintro
  rw [View.read_writes_eq_canon _ _ _ (cover1s _), View.canon_unit_zero hz2]
  simp only [View.readAt_eq_ld, View.ld_unit_zero (S := S1x512) hz2, View.ld_unit_zero (S := S1x512x512) hz3]

set_option maxHeartbeats 1000000 in
/-- The first point: the row is zeroed, then becomes the block's column sums added to zero; the output buffer is untouched. -/
theorem sound_kernel1_A (c : Dev nD) (E : Set ℕ) (i : grid1.Coords) (arg1 : Memref sig .tc .vmem S1x512x512 .i32) (harg1 : arg1.IsWhole)
    (arg2 : Memref sig .tc .vmem S1x1 .i32) (harg2 : arg2.IsWhole) (arg3 : Memref sig .tc .vmem S1x512 .i32) (harg3 : arg3.IsWhole)
    (hc1 : cond1 i) (hc2 : ¬ cond2 i)
    (x0 : Vec F S1x512x512 .i32) (Kk : PUnit → sProp 𝕄) :
    iprop(owns (c : Thread nD τ) arg1 fullShare x0 ∗ (∃ d, owns (c : Thread nD τ) arg2 fullShare d) ∗ (∃ s, owns (c : Thread nD τ) arg3 fullShare s)
        ∗ (iprop(owns (c : Thread nD τ) arg1 fullShare x0 ∗ (∃ d, owns (c : Thread nD τ) arg2 fullShare d)
            ∗ owns (c : Thread nD τ) arg3 fullShare (k1_pay2 k1_pay1 x0)) -∗ Kk ⟨⟩))
      ⊢ wp frame (wpE (defs₀ (F := F)) Variants.none c none) E (cc1__tc_sum_kernel i arg1 harg1 arg2 harg2 arg3 harg3) Kk := by
  simp only [cc1__tc_sum_kernel_eq_skeleton]; unfold cc1__tc_sum_kernel_skel
  unfold owns
  iintro ⟨⟨%f0, %hf0, H0⟩, ⟨%d2, %f2, %hf2, H2⟩, ⟨%s, %f3, -, H3⟩, Hk⟩
  subst hf0
  sl_exec (disch := first | exact hc1 | exact hc2)
  sl_step
  iapply Hk
  isplitl [H0]
  · iexists f0; isplitr; · ipureintro; rfl
    iexact H0
  isplitl [H2]
  · iexists d2, f2; isplitr; · ipureintro; exact hf2
    iexact H2
  iexists _; isplitr
  swap; · iexact H3
  ipureintro
  sl_unfold_run_names
  rw [View.read_writes_eq_canon _ _ _ (fun y => ⟨_, List.mem_cons_self, View.mem_set_unit_zero hz2 inb_S1x512_S1x512_0_0 y⟩),
    View.canon_cons_unit_zero hz2, View.readCov_unit_zero _ hz2]
  simp only [View.readAt_eq_ld, View.ld_unit_zero (S := S1x512x512) hz3]

set_option maxHeartbeats 1000000 in
/-- The last point: the row becomes the row plus the block's column sums, and the output buffer the row's total. -/
theorem sound_kernel1_C (c : Dev nD) (E : Set ℕ) (i : grid1.Coords) (arg1 : Memref sig .tc .vmem S1x512x512 .i32) (harg1 : arg1.IsWhole)
    (arg2 : Memref sig .tc .vmem S1x1 .i32) (harg2 : arg2.IsWhole) (arg3 : Memref sig .tc .vmem S1x512 .i32) (harg3 : arg3.IsWhole)
    (hc1 : ¬ cond1 i) (hc2 : cond2 i)
    (x0 : Vec F S1x512x512 .i32) (s : Vec F S1x512 .i32) (Kk : PUnit → sProp 𝕄) :
    iprop(owns (c : Thread nD τ) arg1 fullShare x0 ∗ (∃ d, owns (c : Thread nD τ) arg2 fullShare d) ∗ owns (c : Thread nD τ) arg3 fullShare s
        ∗ (iprop(owns (c : Thread nD τ) arg1 fullShare x0 ∗ owns (c : Thread nD τ) arg2 fullShare (k1_pay3 (F := F) (k1_pay2 s x0))
            ∗ owns (c : Thread nD τ) arg3 fullShare (k1_pay2 s x0)) -∗ Kk ⟨⟩))
      ⊢ wp frame (wpE (defs₀ (F := F)) Variants.none c none) E (cc1__tc_sum_kernel i arg1 harg1 arg2 harg2 arg3 harg3) Kk := by
  simp only [cc1__tc_sum_kernel_eq_skeleton]; unfold cc1__tc_sum_kernel_skel
  unfold owns
  iintro ⟨⟨%f0, %hf0, H0⟩, ⟨%d2, %f2, %hf2, H2⟩, ⟨%f3, %hf3, H3⟩, Hk⟩
  subst hf0; subst hf3
  sl_exec (disch := first | exact hc1 | exact hc2)
  sl_step
  iapply Hk
  isplitl [H0]
  · iexists f0; isplitr; · ipureintro; rfl
    iexact H0
  isplitl [H2]
  · iexists _; isplitr
    swap; · iexact H2
    ipureintro
    sl_unfold_run_names
    rw [View.read_writes_eq_canon _ _ _ (cover1o _), View.canon_unit_zero hz2, View.readCov_unit_zero _ hz2]
    simp only [View.readAt_eq_ld, View.ld_unit_zero (S := S1x512) hz2, View.ld_unit_zero (S := S1x512x512) hz3]
  iexists _; isplitr
  swap; · iexact H3
  ipureintro
  sl_unfold_run_names
  rw [View.read_writes_eq_canon _ _ _ (cover1s _), View.canon_unit_zero hz2]
  simp only [View.readAt_eq_ld, View.ld_unit_zero (S := S1x512) hz2, View.ld_unit_zero (S := S1x512x512) hz3]

end Cert.Proof.KB.Tc

end
-- ==== Proof.TcVal1B.lean ====
/-
  The values of the summing kernel, as functions of the label array `x`: block `n` of `x` as the body loads it,
  the carried row of 512 partial sums after `n` grid points (zero, then the row plus the block's column sums,
  point by point).
-/
import proofs.«209222_g37675453120884_cont_8to1_b_1946_16_alg».proof.Proof.Spec
import proofs.«209222_g37675453120884_cont_8to1_b_1946_16_alg».proof.Proof.Gen.Kernel.Skeleton
import Idealize.ShloMosaic.Lib.ValueIdx

noncomputable section

namespace Cert.Proof.KB.Tc

open Cert.Kernel Cert.Kernel.Gen
open Cert.Proof.Spec

open Idealize.ShloMosaic

variable {F : FTy → Type}

open Idealize.ShloMosaic.ValueIdx

/-- Batch `n` of `x` (the index taken modulo 8, so that the function is total), as a 1 × 512 × 512 block. -/
def xblk (x : IVec SX 32) (n : ℕ) : IVec S1x512x512 32 :=
  fun j => x (ix3 ⟨n % 8, Nat.mod_lt _ (by decide)⟩ ⟨(j 1).val, (j 1).isLt⟩ ⟨(j 2).val, (j 2).isLt⟩)

variable [FloatOps F]

/-- The carried row after `n` points: zero, then the body's sum of the row and the block's column sums. -/
def accP (x : IVec SX 32) : ℕ → IVec S1x512 32
  | 0 => k1_pay1
  | n + 1 => k1_pay2 (F := F) (accP x n) (xblk x n)

theorem accP_zero (x : IVec SX 32) : accP (F := F) x 0 = k1_pay1 := rfl
theorem accP_succ (x : IVec SX 32) (n : ℕ) : accP (F := F) x (n + 1) = k1_pay2 (F := F) (accP (F := F) x n) (xblk x n) := rfl

end Cert.Proof.KB.Tc

end
-- ==== Proof.TcDat1B.lean ====
/-
  The proof data of the summing pipeline (six grid points): the label array's block fetched at every point, the
  one-element output idle until the last point and written back there, the carried row of partial sums held in
  the invariant at its contents after each point; the body obligation point by point; and what the one
  write-back leaves in the output array.
-/
import proofs.«209222_g37675453120884_cont_8to1_b_1946_16_alg».proof.Proof.TcBody1B
import proofs.«209222_g37675453120884_cont_8to1_b_1946_16_alg».proof.Proof.TcVal1B
import Idealize.ShloMosaic.Lib.Pipeline.Value
import Idealize.ShloMosaic.Lib.Pipeline.TableIdle

noncomputable section

namespace Cert.Proof.KB.Tc

open Cert.Kernel Cert.Kernel.Gen
open Cert.Proof.Spec Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-! ## The schedule, decided over the six points -/

theorem liveAt1_0 : ∀ t : Fin cfg1.N, cfg1.idle 0 (grid1.coords t) = false := by decide +kernel
theorem idleAt1_1 : ∀ t : Fin cfg1.N, ¬cond2 (grid1.coords t) → cfg1.idle 1 (grid1.coords t) = true := by decide +kernel
theorem liveAt1_1 : ∀ t : Fin cfg1.N, cond2 (grid1.coords t) → cfg1.idle 1 (grid1.coords t) = false := by decide +kernel
theorem noFlush1_1 : ∀ t : Fin cfg1.N, ¬cond2 (grid1.coords t) → (cfg1.win 1).flush t = false := by decide +kernel
/-- The block index of the label array's window at point `t` is `(t, 0, 0)`. -/
theorem index1_0 : ∀ t : Fin cfg1.N, win1_0.index t = ![t.val, 0, 0] := by decide +kernel
theorem index1_1 : ∀ t : Fin cfg1.N, win1_1.index t = ![0, 0] := by decide +kernel

section Data

variable (xv : (c : Dev nD) → Buf (Elt F) ((c : Thread nD τ).loc main_arg0))
  (tv : (c : Dev nD) → Buf (Elt F) ((c : Thread nD τ).loc main_v1))

/-- The label array's block at point `t`, read off the array. -/
def blk1 (c : Dev nD) (t : Fin cfg1.N) : ((cfg1.win 0).xblock (cfg1.grid.coords t)).Idx → Elt F (cfg1.win 0).elt :=
  ((cfg1.win 0).blk t).view.read (Elt F) (xv c)

/-- It is batch `t` of the array. -/
theorem blk1_eq (c : Dev nD) (t : Fin cfg1.N) : blk1 xv c t = xblk (xv c) t.val := by
  have hN : t.val < 6 := lt_of_lt_of_eq t.isLt N_1
  funext j
  show xv c (((cfg1.win 0).blk t).view.emb j) = xv c _
  refine congrArg (xv c) ?_
  funext a; apply Fin.ext
  have hi := index1_0 t
  match a with
  | ⟨0, _⟩ =>
    show win1_0.index t (0 : Fin 3) * 1 + 1 * (j 0).val = t.val % 8
    have h0 : win1_0.index t (0 : Fin 3) = t.val := congrFun hi 0
    have hj : (j 0).val < 1 := (j 0).isLt
    omega
  | ⟨1, _⟩ =>
    show win1_0.index t (1 : Fin 3) * 512 + 1 * (j 1).val = (j 1).val
    have h1 : win1_0.index t (1 : Fin 3) = 0 := congrFun hi 1
    omega
  | ⟨2, _⟩ =>
    show win1_0.index t (2 : Fin 3) * 512 + 1 * (j 2).val = (j 2).val
    have h2 : win1_0.index t (2 : Fin 3) = 0 := congrFun hi 2
    omega

/-- The carried row after `n` points, on device `c`. -/
abbrev acc (c : Dev nD) (n : ℕ) : IVec S1x512 32 := accP (F := F) (xv c) n

/-- The carried row's buffer. -/
abbrev scM : Memref sig .tc .vmem S1x512 .i32 := Memref.whole cc1_scratch0

/-- The scoped buffers that are neither a staging buffer of this pipeline nor the carried row's. -/
def restOf (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f))

/-- The invariant before point `n`: the carried row at anything before the first point, afterwards at its
    contents after `n` points; the other scoped buffers at anything. -/
def Phi1 (c : Dev nD) : ℕ → sProp 𝕄
  | 0 => iprop((∃ d, owns (c : Thread nD τ) scM fullShare d) ∗ restOf (F := F) c)
  | n + 1 => iprop(owns (c : Thread nD τ) scM fullShare (acc xv c (n + 1)) ∗ restOf (F := F) c)

theorem Phi1_zero (c : Dev nD) (n : ℕ) (hn : n = 0) :
    Phi1 xv c n = iprop((∃ d, owns (c : Thread nD τ) scM fullShare d) ∗ restOf (F := F) c) := by subst hn; rfl
theorem Phi1_succ (c : Dev nD) (n : ℕ) :
    Phi1 xv c (n + 1) = iprop(owns (c : Thread nD τ) scM fullShare (acc xv c (n + 1)) ∗ restOf (F := F) c) := rfl
theorem Phi1_pos (c : Dev nD) (n : ℕ) (hn : n ≠ 0) :
    Phi1 xv c n = iprop(owns (c : Thread nD τ) scM fullShare (acc xv c n) ∗ restOf (F := F) c) := by
  cases n with
  | zero => exact absurd rfl hn
  | succ n => rfl

/-- The scoped buffers no window stages are the carried row's and the rest. -/
theorem scopedRest1_Phi (c : Dev nD) :
    (Pipeline.scopedRest (Ix := HIx 1) (Name := ℕ) (U := UU) (Lvl := ℕ) (Val := Elt F) spec1 c : sProp 𝕄)
      = iprop((∃ d, owns (c : Thread nD τ) scM fullShare d) ∗ restOf (F := F) c) := by
  rw [scopedRest1_eq]; unfold restOf; simp only [scM, owns_whole]; try rfl

/-- The proof data. -/
def dat1 (c : Dev nD) : Dat τ (Elt F) (HIx 1) ℕ UU ℕ cfg1 c where
  A w := match w with
    | ⟨0, _⟩ => xv c
    | ⟨1, _⟩ => tv c
  after w t := match w with
    | ⟨0, _⟩ => blk1 xv c t
    | ⟨1, _⟩ => k1_pay3 (F := F) (acc xv c (t.val + 1))
  Φ t := Phi1 xv c t.val
  q _ := fullShare
  owed _ := 0
  recorded _ := rec8 (F := F) c

theorem A1_0 (c : Dev nD) : (dat1 xv tv c).A 0 = xv c := by dsimp only [dat1]
theorem A1_1 (c : Dev nD) : (dat1 xv tv c).A 1 = tv c := by dsimp only [dat1]
theorem after1_0 (c : Dev nD) (t : Fin cfg1.N) : (dat1 xv tv c).after 0 t = blk1 xv c t := by dsimp only [dat1]
theorem after1_1 (c : Dev nD) (t : Fin cfg1.N) : (dat1 xv tv c).after 1 t = k1_pay3 (F := F) (acc xv c (t.val + 1)) := by dsimp only [dat1]

/-- The label array's buffer holds its block when the body runs. -/
theorem before1_0 (c : Dev nD) (t : Fin cfg1.N) (d) : (dat1 xv tv c).before 0 t d = blk1 xv c t :=
  ((dat1 xv tv c).before_in_eq_fetched 0 rfl (fun _ => rfl) (fun _ _ _ => rfl)
    (fun t => by rw [after1_0]; unfold Dat.blockOf blk1; rw [A1_0]; try rfl) t d).trans
    (by unfold Dat.fetched Dat.blockOf blk1; rw [A1_0]; try rfl)

/-- The output's buffer holds, at every point, what it held when the region began: every earlier point was idle
    for it and wrote nothing back. -/
theorem before1_1 (c : Dev nD) (t : Fin cfg1.N) (d) : (dat1 xv tv c).before 1 t d = d := by
  have hN : t.val < 6 := lt_of_lt_of_eq t.isLt N_1
  have hne : ∀ j : Fin cfg1.N, j.val < t.val → ¬ cond2 (grid1.coords j) := fun j hj h => by
    have := (hcond2 j).mp h; omega
  rw [(dat1 xv tv c).before_idle_run 1 (fun t => (cfg1.win 1).fetch_out rfl t) d t.val t le_rfl
    (fun j _ hj => ⟨idleAt1_1 j (hne j hj), noFlush1_1 j (hne j hj)⟩)]
  exact (dat1 xv tv c).before_out_reset 1 rfl _ (.inl (Nat.sub_self _)) d

/-- What the body is called with at point `t`, -/
def bodyPre1 (c : Dev nD) (t : Fin cfg1.N) : sProp 𝕄 :=
  iprop((dat1 xv tv c).Φ t.castSucc ∗ (dat1 xv tv c).owesAt none t.castSucc
    ∗ (∃ d, owns (c : Thread nD τ) (st1_0 t) fullShare ((dat1 xv tv c).before 0 t d))
    ∗ (∃ d, owns (c : Thread nD τ) (st1_1 t) fullShare ((dat1 xv tv c).before 1 t d)))

/-- and what it returns. -/
def bodyPost1 (c : Dev nD) (t : Fin cfg1.N) : sProp 𝕄 :=
  iprop((dat1 xv tv c).Φ t.succ ∗ (dat1 xv tv c).owesAt none t.succ
    ∗ (dat1 xv tv c).leavesExact 0 t
    ∗ (dat1 xv tv c).leavesExact 1 t)

set_option maxHeartbeats 1000000 in
theorem sound_body1 (c : Dev nD) (t : Fin cfg1.N) :
    bodyPre1 xv tv c t ⊢ wp frame (wpE (defs₀ (F := F)) Variants.none c none) Set.univ (bodyAt1 t) (fun _ => bodyPost1 xv tv c t) := by
  unfold bodyPre1 bodyPost1 bodyAt1
  have hN : t.val < 6 := lt_of_lt_of_eq t.isLt N_1
  rw [show (dat1 xv tv c).owesAt none t.succ = (dat1 xv tv c).owesAt none t.castSucc from rfl,
    show (dat1 xv tv c).Φ t.succ = Phi1 xv c (t.val + 1) from rfl,
    show (dat1 xv tv c).Φ t.castSucc = Phi1 xv c t.val from rfl,
    show (dat1 xv tv c).leavesExact 0 t = owns (c : Thread nD τ) (st1_0 t) fullShare ((dat1 xv tv c).after 0 t) from by
      unfold Dat.leavesExact; rw [liveAt1_0 t],
    after1_0, Phi1_succ]
  by_cases h5 : t.val = 5
  · have hc2 : cond2 (grid1.coords t) := (hcond2 t).mpr h5
    have hc1 : ¬ cond1 (grid1.coords t) := fun h => by have := (hcond1 t).mp h; omega
    rw [show (dat1 xv tv c).leavesExact 1 t = owns (c : Thread nD τ) (st1_1 t) fullShare ((dat1 xv tv c).after 1 t) from by
      unfold Dat.leavesExact; rw [liveAt1_1 t hc2], after1_1, Phi1_pos xv c t.val (by omega)]
    simp only [before1_0, before1_1, blk1_eq, accP_succ]
    iintro ⟨⟨HS, Hr⟩, Ho, ⟨%d0, H0⟩, ⟨%d1, H1⟩⟩
    iapply (sound_kernel1_C c Set.univ (grid1.coords t) _ _ _ _ _ _ hc1 hc2 (xblk (xv c) t.val) (acc xv c t.val) _)
    isplitl [H0]; · iexact H0
    isplitl [H1]; · iexists _; iexact H1
    isplitl [HS]; · iexact HS
    iintro ⟨H0, H1, HS⟩
    isplitl [HS Hr]
    · isplitl [HS]; · iexact HS
      iexact Hr
    isplitl [Ho]; · iexact Ho
    isplitl [H0]; · iexact H0
    iexact H1
  · have hc2 : ¬ cond2 (grid1.coords t) := fun h => h5 ((hcond2 t).mp h)
    rw [Dat.leavesExact_idle (dat1 xv tv c) 1 t (idleAt1_1 t hc2) (noFlush1_1 t hc2)]
    by_cases h0 : t.val = 0
    · have hc1 : cond1 (grid1.coords t) := (hcond1 t).mpr h0
      rw [Phi1_zero xv c t.val h0]
      simp only [before1_0, before1_1, blk1_eq, accP_succ]
      rw [show accP (F := F) (xv c) t.val = k1_pay1 from by rw [h0]; rfl]
      iintro ⟨⟨⟨%s, HS⟩, Hr⟩, Ho, ⟨%d0, H0⟩, ⟨%d1, H1⟩⟩
      iapply (sound_kernel1_A c Set.univ (grid1.coords t) _ _ _ _ _ _ hc1 hc2 (xblk (xv c) t.val) _)
      isplitl [H0]; · iexact H0
      isplitl [H1]; · iexists _; iexact H1
      isplitl [HS]; · iexists _; iexact HS
      iintro ⟨H0, H1, HS⟩
      isplitl [HS Hr]
      · isplitl [HS]; · iexact HS
        iexact Hr
      isplitl [Ho]; · iexact Ho
      isplitl [H0]; · iexact H0
      iexact H1
    · have hc1 : ¬ cond1 (grid1.coords t) := fun h => h0 ((hcond1 t).mp h)
      rw [Phi1_pos xv c t.val h0]
      simp only [before1_0, before1_1, blk1_eq, accP_succ]
      iintro ⟨⟨HS, Hr⟩, Ho, ⟨%d0, H0⟩, ⟨%d1, H1⟩⟩
      iapply (sound_kernel1_B c Set.univ (grid1.coords t) _ _ _ _ _ _ hc1 hc2 (xblk (xv c) t.val) (acc xv c t.val) _)
      isplitl [H0]; · iexact H0
      isplitl [H1]; · iexists _; iexact H1
      isplitl [HS]; · iexact HS
      iintro ⟨H0, H1, HS⟩
      isplitl [HS Hr]
      · isplitl [HS]; · iexact HS
        iexact Hr
      isplitl [Ho]; · iexact Ho
      isplitl [H0]; · iexact H0
      iexact H1

/-- The library's body obligation. -/
theorem body_obligation1 (c : Dev nD) : BodyObligation (dat1 (F := F) xv tv c) (defs₀ (F := F)) Variants.none none Set.univ := fun t => by
  rw [bigSep_W1, bigSep_W1]
  exact sound_body1 xv tv c t

/-! ## What the region leaves in the arrays -/

/-- The label array is only read. -/
theorem arrAt1_0 (c : Dev nD) (n : Nat) : (dat1 xv tv c).arrAt 0 n = xv c :=
  ((dat1 xv tv c).arrAt_in 0 rfl n).trans (A1_0 xv tv c)

/-- The output array after the one write-back, at the last point: the total of the carried row after six points. -/
theorem arrAt1_1 (c : Dev nD) (n : Nat) (hn : n = cfg1.N) :
    (dat1 xv tv c).arrAt 1 n = k1_pay3 (F := F) (acc xv c 6) := by
  subst hn
  have hemb : ∀ (t : Fin cfg1.N) (j : ((cfg1.win 1).xblock (cfg1.grid.coords t)).Idx), ((cfg1.win 1).blk t).view.emb j = j := by
    intro t j
    have hi := index1_1 t
    funext a; apply Fin.ext
    match a with
    | ⟨0, _⟩ =>
      show win1_1.index t (0 : Fin 2) * 1 + 1 * (j 0).val = (j 0).val
      have h0 : win1_1.index t (0 : Fin 2) = 0 := congrFun hi 0
      omega
    | ⟨1, _⟩ =>
      show win1_1.index t (1 : Fin 2) * 1 + 1 * (j 1).val = (j 1).val
      have h1 : win1_1.index t (1 : Fin 2) = 0 := congrFun hi 1
      omega
  refine (dat1 xv tv c).arrAt_eq_of_cover 1 _ (fun t hf => ?_) (fun i => ⟨t1_5, (flush1_1 t1_5).mpr rfl, ?_⟩)
  · have h5 : t.val = 5 := by
      have h := (flush1_1 t).mp hf; have hN : t.val < 6 := lt_of_lt_of_eq t.isLt N_1; omega
    show (cfg1.win 1).cut (cfg1.grid.coords t) ((dat1 xv tv c).after 1 t) = _
    rw [after1_1, show t.val + 1 = 6 from by omega]
    generalize k1_pay3 (F := F) (acc xv c 6) = G
    funext j
    show G j = G (((cfg1.win 1).blk t).view.emb j)
    rw [hemb]
  · have h := (((cfg1.win 1).blk t1_5).view).emb_mem_set i
    rw [hemb] at h
    exact h

end Data

end Cert.Proof.KB.Tc

end
-- ==== Proof.TcVal1TotalB.lean ====
/-
  The summing kernel's total. Each grid point adds to the carried row of 512 partial sums the column sums of one
  batch: an integer reduction of a `1 × 512 × 512` block over its first two axes is, at column `c`, the sum over the
  rows of the block's entries in that column. After `n` points the row therefore holds, at column `c`, the sum over
  batches `0 … n - 1` and all rows (`accP_apply`); the final reduction of the row, viewed `1 × 1 × 512`, over its last two
  axes is the sum of its 512 entries; and the sum over columns, batches `0 … 5` and rows is, the order of summation
  being immaterial in `BitVec 32`, the sum of every entry of batches `0 … 5`.
-/
import proofs.«209222_g37675453120884_cont_8to1_b_1946_16_alg».proof.Proof.TcVal1B
import proofs.«209222_g37675453120884_cont_8to1_b_1946_16_alg».proof.Proof.ValueCount
import Idealize.ShloMosaic.Lib.ValueLayout
import Idealize.ShloMosaic.PureOps.Reduce

noncomputable section

open scoped BigOperators

namespace Cert.Proof.KB.Tc

open Cert.Kernel Cert.Kernel.Gen
open Cert.Proof.Spec
open Idealize.ShloMosaic Idealize.ShloMosaic.ValueIdx
open Cert.Proof.Value (sum_idx3)

variable {F : FTy → Type} [FloatOps F]

/-- An integer `add` reduction into a one-element vector is the sum of every source entry. -/
theorem multiReductionI_add_one {s : Shape} {axes : List (Fin s.rank)} (v : IVec s 32) (h : s.Reduces axes S1)
    (hacc : (0#32 : BitVec 32) = 0#32) (j : S1.Idx) :
    multiReductionI .add axes S1 v 0#32 h hacc j = ∑ i, v i := by
  show reduceFold h (· + ·) (0 : BitVec 32) v j = _
  rw [reduceFold_add_eq_sum, zero_add]
  refine Finset.sum_congr (Finset.filter_true_of_mem fun i _ => funext fun b => Fin.ext ?_) fun _ _ => rfl
  have h1 := (h.drop i b).isLt
  have h2 := (j b).isLt
  have ht : S1.size b = 1 := by match b with | ⟨0, _⟩ => rfl
  omega

/-- An integer `add` reduction of a `1 × 512 × 512` block over its first two axes is, at column `c`, the sum of the
    column. -/
theorem colsum_apply (v : IVec S1x512x512 32) (h : S1x512x512.Reduces [0, 1] S512) (hacc : (0#32 : BitVec 32) = 0#32)
    (c : Fin 512) :
    multiReductionI .add [0, 1] S512 v 0#32 h hacc (ix1 c) = ∑ r : Fin 512, v (ix3 (0 : Fin 1) r c) := by
  show reduceFold h (· + ·) (0 : BitVec 32) v (ix1 c) = _
  rw [reduceFold_add_eq_sum, zero_add, Finset.sum_filter, sum_idx3, Fin.sum_univ_one]
  have hv : ∀ (u : Fin 1) (r c' : Fin 512), (h.drop (ix3 u r c') 0).val = c'.val := fun u r c' =>
    Shape.Reduces.drop_apply_val_of_eq h (ix3 u r c') 0 2
  have hdrop : ∀ (u : Fin 1) (r c' : Fin 512), (h.drop (ix3 u r c') = ix1 c) ↔ c' = c := by
    intro u r c'
    constructor
    · intro e
      exact Fin.ext ((hv u r c').symm.trans (congrArg (fun k : S512.Idx => (k 0).val) e))
    · rintro rfl
      funext a
      match a with
      | ⟨0, _⟩ => exact Fin.ext (hv u r c')
  simp only [hdrop]
  refine Finset.sum_congr rfl fun r _ => ?_
  rw [Finset.sum_ite_eq' Finset.univ c (fun c' => v (ix3 (0 : Fin 1) r c')), if_pos (Finset.mem_univ _)]

/-- One point adds the block's column sums to the carried row. -/
theorem k1_pay2_apply (v3 : IVec S1x512 32) (v4 : IVec S1x512x512 32) (u : Fin 1) (c : Fin 512) :
    k1_pay2 (F := F) v3 v4 (ix2 u c) = v3 (ix2 u c) + ∑ r : Fin 512, v4 (ix3 (0 : Fin 1) r c) := by
  show shapeCast S1x512 (addi v3 (shapeCast S1x512
    (multiReductionI .add [0, 1] S512 v4 0#32 reduces_S1x512x512_S512 rfl) shapeCasts_S512_S1x512))
    shapeCasts_S1x512_S1x512 (ix2 u c) = _
  rw [shapeCast_self]
  show v3 (ix2 u c) + shapeCast S1x512 (multiReductionI .add [0, 1] S512 v4 0#32 reduces_S1x512x512_S512 rfl)
    shapeCasts_S512_S1x512 (ix2 u c) = _
  rw [shapeCast_a_1a_apply]
  exact congrArg (v3 (ix2 u c) + ·) (colsum_apply v4 _ rfl c)

/-- After `n` points the carried row holds, at column `c`, the sum over batches `0 … n - 1` and all rows. -/
theorem accP_apply (x : IVec SX 32) (n : ℕ) (u : Fin 1) (c : Fin 512) :
    accP (F := F) x n (ix2 u c)
      = ∑ b ∈ Finset.range n, ∑ r : Fin 512, x (ix3 (⟨b % 8, Nat.mod_lt _ (by decide)⟩ : Fin 8) r c) := by
  induction n with
  | zero =>
    show shapeCast S1x512 (broadcast S1x512 0#32) shapeCasts_S1x512_S1x512 (ix2 u c) = _
    rw [shapeCast_self, Finset.sum_range_zero]
    rfl
  | succ n ih =>
    rw [accP_succ, k1_pay2_apply, ih, Finset.sum_range_succ]
    rfl

/-- The one entry of a constant one-element vector, viewed `1 × 1 × 1`, is the constant. -/
theorem extract_const (s : BitVec 32) (j : S1x1.Idx) :
    broadcast S1x1 (extractAt ![0, 0, 0] (shapeCast S1x1x1 (fun _ : S1.Idx => s) shapeCasts_S1_S1x1x1) inpos_S1x1x1_p0_0_0) j
      = s := rfl

/-- The final reduction of a row of 512 is the sum of its entries. -/
theorem k1_pay3_apply (v : IVec S1x512 32) (j : S1x1.Idx) :
    k1_pay3 (F := F) v j = ∑ c : Fin 512, v (ix2 (0 : Fin 1) c) := by
  have e : multiReductionI .add [1, 2] S1 (shapeCast S1x1x512 v shapeCasts_S1x512_S1x1x512) 0#32 reduces_S1x1x512_S1 rfl
      = fun _ => ∑ c : Fin 512, v (ix2 (0 : Fin 1) c) := by
    funext k
    refine (multiReductionI_add_one _ _ rfl k).trans ?_
    rw [sum_idx3, Fin.sum_univ_one, Fin.sum_univ_one]
    exact Finset.sum_congr rfl fun c _ => shapeCast_ab_1ab_apply v _ 0 0 c
  unfold k1_pay3
  simp only [e]
  exact extract_const _ j

/-- The total of the row after the six points is the sum of every entry of batches 0 … 5. -/
theorem k1_total' (x : IVec SX 32) : k1_pay3 (F := F) (accP (F := F) x 6) = tcOut x := by
  funext j
  rw [k1_pay3_apply]
  show _ = headSum x
  unfold headSum
  simp only [accP_apply]
  rw [Finset.sum_comm, Finset.sum_range]
  refine Finset.sum_congr rfl fun b _ => ?_
  rw [Finset.sum_comm]
  refine Finset.sum_congr rfl fun r _ => Finset.sum_congr rfl fun c _ => ?_
  congr 1
  funext a
  match a with
  | ⟨0, _⟩ => exact Fin.ext (by show b.val % 8 = b.val; have := b.isLt; omega)
  | ⟨1, _⟩ => rfl
  | ⟨2, _⟩ => rfl

end Cert.Proof.KB.Tc

end
-- ==== Proof.TcRegion1B.lean ====
/-
  The first TensorCore region as one step of the TensorCore's program: the region's record over the thread
  state "the label array, the one-element output array and what the TensorCore owes", and the step itself; the
  two arrays the region does not touch ride along unchanged.
-/
import proofs.«209222_g37675453120884_cont_8to1_b_1946_16_alg».proof.Proof.TcDat1B
import proofs.«209222_g37675453120884_cont_8to1_b_1946_16_alg».proof.Proof.TcVal1TotalB

noncomputable section

namespace Cert.Proof.KB.Tc

open Cert.Kernel Cert.Kernel.Gen
open Cert.Proof.Spec Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

section Region

variable (xv : (c : Dev nD) → Buf (Elt F) ((c : Thread nD τ).loc main_arg0))
  (tv : (c : Dev nD) → Buf (Elt F) ((c : Thread nD τ).loc main_v1))

/-- Every pipeline's proof data when the first region runs: a literal match. -/
def pdats1 : (p : Fin 2) → (c : Dev nD) → Dat τ (Elt F) (HIx 1) ℕ UU ℕ (Pipeline.pin (pcfgs (F := F)) adm p) c
  | ⟨0, _⟩ => fun c => dat1 xv tv c
  | ⟨1, _⟩ => fun c => datAny cfg2 c

set_option backward.isDefEq.respectTransparency.types false in
/-- The first region over the thread state "the two arrays and what the TensorCore owes". -/
def reg1 : Pipeline.RegionSeg (pcfgs (F := F)) adm (pdats1 xv tv) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 xv tv c).loose
  hwaits := Pipeline.hwaits_of_owed_zero _ _ _ _ (K (F := F)).L (K (F := F)).lev 0 fun _ _ => rfl
  pre c := iprop(owesTc (F := F) c ∗ (((c : Thread nD τ).loc main_arg0) ↦{fullShare} xv c) ∗ (((c : Thread nD τ).loc main_v1) ↦{fullShare} tv c))
  post c := iprop(owesTc (F := F) c ∗ (((c : Thread nD τ).loc main_arg0) ↦{fullShare} xv c)
    ∗ (((c : Thread nD τ).loc main_v1) ↦{fullShare} k1_pay3 (F := F) (acc xv c 6)))
  X _ := iprop(⌜True⌝)
  Y _ := iprop(⌜True⌝)
  Z _ := iprop(⌜True⌝)
  hentry c := by
    rw [Pipeline.ownSems0_none]
    rw [Pipeline.arrays_eq (Pipeline.pin (pcfgs (F := F)) adm) (pdats1 xv tv) 0 c arr_whole1 ((pdats1 xv tv 0 c).share_full fun _ => rfl), bigSep_W1]
    iintro ⟨⟨Ho, Hx, Ht⟩, -, -⟩
    imodintro
    isplitl [Hx Ht]
    · isplitl [Hx]; · iexact Hx
      iexact Ht
    isplitr; · unfold Pipeline.prefHeld; rw [show (Finset.univ : Finset (Fin 0)) = ∅ from rfl, BI.bigSep_empty]; iempintro
    isplitl [Ho]
    · unfold Pipeline.Dat.owesAt Pipeline.owesWithin
      icases Ho with ⟨%W, %hW, HO⟩; iexists W; isplitr; · ipureintro; exact fun pr hpr => Or.inl (hW pr hpr)
      rw [Otc_one]; iexact HO
    isplitr <;> (ipureintro; trivial)
  hin c := by
    rw [show (pdats1 xv tv 0 c).Φ 0 = Phi1 xv c 0 from rfl, Phi1_zero xv c 0 rfl,
      show (Pipeline.scopedRest (Ix := HIx 1) (Name := ℕ) (U := UU) (Lvl := ℕ) (Val := Elt F) (Pipeline.pin (pcfgs (F := F)) adm 0).spec c : sProp 𝕄)
        = iprop((∃ d, owns (c : Thread nD τ) scM fullShare d) ∗ restOf (F := F) c) from scopedRest1_Phi c]
    iintro ⟨-, -, Hr⟩
    iexact Hr
  hout c := by
    rw [Pipeline.ownSems0_none, show (pdats1 xv tv 0 c).Φ (Fin.last _) = Phi1 xv c (5 + 1) from rfl, Phi1_succ,
      show (Pipeline.scopedRest (Ix := HIx 1) (Name := ℕ) (U := UU) (Lvl := ℕ) (Val := Elt F) (Pipeline.pin (pcfgs (F := F)) adm 0).spec c : sProp 𝕄)
        = iprop((∃ d, owns (c : Thread nD τ) scM fullShare d) ∗ restOf (F := F) c) from scopedRest1_Phi c]
    iintro ⟨HS, Hr⟩
    isplitr; · ipureintro; trivial
    isplitr; · iempintro
    isplitl [HS]; · iexists _; iexact HS
    iexact Hr
  hexit c := by
    rw [Pipeline.arrays_eq (Pipeline.pin (pcfgs (F := F)) adm) (pdats1 xv tv) 0 c arr_whole1 ((pdats1 xv tv 0 c).share_full fun _ => rfl), bigSep_W1]
    rw [show (pdats1 xv tv 0 c).arrAt 0 (Pipeline.pin (pcfgs (F := F)) adm 0).N = xv c from arrAt1_0 xv tv c _,
      show (pdats1 xv tv 0 c).arrAt 1 (Pipeline.pin (pcfgs (F := F)) adm 0).N = k1_pay3 (F := F) (acc xv c 6) from arrAt1_1 xv tv c _ rfl]
    iintro ⟨⟨Hx, Ht⟩, HO, -, -⟩
    imodintro
    isplitl [HO]
    · unfold Pipeline.Dat.owesAt Pipeline.owesWithin
      icases HO with ⟨%W, %hW, HO⟩; iexists W; isplitr
      · ipureintro
        intro pr hpr
        rcases hW hpr with h | ⟨w, s, rfl⟩
        · exact h
        · exact Nat.zero_le _
      rw [Otc_one]; iexact HO
    isplitl [Hx]; · iexact Hx
    iexact Ht

set_option backward.isDefEq.respectTransparency.types false in
theorem reg1_pre (c : Dev nD) : (reg1 xv tv).pre c
    = iprop(owesTc (F := F) c ∗ (((c : Thread nD τ).loc main_arg0) ↦{fullShare} xv c) ∗ (((c : Thread nD τ).loc main_v1) ↦{fullShare} tv c)) := rfl
set_option backward.isDefEq.respectTransparency.types false in
theorem reg1_post (c : Dev nD) : (reg1 xv tv).post c
    = iprop(owesTc (F := F) c ∗ (((c : Thread nD τ).loc main_arg0) ↦{fullShare} xv c)
      ∗ (((c : Thread nD τ).loc main_v1) ↦{fullShare} k1_pay3 (F := F) (acc xv c 6))) := rfl

end Region

/-! ## The region as a step of the TensorCore's program -/

set_option backward.isDefEq.respectTransparency.types false in
/-- The first region: the sum of batches 0 … 5 lands in the one-element array. -/
theorem region1 (d : Dev nD) (x : IVec SX 32) (p : IVec SP 32) :
    iprop(levAts (K (F := F)).L (K (F := F)).lev ∗ tcOwes (F := F) d ∗ boundary (SparseCore.T d) ∗ (xLoc d ↦{fullShare} x) ∗ (pLoc d ↦{fullShare} p)
        ∗ (∃ f, tLoc d ↦{fullShare} f) ∗ (∃ f, oLoc d ↦{fullShare} f) ∗ tcGhost (F := F) d)
      ⊢ wp frame (wpE ((K (F := F)).defs (D (F := F))) 𝒱 (SparseCore.T d) none) Set.univ
          (Prog.lift (.customCall (SparseCore.inner (Pipeline.entry (0 : Fin 2))) ()))
          fun _ => iprop(tcOwes (F := F) d ∗ boundary (SparseCore.T d) ∗ (xLoc d ↦{fullShare} x) ∗ (pLoc d ↦{fullShare} p)
            ∗ (tLoc d ↦{fullShare} tcOut x) ∗ (∃ f, oLoc d ↦{fullShare} f) ∗ tcGhost' (F := F) d) := by
  unfold tcGhost
  rw [← k1_total' (F := F) x]
  iintro ⟨Hlev, Ho, Hb, Hx, Hp, ⟨%f, Ht⟩, Hov, Hg0, Hg1⟩
  iapply ((K (F := F)).wp_liftProg (D (F := F)) 𝒱 (SparseCore.T d) Set.univ none (Prog.lift (.customCall (Pipeline.entry (0 : Fin 2)) ())) _)
  iapply (Pipeline.RegionSeg.wp (pcfgs (F := F)) adm (pdats1 (fun _ => x) (fun _ => f)) none phinj EP defs₀ 𝒱₀
    (K (F := F)).L (K (F := F)).lev (reg1 (fun _ => x) (fun _ => f)) d none (fun _ h => nomatch h) (fun u => .ret u) _)
  rw [reg1_pre, reg1_post, wp_ret]
  isplitr [Hlev Ho Hb Hx Ht Hg0]
  · iintro ⟨Hb, Ho, Hx, Ht⟩
    imodintro
    isplitl [Ho]; · iexact Ho
    isplitl [Hb]; · iexact Hb
    isplitl [Hx]; · iexact Hx
    isplitl [Hp]; · iexact Hp
    isplitl [Ht]; · iexact Ht
    isplitl [Hov]; · iexact Hov
    iexact Hg1
  isplitl [Hb]; · iexact Hb
  isplitl [Ho Hx Ht]
  · isplitl [Ho]; · iexact Ho
    isplitl [Hx]; · iexact Hx
    iexact Ht
  isplitl [Hlev]; · iexact Hlev
  iexact Hg0

end Cert.Proof.KB.Tc

end
-- ==== Proof.LaunchB.lean ====
/-
  The launch of the idealized kernel's program: what the SparseCore call hands each worker and takes back, the
  launch element of the ghost state, @main on the TensorCore — the SparseCore call, then the two TensorCore regions —,
  and the program's run with the final array named.
-/
import proofs.«209222_g37675453120884_cont_8to1_b_1946_16_alg».proof.Proof.ScTileB
import proofs.«209222_g37675453120884_cont_8to1_b_1946_16_alg».proof.Proof.TcRegion2B
import proofs.«209222_g37675453120884_cont_8to1_b_1946_16_alg».proof.Proof.TcRegion1B

noncomputable section

namespace Cert.Proof.KB

open Cert.Kernel Cert.Kernel.Gen
open Cert.Proof.Spec Cert.Proof.KB.Tc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the handshakes carry -/

/-- The call hands SparseCore `c` the holdings of its sixteen workers `2 i + c`, and takes them back with every row
    at its lane sums. -/
def P : (K (F := F)).Pay (nD := nD) (Val := Elt F) (Name := ℕ) (U := UU) where
  st := fun q d c => match q with
    | 0 => bigSep Finset.univ fun i : Fin ((K (F := F)).nSub 0) => tileIn m d (widCS (Fin.cast nCore_zero c) (Fin.cast nSub_zero i))
  dn := fun q d c => match q with
    | 0 => bigSep Finset.univ fun i : Fin ((K (F := F)).nSub 0) => tileOut m d (widCS (Fin.cast nCore_zero c) (Fin.cast nSub_zero i))
  go := fun q d c i => match q with
    | 0 => tileIn m d (widCS (Fin.cast nCore_zero c) (Fin.cast nSub_zero i))
  td := fun q d c i => match q with
    | 0 => tileOut m d (widCS (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => tileIn m d (widCS (Fin.cast nCore_zero c) (Fin.cast nSub_zero i))))
  dn q d c := match q with
    | 0 => (inferInstance : BI.Storable (upEmb : UEmb _ 𝕄)
        (bigSep Finset.univ fun i : Fin ((K (F := F)).nSub 0) => tileOut m d (widCS (Fin.cast nCore_zero c) (Fin.cast nSub_zero i))))
  go q d c i := match q with
    | 0 => (inferInstance : BI.Storable (upEmb : UEmb _ 𝕄) (tileIn m d (widCS (Fin.cast nCore_zero c) (Fin.cast nSub_zero i))))
  td q d c i := match q with
    | 0 => (inferInstance : BI.Storable (upEmb : UEmb _ 𝕄) (tileOut m d (widCS (Fin.cast nCore_zero c) (Fin.cast nSub_zero i))))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_arg0_scv) (Memref.isWhole_whole _) (Memref.whole main_v0_scv) (Memref.isWhole_whole _)
          (Memref.whole cc0_scratch0) (Memref.isWhole_whole _) (Memref.whole cc0_scratch1) (Memref.isWhole_whole _)
          cc0_scratch2 cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's operands ARE its workers' holdings, and its results theirs. -/
theorem vecSplit : (K (F := F)).VecSplit' (P m) 0 := by
  intro d c
  show (bigSep Finset.univ fun i : Fin ((K (F := F)).nSub 0) => tileIn m d (widCS (Fin.cast nCore_zero c) (Fin.cast nSub_zero i)))
    ⊢ |={Set.univ}=> iprop((bigSep Finset.univ fun i : Fin ((K (F := F)).nSub 0) => tileIn m d (widCS (Fin.cast nCore_zero c) (Fin.cast nSub_zero i)))
      ∗ ((bigSep Finset.univ fun i : Fin ((K (F := F)).nSub 0) => tileOut m d (widCS (Fin.cast nCore_zero c) (Fin.cast nSub_zero i)))
          -∗ bigSep Finset.univ fun i : Fin ((K (F := F)).nSub 0) => tileOut m d (widCS (Fin.cast nCore_zero c) (Fin.cast nSub_zero i))))
  iintro H; imodintro
  isplitl [H]; · iexact H
  iintro H; iexact H

/-! ## The workers' holdings, split from the whole arrays and joined back -/

omit [FloatOps F] in
theorem widCS_inj : Function.Injective (fun cs : Fin 2 × Fin 16 => widCS cs.1 cs.2) := by
  rintro ⟨c, s⟩ ⟨c', s'⟩ e
  have h : 2 * s.val + c.val = 2 * s'.val + c'.val := congrArg Fin.val e
  clear e
  have hc := c.isLt; have hc' := c'.isLt
  have h1 : c.val = c'.val := by omega
  have h2 : s.val = s'.val := by omega
  exact Prod.ext (Fin.ext h1) (Fin.ext h2)

omit [FloatOps F] in
/-- The 32 workers are the 16 subcores of the 2 SparseCores. -/
theorem workers_eq (Φ : Fin 32 → sProp 𝕄) :
    bigSep Finset.univ Φ = bigSep Finset.univ fun c : Fin ((K (F := F)).nCore 0) => bigSep Finset.univ fun i : Fin ((K (F := F)).nSub 0) =>
      Φ (widCS (Fin.cast nCore_zero c) (Fin.cast nSub_zero i)) := by
  have himg : (Finset.univ : Finset (Fin 32)) = (Finset.univ : Finset (Fin 2 × Fin 16)).image (fun cs => widCS cs.1 cs.2) := by
    symm; apply Finset.eq_univ_of_card; rw [Finset.card_image_of_injective _ widCS_inj]; simp
  rw [himg, SparseCore.bigSep_image_of_injOn (widCS_inj.injOn) Φ, bigSep_univ_prod]
  rfl

omit [FloatOps F] in
theorem prowSet_eq (w : Fin 32) : prowSet w = (prow w).set := by
  show ((View.whole (main_v0_scv : Ref sig .scVector)).slice (prow w)).set = _
  rw [View.set_slice]; exact Finset.map_refl
omit [FloatOps F] in
theorem prows_disjoint : ∀ i ∈ (Finset.univ : Finset (Fin 32)), ∀ j ∈ (Finset.univ : Finset (Fin 32)), i ≠ j → Disjoint (prowSet i) (prowSet j) :=
  fun i _ j _ h => by rw [prowSet_eq, prowSet_eq]; exact Rect.part_disjoint hdivP h
omit [FloatOps F] in
theorem prows_cover : (Finset.univ : Finset (Fin 32)).biUnion prowSet = Finset.univ :=
  (Finset.biUnion_congr rfl fun i _ => prowSet_eq i).trans (Rect.biUnion_part hdivP)
omit [FloatOps F] in
/-- The partial sums whole are their 32 rows. -/
theorem pPts_rows (d : Dev nD) (f : Buf (Elt F) (pLoc d)) :
    (pLoc d ↦{fullShare} f : sProp 𝕄) = bigSep Finset.univ fun w : Fin 32 => pLoc d ↦[prowSet w]{fullShare} f := by
  rw [← pointsTo_biUnion Finset.univ (ℓ := pLoc d) prowSet prows_disjoint, prows_cover]; try rfl

omit [FloatOps F] in
/-- The labels and the partial sums whole give every worker its holdings; a remainder of the labels' share is kept. -/
theorem split_in (d : Dev nD) :
    iprop((xLoc d ↦{fullShare} m (xLoc d)) ∗ (pLoc d ↦{fullShare} m (pLoc d)))
      ⊢ iprop((xLoc d ↦{Transfers.shareDrop fullShare 32} m (xLoc d)) ∗ bigSep Finset.univ fun w : Fin 32 => tileIn m d w) := by
  unfold tileIn
  rw [bigSep_sep', pPts_rows]
  iintro ⟨Hx, Hp⟩
  ihave Hx' := (Transfers.pointsTo_toks_split fullShare 32) $$ Hx
  icases Hx' with ⟨Hr, Ht⟩
  isplitl [Hr]; · iexact Hr
  isplitl [Ht]; · iexact Ht
  iexact Hp

omit [FloatOps F] in
/-- and what the workers hand back joins to the labels whole and the partial sums whole at the lane sums. -/
theorem join_out (d : Dev nD) :
    iprop((xLoc d ↦{Transfers.shareDrop fullShare 32} m (xLoc d)) ∗ bigSep Finset.univ fun w : Fin 32 => tileOut m d w)
      ⊢ iprop((xLoc d ↦{fullShare} m (xLoc d)) ∗ (pLoc d ↦{fullShare} (scOut (xOf m d) : Buf (Elt F) (pLoc d)))) := by
  unfold tileOut
  rw [bigSep_sep', pPts_rows]
  iintro ⟨Hr, Ht, Hp⟩
  isplitl [Hr Ht]
  · iapply (Transfers.pointsTo_toks_join fullShare 32)
    isplitl [Hr] <;> iassumption
  iexact Hp

theorem st0_eq (d : Dev nD) :
    (bigSep Finset.univ fun c : Fin ((K (F := F)).nCore 0) => (P m).st 0 d c) = bigSep Finset.univ fun w : Fin 32 => tileIn m d w :=
  (workers_eq (F := F) (fun w => tileIn m d w)).symm
theorem dn0_eq (d : Dev nD) :
    (bigSep Finset.univ fun c : Fin ((K (F := F)).nCore 0) => (P m).dn 0 d c) = bigSep Finset.univ fun w : Fin 32 => tileOut m d w :=
  (workers_eq (F := F) (fun w => tileOut m d w)).symm

/-! ## The launch element -/

def u₀ : UU := (initOf (K (F := F)).hsCells (K (F := F)).hsToks, (uP (F := F), 1))

omit [FloatOps F] in
theorem bigSep_emp' {I : Type} (s : Finset I) : (bigSep s fun _ => iprop(emp)) = (iprop(emp) : sProp 𝕄) := bigSep_emp_const s

/-- The handshakes' rounds, the pipelines' ghost state for every device, nothing for the kernel's own protocol (its
    transfers are local and need no schedule). -/
theorem hu₀ : (ownU (u₀ (F := F)) : sProp 𝕄)
    ⊢ |={Set.univ}=> iprop(BI.own (EH (initOf (K (F := F)).hsCells (K (F := F)).hsToks)) ∗ (bigSep Finset.univ fun d : Dev nD => tcGhost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) (uP (F := F)) (1 : Counters)) $$ HR
  icases HR' with ⟨HP, -⟩
  have hEP : (BI.own (((Emb.inl : Emb UP (UP × Counters)).trans (embR : Emb (UP × Counters) 𝕄)) (uP (F := F))) : sProp 𝕄) = BI.own (EP (F := F) (uP (F := F))) := rfl
  ihave HP' := (Entails.of_eq hEP) $$ HP
  imod (tcGhost_fund (F := F)) $$ HP' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (pLoc d ↦{fullShare} W main_v0) ∗ (tLoc d ↦{fullShare} W main_v1) ∗ oLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- What @main leaves the claim: the labels at their launch contents, the result at the combined value of the two
    partial results. -/
abbrev FIN (d : Dev nD) : sProp 𝕄 :=
  iprop((xLoc d ↦{fullShare} m (xLoc d)) ∗ (oLoc d ↦{fullShare} (k2_pay1 (F := F) (scOut (xOf m d)) (tcOut (xOf m d)) : Buf (Elt F) (oLoc d))))

/-- @main on device `d`'s TensorCore: the SparseCore call (every worker its holdings, back with the lane sums), the
    first region (the sum of batches 0 … 5), the second (the combined result). -/
theorem hmain (κ : GSem nD τ sig → ℕ) (d : Dev nD) :
    iprop((K (F := F)).ctx EH (P m) κ ∗ (K (F := F)).tcSt EH d 0 ∗ (K (F := F)).tcRes m ρ d ∗ tcGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Ht, Ho⟩, -, -⟩, HG⟩
  ihave Hin := (split_in m d) $$ [Hx Hp]
  · isplitl [Hx] <;> iassumption
  icases Hin with ⟨Hxr, Hw⟩
  iapply ((K (F := F)).wp_run (D (F := F)) 𝒱 (EH := EH) (P := P m) κ d 0) $$ [Hst Hw Hb Hxr Ht Ho HG]
  isplitr; · iexact Hctx
  isplitl [Hst]; · iexact Hst
  isplitl [Hw]
  · rw [st0_eq]; iexact Hw
  iintro ⟨Hst, Hdn⟩
  ihave Hdn' := (Entails.of_eq (dn0_eq m d)) $$ Hdn
  ihave Hout := (join_out m d) $$ [Hxr Hdn']
  · isplitl [Hxr] <;> iassumption
  icases Hout with ⟨Hx, Hp⟩
  -- the TensorCore's state after the call: what it owes, and the rest
  unfold SparseCore.Cfg.tcSt
  icases Hst with ⟨HO, Hrest⟩
  ihave Hlev := (SparseCore.Cfg.ctx_levAts (K := K (F := F)) (EH := EH) (P := P m) κ) $$ Hctx
  ihave Hlev2 := (SparseCore.Cfg.ctx_levAts (K := K (F := F)) (EH := EH) (P := P m) κ) $$ Hctx
  -- the first region: the sum of batches 0 … 5
  iapply (wp_wand_r frame _ Set.univ)
  isplitl [Hlev HO Hb Hx Hp Ht Ho HG]
  · iapply (region1 (F := F) d (xOf m d) (scOut (xOf m d)))
    isplitl [Hlev]; · iexact Hlev
    isplitl [HO]; · iexact HO
    isplitl [Hb]; · iexact Hb
    isplitl [Hx]; · iexact Hx
    isplitl [Hp]; · iexact Hp
    isplitl [Ht]; · iexists _; iexact Ht
    isplitl [Ho]; · iexists _; iexact Ho
    iexact HG
  iintro %_ ⟨HO, Hb, Hx, Hp, Ht, Ho, HG⟩
  -- the second region: the combined result
  iapply (wp_wand_r frame _ Set.univ)
  isplitl [Hlev2 HO Hb Hp Ht Ho HG]
  · iapply (region2 (F := F) d (scOut (xOf m d)) (tcOut (xOf m d)))
    isplitl [Hlev2]; · iexact Hlev2
    isplitl [HO]; · iexact HO
    isplitl [Hb]; · iexact Hb
    isplitl [Hp]; · iexact Hp
    isplitl [Ht]; · iexact Ht
    isplitl [Ho]; · iexact Ho
    iexact HG
  iintro %_ ⟨HO, Hb, Hp, Ht, Ho⟩
  imodintro
  isplitl [HO Hrest]
  · isplitl [HO]; · iexact HO
    iexact Hrest
  isplitl [Hx]; · iexact Hx
  iexact Ho

def fq (d : Dev nD) (s' : Phys nD τ sig (Elt F)) : Prop :=
  s'.mem.mem (xLoc d) = m (xLoc d) ∧ s'.mem.mem (oLoc d) = (k2_pay1 (F := F) (scOut (xOf m d)) (tcOut (xOf m d)) : Buf (Elt F) (oLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare)
      (f := (k2_pay1 (F := F) (scOut (xOf m d)) (tcOut (xOf m d)) : Buf (Elt F) (oLoc d)))) $$ [HSI Ho]
  · isplitl [HSI] <;> iassumption
  icases H with %h2
  ipureintro; exact ⟨funext fun i => h1 i (Finset.mem_univ i), funext fun i => h2 i (Finset.mem_univ i)⟩

/-! ## The program's run -/

/-- On every device the result array ends at the combined value of the two partial results of the launch labels, and
    the labels end unchanged. -/
def QC : PUnit × MemSt nD τ sig (Elt F) → Prop := fun r => ∀ c : Dev nD,
  r.2.mem (oLoc c) = (k2_pay1 (F := F) (scOut (xOf m c)) (tcOut (xOf m c)) : Buf (Elt F) (oLoc c)) ∧ r.2.mem (xLoc c) = m (xLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => tcGhost (F := F) d) (FIN m) (u₀ (F := F)) (sep_elim_left.trans (hu₀ m)) (hmain m ρ) (fq m) (hfin m) (QC m)
    (fun _ h c => ⟨(h c).2, (h c).1⟩)

end Cert.Proof.KB

end
-- ==== Proof.RefRun.lean ====
/-
  The reference's run, read back: the generated run of the reference's host program and its read-at-an-index
  lemmas, gathered for the value modules.
-/
import proofs.«209222_g37675453120884_cont_8to1_b_1946_16_alg».proof.Defs
import proofs.«209222_g37675453120884_cont_8to1_b_1946_16_alg».proof.Proof.Gen.ReferenceIdeal
import proofs.«209222_g37675453120884_cont_8to1_b_1946_16_alg».proof.Proof.RefRunGen
import proofs.«209222_g37675453120884_cont_8to1_b_1946_16_alg».proof.Proof.RefReadGen
import proofs.«209222_g37675453120884_cont_8to1_b_1946_16_alg».proof.Proof.Gen.Pre_input_domain
import proofs.«209222_g37675453120884_cont_8to1_b_1946_16_alg».proof.Proof.Spec
-- ==== Proof.ValuePre.lean ====
/-
  The precondition decoded. The stated input domain is the one bit
  `all (0 ≤ x[i] ∧ x[i] ≤ 1)` (signed comparisons, a reduction by `and` over every axis). If it is 1 then every
  label is the word 0 or the word 1: a fold by `and` that ends at 1 met only ones, so at each index both signed
  comparisons hold, and a 32-bit word whose signed value lies in `[0, 1]` is 0 or 1.
-/
import proofs.«209222_g37675453120884_cont_8to1_b_1946_16_alg».proof.Pre_input_domain
import proofs.«209222_g37675453120884_cont_8to1_b_1946_16_alg».proof.Proof.Gen.Pre_input_domain
import proofs.«209222_g37675453120884_cont_8to1_b_1946_16_alg».proof.Proof.ValueCount
import Idealize.ShloMosaic.Lib.ReduceAll

noncomputable section

namespace Cert.Proof.Value

open Idealize.ShloMosaic Idealize.ShloMosaic.ValueIdx Cert.Proof.Spec

/-- The scalar shape has one index. -/
instance : Subsingleton Cert.Pre_input_domain.S_.Idx := ⟨fun a b => funext fun d => d.elim0⟩

/-- If the input-domain bit is 1, every label is 0 or 1 (at any float instance: the predicate has no float). -/
theorem binary_of_pre {F : FTy → Type} [FloatOps F] (x : IVec Cert.Pre_input_domain.S8x512x512 32)
    (h : Cert.Pre_input_domain.fn (F := F) x = fun _ => 1#1) : Binary x := by
  intro i
  have h0 := congrFun h ix0
  dsimp only [Cert.Pre_input_domain.fn] at h0
  have h4 := Host.reduce_andi_all _ _ _ _ ix0 h0 i
  obtain ⟨h1, h3⟩ := IntOp.andi_eq_one.1 h4
  change IntOp.cmpi .sge (x i) 0#32 = 1#1 at h1
  change IntOp.cmpi .sle (x i) 1#32 = 1#1 at h3
  rw [IntOp.cmpi_sge] at h1
  rw [IntOp.cmpi_sle] at h3
  have e0 : (0#32 : BitVec 32).toInt = 0 := by decide
  have e1 : (1#32 : BitVec 32).toInt = 1 := by decide
  rw [e0] at h1
  rw [e1] at h3
  rcases (by omega : (x i).toInt = 0 ∨ (x i).toInt = 1) with h | h
  · exact Or.inl (BitVec.eq_of_toInt_eq (h.trans e0.symm))
  · exact Or.inr (BitVec.eq_of_toInt_eq (h.trans e1.symm))

end Cert.Proof.Value

end
-- ==== Proof.ValueSpec.lean ====
/-
  The common value of the two programs. With `zeros x` and `ones x` the numbers of labels of class 0 and 1, both
  programs end at the `2 × 2` array whose entry `(r, c)` is the count of class `c`, as a real number, times the
  tolerance factor of row `r` — the extended real the f32 word `0x3F666666` (row 0, about 0.9) or `0x3F8CCCCD`
  (row 1, about 1.1) denotes, kept as that word's value and never evaluated — converted to a 32-bit integer toward zero.
-/
import proofs.«209222_g37675453120884_cont_8to1_b_1946_16_alg».proof.Proof.ValueCount
import Idealize.ShloMosaic.PureOps.Ideal

noncomputable section

namespace Cert.Proof.Value

open Idealize.ShloMosaic Idealize.ShloMosaic.ValueIdx Cert.Proof.Spec

/-- The result's shape. -/
abbrev S22 : Shape := ⟨2, ![2, 2]⟩

/-- Row `r`'s tolerance factor: the value of the f32 word `0x3F666666` in row 0, of `0x3F8CCCCD` in row 1. -/
def fac (r : ℕ) : EReal :=
  if r = 0 then Ideal.ofBits .f32 0x3F666666#32 else Ideal.ofBits .f32 0x3F8CCCCD#32

/-- Entry `(r, c)`: the count of class `c` times row `r`'s factor, converted to an integer toward zero. -/
def final (x : IVec SX 32) : IVec S22 32 := fun j =>
  Ideal.fptosi 32 ((((cnt x (j 1).val : ℕ) : ℝ) : EReal) * fac (j 0).val)

theorem final_apply (x : IVec SX 32) (r c : Fin 2) :
    final x (ix2 r c) = Ideal.fptosi 32 ((((cnt x c.val : ℕ) : ℝ) : EReal) * fac r.val) := rfl

/-- A count of labels, as a 32-bit word read signed, is itself: it is at most `2^21`. -/
theorem toInt_ofNat_of_le {n : ℕ} (h : n ≤ 2097152) : (BitVec.ofNat 32 n).toInt = (n : ℤ) := by
  rw [BitVec.toInt_eq_toNat_of_lt (by rw [BitVec.toNat_ofNat]; omega), BitVec.toNat_ofNat]
  omega

/-- All `2^21` labels less the ones are the zeros, as 32-bit words. -/
theorem total_sub_ones (x : IVec SX 32) (hx : Binary x) :
    (2097152#32 : BitVec 32) - BitVec.ofNat 32 (ones x) = BitVec.ofNat 32 (zeros x) := by
  have h := zeros_add_ones x hx
  rw [sub_eq_iff_eq_add, ← BitVec.ofNat_add, h]

end Cert.Proof.Value

end
-- ==== Proof.ValueKernel.lean ====
/-
  The combine stage's value. Its stored array, as a pure function of the two arrays it loads — the thirty-two
  workers' lane sums `scOut x` and the sum `tcOut x` of batches 0 … 5 — is `final x` when every label is 0 or 1:

  * the integer reduction of the `32 × 16` array (viewed `1 × 32 × 16`, reduced over its last two axes) is the sum
    of all its entries in `BitVec 32`, whatever the order, so `count1` is the sum of every label, the number of ones;
  * `2097152 - count1` is then the number of zeros (the array has `2^21` entries), and both counts, being at most
    `2^21 < 2^31`, are read back exactly by the signed integer-to-float conversion, which is exact on the
    extended reals;
  * the two `iota`s read the column and the row of the index, so the selects pick the count of class `c` and the
    factor of row `r`.
-/
import proofs.«209222_g37675453120884_cont_8to1_b_1946_16_alg».proof.Proof.Gen.KernelIdeal.Skeleton
import proofs.«209222_g37675453120884_cont_8to1_b_1946_16_alg».proof.Proof.ValueSpec
import Idealize.ShloMosaic.Lib.ValueLayout
import Idealize.ShloMosaic.PureOps.Reduce

noncomputable section

open scoped BigOperators

namespace Cert.Proof.Value

open Idealize.ShloMosaic Idealize.ShloMosaic.ValueIdx Cert.Proof.Spec
open Cert.KernelIdeal Cert.KernelIdeal.Gen

/-- An integer `add` reduction into a one-element vector is the sum of every source entry. -/
theorem multiReductionI_add_total (v : IVec S1x32x16 32) (h : S1x32x16.Reduces [1, 2] S1)
    (hacc : (0#32 : BitVec 32) = 0#32) (j : S1.Idx) :
    multiReductionI .add [1, 2] S1 v 0#32 h hacc j = ∑ i, v i := by
  show reduceFold h (· + ·) (0 : BitVec 32) v j = _
  rw [reduceFold_add_eq_sum, zero_add]
  refine Finset.sum_congr (Finset.filter_true_of_mem fun i _ => funext fun b => Fin.ext ?_) fun _ _ => rfl
  have h1 := (h.drop i b).isLt
  have h2 := (j b).isLt
  have ht : S1.size b = 1 := by match b with | ⟨0, _⟩ => rfl
  omega

/-- The sum of every entry of the workers' `32 × 16` array, seen through the two shape casts. -/
theorem sum_cast (v0 : IVec S32x16 32) :
    ∑ i, shapeCast S1x32x16 (shapeCast S32x16 v0 shapeCasts_S32x16_S32x16) shapeCasts_S32x16_S1x32x16 i
      = ∑ w : Fin 32, ∑ l : Fin 16, v0 (ix2 w l) := by
  rw [shapeCast_self, sum_idx3, Fin.sum_univ_one]
  refine Finset.sum_congr rfl fun w _ => Finset.sum_congr rfl fun l _ => ?_
  exact shapeCast_ab_1ab_apply v0 _ 0 w l

/-- `count1`: the combine stage's integer sum of its two loaded arrays. -/
theorem count1_eq (x : IVec SX 32) (hx : Binary x) :
    Scalar.addi
      (extractAt ![0, 0, 0] (shapeCast S1x1x1 (multiReductionI .add [1, 2] S1
        (shapeCast S1x32x16 (shapeCast S32x16 (scOut x) shapeCasts_S32x16_S32x16) shapeCasts_S32x16_S1x32x16)
        0#32 reduces_S1x32x16_S1 rfl) shapeCasts_S1_S1x1x1) inpos_S1x1x1_p0_0_0)
      (extractAt ![0, 0] (tcOut x) inpos_S1x1_p0_0)
    = BitVec.ofNat 32 (ones x) := by
  have e : (multiReductionI .add [1, 2] S1
        (shapeCast S1x32x16 (shapeCast S32x16 (scOut x) shapeCasts_S32x16_S32x16) shapeCasts_S32x16_S1x32x16)
        0#32 reduces_S1x32x16_S1 rfl) = fun _ => ∑ w : Fin 32, ∑ l : Fin 16, laneSum x w l := by
    funext j
    exact (multiReductionI_add_total _ _ rfl j).trans ((sum_cast _).trans rfl)
  rw [e]
  exact parts_eq_ones x hx

/-- The column `iota` reads the column coordinate, the row `iota` the row coordinate. -/
theorem iota_col (r c : Fin 2) : iota .tc S2x2 32 [1] iota_S2x2_d1_w32 (ix2 r c) = BitVec.ofNat 32 c.val :=
  iota_single_apply .tc S2x2 32 1 iota_S2x2_d1_w32 (ix2 r c)
theorem iota_row (r c : Fin 2) : iota .tc S2x2 32 [0] iota_S2x2_d0_w32 (ix2 r c) = BitVec.ofNat 32 r.val :=
  iota_single_apply .tc S2x2 32 0 iota_S2x2_d0_w32 (ix2 r c)

/-- The combine stage's stored array, of the two arrays the earlier stages leave, is `final x`. -/
theorem kernel_value (x : IVec SX 32) (hx : Binary x) :
    k2_pay1 (F := Ideal) (scOut x) (tcOut x) = final x := by
  funext j
  obtain ⟨r, c, rfl⟩ : ∃ (r : Fin 2) (c : Fin 2), j = ix2 r c := ⟨j 0, j 1, eq_ix2 j⟩
  unfold k2_pay1
  simp only [count1_eq x hx]
  rw [final_apply]
  show Ideal.fptosi 32
      (Scalar.select (IntOp.cmpi .eq (iota .tc S2x2 32 [1] iota_S2x2_d1_w32 (ix2 r c)) 0#32)
          (Scalar.sitofp (F := Ideal) .f32 ((2097152#32 : BitVec 32) - BitVec.ofNat 32 (ones x)))
          (Scalar.sitofp (F := Ideal) .f32 (BitVec.ofNat 32 (ones x)))
        * Scalar.select (IntOp.cmpi .eq (iota .tc S2x2 32 [0] iota_S2x2_d0_w32 (ix2 r c)) 0#32)
          (Ideal.ofBits .f32 0x3F666666#32) (Ideal.ofBits .f32 0x3F8CCCCD#32)) = _
  rw [iota_col, iota_row, select_eq0 c.val c.isLt, select_eq0 r.val r.isLt, total_sub_ones x hx,
    Ideal.scalar_sitofp_def, Ideal.scalar_sitofp_def, toInt_ofNat_of_le (zeros_le x hx),
    toInt_ofNat_of_le (ones_le x hx)]
  by_cases hc : c.val = 0 <;> simp [cnt, fac, hc]

end Cert.Proof.Value

end
-- ==== Proof.ValueRef.lean ====
/-
  The reference's value. Read one operation at a time, the reference computes, for each class `c`, the sum over
  every position `(b, h, d)` of the one-hot entry `[x[b, h, d] = c]` — a sum of zeros and ones on the extended
  reals, which is the number of labels of class `c` — multiplies it by each of the two tolerance factors, converts to
  an integer, and stacks the two rows: `final x`.

  * The reduce over the axes `[0, 3, 2]` of the transposed one-hot array `[8, 2, 512, 512]` keeps axis 1: at class
    `c` it is the initial value `0` plus the sum over the indices whose axis-1 coordinate is `c`, that is, over
    `(b, h, d)`.
  * The concatenate along axis 0 of two `1 × 2` rows reads the first at row 0 and the second at row 1.
-/
import proofs.«209222_g37675453120884_cont_8to1_b_1946_16_alg».proof.Proof.RefRun
import proofs.«209222_g37675453120884_cont_8to1_b_1946_16_alg».proof.Proof.ValueSpec
import Idealize.ShloMosaic.PureOps.Ideal.Laws
import Idealize.ShloMosaic.PureOps.Reduce
import Idealize.ShloMosaic.Lib.Pipeline.Value

noncomputable section

open scoped BigOperators

namespace Cert.Proof.Value

open Idealize.ShloMosaic Idealize.ShloMosaic.ValueIdx Cert.Proof.Spec
open Cert.ReferenceIdeal Cert.ReferenceIdeal.Gen Cert.ReferenceIdeal.ReadP

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- An equality test's bit, read unsigned as a real, is the indicator of the equality. -/
theorem cmpi_eq_toNat (a k : BitVec 32) : ((IntOp.cmpi .eq a k).toNat : ℝ) = if a = k then 1 else 0 := by
  by_cases h : a = k <;> simp [IntOp.cmpi, h]

/-- The transposed one-hot array at `(b, c, h, d)`: 1 if the label at `(b, h, d)` is `c`, else 0. -/
theorem onehot_apply (x : IVec SX 32) (b : Fin 8) (c : Fin 2) (h d : Fin 512) :
    val_main_v1 (F := Ideal) x (ix4 b c h d)
      = (((if x (ix3 b h d) = BitVec.ofNat 32 c.val then 1 else 0 : ℝ)) : EReal) := by
  have e1 : idx_main_v1 (ix4 b c h d) = ix4 b h d c := funext fun a => by
    match a with | ⟨0, _⟩ => rfl | ⟨1, _⟩ => rfl | ⟨2, _⟩ => rfl | ⟨3, _⟩ => rfl
  have e2 : idx_main_call0_v0 (idx_main_call0_v2 (ix4 b h d c)) = ix3 b h d := funext fun a => by
    match a with | ⟨0, _⟩ => rfl | ⟨1, _⟩ => rfl | ⟨2, _⟩ => rfl
  rw [val_main_v1_apply, e1, val_main_v0_apply, val_main_call0_v4_apply, val_main_call0_v2_apply,
    val_main_call0_v0_apply, e2, val_main_call0_v3_apply, val_main_call0_v1_apply]
  show (((IntOp.cmpi .eq (x (ix3 b h d)) (BitVec.ofNat 32 c.val)).toNat : ℝ) : EReal) = _
  rw [cmpi_eq_toNat]

/-- The per-class size: the number of labels of class `c`, as a real. -/
theorem size_apply (x : IVec SX 32) (c : Fin 2) :
    val_main_v2 (F := Ideal) x (ix1 c)
      = ((((Finset.univ.filter fun i : SX.Idx => x i = BitVec.ofNat 32 c.val).card : ℕ) : ℝ) : EReal) := by
  show Ideal.hostReduceAdd reducesTo_S8x2x512x512_S2_d0_3_2 (val_main_v1 (F := Ideal) x) (Ideal.ofBits .f32 0x00000000#32) (ix1 c) = _
  unfold Ideal.hostReduceAdd
  rw [Ideal.ofBits_zero_f32, zero_add, Finset.sum_filter, sum_idx4]
  have hv : ∀ (b : Fin 8) (c' : Fin 2) (h d : Fin 512),
      (reducesTo_S8x2x512x512_S2_d0_3_2.drop (ix4 b c' h d) 0).val = c'.val := fun b c' h d =>
    Shape.ReducesTo.drop_apply_val_of_eq _ (ix4 b c' h d) 0 1
  have hdrop : ∀ (b : Fin 8) (c' : Fin 2) (h d : Fin 512),
      (reducesTo_S8x2x512x512_S2_d0_3_2.drop (ix4 b c' h d) = ix1 c) ↔ c' = c := by
    intro b c' h d
    constructor
    · intro e
      exact Fin.ext ((hv b c' h d).symm.trans (congrArg (fun k : S2.Idx => (k 0).val) e))
    · rintro rfl
      funext a
      match a with
      | ⟨0, _⟩ => exact Fin.ext (hv b c' h d)
  simp only [hdrop]
  have step : ∀ b : Fin 8,
      (∑ c' : Fin 2, ∑ h : Fin 512, ∑ d : Fin 512,
        if c' = c then val_main_v1 (F := Ideal) x (ix4 b c' h d) else 0)
      = ∑ h : Fin 512, ∑ d : Fin 512,
          (((if x (ix3 b h d) = BitVec.ofNat 32 c.val then 1 else 0 : ℝ)) : EReal) := by
    intro b
    rw [Finset.sum_eq_single c]
    · simp only [if_true, onehot_apply]
    · intro c' _ hne
      simp [hne]
    · intro h
      exact absurd (Finset.mem_univ c) h
  simp only [step]
  refine (sum_idx3 (fun i : SX.Idx => (((if x i = BitVec.ofNat 32 c.val then 1 else 0 : ℝ)) : EReal))).symm.trans ?_
  rw [← coe_sum, Finset.sum_boole]

/-- The reference's result array is `final x`. -/
theorem reference_value (x : IVec SX 32) : val_main_v11 (F := Ideal) x = final x := by
  funext j
  obtain ⟨r, c, rfl⟩ : ∃ (r : Fin 2) (c : Fin 2), j = ix2 r c := ⟨j 0, j 1, eq_ix2 j⟩
  have e9 : idx_main_v9 (ix2 (0 : Fin 1) c) = ix1 c := funext fun a => by match a with | ⟨0, _⟩ => rfl
  have e10 : idx_main_v10 (ix2 (0 : Fin 1) c) = ix1 c := funext fun a => by match a with | ⟨0, _⟩ => rfl
  have hcnt : ((((Finset.univ.filter fun i : SX.Idx => x i = BitVec.ofNat 32 c.val).card : ℕ) : ℝ) : EReal)
      = (((cnt x c.val : ℕ) : ℝ) : EReal) := by
    match c with
    | ⟨0, _⟩ => rfl
    | ⟨1, _⟩ => rfl
  rw [final_apply]
  unfold val_main_v11
  match r with
  | ⟨0, _⟩ =>
    refine (concatenate_pair_apply_left _ _ _ concatenates_S1x2_S1x2_S2x2_d0 _ rfl (ix2 (0 : Fin 1) c) ?_).trans ?_
    · intro b
      match b with
      | ⟨0, _⟩ => rfl
      | ⟨1, _⟩ => rfl
    · rw [val_main_v9_apply, e9, val_main_v5_apply, val_main_v4_apply, size_apply, val_main_v3_apply,
        val_main_cst_0_apply, hcnt]
      rfl
  | ⟨1, _⟩ =>
    refine (concatenate_pair_apply_right _ _ _ concatenates_S1x2_S1x2_S2x2_d0 _ rfl rfl (ix2 (0 : Fin 1) c) ?_ ?_).trans ?_
    · intro b hb
      match b with
      | ⟨0, _⟩ => exact absurd rfl hb
      | ⟨1, _⟩ => rfl
    · rfl
    · rw [val_main_v10_apply, e10, val_main_v8_apply, val_main_v7_apply, size_apply, val_main_v6_apply,
        val_main_cst_1_apply, hcnt]
      rfl

end Cert.Proof.Value

end
-- ==== Proof.ValueRun.lean ====
/-
  The reference's run, stated with the kernel's value. Under the precondition every label is 0 or 1; the reference
  then ends with its result array at `final x` (read one operation at a time), and `final x` is also what the
  kernel's combine stage stores, given the two partial-sum arrays of the same `x`. So the reference's run can be
  stated with the kernel's stored value as its result, the argument array unchanged; dropping the result leaves the
  reference's frame.
-/
import proofs.«209222_g37675453120884_cont_8to1_b_1946_16_alg».proof.Proof.RefRun
import proofs.«209222_g37675453120884_cont_8to1_b_1946_16_alg».proof.Proof.ValuePre
import proofs.«209222_g37675453120884_cont_8to1_b_1946_16_alg».proof.Proof.ValueKernel
import proofs.«209222_g37675453120884_cont_8to1_b_1946_16_alg».proof.Proof.ValueRef

noncomputable section

namespace Cert.Proof.Value

open Idealize.ShloMosaic Idealize.ShloMosaic.TcCoe Idealize.SL.Sem Cert.Proof.Spec

/-- The reference terminates without a fault and leaves its argument array unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- The reference's run under the precondition: its result array ends at the value the kernel's combine stage
    stores of the two partial-sum arrays of the same labels, and its argument array is unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run Cert.ReferenceIdeal.defs (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v11)
            = Cert.KernelIdeal.Gen.k2_pay1 (F := Ideal)
                (scOut (m' ((c.tc : Thread Cert.ReferenceIdeal.nD Cert.ReferenceIdeal.τ).loc Cert.ReferenceIdeal.main_arg0)))
                (tcOut (m' ((c.tc : Thread Cert.ReferenceIdeal.nD Cert.ReferenceIdeal.τ).loc Cert.ReferenceIdeal.main_arg0)))
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) := by
  refine (θ_run Cert.ReferenceIdeal.defs _ _).mono (fun _ h c => ⟨(h c).1.trans ?_, (h c).2⟩)
    (Cert.ReferenceIdeal.ValueP.run (F := Ideal) m' ρ')
  have hx : Binary (m' ((c.tc : Thread Cert.ReferenceIdeal.nD Cert.ReferenceIdeal.τ).loc Cert.ReferenceIdeal.main_arg0)) :=
    binary_of_pre _ (hpre c)
  exact (Cert.ReferenceIdeal.ReadP.val_main_v11_eq _).trans ((reference_value _).trans (kernel_value _ hx).symm)

end Cert.Proof.Value

end
-- ==== Proof.Assembly.lean ====
/-
  The claim assembled. The kernel's run, word-level or idealized (one text, read at either instance), names its
  result array as the combine stage's value of the two partial-sum arrays of the launch labels, with no hypothesis on
  the labels; under the precondition the reference's run ends at the same value (the labels are 0 or 1, so both count
  the two classes). The frames drop the result from a run; no rewrite was applied when the program was idealized, so
  there is nothing to preserve.
-/
import proofs.«209222_g37675453120884_cont_8to1_b_1946_16_alg».proof.Proof.Launch
import proofs.«209222_g37675453120884_cont_8to1_b_1946_16_alg».proof.Proof.LaunchB
import proofs.«209222_g37675453120884_cont_8to1_b_1946_16_alg».proof.Proof.ValueRun
import proofs.«209222_g37675453120884_cont_8to1_b_1946_16_alg».proof.Proof.Gen.Kernel

noncomputable section

namespace Cert.Proof.Assembly

open Idealize.ShloMosaic Idealize.ShloMosaic.TcCoe Idealize.SL.Sem Cert.Proof.Spec

/-- The word-level kernel terminates without a fault and leaves its labels unchanged. -/
theorem frame_p : Cert.frame_Kernel := fun m ρ _ =>
  (θ_run Cert.Kernel.defs _ _).mono (fun _ h c => (h c).2) (Cert.Proof.KB.run_main (F := Bits) m ρ)

/-- The idealized kernel terminates without a fault and leaves its labels unchanged. -/
theorem frame_pi : Cert.frame_KernelIdeal := fun m ρ _ =>
  (θ_run Cert.KernelIdeal.defs _ _).mono (fun _ h c => (h c).2) (Cert.Proof.KI.run_main (F := Ideal) m ρ)

/-- The reference terminates without a fault and leaves its labels unchanged. -/
theorem frame_ri : Cert.frame_ReferenceIdeal := Cert.Proof.Value.frame_ri

/-- The idealization rewrote nothing. -/
theorem preserves : Cert.preserves_Kernel_KernelIdeal := trivial

/-- From memories that agree on the labels, both idealized programs end with the same result array. -/
theorem algebraic : Cert.algebraic_KernelIdeal_ReferenceIdeal := by
  intro m ρ m' ρ' hpre hagree
  have hpre' : Cert.Pre_ReferenceIdeal m' := fun c => by rw [hagree c]; exact hpre c
  refine ⟨fun c => (Cert.KernelIdeal.Gen.k2_pay1 (F := Ideal)
      (scOut (m ((c.tc : Thread Cert.KernelIdeal.nD Cert.KernelIdeal.τ).loc Cert.KernelIdeal.main_arg0)))
      (tcOut (m ((c.tc : Thread Cert.KernelIdeal.nD Cert.KernelIdeal.τ).loc Cert.KernelIdeal.main_arg0))) :
      Buf (Elt Ideal) ((c.tc : Thread Cert.KernelIdeal.nD Cert.KernelIdeal.τ).loc Cert.KernelIdeal.main_v2)), ?_, ?_⟩
  · exact (θ_run Cert.KernelIdeal.defs _ _).mono (fun _ h c => h c) (Cert.Proof.KI.run_main (F := Ideal) m ρ)
  · refine (θ_run Cert.ReferenceIdeal.defs _ _).mono (fun _ h c => ⟨(h c).1.trans ?_, (h c).2⟩)
      (Cert.Proof.Value.ref_run m' ρ' hpre')
    rw [hagree c]

/-- Everything the certificate claims. -/
theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof.Assembly

end
-- ==== Proof.lean ====
/-
  The certificate's claim, proved.

  The kernel counts the ones of a label array `x : i32[8, 512, 512]` whose entries are 0 or 1, in three stages.
  Thirty-two vector subcores each copy thirty-two rows of batches 6 and 7 into their scratch, eight rows at a time,
  and add them, sixteen lanes at a time, into four accumulators: worker `w` leaves the sixteen lane sums of its rows
  in row `w` of a 32 × 16 array. A TensorCore region of six grid points adds the column sums of batches 0 … 5 into a
  carried scratch and, at the last point, its total into a one-element array. A second region adds the two partial
  results to `count₁`, takes `count₀ = 2097152 − count₁`, and stores `fptosi (count_c · fac_r)` for the two factors
  `f32 0x3F666666` and `f32 0x3F8CCCCD`. The reference counts each class as a sum of one-hot indicators and applies the
  same two factors. All integer sums are taken modulo 2^32, where addition is commutative and associative, so the
  kernel's grouping of the sum does not matter; for labels in {0, 1} the total is the number of ones, below 2^31, and
  the two sides agree entry by entry over the extended reals.

  The modules: `Spec` (the partial results as functions of the labels), `Value…` (the counting lemmas, the
  accumulators' algebra, the views' index arithmetic, the reference's run and the kernel's combined value), `Common`,
  `ScData`, `ScTile` (one vector subcore's task), `Tc…` (the two TensorCore regions), `Launch` (the program's run),
  their copies for the word-level program (suffix `B`), and `Assembly` (the five conjuncts).
-/
import proofs.«209222_g37675453120884_cont_8to1_b_1946_16_alg».proof.Defs
import proofs.«209222_g37675453120884_cont_8to1_b_1946_16_alg».proof.Proof.Assembly

noncomputable section

namespace Cert.Proof

theorem claim : Cert.Claim := Cert.Proof.Assembly.claim

end Cert.Proof

end
